-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v232)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v232) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v278) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S50000 : Shape := ⟨1, ![50000]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S256x2 : Shape := ⟨2, ![256, 2]⟩
abbrev S2 : Shape := ⟨1, ![2]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_v98 : IVec S_ 1) (main_v101 : IVec S2 1) (main_c_39 : IVec S_ 1) : IVec S_ 1 :=
  let main_v102 : IVec S_ 1 := (fun x v => Host.reduce IntOp.andi x v reducesTo_S2_S_d0 h_S_) main_v101 main_c_39
  let main_v103 : IVec S_ 1 := andi main_v98 main_v102
  main_v103

def fn_part5 {F : FTy → Type} [FloatOps F] (main_arg20 : FVec F S1 .f32) (main_arg21 : FVec F S256x2 .f32) (main_arg22 : FVec F S2 .f32) (main_v83 : IVec S_ 1) (main_v84 : FVec F S128x1 .f32) (main_cst_32 : FVec F S_ .f32) : IVec S_ 1 :=
  let main_v85 : FVec F S128x1 .f32 := broadcastInDim S128x1 ![] bcast_S_S128x1 main_cst_32
  let main_v86 : IVec S128x1 1 := cmpf .olt main_v84 main_v85
  let main_c_33 : IVec S_ 1 := constantI S_ 1 1#1
  let main_v87 : IVec S_ 1 := (fun x v => Host.reduce IntOp.andi x v reducesTo_S128x1_S_d0_1 h_S_) main_v86 main_c_33
  let main_v88 : IVec S_ 1 := andi main_v83 main_v87
  let main_v89 : FVec F S1 .f32 := Host.absf main_arg20
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  let main_v94 : FVec F S256x2 .f32 := Host.absf main_arg21
  let main_cst_36 : FVec F S_ .f32 := constant S_ .f32 0x7F800000#32
  let main_v95 : FVec F S256x2 .f32 := broadcastInDim S256x2 ![] bcast_S_S256x2 main_cst_36
  let main_v96 : IVec S256x2 1 := cmpf .olt main_v94 main_v95
  let main_c_37 : IVec S_ 1 := constantI S_ 1 1#1
  let main_v97 : IVec S_ 1 := (fun x v => Host.reduce IntOp.andi x v reducesTo_S256x2_S_d0_1 h_S_) main_v96 main_c_37
  let main_v98 : IVec S_ 1 := andi main_v93 main_v97
  let main_v99 : FVec F S2 .f32 := Host.absf main_arg22
  let main_cst_38 : FVec F S_ .f32 := constant S_ .f32 0x7F800000#32
  let main_v100 : FVec F S2 .f32 := broadcastInDim S2 ![] bcast_S_S2 main_cst_38
  let main_v101 : IVec S2 1 := cmpf .olt main_v99 main_v100
  let main_c_39 : IVec S_ 1 := constantI S_ 1 1#1
  fn_part6 (F := F) main_v98 main_v101 main_c_39

def fn_part4 {F : FTy → Type} [FloatOps F] (main_arg16 : FVec F S256 .f32) (main_arg17 : FVec F S256x128 .f32) (main_arg18 : FVec F S128 .f32) (main_arg19 : FVec F S128x1 .f32) (main_arg20 : FVec F S1 .f32) (main_arg21 : FVec F S256x2 .f32) (main_arg22 : FVec F S2 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x128 .f32 := Host.absf main_arg17
  let main_cst_28 : FVec F S_ .f32 := constant S_ .f32 0x7F800000#32
  let main_v75 : FVec F S256x128 .f32 := broadcastInDim S256x128 ![] bcast_S_S256x128 main_cst_28
  let main_v76 : IVec S256x128 1 := cmpf .olt main_v74 main_v75
  let main_c_29 : IVec S_ 1 := constantI S_ 1 1#1
  let main_v77 : IVec S_ 1 := (fun x v => Host.reduce IntOp.andi x v reducesTo_S256x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x1 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S256x256 .f32) (main_arg14 : FVec F S256 .f32) (main_arg15 : FVec F S256 .f32) (main_arg16 : FVec F S256 .f32) (main_arg17 : FVec F S256x128 .f32) (main_arg18 : FVec F S128 .f32) (main_arg19 : FVec F S128x1 .f32) (main_arg20 : FVec F S1 .f32) (main_arg21 : FVec F S256x2 .f32) (main_arg22 : FVec F S2 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg13
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg16 main_arg17 main_arg18 main_arg19 main_arg20 main_arg21 main_arg22 main_v63 main_v67

def fn_part2 {F : FTy → Type} [FloatOps F] (main_arg9 : FVec F S256x256 .f32) (main_arg10 : FVec F S256 .f32) (main_arg11 : FVec F S256 .f32) (main_arg12 : FVec F S256 .f32) (main_arg13 : FVec F S256x256 .f32) (main_arg14 : FVec F S256 .f32) (main_arg15 : FVec F S256 .f32) (main_arg16 : FVec F S256 .f32) (main_arg17 : FVec F S256x128 .f32) (main_arg18 : FVec F S128 .f32) (main_arg19 : FVec F S128x1 .f32) (main_arg20 : FVec F S1 .f32) (main_arg21 : FVec F S256x2 .f32) (main_arg22 : FVec F S2 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S256 .f32) (main_arg7 : FVec F S256 .f32) (main_arg8 : FVec F S256 .f32) (main_arg9 : FVec F S256x256 .f32) (main_arg10 : FVec F S256 .f32) (main_arg11 : FVec F S256 .f32) (main_arg12 : FVec F S256 .f32) (main_arg13 : FVec F S256x256 .f32) (main_arg14 : FVec F S256 .f32) (main_arg15 : FVec F S256 .f32) (main_arg16 : FVec F S256 .f32) (main_arg17 : FVec F S256x128 .f32) (main_arg18 : FVec F S128 .f32) (main_arg19 : FVec F S128x1 .f32) (main_arg20 : FVec F S1 .f32) (main_arg21 : FVec F S256x2 .f32) (main_arg22 : FVec F S2 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S50000x256 .f32) (main_arg1 : IVec S2x800000 32) (main_arg2 : IVec S50000 32) (main_arg3 : FVec F S256 .f32) (main_arg4 : FVec F S256 .f32) (main_arg5 : FVec F S256x256 .f32) (main_arg6 : FVec F S256 .f32) (main_arg7 : FVec F S256 .f32) (main_arg8 : FVec F S256 .f32) (main_arg9 : FVec F S256x256 .f32) (main_arg10 : FVec F S256 .f32) (main_arg11 : FVec F S256 .f32) (main_arg12 : FVec F S256 .f32) (main_arg13 : FVec F S256x256 .f32) (main_arg14 : FVec F S256 .f32) (main_arg15 : FVec F S256 .f32) (main_arg16 : FVec F S256 .f32) (main_arg17 : FVec F S256x128 .f32) (main_arg18 : FVec F S128 .f32) (main_arg19 : FVec F S128x1 .f32) (main_arg20 : FVec F S1 .f32) (main_arg21 : FVec F S256x2 .f32) (main_arg22 : FVec F S2 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256 .f32 := Host.absf main_arg3
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x256 : Shape := ⟨2, ![50000, 256]⟩
abbrev S2x800000 : Shape := ⟨2, ![2, 800000]⟩
abbrev S50000 : Shape := ⟨1, ![50000]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S256x2 : Shape := ⟨2, ![256, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x256 : Shape := ⟨2, ![1, 256]⟩
abbrev S10000x256 : Shape := ⟨2, ![10000, 256]⟩
abbrev S800000x256 : Shape := ⟨2, ![800000, 256]⟩
abbrev S50000x1 : Shape := ⟨2, ![50000, 1]⟩
abbrev S50000x128 : Shape := ⟨2, ![50000, 128]⟩
abbrev S10000x128 : Shape := ⟨2, ![10000, 128]⟩
abbrev S1x128 : Shape := ⟨2, ![1, 128]⟩
abbrev S1x1 : Shape := ⟨2, ![1, 1]⟩
abbrev S64 : Shape := ⟨1, ![64]⟩
abbrev S64x256 : Shape := ⟨2, ![64, 256]⟩
abbrev S64x1 : Shape := ⟨2, ![64, 1]⟩
abbrev S64x2 : Shape := ⟨2, ![64, 2]⟩
abbrev S1x2 : Shape := ⟨2, ![1, 2]⟩

abbrev nBuf : Space → Nat
  | .hbm => 312
  | .vmem => 20
  | .smem => 0
  | _ => 0

abbrev hbmTy0_0 (i : Nat) : BufTy := match i % 128 with
  | 0 => ⟨S50000x256, .f32⟩
  | 1 => ⟨S2x800000, .i32⟩
  | 2 => ⟨S50000, .i32⟩
  | 3 => ⟨S256, .f32⟩
  | 4 => ⟨S256, .f32⟩
  | 5 => ⟨S256x256, .f32⟩
  | 6 => ⟨S256, .f32⟩
  | 7 => ⟨S256, .f32⟩
  | 8 => ⟨S256, .f32⟩
  | 9 => ⟨S256x256, .f32⟩
  | 10 => ⟨S256, .f32⟩
  | 11 => ⟨S256, .f32⟩
  | 12 => ⟨S256, .f32⟩
  | 13 => ⟨S256x256, .f32⟩
  | 14 => ⟨S256, .f32⟩
  | 15 => ⟨S256, .f32⟩
  | 16 => ⟨S256, .f32⟩
  | 17 => ⟨S256x128, .f32⟩
  | 18 => ⟨S128, .f32⟩
  | 19 => ⟨S128x1, .f32⟩
  | 20 => ⟨S1, .f32⟩
  | 21 => ⟨S256x2, .f32⟩
  | 22 => ⟨S2, .f32⟩
  | 23 => ⟨S1x800000, .i32⟩
  | 24 => ⟨S800000, .i32⟩
  | 25 => ⟨S1x800000, .i32⟩
  | 26 => ⟨S800000, .i32⟩
  | 27 => ⟨S_, .f32⟩
  | 28 => ⟨S800000, .f32⟩
  | 29 => ⟨S_, .f32⟩
  | 30 => ⟨S50000, .f32⟩
  | 31 => ⟨S800000x1, .i32⟩
  | 32 => ⟨S50000, .f32⟩
  | 33 => ⟨S_, .f32⟩
  | 34 => ⟨S50000, .f32⟩
  | 35 => ⟨S50000, .f32⟩
  | 36 => ⟨S50000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000, .f32⟩
  | 55 => ⟨S800000, .f32⟩
  | 56 => ⟨S50000, .f32⟩
  | 57 => ⟨S_, .f32⟩
  | 58 => ⟨S256, .f32⟩
  | 59 => ⟨S_, .f32⟩
  | 60 => ⟨S256, .f32⟩
  | 61 => ⟨S256, .f32⟩
  | 62 => ⟨S1x256, .f32⟩
  | 63 => ⟨S50000x256, .f32⟩
  | 64 => ⟨S50000x256, .f32⟩
  | 65 => ⟨S50000x256, .f32⟩
  | 66 => ⟨S_, .f32⟩
  | 67 => ⟨S256, .f32⟩
  | 68 => ⟨S_, .f32⟩
  | 69 => ⟨S256, .f32⟩
  | 70 => ⟨S256, .f32⟩
  | 71 => ⟨S1x256, .f32⟩
  | 72 => ⟨S50000x256, .f32⟩
  | 73 => ⟨S50000x256, .f32⟩
  | 74 => ⟨S_, .f32⟩
  | 75 => ⟨S256, .f32⟩
  | 76 => ⟨S256, .f32⟩
  | 77 => ⟨S256, .f32⟩
  | 78 => ⟨S1x256, .f32⟩
  | 79 => ⟨S50000x256, .f32⟩
  | 80 => ⟨S50000x256, .f32⟩
  | 81 => ⟨S1x256, .f32⟩
  | 82 => ⟨S50000x256, .f32⟩
  | 83 => ⟨S50000x256, .f32⟩
  | 84 => ⟨S1x256, .f32⟩
  | 85 => ⟨S50000x256, .f32⟩
  | 86 => ⟨S50000x256, .f32⟩
  | 87 => ⟨S50000x256, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S800000x256, .f32⟩
  | 97 => ⟨S800000x1, .f32⟩
  | 98 => ⟨S800000x256, .f32⟩
  | 99 => ⟨S800000x256, .f32⟩
  | 100 => ⟨S_, .f32⟩
  | 101 => ⟨S50000x256, .f32⟩
  | 102 => ⟨S800000x1, .i32⟩
  | 103 => ⟨S50000x256, .f32⟩
  | 104 => ⟨S50000x1, .f32⟩
  | 105 => ⟨S50000x256, .f32⟩
  | 106 => ⟨S50000x256, .f32⟩
  | 107 => ⟨S50000x256, .f32⟩
  | 108 => ⟨S1x256, .f32⟩
  | 109 => ⟨S50000x256, .f32⟩
  | 110 => ⟨S50000x256, .f32⟩
  | 111 => ⟨S_, .f32⟩
  | 112 => ⟨S50000x256, .f32⟩
  | 113 => ⟨S50000x256, .f32⟩
  | 114 => ⟨S_, .f32⟩
  | 115 => ⟨S256, .f32⟩
  | 116 => ⟨S_, .f32⟩
  | 117 => ⟨S256, .f32⟩
  | 118 => ⟨S256, .f32⟩
  | 119 => ⟨S1x256, .f32⟩
  | 120 => ⟨S50000x256, .f32⟩
  | 121 => ⟨S50000x256, .f32⟩
  | 122 => ⟨S50000x256, .f32⟩
  | 123 => ⟨S_, .f32⟩
  | 124 => ⟨S256, .f32⟩
  | 125 => ⟨S_, .f32⟩
  | 126 => ⟨S256, .f32⟩
  | 127 => ⟨S256, .f32⟩
  | _ => ⟨S50000x256, .f32⟩

abbrev hbmTy0_1 (i : Nat) : BufTy := match i % 128 with
  | 0 => ⟨S1x256, .f32⟩
  | 1 => ⟨S50000x256, .f32⟩
  | 2 => ⟨S50000x256, .f32⟩
  | 3 => ⟨S_, .f32⟩
  | 4 => ⟨S256, .f32⟩
  | 5 => ⟨S256, .f32⟩
  | 6 => ⟨S256, .f32⟩
  | 7 => ⟨S1x256, .f32⟩
  | 8 => ⟨S50000x256, .f32⟩
  | 9 => ⟨S50000x256, .f32⟩
  | 10 => ⟨S1x256, .f32⟩
  | 11 => ⟨S50000x256, .f32⟩
  | 12 => ⟨S50000x256, .f32⟩
  | 13 => ⟨S1x256, .f32⟩
  | 14 => ⟨S50000x256, .f32⟩
  | 15 => ⟨S50000x256, .f32⟩
  | 16 => ⟨S50000x256, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x256, .f32⟩
  | 26 => ⟨S800000x1, .f32⟩
  | 27 => ⟨S800000x256, .f32⟩
  | 28 => ⟨S800000x256, .f32⟩
  | 29 => ⟨S_, .f32⟩
  | 30 => ⟨S50000x256, .f32⟩
  | 31 => ⟨S800000x1, .i32⟩
  | 32 => ⟨S50000x256, .f32⟩
  | 33 => ⟨S50000x1, .f32⟩
  | 34 => ⟨S50000x256, .f32⟩
  | 35 => ⟨S50000x256, .f32⟩
  | 36 => ⟨S50000x256, .f32⟩
  | 37 => ⟨S1x256, .f32⟩
  | 38 => ⟨S50000x256, .f32⟩
  | 39 => ⟨S50000x256, .f32⟩
  | 40 => ⟨S_, .f32⟩
  | 41 => ⟨S50000x256, .f32⟩
  | 42 => ⟨S50000x256, .f32⟩
  | 43 => ⟨S_, .f32⟩
  | 44 => ⟨S256, .f32⟩
  | 45 => ⟨S_, .f32⟩
  | 46 => ⟨S256, .f32⟩
  | 47 => ⟨S256, .f32⟩
  | 48 => ⟨S1x256, .f32⟩
  | 49 => ⟨S50000x256, .f32⟩
  | 50 => ⟨S50000x256, .f32⟩
  | 51 => ⟨S50000x256, .f32⟩
  | 52 => ⟨S_, .f32⟩
  | 53 => ⟨S256, .f32⟩
  | 54 => ⟨S_, .f32⟩
  | 55 => ⟨S256, .f32⟩
  | 56 => ⟨S256, .f32⟩
  | 57 => ⟨S1x256, .f32⟩
  | 58 => ⟨S50000x256, .f32⟩
  | 59 => ⟨S50000x256, .f32⟩
  | 60 => ⟨S_, .f32⟩
  | 61 => ⟨S256, .f32⟩
  | 62 => ⟨S256, .f32⟩
  | 63 => ⟨S256, .f32⟩
  | 64 => ⟨S1x256, .f32⟩
  | 65 => ⟨S50000x256, .f32⟩
  | 66 => ⟨S50000x256, .f32⟩
  | 67 => ⟨S1x256, .f32⟩
  | 68 => ⟨S50000x256, .f32⟩
  | 69 => ⟨S50000x256, .f32⟩
  | 70 => ⟨S1x256, .f32⟩
  | 71 => ⟨S50000x256, .f32⟩
  | 72 => ⟨S50000x256, .f32⟩
  | 73 => ⟨S50000x256, .f32⟩
  | 74 => ⟨S50000x256, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x256, .f32⟩
  | 84 => ⟨S800000x1, .f32⟩
  | 85 => ⟨S800000x256, .f32⟩
  | 86 => ⟨S800000x256, .f32⟩
  | 87 => ⟨S_, .f32⟩
  | 88 => ⟨S50000x256, .f32⟩
  | 89 => ⟨S800000x1, .i32⟩
  | 90 => ⟨S50000x256, .f32⟩
  | 91 => ⟨S50000x1, .f32⟩
  | 92 => ⟨S50000x256, .f32⟩
  | 93 => ⟨S50000x256, .f32⟩
  | 94 => ⟨S50000x256, .f32⟩
  | 95 => ⟨S1x256, .f32⟩
  | 96 => ⟨S50000x256, .f32⟩
  | 97 => ⟨S50000x256, .f32⟩
  | 98 => ⟨S_, .f32⟩
  | 99 => ⟨S50000x256, .f32⟩
  | 100 => ⟨S50000x256, .f32⟩
  | 101 => ⟨S_, .f32⟩
  | 102 => ⟨S256, .f32⟩
  | 103 => ⟨S_, .f32⟩
  | 104 => ⟨S256, .f32⟩
  | 105 => ⟨S256, .f32⟩
  | 106 => ⟨S1x256, .f32⟩
  | 107 => ⟨S50000x256, .f32⟩
  | 108 => ⟨S50000x256, .f32⟩
  | 109 => ⟨S50000x256, .f32⟩
  | 110 => ⟨S_, .f32⟩
  | 111 => ⟨S256, .f32⟩
  | 112 => ⟨S_, .f32⟩
  | 113 => ⟨S256, .f32⟩
  | 114 => ⟨S256, .f32⟩
  | 115 => ⟨S1x256, .f32⟩
  | 116 => ⟨S50000x256, .f32⟩
  | 117 => ⟨S50000x256, .f32⟩
  | 118 => ⟨S_, .f32⟩
  | 119 => ⟨S256, .f32⟩
  | 120 => ⟨S256, .f32⟩
  | 121 => ⟨S256, .f32⟩
  | 122 => ⟨S1x256, .f32⟩
  | 123 => ⟨S50000x256, .f32⟩
  | 124 => ⟨S50000x256, .f32⟩
  | 125 => ⟨S1x256, .f32⟩
  | 126 => ⟨S50000x256, .f32⟩
  | 127 => ⟨S50000x256, .f32⟩
  | _ => ⟨S50000x256, .f32⟩

abbrev hbmTy0_2 (i : Nat) : BufTy := match i % 128 with
  | 0 => ⟨S1x256, .f32⟩
  | 1 => ⟨S50000x256, .f32⟩
  | 2 => ⟨S50000x256, .f32⟩
  | 3 => ⟨S50000x256, .f32⟩
  | 4 => ⟨S50000x128, .f32⟩
  | 5 => ⟨S1x128, .f32⟩
  | 6 => ⟨S50000x128, .f32⟩
  | 7 => ⟨S50000x128, .f32⟩
  | 8 => ⟨S_, .f32⟩
  | 9 => ⟨S_, .f32⟩
  | 10 => ⟨S50000x128, .f32⟩
  | 11 => ⟨S50000x128, .i1⟩
  | 12 => ⟨S_, .f32⟩
  | 13 => ⟨S50000x128, .f32⟩
  | 14 => ⟨S50000x128, .f32⟩
  | 15 => ⟨S50000x128, .f32⟩
  | 16 => ⟨S50000x1, .f32⟩
  | 17 => ⟨S1x1, .f32⟩
  | 18 => ⟨S50000x1, .f32⟩
  | 19 => ⟨S50000x1, .f32⟩
  | 20 => ⟨S_, .f32⟩
  | 21 => ⟨S1, .f32⟩
  | 22 => ⟨S_, .f32⟩
  | 23 => ⟨S1, .f32⟩
  | 24 => ⟨S1, .f32⟩
  | 25 => ⟨S1x1, .f32⟩
  | 26 => ⟨S50000x1, .f32⟩
  | 27 => ⟨S50000x1, .f32⟩
  | 28 => ⟨S50000x1, .f32⟩
  | 29 => ⟨S_, .f32⟩
  | 30 => ⟨S1, .f32⟩
  | 31 => ⟨S1x1, .f32⟩
  | 32 => ⟨S50000x1, .f32⟩
  | 33 => ⟨S50000x1, .f32⟩
  | 34 => ⟨S50000x256, .f32⟩
  | 35 => ⟨S50000x256, .f32⟩
  | 36 => ⟨S_, .f32⟩
  | 37 => ⟨S50000, .f32⟩
  | 38 => ⟨S_, .f32⟩
  | 39 => ⟨S64, .f32⟩
  | 40 => ⟨S50000x1, .i32⟩
  | 41 => ⟨S64, .f32⟩
  | 42 => ⟨S_, .f32⟩
  | 43 => ⟨S64x256, .f32⟩
  | 44 => ⟨S50000x1, .i32⟩
  | 45 => ⟨S64x256, .f32⟩
  | 46 => ⟨S_, .f32⟩
  | 47 => ⟨S64, .f32⟩
  | 48 => ⟨S64, .f32⟩
  | 49 => ⟨S64x1, .f32⟩
  | 50 => ⟨S64x256, .f32⟩
  | 51 => ⟨S64x256, .f32⟩
  | 52 => ⟨S64x2, .f32⟩
  | 53 => ⟨S1x2, .f32⟩
  | 54 => ⟨S64x2, .f32⟩
  | 55 => ⟨S64x2, .f32⟩
  | _ => ⟨S50000x256, .f32⟩

abbrev hbmTy (i : Nat) : BufTy := match i / 128 with
  | 0 => hbmTy0_0 i
  | 1 => hbmTy0_1 i
  | 2 => hbmTy0_2 i
  | _ => ⟨S50000x256, .f32⟩

abbrev bufTy : (tb : Table) → Fin (tcTables nBuf tb) → BufTy
  | .hbm, ⟨i, _⟩ => hbmTy i
  | .local _ .vmem, ⟨0, _⟩ => ⟨S10000x256, .f32⟩
  | .local _ .vmem, ⟨1, _⟩ => ⟨S10000x256, .f32⟩
  | .local _ .vmem, ⟨2, _⟩ => ⟨S256x256, .f32⟩
  | .local _ .vmem, ⟨3, _⟩ => ⟨S10000x256, .f32⟩
  | .local _ .vmem, ⟨4, _⟩ => ⟨S10000x256, .f32⟩
  | .local _ .vmem, ⟨5, _⟩ => ⟨S10000x256, .f32⟩
  | .local _ .vmem, ⟨6, _⟩ => ⟨S10000x256, .f32⟩
  | .local _ .vmem, ⟨7, _⟩ => ⟨S256x256, .f32⟩
  | .local _ .vmem, ⟨8, _⟩ => ⟨S10000x256, .f32⟩
  | .local _ .vmem, ⟨9, _⟩ => ⟨S10000x256, .f32⟩
  | .local _ .vmem, ⟨10, _⟩ => ⟨S10000x256, .f32⟩
  | .local _ .vmem, ⟨11, _⟩ => ⟨S10000x256, .f32⟩
  | .local _ .vmem, ⟨12, _⟩ => ⟨S256x256, .f32⟩
  | .local _ .vmem, ⟨13, _⟩ => ⟨S10000x256, .f32⟩
  | .local _ .vmem, ⟨14, _⟩ => ⟨S10000x256, .f32⟩
  | .local _ .vmem, ⟨15, _⟩ => ⟨S10000x256, .f32⟩
  | .local _ .vmem, ⟨16, _⟩ => ⟨S10000x256, .f32⟩
  | .local _ .vmem, ⟨17, _⟩ => ⟨S256x128, .f32⟩
  | .local _ .vmem, ⟨18, _⟩ => ⟨S10000x128, .f32⟩
  | .local _ .vmem, ⟨19, _⟩ => ⟨S10000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_cst_0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst_1 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_c : Ref sig .tc := ⟨.hbm, 37, rfl⟩
abbrev main_v11 : Ref sig .tc := ⟨.hbm, 38, rfl⟩
abbrev main_v12 : Ref sig .tc := ⟨.hbm, 39, rfl⟩
abbrev main_c_2 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_c_3 : Ref sig .tc := ⟨.hbm, 46, rfl⟩
abbrev main_v18 : Ref sig .tc := ⟨.hbm, 47, rfl⟩
abbrev main_v19 : Ref sig .tc := ⟨.hbm, 48, rfl⟩
abbrev main_c_4 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_cst_5 : Ref sig .tc := ⟨.hbm, 57, rfl⟩
abbrev main_v27 : Ref sig .tc := ⟨.hbm, 58, rfl⟩
abbrev main_cst_6 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_7 : Ref sig .tc := ⟨.hbm, 66, rfl⟩
abbrev main_v34 : Ref sig .tc := ⟨.hbm, 67, rfl⟩
abbrev main_cst_8 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_9 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_c_10 : Ref sig .tc := ⟨.hbm, 88, rfl⟩
abbrev main_v53 : Ref sig .tc := ⟨.hbm, 89, rfl⟩
abbrev main_v54 : Ref sig .tc := ⟨.hbm, 90, rfl⟩
abbrev main_c_11 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_cst_12 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_call1_cst : Ref sig .tc := ⟨.hbm, 111, rfl⟩
abbrev main_call1_v0 : Ref sig .tc := ⟨.hbm, 112, rfl⟩
abbrev main_v73 : Ref sig .tc := ⟨.hbm, 113, rfl⟩
abbrev main_cst_13 : Ref sig .tc := ⟨.hbm, 114, rfl⟩
abbrev main_v74 : Ref sig .tc := ⟨.hbm, 115, rfl⟩
abbrev main_cst_14 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_15 : Ref sig .tc := ⟨.hbm, 123, rfl⟩
abbrev main_v81 : Ref sig .tc := ⟨.hbm, 124, rfl⟩
abbrev main_cst_16 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_cst_17 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_c_18 : Ref sig .tc := ⟨.hbm, 145, rfl⟩
abbrev main_v100 : Ref sig .tc := ⟨.hbm, 146, rfl⟩
abbrev main_v101 : Ref sig .tc := ⟨.hbm, 147, rfl⟩
abbrev main_c_19 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_cst_20 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_call3_cst : Ref sig .tc := ⟨.hbm, 168, rfl⟩
abbrev main_call3_v0 : Ref sig .tc := ⟨.hbm, 169, rfl⟩
abbrev main_v120 : Ref sig .tc := ⟨.hbm, 170, rfl⟩
abbrev main_cst_21 : Ref sig .tc := ⟨.hbm, 171, rfl⟩
abbrev main_v121 : Ref sig .tc := ⟨.hbm, 172, rfl⟩
abbrev main_cst_22 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_cst_23 : Ref sig .tc := ⟨.hbm, 180, rfl⟩
abbrev main_v128 : Ref sig .tc := ⟨.hbm, 181, rfl⟩
abbrev main_cst_24 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_cst_25 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_c_26 : Ref sig .tc := ⟨.hbm, 203, rfl⟩
abbrev main_v148 : Ref sig .tc := ⟨.hbm, 204, rfl⟩
abbrev main_v149 : Ref sig .tc := ⟨.hbm, 205, rfl⟩
abbrev main_c_27 : Ref sig .tc := ⟨.hbm, 206, rfl⟩
abbrev main_v150 : Ref sig .tc := ⟨.hbm, 207, rfl⟩
abbrev main_v151 : Ref sig .tc := ⟨.hbm, 208, rfl⟩
abbrev main_v152 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_v157 : Ref sig .tc := ⟨.hbm, 214, rfl⟩
abbrev main_cst_28 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_call5_cst : Ref sig .tc := ⟨.hbm, 226, rfl⟩
abbrev main_call5_v0 : Ref sig .tc := ⟨.hbm, 227, rfl⟩
abbrev main_v168 : Ref sig .tc := ⟨.hbm, 228, rfl⟩
abbrev main_cst_29 : Ref sig .tc := ⟨.hbm, 229, rfl⟩
abbrev main_v169 : Ref sig .tc := ⟨.hbm, 230, rfl⟩
abbrev main_cst_30 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_cst_31 : Ref sig .tc := ⟨.hbm, 238, rfl⟩
abbrev main_v176 : Ref sig .tc := ⟨.hbm, 239, rfl⟩
abbrev main_cst_32 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_cst_33 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_v194 : Ref sig .tc := ⟨.hbm, 259, rfl⟩
abbrev main_v195 : Ref sig .tc := ⟨.hbm, 260, rfl⟩
abbrev main_v196 : Ref sig .tc := ⟨.hbm, 261, rfl⟩
abbrev main_v197 : Ref sig .tc := ⟨.hbm, 262, rfl⟩
abbrev main_v198 : Ref sig .tc := ⟨.hbm, 263, rfl⟩
abbrev main_cst_34 : Ref sig .tc := ⟨.hbm, 264, rfl⟩
abbrev main_call7_cst : Ref sig .tc := ⟨.hbm, 265, rfl⟩
abbrev main_call7_v0 : Ref sig .tc := ⟨.hbm, 266, rfl⟩
abbrev main_call7_v1 : Ref sig .tc := ⟨.hbm, 267, rfl⟩
abbrev main_call7_v2 : Ref sig .tc := ⟨.hbm, 268, rfl⟩
abbrev main_call7_v3 : Ref sig .tc := ⟨.hbm, 269, rfl⟩
abbrev main_call7_v4 : Ref sig .tc := ⟨.hbm, 270, rfl⟩
abbrev main_v199 : Ref sig .tc := ⟨.hbm, 271, rfl⟩
abbrev main_v200 : Ref sig .tc := ⟨.hbm, 272, rfl⟩
abbrev main_v201 : Ref sig .tc := ⟨.hbm, 273, rfl⟩
abbrev main_v202 : Ref sig .tc := ⟨.hbm, 274, rfl⟩
abbrev main_v203 : Ref sig .tc := ⟨.hbm, 275, rfl⟩
abbrev main_cst_35 : Ref sig .tc := ⟨.hbm, 276, rfl⟩
abbrev main_v204 : Ref sig .tc := ⟨.hbm, 277, rfl⟩
abbrev main_cst_36 : Ref sig .tc := ⟨.hbm, 278, rfl⟩
abbrev main_v205 : Ref sig .tc := ⟨.hbm, 279, rfl⟩
abbrev main_v206 : Ref sig .tc := ⟨.hbm, 280, rfl⟩
abbrev main_v207 : Ref sig .tc := ⟨.hbm, 281, rfl⟩
abbrev main_v208 : Ref sig .tc := ⟨.hbm, 282, rfl⟩
abbrev main_v209 : Ref sig .tc := ⟨.hbm, 283, rfl⟩
abbrev main_v210 : Ref sig .tc := ⟨.hbm, 284, rfl⟩
abbrev main_cst_37 : Ref sig .tc := ⟨.hbm, 285, rfl⟩
abbrev main_v211 : Ref sig .tc := ⟨.hbm, 286, rfl⟩
abbrev main_v212 : Ref sig .tc := ⟨.hbm, 287, rfl⟩
abbrev main_v213 : Ref sig .tc := ⟨.hbm, 288, rfl⟩
abbrev main_v214 : Ref sig .tc := ⟨.hbm, 289, rfl⟩
abbrev main_v215 : Ref sig .tc := ⟨.hbm, 290, rfl⟩
abbrev main_v216 : Ref sig .tc := ⟨.hbm, 291, rfl⟩
abbrev main_cst_38 : Ref sig .tc := ⟨.hbm, 292, rfl⟩
abbrev main_v217 : Ref sig .tc := ⟨.hbm, 293, rfl⟩
abbrev main_cst_39 : Ref sig .tc := ⟨.hbm, 294, rfl⟩
abbrev main_v218 : Ref sig .tc := ⟨.hbm, 295, rfl⟩
abbrev main_v219 : Ref sig .tc := ⟨.hbm, 296, rfl⟩
abbrev main_v220 : Ref sig .tc := ⟨.hbm, 297, rfl⟩
abbrev main_cst_40 : Ref sig .tc := ⟨.hbm, 298, rfl⟩
abbrev main_v221 : Ref sig .tc := ⟨.hbm, 299, rfl⟩
abbrev main_v222 : Ref sig .tc := ⟨.hbm, 300, rfl⟩
abbrev main_v223 : Ref sig .tc := ⟨.hbm, 301, rfl⟩
abbrev main_cst_41 : Ref sig .tc := ⟨.hbm, 302, rfl⟩
abbrev main_v224 : Ref sig .tc := ⟨.hbm, 303, rfl⟩
abbrev main_v225 : Ref sig .tc := ⟨.hbm, 304, rfl⟩
abbrev main_v226 : Ref sig .tc := ⟨.hbm, 305, rfl⟩
abbrev main_v227 : Ref sig .tc := ⟨.hbm, 306, rfl⟩
abbrev main_v228 : Ref sig .tc := ⟨.hbm, 307, rfl⟩
abbrev main_v229 : Ref sig .tc := ⟨.hbm, 308, rfl⟩
abbrev main_v230 : Ref sig .tc := ⟨.hbm, 309, rfl⟩
abbrev main_v231 : Ref sig .tc := ⟨.hbm, 310, rfl⟩
abbrev main_v232 : Ref sig .tc := ⟨.hbm, 311, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  reducesTo_S50000x256_S256_d0 : S50000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  inb_S256x128_S256x128_0_0 : ∀ a, (![0, 0] : Fin 2 → Nat) a + S256x128.size a ≤ S256x128.size a
  h_S256x128 : 0 < S256x128.numel
  inb_S10000x128_S10000x128_0_0 : ∀ a, (![0, 0] : Fin 2 → Nat) a + S10000x128.size a ≤ S10000x128.size a
  h_S10000x128 : 0 < S10000x128.numel
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S1_d0 : S50000x1.ReducesTo [0] S1
  bcast_S_S1 : S_.BroadcastsInDim S1 (![] : Fin 0 → Fin S1.rank)
  bcast_S_S64 : S_.BroadcastsInDim S64 (![] : Fin 0 → Fin S64.rank)
  bcast_S_S64x256 : S_.BroadcastsInDim S64x256 (![] : Fin 0 → Fin S64x256.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S10000x256_S256x256_S10000x256_1_0_0_1_n_n_wf : DotDims.WF S10000x256 S256x256 S10000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S10000x256_S256x128_S10000x128_1_0_0_1_n_n_wf : DotDims.WF S10000x256 S256x128 S10000x128 [1] [0] [0] [1] [] []
  dot_S50000x128_S128x1_S50000x1_1_0_0_1_n_n_wf : DotDims.WF S50000x128 S128x1 S50000x1 [1] [0] [0] [1] [] []
  scatter_S64_S50000x1_S50000_n_0_0_1_wf : ScatterDims.WF S64 S50000x1 S50000 [] [0] [0] 1
  scatter_S64x256_S50000x1_S50000x256_1_0_0_1_wf : ScatterDims.WF S64x256 S50000x1 S50000x256 [1] [0] [0] 1
  dot_S64x256_S256x2_S64x2_1_0_0_1_n_n_wf : DotDims.WF S64x256 S256x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S50000x256.size a
  hwx0_0 : ∀ i : grid0.Coords, EltTy.bits .f32 = 32 ∨ (Rect.block (s := S50000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x256.size a ≤ S50000x256.size a
  hwx0_2 : ∀ i : grid0.Coords, EltTy.bits .f32 = 32 ∨ (Rect.block (s := S50000x256) S10000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x256.size a ≤ S50000x256.size a
  hwx1_0 : ∀ i : grid1.Coords, EltTy.bits .f32 = 32 ∨ (Rect.block (s := S50000x256) S10000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x256.size a ≤ S50000x256.size a
  hwx1_2 : ∀ i : grid1.Coords, EltTy.bits .f32 = 32 ∨ (Rect.block (s := S50000x256) S10000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x256.size a ≤ S50000x256.size a
  hwx2_0 : ∀ i : grid2.Coords, EltTy.bits .f32 = 32 ∨ (Rect.block (s := S50000x256) S10000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x256.size a ≤ S50000x256.size a
  hwx2_2 : ∀ i : grid2.Coords, EltTy.bits .f32 = 32 ∨ (Rect.block (s := S50000x256) S10000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x256.size a ≤ S50000x256.size a
  hwx3_0 : ∀ i : grid3.Coords, EltTy.bits .f32 = 32 ∨ (Rect.block (s := S50000x256) S10000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x128.size a ≤ S256x128.size a
  hwx3_1 : ∀ i : grid3.Coords, EltTy.bits .f32 = 32 ∨ (Rect.block (s := S256x128) S256x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S50000x128.size a
  hwx3_2 : ∀ i : grid3.Coords, EltTy.bits .f32 = 32 ∨ (Rect.block (s := S50000x128) S10000x128.size (cc3_transform_2 i) (hinb3_2 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def dot_S64x256_S256x2_S64x2_1_0_0_1_n_n : DotDims S64x256 S256x2 S64x2 where
  lhsContracting := [1]
  rhsContracting := [0]
  lhsNonContracting := [0]
  rhsNonContracting := [1]
  lhsBatch := []
  rhsBatch := []
  wf := dot_S64x256_S256x2_S64x2_1_0_0_1_n_n_wf

abbrev win0_0 : Pipeline.Window sig grid0 :=
  Pipeline.Window.ofSpec (Memref.whole main_v51) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v52) S10000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v98) S10000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg9) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v99) S10000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v146) S10000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg13) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v147) S10000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v194) S10000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg17) S256x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v195) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S50000 : Shape := ⟨1, ![50000]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x1 : Shape := ⟨2, ![128, 1]⟩
abbrev S1 : Shape := ⟨1, ![1]⟩
abbrev S256x2 : Shape := ⟨2, ![256, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S1x256 : Shape := ⟨2, ![1, 256]⟩
abbrev S800000x1 : Shape := ⟨2, ![800000, 1]⟩
abbrev S800000x256 : Shape := ⟨2, ![800000, 256]⟩
abbrev S50000x1 : Shape := ⟨2, ![50000, 1]⟩
abbrev S50000x128 : Shape := ⟨2, ![50000, 128]⟩
abbrev S1x128 : Shape := ⟨2, ![1, 128]⟩
abbrev S1x1 : Shape := ⟨2, ![1, 1]⟩
abbrev S64 : Shape := ⟨1, ![64]⟩
abbrev S64x256 : Shape := ⟨2, ![64, 256]⟩
abbrev S64x1 : Shape := ⟨2, ![64, 1]⟩
abbrev S64x2 : Shape := ⟨2, ![64, 2]⟩
abbrev S1x2 : Shape := ⟨2, ![1, 2]⟩

abbrev nBuf : Space → Nat
  | .hbm => 372
  | .vmem => 0
  | .smem => 0
  | _ => 0

abbrev hbmTy0_0 (i : Nat) : BufTy := match i % 128 with
  | 0 => ⟨S50000x256, .f32⟩
  | 1 => ⟨S2x800000, .i32⟩
  | 2 => ⟨S50000, .i32⟩
  | 3 => ⟨S256, .f32⟩
  | 4 => ⟨S256, .f32⟩
  | 5 => ⟨S256x256, .f32⟩
  | 6 => ⟨S256, .f32⟩
  | 7 => ⟨S256, .f32⟩
  | 8 => ⟨S256, .f32⟩
  | 9 => ⟨S256x256, .f32⟩
  | 10 => ⟨S256, .f32⟩
  | 11 => ⟨S256, .f32⟩
  | 12 => ⟨S256, .f32⟩
  | 13 => ⟨S256x256, .f32⟩
  | 14 => ⟨S256, .f32⟩
  | 15 => ⟨S256, .f32⟩
  | 16 => ⟨S256, .f32⟩
  | 17 => ⟨S256x128, .f32⟩
  | 18 => ⟨S128, .f32⟩
  | 19 => ⟨S128x1, .f32⟩
  | 20 => ⟨S1, .f32⟩
  | 21 => ⟨S256x2, .f32⟩
  | 22 => ⟨S2, .f32⟩
  | 23 => ⟨S1x800000, .i32⟩
  | 24 => ⟨S800000, .i32⟩
  | 25 => ⟨S1x800000, .i32⟩
  | 26 => ⟨S800000, .i32⟩
  | 27 => ⟨S_, .f32⟩
  | 28 => ⟨S256, .f32⟩
  | 29 => ⟨S_, .f32⟩
  | 30 => ⟨S256, .f32⟩
  | 31 => ⟨S256, .f32⟩
  | 32 => ⟨S1x256, .f32⟩
  | 33 => ⟨S50000x256, .f32⟩
  | 34 => ⟨S50000x256, .f32⟩
  | 35 => ⟨S50000x256, .f32⟩
  | 36 => ⟨S_, .f32⟩
  | 37 => ⟨S256, .f32⟩
  | 38 => ⟨S_, .f32⟩
  | 39 => ⟨S256, .f32⟩
  | 40 => ⟨S256, .f32⟩
  | 41 => ⟨S1x256, .f32⟩
  | 42 => ⟨S50000x256, .f32⟩
  | 43 => ⟨S50000x256, .f32⟩
  | 44 => ⟨S_, .f32⟩
  | 45 => ⟨S256, .f32⟩
  | 46 => ⟨S256, .f32⟩
  | 47 => ⟨S256, .f32⟩
  | 48 => ⟨S1x256, .f32⟩
  | 49 => ⟨S50000x256, .f32⟩
  | 50 => ⟨S50000x256, .f32⟩
  | 51 => ⟨S1x256, .f32⟩
  | 52 => ⟨S50000x256, .f32⟩
  | 53 => ⟨S50000x256, .f32⟩
  | 54 => ⟨S1x256, .f32⟩
  | 55 => ⟨S50000x256, .f32⟩
  | 56 => ⟨S50000x256, .f32⟩
  | 57 => ⟨S50000x256, .f32⟩
  | 58 => ⟨S_, .f32⟩
  | 59 => ⟨S800000, .f32⟩
  | 60 => ⟨S_, .f32⟩
  | 61 => ⟨S50000, .f32⟩
  | 62 => ⟨S800000x1, .i32⟩
  | 63 => ⟨S50000, .f32⟩
  | 64 => ⟨S_, .f32⟩
  | 65 => ⟨S50000, .f32⟩
  | 66 => ⟨S50000, .f32⟩
  | 67 => ⟨S50000, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x256, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000, .f32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000, .f32⟩
  | 95 => ⟨S800000, .f32⟩
  | 96 => ⟨S800000x1, .f32⟩
  | 97 => ⟨S800000x256, .f32⟩
  | 98 => ⟨S800000x256, .f32⟩
  | 99 => ⟨S_, .f32⟩
  | 100 => ⟨S50000x256, .f32⟩
  | 101 => ⟨S800000x1, .i32⟩
  | 102 => ⟨S50000x256, .f32⟩
  | 103 => ⟨S50000, .f32⟩
  | 104 => ⟨S50000x1, .f32⟩
  | 105 => ⟨S50000x256, .f32⟩
  | 106 => ⟨S50000x256, .f32⟩
  | 107 => ⟨S50000x256, .f32⟩
  | 108 => ⟨S1x256, .f32⟩
  | 109 => ⟨S50000x256, .f32⟩
  | 110 => ⟨S50000x256, .f32⟩
  | 111 => ⟨S_, .f32⟩
  | 112 => ⟨S50000x256, .f32⟩
  | 113 => ⟨S50000x256, .f32⟩
  | 114 => ⟨S_, .f32⟩
  | 115 => ⟨S256, .f32⟩
  | 116 => ⟨S_, .f32⟩
  | 117 => ⟨S256, .f32⟩
  | 118 => ⟨S256, .f32⟩
  | 119 => ⟨S1x256, .f32⟩
  | 120 => ⟨S50000x256, .f32⟩
  | 121 => ⟨S50000x256, .f32⟩
  | 122 => ⟨S50000x256, .f32⟩
  | 123 => ⟨S_, .f32⟩
  | 124 => ⟨S256, .f32⟩
  | 125 => ⟨S_, .f32⟩
  | 126 => ⟨S256, .f32⟩
  | 127 => ⟨S256, .f32⟩
  | _ => ⟨S50000x256, .f32⟩

abbrev hbmTy0_1 (i : Nat) : BufTy := match i % 128 with
  | 0 => ⟨S1x256, .f32⟩
  | 1 => ⟨S50000x256, .f32⟩
  | 2 => ⟨S50000x256, .f32⟩
  | 3 => ⟨S_, .f32⟩
  | 4 => ⟨S256, .f32⟩
  | 5 => ⟨S256, .f32⟩
  | 6 => ⟨S256, .f32⟩
  | 7 => ⟨S1x256, .f32⟩
  | 8 => ⟨S50000x256, .f32⟩
  | 9 => ⟨S50000x256, .f32⟩
  | 10 => ⟨S1x256, .f32⟩
  | 11 => ⟨S50000x256, .f32⟩
  | 12 => ⟨S50000x256, .f32⟩
  | 13 => ⟨S1x256, .f32⟩
  | 14 => ⟨S50000x256, .f32⟩
  | 15 => ⟨S50000x256, .f32⟩
  | 16 => ⟨S50000x256, .f32⟩
  | 17 => ⟨S_, .f32⟩
  | 18 => ⟨S800000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x256, .f32⟩
  | 36 => ⟨S_, .i32⟩
  | 37 => ⟨S800000, .i32⟩
  | 38 => ⟨S800000, .i1⟩
  | 39 => ⟨S_, .i32⟩
  | 40 => ⟨S800000, .i32⟩
  | 41 => ⟨S800000, .i32⟩
  | 42 => ⟨S800000, .i32⟩
  | 43 => ⟨S800000x1, .i32⟩
  | 44 => ⟨S800000, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000, .f32⟩
  | 54 => ⟨S800000, .f32⟩
  | 55 => ⟨S800000x1, .f32⟩
  | 56 => ⟨S800000x256, .f32⟩
  | 57 => ⟨S800000x256, .f32⟩
  | 58 => ⟨S_, .f32⟩
  | 59 => ⟨S50000x256, .f32⟩
  | 60 => ⟨S800000x1, .i32⟩
  | 61 => ⟨S50000x256, .f32⟩
  | 62 => ⟨S50000, .f32⟩
  | 63 => ⟨S50000x1, .f32⟩
  | 64 => ⟨S50000x256, .f32⟩
  | 65 => ⟨S50000x256, .f32⟩
  | 66 => ⟨S50000x256, .f32⟩
  | 67 => ⟨S1x256, .f32⟩
  | 68 => ⟨S50000x256, .f32⟩
  | 69 => ⟨S50000x256, .f32⟩
  | 70 => ⟨S_, .f32⟩
  | 71 => ⟨S50000x256, .f32⟩
  | 72 => ⟨S50000x256, .f32⟩
  | 73 => ⟨S_, .f32⟩
  | 74 => ⟨S256, .f32⟩
  | 75 => ⟨S_, .f32⟩
  | 76 => ⟨S256, .f32⟩
  | 77 => ⟨S256, .f32⟩
  | 78 => ⟨S1x256, .f32⟩
  | 79 => ⟨S50000x256, .f32⟩
  | 80 => ⟨S50000x256, .f32⟩
  | 81 => ⟨S50000x256, .f32⟩
  | 82 => ⟨S_, .f32⟩
  | 83 => ⟨S256, .f32⟩
  | 84 => ⟨S_, .f32⟩
  | 85 => ⟨S256, .f32⟩
  | 86 => ⟨S256, .f32⟩
  | 87 => ⟨S1x256, .f32⟩
  | 88 => ⟨S50000x256, .f32⟩
  | 89 => ⟨S50000x256, .f32⟩
  | 90 => ⟨S_, .f32⟩
  | 91 => ⟨S256, .f32⟩
  | 92 => ⟨S256, .f32⟩
  | 93 => ⟨S256, .f32⟩
  | 94 => ⟨S1x256, .f32⟩
  | 95 => ⟨S50000x256, .f32⟩
  | 96 => ⟨S50000x256, .f32⟩
  | 97 => ⟨S1x256, .f32⟩
  | 98 => ⟨S50000x256, .f32⟩
  | 99 => ⟨S50000x256, .f32⟩
  | 100 => ⟨S1x256, .f32⟩
  | 101 => ⟨S50000x256, .f32⟩
  | 102 => ⟨S50000x256, .f32⟩
  | 103 => ⟨S50000x256, .f32⟩
  | 104 => ⟨S50000x256, .f32⟩
  | 105 => ⟨S_, .f32⟩
  | 106 => ⟨S800000, .f32⟩
  | 107 => ⟨S_, .f32⟩
  | 108 => ⟨S50000, .f32⟩
  | 109 => ⟨S800000x1, .i32⟩
  | 110 => ⟨S50000, .f32⟩
  | 111 => ⟨S_, .f32⟩
  | 112 => ⟨S50000, .f32⟩
  | 113 => ⟨S50000, .f32⟩
  | 114 => ⟨S50000, .f32⟩
  | 115 => ⟨S_, .i32⟩
  | 116 => ⟨S800000, .i32⟩
  | 117 => ⟨S800000, .i1⟩
  | 118 => ⟨S_, .i32⟩
  | 119 => ⟨S800000, .i32⟩
  | 120 => ⟨S800000, .i32⟩
  | 121 => ⟨S800000, .i32⟩
  | 122 => ⟨S800000x1, .i32⟩
  | 123 => ⟨S800000x256, .f32⟩
  | 124 => ⟨S_, .i32⟩
  | 125 => ⟨S800000, .i32⟩
  | 126 => ⟨S800000, .i1⟩
  | 127 => ⟨S_, .i32⟩
  | _ => ⟨S50000x256, .f32⟩

abbrev hbmTy0_2 (i : Nat) : BufTy := match i % 128 with
  | 0 => ⟨S800000, .i32⟩
  | 1 => ⟨S800000, .i32⟩
  | 2 => ⟨S800000, .i32⟩
  | 3 => ⟨S800000x1, .i32⟩
  | 4 => ⟨S800000, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000, .f32⟩
  | 14 => ⟨S800000, .f32⟩
  | 15 => ⟨S800000x1, .f32⟩
  | 16 => ⟨S800000x256, .f32⟩
  | 17 => ⟨S800000x256, .f32⟩
  | 18 => ⟨S_, .f32⟩
  | 19 => ⟨S50000x256, .f32⟩
  | 20 => ⟨S800000x1, .i32⟩
  | 21 => ⟨S50000x256, .f32⟩
  | 22 => ⟨S50000, .f32⟩
  | 23 => ⟨S50000x1, .f32⟩
  | 24 => ⟨S50000x256, .f32⟩
  | 25 => ⟨S50000x256, .f32⟩
  | 26 => ⟨S50000x256, .f32⟩
  | 27 => ⟨S1x256, .f32⟩
  | 28 => ⟨S50000x256, .f32⟩
  | 29 => ⟨S50000x256, .f32⟩
  | 30 => ⟨S_, .f32⟩
  | 31 => ⟨S50000x256, .f32⟩
  | 32 => ⟨S50000x256, .f32⟩
  | 33 => ⟨S_, .f32⟩
  | 34 => ⟨S256, .f32⟩
  | 35 => ⟨S_, .f32⟩
  | 36 => ⟨S256, .f32⟩
  | 37 => ⟨S256, .f32⟩
  | 38 => ⟨S1x256, .f32⟩
  | 39 => ⟨S50000x256, .f32⟩
  | 40 => ⟨S50000x256, .f32⟩
  | 41 => ⟨S50000x256, .f32⟩
  | 42 => ⟨S_, .f32⟩
  | 43 => ⟨S256, .f32⟩
  | 44 => ⟨S_, .f32⟩
  | 45 => ⟨S256, .f32⟩
  | 46 => ⟨S256, .f32⟩
  | 47 => ⟨S1x256, .f32⟩
  | 48 => ⟨S50000x256, .f32⟩
  | 49 => ⟨S50000x256, .f32⟩
  | 50 => ⟨S_, .f32⟩
  | 51 => ⟨S256, .f32⟩
  | 52 => ⟨S256, .f32⟩
  | 53 => ⟨S256, .f32⟩
  | 54 => ⟨S1x256, .f32⟩
  | 55 => ⟨S50000x256, .f32⟩
  | 56 => ⟨S50000x256, .f32⟩
  | 57 => ⟨S1x256, .f32⟩
  | 58 => ⟨S50000x256, .f32⟩
  | 59 => ⟨S50000x256, .f32⟩
  | 60 => ⟨S1x256, .f32⟩
  | 61 => ⟨S50000x256, .f32⟩
  | 62 => ⟨S50000x256, .f32⟩
  | 63 => ⟨S50000x256, .f32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S_, .f32⟩
  | 70 => ⟨S50000x128, .f32⟩
  | 71 => ⟨S50000x128, .i1⟩
  | 72 => ⟨S_, .f32⟩
  | 73 => ⟨S50000x128, .f32⟩
  | 74 => ⟨S50000x128, .f32⟩
  | 75 => ⟨S50000x128, .f32⟩
  | 76 => ⟨S50000x1, .f32⟩
  | 77 => ⟨S1x1, .f32⟩
  | 78 => ⟨S50000x1, .f32⟩
  | 79 => ⟨S50000x1, .f32⟩
  | 80 => ⟨S_, .f32⟩
  | 81 => ⟨S1, .f32⟩
  | 82 => ⟨S_, .f32⟩
  | 83 => ⟨S1, .f32⟩
  | 84 => ⟨S1, .f32⟩
  | 85 => ⟨S1x1, .f32⟩
  | 86 => ⟨S50000x1, .f32⟩
  | 87 => ⟨S50000x1, .f32⟩
  | 88 => ⟨S50000x1, .f32⟩
  | 89 => ⟨S_, .f32⟩
  | 90 => ⟨S1, .f32⟩
  | 91 => ⟨S1x1, .f32⟩
  | 92 => ⟨S50000x1, .f32⟩
  | 93 => ⟨S50000x1, .f32⟩
  | 94 => ⟨S50000x256, .f32⟩
  | 95 => ⟨S50000x256, .f32⟩
  | 96 => ⟨S_, .f32⟩
  | 97 => ⟨S50000, .f32⟩
  | 98 => ⟨S_, .f32⟩
  | 99 => ⟨S64, .f32⟩
  | 100 => ⟨S50000x1, .i32⟩
  | 101 => ⟨S64, .f32⟩
  | 102 => ⟨S_, .f32⟩
  | 103 => ⟨S64x256, .f32⟩
  | 104 => ⟨S50000x1, .i32⟩
  | 105 => ⟨S64x256, .f32⟩
  | 106 => ⟨S_, .f32⟩
  | 107 => ⟨S64, .f32⟩
  | 108 => ⟨S64, .f32⟩
  | 109 => ⟨S64x1, .f32⟩
  | 110 => ⟨S64x256, .f32⟩
  | 111 => ⟨S64x256, .f32⟩
  | 112 => ⟨S64x2, .f32⟩
  | 113 => ⟨S1x2, .f32⟩
  | 114 => ⟨S64x2, .f32⟩
  | 115 => ⟨S64x2, .f32⟩
  | _ => ⟨S50000x256, .f32⟩

abbrev hbmTy (i : Nat) : BufTy := match i / 128 with
  | 0 => hbmTy0_0 i
  | 1 => hbmTy0_1 i
  | 2 => hbmTy0_2 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_cst_0 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst_1 : Ref sig .tc := ⟨.hbm, 36, rfl⟩
abbrev main_v11 : Ref sig .tc := ⟨.hbm, 37, rfl⟩
abbrev main_cst_2 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_cst_3 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_cst_4 : Ref sig .tc := ⟨.hbm, 58, rfl⟩
abbrev main_v30 : Ref sig .tc := ⟨.hbm, 59, rfl⟩
abbrev main_cst_5 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_6 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_c : Ref sig .tc := ⟨.hbm, 68, rfl⟩
abbrev main_v37 : Ref sig .tc := ⟨.hbm, 69, rfl⟩
abbrev main_v38 : Ref sig .tc := ⟨.hbm, 70, rfl⟩
abbrev main_c_7 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_c_8 : Ref sig .tc := ⟨.hbm, 77, rfl⟩
abbrev main_v44 : Ref sig .tc := ⟨.hbm, 78, rfl⟩
abbrev main_v45 : Ref sig .tc := ⟨.hbm, 79, rfl⟩
abbrev main_c_9 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_c_10 : Ref sig .tc := ⟨.hbm, 86, rfl⟩
abbrev main_v51 : Ref sig .tc := ⟨.hbm, 87, rfl⟩
abbrev main_v52 : Ref sig .tc := ⟨.hbm, 88, rfl⟩
abbrev main_c_11 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_cst_12 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_call0_cst : Ref sig .tc := ⟨.hbm, 111, rfl⟩
abbrev main_call0_v0 : Ref sig .tc := ⟨.hbm, 112, rfl⟩
abbrev main_v73 : Ref sig .tc := ⟨.hbm, 113, rfl⟩
abbrev main_cst_13 : Ref sig .tc := ⟨.hbm, 114, rfl⟩
abbrev main_v74 : Ref sig .tc := ⟨.hbm, 115, rfl⟩
abbrev main_cst_14 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_15 : Ref sig .tc := ⟨.hbm, 123, rfl⟩
abbrev main_v81 : Ref sig .tc := ⟨.hbm, 124, rfl⟩
abbrev main_cst_16 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_cst_17 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_18 : Ref sig .tc := ⟨.hbm, 145, rfl⟩
abbrev main_v100 : Ref sig .tc := ⟨.hbm, 146, rfl⟩
abbrev main_cst_19 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_cst_20 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_c_21 : Ref sig .tc := ⟨.hbm, 155, rfl⟩
abbrev main_v107 : Ref sig .tc := ⟨.hbm, 156, rfl⟩
abbrev main_v108 : Ref sig .tc := ⟨.hbm, 157, rfl⟩
abbrev main_c_22 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_c_23 : Ref sig .tc := ⟨.hbm, 164, rfl⟩
abbrev main_v114 : Ref sig .tc := ⟨.hbm, 165, rfl⟩
abbrev main_v115 : Ref sig .tc := ⟨.hbm, 166, rfl⟩
abbrev main_c_24 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_c_25 : Ref sig .tc := ⟨.hbm, 173, rfl⟩
abbrev main_v121 : Ref sig .tc := ⟨.hbm, 174, rfl⟩
abbrev main_v122 : Ref sig .tc := ⟨.hbm, 175, rfl⟩
abbrev main_c_26 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_cst_27 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_call1_cst : Ref sig .tc := ⟨.hbm, 198, rfl⟩
abbrev main_call1_v0 : Ref sig .tc := ⟨.hbm, 199, rfl⟩
abbrev main_v143 : Ref sig .tc := ⟨.hbm, 200, rfl⟩
abbrev main_cst_28 : Ref sig .tc := ⟨.hbm, 201, rfl⟩
abbrev main_v144 : Ref sig .tc := ⟨.hbm, 202, rfl⟩
abbrev main_cst_29 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_cst_30 : Ref sig .tc := ⟨.hbm, 210, rfl⟩
abbrev main_v151 : Ref sig .tc := ⟨.hbm, 211, rfl⟩
abbrev main_cst_31 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_cst_32 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_cst_33 : Ref sig .tc := ⟨.hbm, 233, rfl⟩
abbrev main_v171 : Ref sig .tc := ⟨.hbm, 234, rfl⟩
abbrev main_cst_34 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_cst_35 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_c_36 : Ref sig .tc := ⟨.hbm, 243, rfl⟩
abbrev main_v178 : Ref sig .tc := ⟨.hbm, 244, rfl⟩
abbrev main_v179 : Ref sig .tc := ⟨.hbm, 245, rfl⟩
abbrev main_c_37 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_c_38 : Ref sig .tc := ⟨.hbm, 252, rfl⟩
abbrev main_v185 : Ref sig .tc := ⟨.hbm, 253, rfl⟩
abbrev main_v186 : Ref sig .tc := ⟨.hbm, 254, rfl⟩
abbrev main_c_39 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_c_40 : Ref sig .tc := ⟨.hbm, 261, rfl⟩
abbrev main_v192 : Ref sig .tc := ⟨.hbm, 262, rfl⟩
abbrev main_v193 : Ref sig .tc := ⟨.hbm, 263, rfl⟩
abbrev main_c_41 : Ref sig .tc := ⟨.hbm, 264, rfl⟩
abbrev main_v194 : Ref sig .tc := ⟨.hbm, 265, rfl⟩
abbrev main_v195 : Ref sig .tc := ⟨.hbm, 266, rfl⟩
abbrev main_v196 : Ref sig .tc := ⟨.hbm, 267, rfl⟩
abbrev main_v197 : Ref sig .tc := ⟨.hbm, 268, rfl⟩
abbrev main_v198 : Ref sig .tc := ⟨.hbm, 269, rfl⟩
abbrev main_v199 : Ref sig .tc := ⟨.hbm, 270, rfl⟩
abbrev main_v200 : Ref sig .tc := ⟨.hbm, 271, rfl⟩
abbrev main_v201 : Ref sig .tc := ⟨.hbm, 272, rfl⟩
abbrev main_v202 : Ref sig .tc := ⟨.hbm, 273, rfl⟩
abbrev main_cst_42 : Ref sig .tc := ⟨.hbm, 274, rfl⟩
abbrev main_v203 : Ref sig .tc := ⟨.hbm, 275, rfl⟩
abbrev main_v204 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_v208 : Ref sig .tc := ⟨.hbm, 280, rfl⟩
abbrev main_v209 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_call2_cst : Ref sig .tc := ⟨.hbm, 286, rfl⟩
abbrev main_call2_v0 : Ref sig .tc := ⟨.hbm, 287, rfl⟩
abbrev main_v214 : Ref sig .tc := ⟨.hbm, 288, rfl⟩
abbrev main_cst_43 : Ref sig .tc := ⟨.hbm, 289, rfl⟩
abbrev main_v215 : Ref sig .tc := ⟨.hbm, 290, rfl⟩
abbrev main_cst_44 : Ref sig .tc := ⟨.hbm, 291, rfl⟩
abbrev main_v216 : Ref sig .tc := ⟨.hbm, 292, rfl⟩
abbrev main_v217 : Ref sig .tc := ⟨.hbm, 293, rfl⟩
abbrev main_v218 : Ref sig .tc := ⟨.hbm, 294, rfl⟩
abbrev main_v219 : Ref sig .tc := ⟨.hbm, 295, rfl⟩
abbrev main_v220 : Ref sig .tc := ⟨.hbm, 296, rfl⟩
abbrev main_v221 : Ref sig .tc := ⟨.hbm, 297, rfl⟩
abbrev main_cst_45 : Ref sig .tc := ⟨.hbm, 298, rfl⟩
abbrev main_v222 : Ref sig .tc := ⟨.hbm, 299, rfl⟩
abbrev main_cst_46 : Ref sig .tc := ⟨.hbm, 300, rfl⟩
abbrev main_v223 : Ref sig .tc := ⟨.hbm, 301, rfl⟩
abbrev main_v224 : Ref sig .tc := ⟨.hbm, 302, rfl⟩
abbrev main_v225 : Ref sig .tc := ⟨.hbm, 303, rfl⟩
abbrev main_v226 : Ref sig .tc := ⟨.hbm, 304, rfl⟩
abbrev main_v227 : Ref sig .tc := ⟨.hbm, 305, rfl⟩
abbrev main_cst_47 : Ref sig .tc := ⟨.hbm, 306, rfl⟩
abbrev main_v228 : Ref sig .tc := ⟨.hbm, 307, rfl⟩
abbrev main_v229 : Ref sig .tc := ⟨.hbm, 308, rfl⟩
abbrev main_v230 : Ref sig .tc := ⟨.hbm, 309, rfl⟩
abbrev main_v231 : Ref sig .tc := ⟨.hbm, 310, rfl⟩
abbrev main_v232 : Ref sig .tc := ⟨.hbm, 311, rfl⟩
abbrev main_v233 : Ref sig .tc := ⟨.hbm, 312, rfl⟩
abbrev main_v234 : Ref sig .tc := ⟨.hbm, 313, rfl⟩
abbrev main_v235 : Ref sig .tc := ⟨.hbm, 314, rfl⟩
abbrev main_v236 : Ref sig .tc := ⟨.hbm, 315, rfl⟩
abbrev main_v237 : Ref sig .tc := ⟨.hbm, 316, rfl⟩
abbrev main_v238 : Ref sig .tc := ⟨.hbm, 317, rfl⟩
abbrev main_v239 : Ref sig .tc := ⟨.hbm, 318, rfl⟩
abbrev main_v240 : Ref sig .tc := ⟨.hbm, 319, rfl⟩
abbrev main_v241 : Ref sig .tc := ⟨.hbm, 320, rfl⟩
abbrev main_v242 : Ref sig .tc := ⟨.hbm, 321, rfl⟩
abbrev main_v243 : Ref sig .tc := ⟨.hbm, 322, rfl⟩
abbrev main_v244 : Ref sig .tc := ⟨.hbm, 323, rfl⟩
abbrev main_cst_48 : Ref sig .tc := ⟨.hbm, 324, rfl⟩
abbrev main_call3_cst : Ref sig .tc := ⟨.hbm, 325, rfl⟩
abbrev main_call3_v0 : Ref sig .tc := ⟨.hbm, 326, rfl⟩
abbrev main_call3_v1 : Ref sig .tc := ⟨.hbm, 327, rfl⟩
abbrev main_call3_v2 : Ref sig .tc := ⟨.hbm, 328, rfl⟩
abbrev main_call3_v3 : Ref sig .tc := ⟨.hbm, 329, rfl⟩
abbrev main_call3_v4 : Ref sig .tc := ⟨.hbm, 330, rfl⟩
abbrev main_v245 : Ref sig .tc := ⟨.hbm, 331, rfl⟩
abbrev main_v246 : Ref sig .tc := ⟨.hbm, 332, rfl⟩
abbrev main_v247 : Ref sig .tc := ⟨.hbm, 333, rfl⟩
abbrev main_v248 : Ref sig .tc := ⟨.hbm, 334, rfl⟩
abbrev main_v249 : Ref sig .tc := ⟨.hbm, 335, rfl⟩
abbrev main_cst_49 : Ref sig .tc := ⟨.hbm, 336, rfl⟩
abbrev main_v250 : Ref sig .tc := ⟨.hbm, 337, rfl⟩
abbrev main_cst_50 : Ref sig .tc := ⟨.hbm, 338, rfl⟩
abbrev main_v251 : Ref sig .tc := ⟨.hbm, 339, rfl⟩
abbrev main_v252 : Ref sig .tc := ⟨.hbm, 340, rfl⟩
abbrev main_v253 : Ref sig .tc := ⟨.hbm, 341, rfl⟩
abbrev main_v254 : Ref sig .tc := ⟨.hbm, 342, rfl⟩
abbrev main_v255 : Ref sig .tc := ⟨.hbm, 343, rfl⟩
abbrev main_v256 : Ref sig .tc := ⟨.hbm, 344, rfl⟩
abbrev main_cst_51 : Ref sig .tc := ⟨.hbm, 345, rfl⟩
abbrev main_v257 : Ref sig .tc := ⟨.hbm, 346, rfl⟩
abbrev main_v258 : Ref sig .tc := ⟨.hbm, 347, rfl⟩
abbrev main_v259 : Ref sig .tc := ⟨.hbm, 348, rfl⟩
abbrev main_v260 : Ref sig .tc := ⟨.hbm, 349, rfl⟩
abbrev main_v261 : Ref sig .tc := ⟨.hbm, 350, rfl⟩
abbrev main_v262 : Ref sig .tc := ⟨.hbm, 351, rfl⟩
abbrev main_cst_52 : Ref sig .tc := ⟨.hbm, 352, rfl⟩
abbrev main_v263 : Ref sig .tc := ⟨.hbm, 353, rfl⟩
abbrev main_cst_53 : Ref sig .tc := ⟨.hbm, 354, rfl⟩
abbrev main_v264 : Ref sig .tc := ⟨.hbm, 355, rfl⟩
abbrev main_v265 : Ref sig .tc := ⟨.hbm, 356, rfl⟩
abbrev main_v266 : Ref sig .tc := ⟨.hbm, 357, rfl⟩
abbrev main_cst_54 : Ref sig .tc := ⟨.hbm, 358, rfl⟩
abbrev main_v267 : Ref sig .tc := ⟨.hbm, 359, rfl⟩
abbrev main_v268 : Ref sig .tc := ⟨.hbm, 360, rfl⟩
abbrev main_v269 : Ref sig .tc := ⟨.hbm, 361, rfl⟩
abbrev main_cst_55 : Ref sig .tc := ⟨.hbm, 362, rfl⟩
abbrev main_v270 : Ref sig .tc := ⟨.hbm, 363, rfl⟩
abbrev main_v271 : Ref sig .tc := ⟨.hbm, 364, rfl⟩
abbrev main_v272 : Ref sig .tc := ⟨.hbm, 365, rfl⟩
abbrev main_v273 : Ref sig .tc := ⟨.hbm, 366, rfl⟩
abbrev main_v274 : Ref sig .tc := ⟨.hbm, 367, rfl⟩
abbrev main_v275 : Ref sig .tc := ⟨.hbm, 368, rfl⟩
abbrev main_v276 : Ref sig .tc := ⟨.hbm, 369, rfl⟩
abbrev main_v277 : Ref sig .tc := ⟨.hbm, 370, rfl⟩
abbrev main_v278 : Ref sig .tc := ⟨.hbm, 371, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  reducesTo_S50000x256_S256_d0 : S50000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S1_d0 : S50000x1.ReducesTo [0] S1
  bcast_S_S1 : S_.BroadcastsInDim S1 (![] : Fin 0 → Fin S1.rank)
  bcast_S_S64 : S_.BroadcastsInDim S64 (![] : Fin 0 → Fin S64.rank)
  bcast_S_S64x256 : S_.BroadcastsInDim S64x256 (![] : Fin 0 → Fin S64x256.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  dot_S50000x256_S256x256_S50000x256_1_0_0_1_n_n_wf : DotDims.WF S50000x256 S256x256 S50000x256 [1] [0] [0] [1] [] []
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  gather_S50000_S800000x1_S800000_n_0_n_n_0_1_1_wf : GatherDims.WF S50000 S800000x1 S800000 [] [0] [] [0] [] 1 ![1]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  dot_S50000x128_S128x1_S50000x1_1_0_0_1_n_n_wf : DotDims.WF S50000x128 S128x1 S50000x1 [1] [0] [0] [1] [] []
  scatter_S64_S50000x1_S50000_n_0_0_1_wf : ScatterDims.WF S64 S50000x1 S50000 [] [0] [0] 1
  scatter_S64x256_S50000x1_S50000x256_1_0_0_1_wf : ScatterDims.WF S64x256 S50000x1 S50000x256 [1] [0] [0] 1
  dot_S64x256_S256x2_S64x2_1_0_0_1_n_n_wf : DotDims.WF S64x256 S256x2 S64x2 [1] [0] [0] [1] [] []

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def dot_S64x256_S256x2_S64x2_1_0_0_1_n_n : DotDims S64x256 S256x2 S64x2 where
  lhsContracting := [1]
  rhsContracting := [0]
  lhsNonContracting := [0]
  rhsNonContracting := [1]
  lhsBatch := []
  rhsBatch := []
  wf := dot_S64x256_S256x2_S64x2_1_0_0_1_n_n_wf

class Facts : Prop extends Facts₀ where

variable [Facts]
-- ==== Proof.KernelRun.lean ====
/-
  The idealized kernel's run with its result kept.

  @main is seventeen segments: stretches of host operations and four matmul regions.  The buffer contents at the
  segment boundaries form a fold from the launch memory: a host stretch applies its operations' results, a region
  replaces its output array by what its grid points wrote back and leaves every other buffer alone.  Every weakly
  fair execution terminates with every unscoped buffer at the last stage of that fold; the frame claim reads the
  argument arrays off it, and here the result buffer is read off it as well, so that the result of the run is a
  pure function of the launch memory: the fold at the result's buffer.
-/
import proofs.«163758_j78546361909451_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last stage of
    the fold of the segments over the launch memory, and the argument arrays end as launched. -/
theorem run : θ_run defs (onTc (τ := τ) (main (F := F))) ⟨m, fun _ => 0, ρ⟩ (fun r => ∀ c : Dev nD,
      r.2.mem ((c.tc : Thread nD τ).loc main_v232) = W17 m ρ c (Proc.devRef .tc main_v232)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v232 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c),
       (h c _ (mem_uc main_arg13 (by decide))).trans (W17_main_arg13 m ρ c),
       (h c _ (mem_uc main_arg14 (by decide))).trans (W17_main_arg14 m ρ c),
       (h c _ (mem_uc main_arg15 (by decide))).trans (W17_main_arg15 m ρ c),
       (h c _ (mem_uc main_arg16 (by decide))).trans (W17_main_arg16 m ρ c),
       (h c _ (mem_uc main_arg17 (by decide))).trans (W17_main_arg17 m ρ c),
       (h c _ (mem_uc main_arg18 (by decide))).trans (W17_main_arg18 m ρ c),
       (h c _ (mem_uc main_arg19 (by decide))).trans (W17_main_arg19 m ρ c),
       (h c _ (mem_uc main_arg20 (by decide))).trans (W17_main_arg20 m ρ c),
       (h c _ (mem_uc main_arg21 (by decide))).trans (W17_main_arg21 m ρ c),
       (h c _ (mem_uc main_arg22 (by decide))).trans (W17_main_arg22 m ρ c)⟩)

end Cert.KernelIdeal.KRun

end
-- ==== Proof.RefRun.lean ====
/- The reference program's @main as the list of its 349 host operations, in program order, and its run.
   The functions @main calls (@relu three times; @leaky_relu once, which itself calls @_where) are listed inline at
   their call sites, over the buffer record of each call. The list is cut into segments at the boundaries of the
   windows @main is printed in and at the four large matrix products (each of those alone in a singleton list), so
   that the fold of the operations over the launch contents can be opened one stage at a time. Every weakly fair
   execution terminates with each buffer at that fold; no operation writes an argument. -/
import proofs.«163758_j78546361909451_1_alg».proof.Proof.Gen.ReferenceIdeal
import Idealize.ShloMosaic.Lib.StableHlo.Run
import Idealize.ShloMosaic.Lib.Pipeline.Frame

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 34 of 349 (within window `main_part0`). -/
abbrev seg0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_cst (constant S_ .f32 0x00000000#32),
    StableHlo.binary main_arg0 main_cst main_v4 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_0 (constant S_ .f32 0x47435000#32),
    StableHlo.unary main_cst_0 main_v5 (broadcastInDim S256 ![] bcast_S_S256 : (⟨S_, .f32⟩ : BufTy).Contents (Elt F) → (⟨S256, .f32⟩ : BufTy).Contents (Elt F)),
    StableHlo.binary main_v4 main_v5 main_v6 (Host.divf : (⟨S256, .f32⟩ : BufTy).Contents (Elt F) → (⟨S256, .f32⟩ : BufTy).Contents (Elt F) → (⟨S256, .f32⟩ : BufTy).Contents (Elt F)),
    StableHlo.unary main_v6 main_v7 (broadcastInDim S1x256 ![1] bcast_S256_S1x256_1 : (⟨S256, .f32⟩ : BufTy).Contents (Elt F) → (⟨S1x256, .f32⟩ : BufTy).Contents (Elt F)),
    StableHlo.unary main_v7 main_v8 (broadcastInDim S50000x256 ![0, 1] bcast_S1x256_S50000x256_0_1 : (⟨S1x256, .f32⟩ : BufTy).Contents (Elt F) → (⟨S50000x256, .f32⟩ : BufTy).Contents (Elt F)),
    StableHlo.binary main_arg0 main_v8 main_v9 (subf : (⟨S50000x256, .f32⟩ : BufTy).Contents (Elt F) → (⟨S50000x256, .f32⟩ : BufTy).Contents (Elt F) → (⟨S50000x256, .f32⟩ : BufTy).Contents (Elt F)),
    StableHlo.binary main_v9 main_v9 main_v10 (mulf : (⟨S50000x256, .f32⟩ : BufTy).Contents (Elt F) → (⟨S50000x256, .f32⟩ : BufTy).Contents (Elt F) → (⟨S50000x256, .f32⟩ : BufTy).Contents (Elt F)),
    StableHlo.nullary main_cst_1 (constant S_ .f32 0x00000000#32),
    StableHlo.binary main_v10 main_cst_1 main_v11 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_2 (constant S_ .f32 0x47435000#32),
    StableHlo.unary main_cst_2 main_v12 (broadcastInDim S256 ![] bcast_S_S256 : (⟨S_, .f32⟩ : BufTy).Contents (Elt F) → (⟨S256, .f32⟩ : BufTy).Contents (Elt F)),
    StableHlo.binary main_v11 main_v12 main_v13 (Host.divf : (⟨S256, .f32⟩ : BufTy).Contents (Elt F) → (⟨S256, .f32⟩ : BufTy).Contents (Elt F) → (⟨S256, .f32⟩ : BufTy).Contents (Elt F)),
    StableHlo.unary main_v6 main_v14 (broadcastInDim S1x256 ![1] bcast_S256_S1x256_1 : (⟨S256, .f32⟩ : BufTy).Contents (Elt F) → (⟨S1x256, .f32⟩ : BufTy).Contents (Elt F)),
    StableHlo.unary main_v14 main_v15 (broadcastInDim S50000x256 ![0, 1] bcast_S1x256_S50000x256_0_1 : (⟨S1x256, .f32⟩ : BufTy).Contents (Elt F) → (⟨S50000x256, .f32⟩ : BufTy).Contents (Elt F)),
    StableHlo.binary main_arg0 main_v15 main_v16 (subf : (⟨S50000x256, .f32⟩ : BufTy).Contents (Elt F) → (⟨S50000x256, .f32⟩ : BufTy).Contents (Elt F) → (⟨S50000x256, .f32⟩ : BufTy).Contents (Elt F)),
    StableHlo.nullary main_cst_3 (constant S_ .f32 0x3727C5AC#32),
    StableHlo.unary main_cst_3 main_v17 (broadcastInDim S256 ![] bcast_S_S256 : (⟨S_, .f32⟩ : BufTy).Contents (Elt F) → (⟨S256, .f32⟩ : BufTy).Contents (Elt F)),
    StableHlo.binary main_v13 main_v17 main_v18 (addf : (⟨S256, .f32⟩ : BufTy).Contents (Elt F) → (⟨S256, .f32⟩ : BufTy).Contents (Elt F) → (⟨S256, .f32⟩ : BufTy).Contents (Elt F)),
    StableHlo.unary main_v18 main_v19 (Host.rsqrt : (⟨S256, .f32⟩ : BufTy).Contents (Elt F) → (⟨S256, .f32⟩ : BufTy).Contents (Elt F)),
    StableHlo.unary main_v19 main_v20 (broadcastInDim S1x256 ![1] bcast_S256_S1x256_1 : (⟨S256, .f32⟩ : BufTy).Contents (Elt F) → (⟨S1x256, .f32⟩ : BufTy).Contents (Elt F)),
    StableHlo.unary main_v20 main_v21 (broadcastInDim S50000x256 ![0, 1] bcast_S1x256_S50000x256_0_1 : (⟨S1x256, .f32⟩ : BufTy).Contents (Elt F) → (⟨S50000x256, .f32⟩ : BufTy).Contents (Elt F)),
    StableHlo.binary main_v16 main_v21 main_v22 (mulf : (⟨S50000x256, .f32⟩ : BufTy).Contents (Elt F) → (⟨S50000x256, .f32⟩ : BufTy).Contents (Elt F) → (⟨S50000x256, .f32⟩ : BufTy).Contents (Elt F)),
    StableHlo.unary main_arg3 main_v23 (broadcastInDim S1x256 ![1] bcast_S256_S1x256_1 : (⟨S256, .f32⟩ : BufTy).Contents (Elt F) → (⟨S1x256, .f32⟩ : BufTy).Contents (Elt F)),
    StableHlo.unary main_v23 main_v24 (broadcastInDim S50000x256 ![0, 1] bcast_S1x256_S50000x256_0_1 : (⟨S1x256, .f32⟩ : BufTy).Contents (Elt F) → (⟨S50000x256, .f32⟩ : BufTy).Contents (Elt F)),
    StableHlo.binary main_v22 main_v24 main_v25 (mulf : (⟨S50000x256, .f32⟩ : BufTy).Contents (Elt F) → (⟨S50000x256, .f32⟩ : BufTy).Contents (Elt F) → (⟨S50000x256, .f32⟩ : BufTy).Contents (Elt F)),
    StableHlo.unary main_arg4 main_v26 (broadcastInDim S1x256 ![1] bcast_S256_S1x256_1 : (⟨S256, .f32⟩ : BufTy).Contents (Elt F) → (⟨S1x256, .f32⟩ : BufTy).Contents (Elt F)),
    StableHlo.unary main_v26 main_v27 (broadcastInDim S50000x256 ![0, 1] bcast_S1x256_S50000x256_0_1 : (⟨S1x256, .f32⟩ : BufTy).Contents (Elt F) → (⟨S50000x256, .f32⟩ : BufTy).Contents (Elt F)),
    StableHlo.binary main_v25 main_v27 main_v28 (addf : (⟨S50000x256, .f32⟩ : BufTy).Contents (Elt F) → (⟨S50000x256, .f32⟩ : BufTy).Contents (Elt F) → (⟨S50000x256, .f32⟩ : BufTy).Contents (Elt F)) ]

/-- Operation 35 of 349: the large matrix product that writes `main_v29`, alone. -/
abbrev dot0 : List (HloOp τ sig (Elt F)) :=
  [ StableHlo.binary main_v28 main_arg5 main_v29 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

/-- Operations 36 … 60 of 349 (within window `main_part0`). -/
abbrev seg1 : List (HloOp τ sig (Elt F)) :=
  [ StableHlo.nullary main_cst_4 (constant S_ .f32 0x3F800000#32),
    StableHlo.unary main_cst_4 main_v30 (broadcastInDim S800000 ![] bcast_S_S800000 : (⟨S_, .f32⟩ : BufTy).Contents (Elt F) → (⟨S800000, .f32⟩ : BufTy).Contents (Elt F)),
    StableHlo.nullary main_cst_5 (constant S_ .f32 0x00000000#32),
    StableHlo.unary main_cst_5 main_v31 (broadcastInDim S50000 ![] bcast_S_S50000 : (⟨S_, .f32⟩ : BufTy).Contents (Elt F) → (⟨S50000, .f32⟩ : BufTy).Contents (Elt F)),
    StableHlo.unary main_v3 main_v32 (broadcastInDim S800000x1 ![0] bcast_S800000_S800000x1_0 : (⟨S800000, .i32⟩ : BufTy).Contents (Elt F) → (⟨S800000x1, .i32⟩ : BufTy).Contents (Elt F)),
    StableHlo.ternary main_v31 main_v32 main_v30 main_v33 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_6 (constant S_ .f32 0x3F800000#32),
    StableHlo.unary main_cst_6 main_v34 (broadcastInDim S50000 ![] bcast_S_S50000 : (⟨S_, .f32⟩ : BufTy).Contents (Elt F) → (⟨S50000, .f32⟩ : BufTy).Contents (Elt F)),
    StableHlo.binary main_v33 main_v34 main_v35 (addf : (⟨S50000, .f32⟩ : BufTy).Contents (Elt F) → (⟨S50000, .f32⟩ : BufTy).Contents (Elt F) → (⟨S50000, .f32⟩ : BufTy).Contents (Elt F)),
    StableHlo.unary main_v35 main_v36 (Host.rsqrt : (⟨S50000, .f32⟩ : BufTy).Contents (Elt F) → (⟨S50000, .f32⟩ : BufTy).Contents (Elt F)),
    StableHlo.nullary main_c (constantI S_ 32 0#32),
    StableHlo.unary main_c main_v37 (broadcastInDim S800000 ![] bcast_S_S800000 : (⟨S_, .i32⟩ : BufTy).Contents (Elt F) → (⟨S800000, .i32⟩ : BufTy).Contents (Elt F)),
    StableHlo.binary main_v1 main_v37 main_v38 (cmpi .slt : (⟨S800000, .i32⟩ : BufTy).Contents (Elt F) → (⟨S800000, .i32⟩ : BufTy).Contents (Elt F) → (⟨S800000, .i1⟩ : BufTy).Contents (Elt F)),
    StableHlo.nullary main_c_7 (constantI S_ 32 50000#32),
    StableHlo.unary main_c_7 main_v39 (broadcastInDim S800000 ![] bcast_S_S800000 : (⟨S_, .i32⟩ : BufTy).Contents (Elt F) → (⟨S800000, .i32⟩ : BufTy).Contents (Elt F)),
    StableHlo.binary main_v1 main_v39 main_v40 (addi : (⟨S800000, .i32⟩ : BufTy).Contents (Elt F) → (⟨S800000, .i32⟩ : BufTy).Contents (Elt F) → (⟨S800000, .i32⟩ : BufTy).Contents (Elt F)),
    StableHlo.ternary main_v38 main_v40 main_v1 main_v41 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v41 main_v42 (broadcastInDim S800000x1 ![0] bcast_S800000_S800000x1_0 : (⟨S800000, .i32⟩ : BufTy).Contents (Elt F) → (⟨S800000x1, .i32⟩ : BufTy).Contents (Elt F)),
    StableHlo.binary main_v29 main_v42 main_v43 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_c_8 (constantI S_ 32 0#32),
    StableHlo.unary main_c_8 main_v44 (broadcastInDim S800000 ![] bcast_S_S800000 : (⟨S_, .i32⟩ : BufTy).Contents (Elt F) → (⟨S800000, .i32⟩ : BufTy).Contents (Elt F)),
    StableHlo.binary main_v1 main_v44 main_v45 (cmpi .slt : (⟨S800000, .i32⟩ : BufTy).Contents (Elt F) → (⟨S800000, .i32⟩ : BufTy).Contents (Elt F) → (⟨S800000, .i1⟩ : BufTy).Contents (Elt F)),
    StableHlo.nullary main_c_9 (constantI S_ 32 50000#32),
    StableHlo.unary main_c_9 main_v46 (broadcastInDim S800000 ![] bcast_S_S800000 : (⟨S_, .i32⟩ : BufTy).Contents (Elt F) → (⟨S800000, .i32⟩ : BufTy).Contents (Elt F)),
    StableHlo.binary main_v1 main_v46 main_v47 (addi : (⟨S800000, .i32⟩ : BufTy).Contents (Elt F) → (⟨S800000, .i32⟩ : BufTy).Contents (Elt F) → (⟨S800000, .i32⟩ : BufTy).Contents (Elt F)) ]

/-- Operations 61 … 121 of 349 (within window `main_part1`). -/
abbrev seg2 : List (HloOp τ sig (Elt F)) :=
  [ StableHlo.ternary main_v45 main_v47 main_v1 main_v48 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v48 main_v49 (broadcastInDim S800000x1 ![0] bcast_S800000_S800000x1_0 : (⟨S800000, .i32⟩ : BufTy).Contents (Elt F) → (⟨S800000x1, .i32⟩ : BufTy).Contents (Elt F)),
    StableHlo.binary main_v36 main_v49 main_v50 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_10 (constantI S_ 32 0#32),
    StableHlo.unary main_c_10 main_v51 (broadcastInDim S800000 ![] bcast_S_S800000 : (⟨S_, .i32⟩ : BufTy).Contents (Elt F) → (⟨S800000, .i32⟩ : BufTy).Contents (Elt F)),
    StableHlo.binary main_v3 main_v51 main_v52 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 50000#32),
    StableHlo.unary main_c_11 main_v53 (broadcastInDim S800000 ![] bcast_S_S800000 : (⟨S_, .i32⟩ : BufTy).Contents (Elt F) → (⟨S800000, .i32⟩ : BufTy).Contents (Elt F)),
    StableHlo.binary main_v3 main_v53 main_v54 (addi : (⟨S800000, .i32⟩ : BufTy).Contents (Elt F) → (⟨S800000, .i32⟩ : BufTy).Contents (Elt F) → (⟨S800000, .i32⟩ : BufTy).Contents (Elt F)),
    StableHlo.ternary main_v52 main_v54 main_v3 main_v55 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v55 main_v56 (broadcastInDim S800000x1 ![0] bcast_S800000_S800000x1_0 : (⟨S800000, .i32⟩ : BufTy).Contents (Elt F) → (⟨S800000x1, .i32⟩ : BufTy).Contents (Elt F)),
    StableHlo.binary main_v36 main_v56 main_v57 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v50 main_v57 main_v58 (mulf : (⟨S800000, .f32⟩ : BufTy).Contents (Elt F) → (⟨S800000, .f32⟩ : BufTy).Contents (Elt F) → (⟨S800000, .f32⟩ : BufTy).Contents (Elt F)),
    StableHlo.unary main_v58 main_v59 (broadcastInDim S800000x1 ![0] bcast_S800000_S800000x1_0 : (⟨S800000, .f32⟩ : BufTy).Contents (Elt F) → (⟨S800000x1, .f32⟩ : BufTy).Contents (Elt F)),
    StableHlo.unary main_v59 main_v60 (broadcastInDim S800000x256 ![0, 1] bcast_S800000x1_S800000x256_0_1 : (⟨S800000x1, .f32⟩ : BufTy).Contents (Elt F) → (⟨S800000x256, .f32⟩ : BufTy).Contents (Elt F)),
    StableHlo.binary main_v43 main_v60 main_v61 (mulf : (⟨S800000x256, .f32⟩ : BufTy).Contents (Elt F) → (⟨S800000x256, .f32⟩ : BufTy).Contents (Elt F) → (⟨S800000x256, .f32⟩ : BufTy).Contents (Elt F)),
    StableHlo.nullary main_cst_12 (constant S_ .f32 0x00000000#32),
    StableHlo.unary main_cst_12 main_v62 (broadcastInDim S50000x256 ![] bcast_S_S50000x256 : (⟨S_, .f32⟩ : BufTy).Contents (Elt F) → (⟨S50000x256, .f32⟩ : BufTy).Contents (Elt F)),
    StableHlo.unary main_v3 main_v63 (broadcastInDim S800000x1 ![0] bcast_S800000_S800000x1_0 : (⟨S800000, .i32⟩ : BufTy).Contents (Elt F) → (⟨S800000x1, .i32⟩ : BufTy).Contents (Elt F)),
    StableHlo.ternary main_v62 main_v63 main_v61 main_v64 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v36 main_v36 main_v65 (mulf : (⟨S50000, .f32⟩ : BufTy).Contents (Elt F) → (⟨S50000, .f32⟩ : BufTy).Contents (Elt F) → (⟨S50000, .f32⟩ : BufTy).Contents (Elt F)),
    StableHlo.unary main_v65 main_v66 (broadcastInDim S50000x1 ![0] bcast_S50000_S50000x1_0 : (⟨S50000, .f32⟩ : BufTy).Contents (Elt F) → (⟨S50000x1, .f32⟩ : BufTy).Contents (Elt F)),
    StableHlo.unary main_v66 main_v67 (broadcastInDim S50000x256 ![0, 1] bcast_S50000x1_S50000x256_0_1 : (⟨S50000x1, .f32⟩ : BufTy).Contents (Elt F) → (⟨S50000x256, .f32⟩ : BufTy).Contents (Elt F)),
    StableHlo.binary main_v29 main_v67 main_v68 (mulf : (⟨S50000x256, .f32⟩ : BufTy).Contents (Elt F) → (⟨S50000x256, .f32⟩ : BufTy).Contents (Elt F) → (⟨S50000x256, .f32⟩ : BufTy).Contents (Elt F)),
    StableHlo.binary main_v64 main_v68 main_v69 (addf : (⟨S50000x256, .f32⟩ : BufTy).Contents (Elt F) → (⟨S50000x256, .f32⟩ : BufTy).Contents (Elt F) → (⟨S50000x256, .f32⟩ : BufTy).Contents (Elt F)),
    StableHlo.unary main_arg6 main_v70 (broadcastInDim S1x256 ![1] bcast_S256_S1x256_1 : (⟨S256, .f32⟩ : BufTy).Contents (Elt F) → (⟨S1x256, .f32⟩ : BufTy).Contents (Elt F)),
    StableHlo.unary main_v70 main_v71 (broadcastInDim S50000x256 ![0, 1] bcast_S1x256_S50000x256_0_1 : (⟨S1x256, .f32⟩ : BufTy).Contents (Elt F) → (⟨S50000x256, .f32⟩ : BufTy).Contents (Elt F)),
    StableHlo.binary main_v69 main_v71 main_v72 (addf : (⟨S50000x256, .f32⟩ : BufTy).Contents (Elt F) → (⟨S50000x256, .f32⟩ : BufTy).Contents (Elt F) → (⟨S50000x256, .f32⟩ : BufTy).Contents (Elt F)),
    StableHlo.TRef.nullary main_call0.cst (constant S_ .f32 0x00000000#32),
    StableHlo.TRef.unary main_call0.cst main_call0.v0 (broadcastInDim S50000x256 ![] bcast_S_S50000x256),
    StableHlo.TRef.binary (.of main_v72 : StableHlo.TRef sig ⟨S50000x256, .f32⟩) main_call0.v0 main_call0.v1 maximumf,
    StableHlo.nullary main_cst_13 (constant S_ .f32 0x00000000#32),
    StableHlo.binary main_v73 main_cst_13 main_v74 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_14 (constant S_ .f32 0x47435000#32),
    StableHlo.unary main_cst_14 main_v75 (broadcastInDim S256 ![] bcast_S_S256 : (⟨S_, .f32⟩ : BufTy).Contents (Elt F) → (⟨S256, .f32⟩ : BufTy).Contents (Elt F)),
    StableHlo.binary main_v74 main_v75 main_v76 (Host.divf : (⟨S256, .f32⟩ : BufTy).Contents (Elt F) → (⟨S256, .f32⟩ : BufTy).Contents (Elt F) → (⟨S256, .f32⟩ : BufTy).Contents (Elt F)),
    StableHlo.unary main_v76 main_v77 (broadcastInDim S1x256 ![1] bcast_S256_S1x256_1 : (⟨S256, .f32⟩ : BufTy).Contents (Elt F) → (⟨S1x256, .f32⟩ : BufTy).Contents (Elt F)),
    StableHlo.unary main_v77 main_v78 (broadcastInDim S50000x256 ![0, 1] bcast_S1x256_S50000x256_0_1 : (⟨S1x256, .f32⟩ : BufTy).Contents (Elt F) → (⟨S50000x256, .f32⟩ : BufTy).Contents (Elt F)),
    StableHlo.binary main_v73 main_v78 main_v79 (subf : (⟨S50000x256, .f32⟩ : BufTy).Contents (Elt F) → (⟨S50000x256, .f32⟩ : BufTy).Contents (Elt F) → (⟨S50000x256, .f32⟩ : BufTy).Contents (Elt F)),
    StableHlo.binary main_v79 main_v79 main_v80 (mulf : (⟨S50000x256, .f32⟩ : BufTy).Contents (Elt F) → (⟨S50000x256, .f32⟩ : BufTy).Contents (Elt F) → (⟨S50000x256, .f32⟩ : BufTy).Contents (Elt F)),
    StableHlo.nullary main_cst_15 (constant S_ .f32 0x00000000#32),
    StableHlo.binary main_v80 main_cst_15 main_v81 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_16 (constant S_ .f32 0x47435000#32),
    StableHlo.unary main_cst_16 main_v82 (broadcastInDim S256 ![] bcast_S_S256 : (⟨S_, .f32⟩ : BufTy).Contents (Elt F) → (⟨S256, .f32⟩ : BufTy).Contents (Elt F)),
    StableHlo.binary main_v81 main_v82 main_v83 (Host.divf : (⟨S256, .f32⟩ : BufTy).Contents (Elt F) → (⟨S256, .f32⟩ : BufTy).Contents (Elt F) → (⟨S256, .f32⟩ : BufTy).Contents (Elt F)),
    StableHlo.unary main_v76 main_v84 (broadcastInDim S1x256 ![1] bcast_S256_S1x256_1 : (⟨S256, .f32⟩ : BufTy).Contents (Elt F) → (⟨S1x256, .f32⟩ : BufTy).Contents (Elt F)),
    StableHlo.unary main_v84 main_v85 (broadcastInDim S50000x256 ![0, 1] bcast_S1x256_S50000x256_0_1 : (⟨S1x256, .f32⟩ : BufTy).Contents (Elt F) → (⟨S50000x256, .f32⟩ : BufTy).Contents (Elt F)),
    StableHlo.binary main_v73 main_v85 main_v86 (subf : (⟨S50000x256, .f32⟩ : BufTy).Contents (Elt F) → (⟨S50000x256, .f32⟩ : BufTy).Contents (Elt F) → (⟨S50000x256, .f32⟩ : BufTy).Contents (Elt F)),
    StableHlo.nullary main_cst_17 (constant S_ .f32 0x3727C5AC#32),
    StableHlo.unary main_cst_17 main_v87 (broadcastInDim S256 ![] bcast_S_S256 : (⟨S_, .f32⟩ : BufTy).Contents (Elt F) → (⟨S256, .f32⟩ : BufTy).Contents (Elt F)),
    StableHlo.binary main_v83 main_v87 main_v88 (addf : (⟨S256, .f32⟩ : BufTy).Contents (Elt F) → (⟨S256, .f32⟩ : BufTy).Contents (Elt F) → (⟨S256, .f32⟩ : BufTy).Contents (Elt F)),
    StableHlo.unary main_v88 main_v89 (Host.rsqrt : (⟨S256, .f32⟩ : BufTy).Contents (Elt F) → (⟨S256, .f32⟩ : BufTy).Contents (Elt F)),
    StableHlo.unary main_v89 main_v90 (broadcastInDim S1x256 ![1] bcast_S256_S1x256_1 : (⟨S256, .f32⟩ : BufTy).Contents (Elt F) → (⟨S1x256, .f32⟩ : BufTy).Contents (Elt F)),
    StableHlo.unary main_v90 main_v91 (broadcastInDim S50000x256 ![0, 1] bcast_S1x256_S50000x256_0_1 : (⟨S1x256, .f32⟩ : BufTy).Contents (Elt F) → (⟨S50000x256, .f32⟩ : BufTy).Contents (Elt F)),
    StableHlo.binary main_v86 main_v91 main_v92 (mulf : (⟨S50000x256, .f32⟩ : BufTy).Contents (Elt F) → (⟨S50000x256, .f32⟩ : BufTy).Contents (Elt F) → (⟨S50000x256, .f32⟩ : BufTy).Contents (Elt F)),
    StableHlo.unary main_arg7 main_v93 (broadcastInDim S1x256 ![1] bcast_S256_S1x256_1 : (⟨S256, .f32⟩ : BufTy).Contents (Elt F) → (⟨S1x256, .f32⟩ : BufTy).Contents (Elt F)),
    StableHlo.unary main_v93 main_v94 (broadcastInDim S50000x256 ![0, 1] bcast_S1x256_S50000x256_0_1 : (⟨S1x256, .f32⟩ : BufTy).Contents (Elt F) → (⟨S50000x256, .f32⟩ : BufTy).Contents (Elt F)),
    StableHlo.binary main_v92 main_v94 main_v95 (mulf : (⟨S50000x256, .f32⟩ : BufTy).Contents (Elt F) → (⟨S50000x256, .f32⟩ : BufTy).Contents (Elt F) → (⟨S50000x256, .f32⟩ : BufTy).Contents (Elt F)),
    StableHlo.unary main_arg8 main_v96 (broadcastInDim S1x256 ![1] bcast_S256_S1x256_1 : (⟨S256, .f32⟩ : BufTy).Contents (Elt F) → (⟨S1x256, .f32⟩ : BufTy).Contents (Elt F)),
    StableHlo.unary main_v96 main_v97 (broadcastInDim S50000x256 ![0, 1] bcast_S1x256_S50000x256_0_1 : (⟨S1x256, .f32⟩ : BufTy).Contents (Elt F) → (⟨S50000x256, .f32⟩ : BufTy).Contents (Elt F)),
    StableHlo.binary main_v95 main_v97 main_v98 (addf : (⟨S50000x256, .f32⟩ : BufTy).Contents (Elt F) → (⟨S50000x256, .f32⟩ : BufTy).Contents (Elt F) → (⟨S50000x256, .f32⟩ : BufTy).Contents (Elt F)) ]

/-- Operation 122 of 349: the large matrix product that writes `main_v99`, alone. -/
abbrev dot1 : List (HloOp τ sig (Elt F)) :=
  [ StableHlo.binary main_v98 main_arg9 main_v99 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

/-- Operations 123 … 184 of 349 (within window `main_part2`). -/
abbrev seg3 : List (HloOp τ sig (Elt F)) :=
  [ StableHlo.nullary main_cst_18 (constant S_ .f32 0x3F800000#32),
    StableHlo.unary main_cst_18 main_v100 (broadcastInDim S800000 ![] bcast_S_S800000 : (⟨S_, .f32⟩ : BufTy).Contents (Elt F) → (⟨S800000, .f32⟩ : BufTy).Contents (Elt F)),
    StableHlo.nullary main_cst_19 (constant S_ .f32 0x00000000#32),
    StableHlo.unary main_cst_19 main_v101 (broadcastInDim S50000 ![] bcast_S_S50000 : (⟨S_, .f32⟩ : BufTy).Contents (Elt F) → (⟨S50000, .f32⟩ : BufTy).Contents (Elt F)),
    StableHlo.unary main_v3 main_v102 (broadcastInDim S800000x1 ![0] bcast_S800000_S800000x1_0 : (⟨S800000, .i32⟩ : BufTy).Contents (Elt F) → (⟨S800000x1, .i32⟩ : BufTy).Contents (Elt F)),
    StableHlo.ternary main_v101 main_v102 main_v100 main_v103 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_20 (constant S_ .f32 0x3F800000#32),
    StableHlo.unary main_cst_20 main_v104 (broadcastInDim S50000 ![] bcast_S_S50000 : (⟨S_, .f32⟩ : BufTy).Contents (Elt F) → (⟨S50000, .f32⟩ : BufTy).Contents (Elt F)),
    StableHlo.binary main_v103 main_v104 main_v105 (addf : (⟨S50000, .f32⟩ : BufTy).Contents (Elt F) → (⟨S50000, .f32⟩ : BufTy).Contents (Elt F) → (⟨S50000, .f32⟩ : BufTy).Contents (Elt F)),
    StableHlo.unary main_v105 main_v106 (Host.rsqrt : (⟨S50000, .f32⟩ : BufTy).Contents (Elt F) → (⟨S50000, .f32⟩ : BufTy).Contents (Elt F)),
    StableHlo.nullary main_c_21 (constantI S_ 32 0#32),
    StableHlo.unary main_c_21 main_v107 (broadcastInDim S800000 ![] bcast_S_S800000 : (⟨S_, .i32⟩ : BufTy).Contents (Elt F) → (⟨S800000, .i32⟩ : BufTy).Contents (Elt F)),
    StableHlo.binary main_v1 main_v107 main_v108 (cmpi .slt : (⟨S800000, .i32⟩ : BufTy).Contents (Elt F) → (⟨S800000, .i32⟩ : BufTy).Contents (Elt F) → (⟨S800000, .i1⟩ : BufTy).Contents (Elt F)),
    StableHlo.nullary main_c_22 (constantI S_ 32 50000#32),
    StableHlo.unary main_c_22 main_v109 (broadcastInDim S800000 ![] bcast_S_S800000 : (⟨S_, .i32⟩ : BufTy).Contents (Elt F) → (⟨S800000, .i32⟩ : BufTy).Contents (Elt F)),
    StableHlo.binary main_v1 main_v109 main_v110 (addi : (⟨S800000, .i32⟩ : BufTy).Contents (Elt F) → (⟨S800000, .i32⟩ : BufTy).Contents (Elt F) → (⟨S800000, .i32⟩ : BufTy).Contents (Elt F)),
    StableHlo.ternary main_v108 main_v110 main_v1 main_v111 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v111 main_v112 (broadcastInDim S800000x1 ![0] bcast_S800000_S800000x1_0 : (⟨S800000, .i32⟩ : BufTy).Contents (Elt F) → (⟨S800000x1, .i32⟩ : BufTy).Contents (Elt F)),
    StableHlo.binary main_v99 main_v112 main_v113 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_c_23 (constantI S_ 32 0#32),
    StableHlo.unary main_c_23 main_v114 (broadcastInDim S800000 ![] bcast_S_S800000 : (⟨S_, .i32⟩ : BufTy).Contents (Elt F) → (⟨S800000, .i32⟩ : BufTy).Contents (Elt F)),
    StableHlo.binary main_v1 main_v114 main_v115 (cmpi .slt : (⟨S800000, .i32⟩ : BufTy).Contents (Elt F) → (⟨S800000, .i32⟩ : BufTy).Contents (Elt F) → (⟨S800000, .i1⟩ : BufTy).Contents (Elt F)),
    StableHlo.nullary main_c_24 (constantI S_ 32 50000#32),
    StableHlo.unary main_c_24 main_v116 (broadcastInDim S800000 ![] bcast_S_S800000 : (⟨S_, .i32⟩ : BufTy).Contents (Elt F) → (⟨S800000, .i32⟩ : BufTy).Contents (Elt F)),
    StableHlo.binary main_v1 main_v116 main_v117 (addi : (⟨S800000, .i32⟩ : BufTy).Contents (Elt F) → (⟨S800000, .i32⟩ : BufTy).Contents (Elt F) → (⟨S800000, .i32⟩ : BufTy).Contents (Elt F)),
    StableHlo.ternary main_v115 main_v117 main_v1 main_v118 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v118 main_v119 (broadcastInDim S800000x1 ![0] bcast_S800000_S800000x1_0 : (⟨S800000, .i32⟩ : BufTy).Contents (Elt F) → (⟨S800000x1, .i32⟩ : BufTy).Contents (Elt F)),
    StableHlo.binary main_v106 main_v119 main_v120 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_25 (constantI S_ 32 0#32),
    StableHlo.unary main_c_25 main_v121 (broadcastInDim S800000 ![] bcast_S_S800000 : (⟨S_, .i32⟩ : BufTy).Contents (Elt F) → (⟨S800000, .i32⟩ : BufTy).Contents (Elt F)),
    StableHlo.binary main_v3 main_v121 main_v122 (cmpi .slt : (⟨S800000, .i32⟩ : BufTy).Contents (Elt F) → (⟨S800000, .i32⟩ : BufTy).Contents (Elt F) → (⟨S800000, .i1⟩ : BufTy).Contents (Elt F)),
    StableHlo.nullary main_c_26 (constantI S_ 32 50000#32),
    StableHlo.unary main_c_26 main_v123 (broadcastInDim S800000 ![] bcast_S_S800000 : (⟨S_, .i32⟩ : BufTy).Contents (Elt F) → (⟨S800000, .i32⟩ : BufTy).Contents (Elt F)),
    StableHlo.binary main_v3 main_v123 main_v124 (addi : (⟨S800000, .i32⟩ : BufTy).Contents (Elt F) → (⟨S800000, .i32⟩ : BufTy).Contents (Elt F) → (⟨S800000, .i32⟩ : BufTy).Contents (Elt F)),
    StableHlo.ternary main_v122 main_v124 main_v3 main_v125 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v125 main_v126 (broadcastInDim S800000x1 ![0] bcast_S800000_S800000x1_0 : (⟨S800000, .i32⟩ : BufTy).Contents (Elt F) → (⟨S800000x1, .i32⟩ : BufTy).Contents (Elt F)),
    StableHlo.binary main_v106 main_v126 main_v127 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v120 main_v127 main_v128 (mulf : (⟨S800000, .f32⟩ : BufTy).Contents (Elt F) → (⟨S800000, .f32⟩ : BufTy).Contents (Elt F) → (⟨S800000, .f32⟩ : BufTy).Contents (Elt F)),
    StableHlo.unary main_v128 main_v129 (broadcastInDim S800000x1 ![0] bcast_S800000_S800000x1_0 : (⟨S800000, .f32⟩ : BufTy).Contents (Elt F) → (⟨S800000x1, .f32⟩ : BufTy).Contents (Elt F)),
    StableHlo.unary main_v129 main_v130 (broadcastInDim S800000x256 ![0, 1] bcast_S800000x1_S800000x256_0_1 : (⟨S800000x1, .f32⟩ : BufTy).Contents (Elt F) → (⟨S800000x256, .f32⟩ : BufTy).Contents (Elt F)),
    StableHlo.binary main_v113 main_v130 main_v131 (mulf : (⟨S800000x256, .f32⟩ : BufTy).Contents (Elt F) → (⟨S800000x256, .f32⟩ : BufTy).Contents (Elt F) → (⟨S800000x256, .f32⟩ : BufTy).Contents (Elt F)),
    StableHlo.nullary main_cst_27 (constant S_ .f32 0x00000000#32),
    StableHlo.unary main_cst_27 main_v132 (broadcastInDim S50000x256 ![] bcast_S_S50000x256 : (⟨S_, .f32⟩ : BufTy).Contents (Elt F) → (⟨S50000x256, .f32⟩ : BufTy).Contents (Elt F)),
    StableHlo.unary main_v3 main_v133 (broadcastInDim S800000x1 ![0] bcast_S800000_S800000x1_0 : (⟨S800000, .i32⟩ : BufTy).Contents (Elt F) → (⟨S800000x1, .i32⟩ : BufTy).Contents (Elt F)),
    StableHlo.ternary main_v132 main_v133 main_v131 main_v134 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v106 main_v106 main_v135 (mulf : (⟨S50000, .f32⟩ : BufTy).Contents (Elt F) → (⟨S50000, .f32⟩ : BufTy).Contents (Elt F) → (⟨S50000, .f32⟩ : BufTy).Contents (Elt F)),
    StableHlo.unary main_v135 main_v136 (broadcastInDim S50000x1 ![0] bcast_S50000_S50000x1_0 : (⟨S50000, .f32⟩ : BufTy).Contents (Elt F) → (⟨S50000x1, .f32⟩ : BufTy).Contents (Elt F)),
    StableHlo.unary main_v136 main_v137 (broadcastInDim S50000x256 ![0, 1] bcast_S50000x1_S50000x256_0_1 : (⟨S50000x1, .f32⟩ : BufTy).Contents (Elt F) → (⟨S50000x256, .f32⟩ : BufTy).Contents (Elt F)),
    StableHlo.binary main_v99 main_v137 main_v138 (mulf : (⟨S50000x256, .f32⟩ : BufTy).Contents (Elt F) → (⟨S50000x256, .f32⟩ : BufTy).Contents (Elt F) → (⟨S50000x256, .f32⟩ : BufTy).Contents (Elt F)),
    StableHlo.binary main_v134 main_v138 main_v139 (addf : (⟨S50000x256, .f32⟩ : BufTy).Contents (Elt F) → (⟨S50000x256, .f32⟩ : BufTy).Contents (Elt F) → (⟨S50000x256, .f32⟩ : BufTy).Contents (Elt F)),
    StableHlo.unary main_arg10 main_v140 (broadcastInDim S1x256 ![1] bcast_S256_S1x256_1 : (⟨S256, .f32⟩ : BufTy).Contents (Elt F) → (⟨S1x256, .f32⟩ : BufTy).Contents (Elt F)),
    StableHlo.unary main_v140 main_v141 (broadcastInDim S50000x256 ![0, 1] bcast_S1x256_S50000x256_0_1 : (⟨S1x256, .f32⟩ : BufTy).Contents (Elt F) → (⟨S50000x256, .f32⟩ : BufTy).Contents (Elt F)),
    StableHlo.binary main_v139 main_v141 main_v142 (addf : (⟨S50000x256, .f32⟩ : BufTy).Contents (Elt F) → (⟨S50000x256, .f32⟩ : BufTy).Contents (Elt F) → (⟨S50000x256, .f32⟩ : BufTy).Contents (Elt F)),
    StableHlo.TRef.nullary main_call1.cst (constant S_ .f32 0x00000000#32),
    StableHlo.TRef.unary main_call1.cst main_call1.v0 (broadcastInDim S50000x256 ![] bcast_S_S50000x256),
    StableHlo.TRef.binary (.of main_v142 : StableHlo.TRef sig ⟨S50000x256, .f32⟩) main_call1.v0 main_call1.v1 maximumf,
    StableHlo.nullary main_cst_28 (constant S_ .f32 0x00000000#32),
    StableHlo.binary main_v143 main_cst_28 main_v144 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_29 (constant S_ .f32 0x47435000#32),
    StableHlo.unary main_cst_29 main_v145 (broadcastInDim S256 ![] bcast_S_S256 : (⟨S_, .f32⟩ : BufTy).Contents (Elt F) → (⟨S256, .f32⟩ : BufTy).Contents (Elt F)),
    StableHlo.binary main_v144 main_v145 main_v146 (Host.divf : (⟨S256, .f32⟩ : BufTy).Contents (Elt F) → (⟨S256, .f32⟩ : BufTy).Contents (Elt F) → (⟨S256, .f32⟩ : BufTy).Contents (Elt F)),
    StableHlo.unary main_v146 main_v147 (broadcastInDim S1x256 ![1] bcast_S256_S1x256_1 : (⟨S256, .f32⟩ : BufTy).Contents (Elt F) → (⟨S1x256, .f32⟩ : BufTy).Contents (Elt F)) ]

/-- Operations 185 … 209 of 349 (within window `main_part3`). -/
abbrev seg4 : List (HloOp τ sig (Elt F)) :=
  [ StableHlo.unary main_v147 main_v148 (broadcastInDim S50000x256 ![0, 1] bcast_S1x256_S50000x256_0_1 : (⟨S1x256, .f32⟩ : BufTy).Contents (Elt F) → (⟨S50000x256, .f32⟩ : BufTy).Contents (Elt F)),
    StableHlo.binary main_v143 main_v148 main_v149 (subf : (⟨S50000x256, .f32⟩ : BufTy).Contents (Elt F) → (⟨S50000x256, .f32⟩ : BufTy).Contents (Elt F) → (⟨S50000x256, .f32⟩ : BufTy).Contents (Elt F)),
    StableHlo.binary main_v149 main_v149 main_v150 (mulf : (⟨S50000x256, .f32⟩ : BufTy).Contents (Elt F) → (⟨S50000x256, .f32⟩ : BufTy).Contents (Elt F) → (⟨S50000x256, .f32⟩ : BufTy).Contents (Elt F)),
    StableHlo.nullary main_cst_30 (constant S_ .f32 0x00000000#32),
    StableHlo.binary main_v150 main_cst_30 main_v151 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_31 (constant S_ .f32 0x47435000#32),
    StableHlo.unary main_cst_31 main_v152 (broadcastInDim S256 ![] bcast_S_S256 : (⟨S_, .f32⟩ : BufTy).Contents (Elt F) → (⟨S256, .f32⟩ : BufTy).Contents (Elt F)),
    StableHlo.binary main_v151 main_v152 main_v153 (Host.divf : (⟨S256, .f32⟩ : BufTy).Contents (Elt F) → (⟨S256, .f32⟩ : BufTy).Contents (Elt F) → (⟨S256, .f32⟩ : BufTy).Contents (Elt F)),
    StableHlo.unary main_v146 main_v154 (broadcastInDim S1x256 ![1] bcast_S256_S1x256_1 : (⟨S256, .f32⟩ : BufTy).Contents (Elt F) → (⟨S1x256, .f32⟩ : BufTy).Contents (Elt F)),
    StableHlo.unary main_v154 main_v155 (broadcastInDim S50000x256 ![0, 1] bcast_S1x256_S50000x256_0_1 : (⟨S1x256, .f32⟩ : BufTy).Contents (Elt F) → (⟨S50000x256, .f32⟩ : BufTy).Contents (Elt F)),
    StableHlo.binary main_v143 main_v155 main_v156 (subf : (⟨S50000x256, .f32⟩ : BufTy).Contents (Elt F) → (⟨S50000x256, .f32⟩ : BufTy).Contents (Elt F) → (⟨S50000x256, .f32⟩ : BufTy).Contents (Elt F)),
    StableHlo.nullary main_cst_32 (constant S_ .f32 0x3727C5AC#32),
    StableHlo.unary main_cst_32 main_v157 (broadcastInDim S256 ![] bcast_S_S256 : (⟨S_, .f32⟩ : BufTy).Contents (Elt F) → (⟨S256, .f32⟩ : BufTy).Contents (Elt F)),
    StableHlo.binary main_v153 main_v157 main_v158 (addf : (⟨S256, .f32⟩ : BufTy).Contents (Elt F) → (⟨S256, .f32⟩ : BufTy).Contents (Elt F) → (⟨S256, .f32⟩ : BufTy).Contents (Elt F)),
    StableHlo.unary main_v158 main_v159 (Host.rsqrt : (⟨S256, .f32⟩ : BufTy).Contents (Elt F) → (⟨S256, .f32⟩ : BufTy).Contents (Elt F)),
    StableHlo.unary main_v159 main_v160 (broadcastInDim S1x256 ![1] bcast_S256_S1x256_1 : (⟨S256, .f32⟩ : BufTy).Contents (Elt F) → (⟨S1x256, .f32⟩ : BufTy).Contents (Elt F)),
    StableHlo.unary main_v160 main_v161 (broadcastInDim S50000x256 ![0, 1] bcast_S1x256_S50000x256_0_1 : (⟨S1x256, .f32⟩ : BufTy).Contents (Elt F) → (⟨S50000x256, .f32⟩ : BufTy).Contents (Elt F)),
    StableHlo.binary main_v156 main_v161 main_v162 (mulf : (⟨S50000x256, .f32⟩ : BufTy).Contents (Elt F) → (⟨S50000x256, .f32⟩ : BufTy).Contents (Elt F) → (⟨S50000x256, .f32⟩ : BufTy).Contents (Elt F)),
    StableHlo.unary main_arg11 main_v163 (broadcastInDim S1x256 ![1] bcast_S256_S1x256_1 : (⟨S256, .f32⟩ : BufTy).Contents (Elt F) → (⟨S1x256, .f32⟩ : BufTy).Contents (Elt F)),
    StableHlo.unary main_v163 main_v164 (broadcastInDim S50000x256 ![0, 1] bcast_S1x256_S50000x256_0_1 : (⟨S1x256, .f32⟩ : BufTy).Contents (Elt F) → (⟨S50000x256, .f32⟩ : BufTy).Contents (Elt F)),
    StableHlo.binary main_v162 main_v164 main_v165 (mulf : (⟨S50000x256, .f32⟩ : BufTy).Contents (Elt F) → (⟨S50000x256, .f32⟩ : BufTy).Contents (Elt F) → (⟨S50000x256, .f32⟩ : BufTy).Contents (Elt F)),
    StableHlo.unary main_arg12 main_v166 (broadcastInDim S1x256 ![1] bcast_S256_S1x256_1 : (⟨S256, .f32⟩ : BufTy).Contents (Elt F) → (⟨S1x256, .f32⟩ : BufTy).Contents (Elt F)),
    StableHlo.unary main_v166 main_v167 (broadcastInDim S50000x256 ![0, 1] bcast_S1x256_S50000x256_0_1 : (⟨S1x256, .f32⟩ : BufTy).Contents (Elt F) → (⟨S50000x256, .f32⟩ : BufTy).Contents (Elt F)),
    StableHlo.binary main_v165 main_v167 main_v168 (addf : (⟨S50000x256, .f32⟩ : BufTy).Contents (Elt F) → (⟨S50000x256, .f32⟩ : BufTy).Contents (Elt F) → (⟨S50000x256, .f32⟩ : BufTy).Contents (Elt F)),
    StableHlo.binary main_v168 main_v98 main_v169 (addf : (⟨S50000x256, .f32⟩ : BufTy).Contents (Elt F) → (⟨S50000x256, .f32⟩ : BufTy).Contents (Elt F) → (⟨S50000x256, .f32⟩ : BufTy).Contents (Elt F)) ]

/-- Operation 210 of 349: the large matrix product that writes `main_v170`, alone. -/
abbrev dot2 : List (HloOp τ sig (Elt F)) :=
  [ StableHlo.binary main_v169 main_arg13 main_v170 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)) ]

/-- Operations 211 … 244 of 349 (within window `main_part3`). -/
abbrev seg5 : List (HloOp τ sig (Elt F)) :=
  [ StableHlo.nullary main_cst_33 (constant S_ .f32 0x3F800000#32),
    StableHlo.unary main_cst_33 main_v171 (broadcastInDim S800000 ![] bcast_S_S800000 : (⟨S_, .f32⟩ : BufTy).Contents (Elt F) → (⟨S800000, .f32⟩ : BufTy).Contents (Elt F)),
    StableHlo.nullary main_cst_34 (constant S_ .f32 0x00000000#32),
    StableHlo.unary main_cst_34 main_v172 (broadcastInDim S50000 ![] bcast_S_S50000 : (⟨S_, .f32⟩ : BufTy).Contents (Elt F) → (⟨S50000, .f32⟩ : BufTy).Contents (Elt F)),
    StableHlo.unary main_v3 main_v173 (broadcastInDim S800000x1 ![0] bcast_S800000_S800000x1_0 : (⟨S800000, .i32⟩ : BufTy).Contents (Elt F) → (⟨S800000x1, .i32⟩ : BufTy).Contents (Elt F)),
    StableHlo.ternary main_v172 main_v173 main_v171 main_v174 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_35 (constant S_ .f32 0x3F800000#32),
    StableHlo.unary main_cst_35 main_v175 (broadcastInDim S50000 ![] bcast_S_S50000 : (⟨S_, .f32⟩ : BufTy).Contents (Elt F) → (⟨S50000, .f32⟩ : BufTy).Contents (Elt F)),
    StableHlo.binary main_v174 main_v175 main_v176 (addf : (⟨S50000, .f32⟩ : BufTy).Contents (Elt F) → (⟨S50000, .f32⟩ : BufTy).Contents (Elt F) → (⟨S50000, .f32⟩ : BufTy).Contents (Elt F)),
    StableHlo.unary main_v176 main_v177 (Host.rsqrt : (⟨S50000, .f32⟩ : BufTy).Contents (Elt F) → (⟨S50000, .f32⟩ : BufTy).Contents (Elt F)),
    StableHlo.nullary main_c_36 (constantI S_ 32 0#32),
    StableHlo.unary main_c_36 main_v178 (broadcastInDim S800000 ![] bcast_S_S800000 : (⟨S_, .i32⟩ : BufTy).Contents (Elt F) → (⟨S800000, .i32⟩ : BufTy).Contents (Elt F)),
    StableHlo.binary main_v1 main_v178 main_v179 (cmpi .slt : (⟨S800000, .i32⟩ : BufTy).Contents (Elt F) → (⟨S800000, .i32⟩ : BufTy).Contents (Elt F) → (⟨S800000, .i1⟩ : BufTy).Contents (Elt F)),
    StableHlo.nullary main_c_37 (constantI S_ 32 50000#32),
    StableHlo.unary main_c_37 main_v180 (broadcastInDim S800000 ![] bcast_S_S800000 : (⟨S_, .i32⟩ : BufTy).Contents (Elt F) → (⟨S800000, .i32⟩ : BufTy).Contents (Elt F)),
    StableHlo.binary main_v1 main_v180 main_v181 (addi : (⟨S800000, .i32⟩ : BufTy).Contents (Elt F) → (⟨S800000, .i32⟩ : BufTy).Contents (Elt F) → (⟨S800000, .i32⟩ : BufTy).Contents (Elt F)),
    StableHlo.ternary main_v179 main_v181 main_v1 main_v182 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v182 main_v183 (broadcastInDim S800000x1 ![0] bcast_S800000_S800000x1_0 : (⟨S800000, .i32⟩ : BufTy).Contents (Elt F) → (⟨S800000x1, .i32⟩ : BufTy).Contents (Elt F)),
    StableHlo.binary main_v170 main_v183 main_v184 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_c_38 (constantI S_ 32 0#32),
    StableHlo.unary main_c_38 main_v185 (broadcastInDim S800000 ![] bcast_S_S800000 : (⟨S_, .i32⟩ : BufTy).Contents (Elt F) → (⟨S800000, .i32⟩ : BufTy).Contents (Elt F)),
    StableHlo.binary main_v1 main_v185 main_v186 (cmpi .slt : (⟨S800000, .i32⟩ : BufTy).Contents (Elt F) → (⟨S800000, .i32⟩ : BufTy).Contents (Elt F) → (⟨S800000, .i1⟩ : BufTy).Contents (Elt F)),
    StableHlo.nullary main_c_39 (constantI S_ 32 50000#32),
    StableHlo.unary main_c_39 main_v187 (broadcastInDim S800000 ![] bcast_S_S800000 : (⟨S_, .i32⟩ : BufTy).Contents (Elt F) → (⟨S800000, .i32⟩ : BufTy).Contents (Elt F)),
    StableHlo.binary main_v1 main_v187 main_v188 (addi : (⟨S800000, .i32⟩ : BufTy).Contents (Elt F) → (⟨S800000, .i32⟩ : BufTy).Contents (Elt F) → (⟨S800000, .i32⟩ : BufTy).Contents (Elt F)),
    StableHlo.ternary main_v186 main_v188 main_v1 main_v189 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v189 main_v190 (broadcastInDim S800000x1 ![0] bcast_S800000_S800000x1_0 : (⟨S800000, .i32⟩ : BufTy).Contents (Elt F) → (⟨S800000x1, .i32⟩ : BufTy).Contents (Elt F)),
    StableHlo.binary main_v177 main_v190 main_v191 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_40 (constantI S_ 32 0#32),
    StableHlo.unary main_c_40 main_v192 (broadcastInDim S800000 ![] bcast_S_S800000 : (⟨S_, .i32⟩ : BufTy).Contents (Elt F) → (⟨S800000, .i32⟩ : BufTy).Contents (Elt F)),
    StableHlo.binary main_v3 main_v192 main_v193 (cmpi .slt : (⟨S800000, .i32⟩ : BufTy).Contents (Elt F) → (⟨S800000, .i32⟩ : BufTy).Contents (Elt F) → (⟨S800000, .i1⟩ : BufTy).Contents (Elt F)),
    StableHlo.nullary main_c_41 (constantI S_ 32 50000#32),
    StableHlo.unary main_c_41 main_v194 (broadcastInDim S800000 ![] bcast_S_S800000 : (⟨S_, .i32⟩ : BufTy).Contents (Elt F) → (⟨S800000, .i32⟩ : BufTy).Contents (Elt F)),
    StableHlo.binary main_v3 main_v194 main_v195 (addi : (⟨S800000, .i32⟩ : BufTy).Contents (Elt F) → (⟨S800000, .i32⟩ : BufTy).Contents (Elt F) → (⟨S800000, .i32⟩ : BufTy).Contents (Elt F)) ]

/-- Operations 245 … 297 of 349 (within window `main_part4`). -/
abbrev seg6 : List (HloOp τ sig (Elt F)) :=
  [ StableHlo.ternary main_v193 main_v195 main_v3 main_v196 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v196 main_v197 (broadcastInDim S800000x1 ![0] bcast_S800000_S800000x1_0 : (⟨S800000, .i32⟩ : BufTy).Contents (Elt F) → (⟨S800000x1, .i32⟩ : BufTy).Contents (Elt F)),
    StableHlo.binary main_v177 main_v197 main_v198 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v191 main_v198 main_v199 (mulf : (⟨S800000, .f32⟩ : BufTy).Contents (Elt F) → (⟨S800000, .f32⟩ : BufTy).Contents (Elt F) → (⟨S800000, .f32⟩ : BufTy).Contents (Elt F)),
    StableHlo.unary main_v199 main_v200 (broadcastInDim S800000x1 ![0] bcast_S800000_S800000x1_0 : (⟨S800000, .f32⟩ : BufTy).Contents (Elt F) → (⟨S800000x1, .f32⟩ : BufTy).Contents (Elt F)),
    StableHlo.unary main_v200 main_v201 (broadcastInDim S800000x256 ![0, 1] bcast_S800000x1_S800000x256_0_1 : (⟨S800000x1, .f32⟩ : BufTy).Contents (Elt F) → (⟨S800000x256, .f32⟩ : BufTy).Contents (Elt F)),
    StableHlo.binary main_v184 main_v201 main_v202 (mulf : (⟨S800000x256, .f32⟩ : BufTy).Contents (Elt F) → (⟨S800000x256, .f32⟩ : BufTy).Contents (Elt F) → (⟨S800000x256, .f32⟩ : BufTy).Contents (Elt F)),
    StableHlo.nullary main_cst_42 (constant S_ .f32 0x00000000#32),
    StableHlo.unary main_cst_42 main_v203 (broadcastInDim S50000x256 ![] bcast_S_S50000x256 : (⟨S_, .f32⟩ : BufTy).Contents (Elt F) → (⟨S50000x256, .f32⟩ : BufTy).Contents (Elt F)),
    StableHlo.unary main_v3 main_v204 (broadcastInDim S800000x1 ![0] bcast_S800000_S800000x1_0 : (⟨S800000, .i32⟩ : BufTy).Contents (Elt F) → (⟨S800000x1, .i32⟩ : BufTy).Contents (Elt F)),
    StableHlo.ternary main_v203 main_v204 main_v202 main_v205 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v177 main_v177 main_v206 (mulf : (⟨S50000, .f32⟩ : BufTy).Contents (Elt F) → (⟨S50000, .f32⟩ : BufTy).Contents (Elt F) → (⟨S50000, .f32⟩ : BufTy).Contents (Elt F)),
    StableHlo.unary main_v206 main_v207 (broadcastInDim S50000x1 ![0] bcast_S50000_S50000x1_0 : (⟨S50000, .f32⟩ : BufTy).Contents (Elt F) → (⟨S50000x1, .f32⟩ : BufTy).Contents (Elt F)),
    StableHlo.unary main_v207 main_v208 (broadcastInDim S50000x256 ![0, 1] bcast_S50000x1_S50000x256_0_1 : (⟨S50000x1, .f32⟩ : BufTy).Contents (Elt F) → (⟨S50000x256, .f32⟩ : BufTy).Contents (Elt F)),
    StableHlo.binary main_v170 main_v208 main_v209 (mulf : (⟨S50000x256, .f32⟩ : BufTy).Contents (Elt F) → (⟨S50000x256, .f32⟩ : BufTy).Contents (Elt F) → (⟨S50000x256, .f32⟩ : BufTy).Contents (Elt F)),
    StableHlo.binary main_v205 main_v209 main_v210 (addf : (⟨S50000x256, .f32⟩ : BufTy).Contents (Elt F) → (⟨S50000x256, .f32⟩ : BufTy).Contents (Elt F) → (⟨S50000x256, .f32⟩ : BufTy).Contents (Elt F)),
    StableHlo.unary main_arg14 main_v211 (broadcastInDim S1x256 ![1] bcast_S256_S1x256_1 : (⟨S256, .f32⟩ : BufTy).Contents (Elt F) → (⟨S1x256, .f32⟩ : BufTy).Contents (Elt F)),
    StableHlo.unary main_v211 main_v212 (broadcastInDim S50000x256 ![0, 1] bcast_S1x256_S50000x256_0_1 : (⟨S1x256, .f32⟩ : BufTy).Contents (Elt F) → (⟨S50000x256, .f32⟩ : BufTy).Contents (Elt F)),
    StableHlo.binary main_v210 main_v212 main_v213 (addf : (⟨S50000x256, .f32⟩ : BufTy).Contents (Elt F) → (⟨S50000x256, .f32⟩ : BufTy).Contents (Elt F) → (⟨S50000x256, .f32⟩ : BufTy).Contents (Elt F)),
    StableHlo.TRef.nullary main_call2.cst (constant S_ .f32 0x00000000#32),
    StableHlo.TRef.unary main_call2.cst main_call2.v0 (broadcastInDim S50000x256 ![] bcast_S_S50000x256),
    StableHlo.TRef.binary (.of main_v213 : StableHlo.TRef sig ⟨S50000x256, .f32⟩) main_call2.v0 main_call2.v1 maximumf,
    StableHlo.nullary main_cst_43 (constant S_ .f32 0x00000000#32),
    StableHlo.binary main_v214 main_cst_43 main_v215 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_44 (constant S_ .f32 0x47435000#32),
    StableHlo.unary main_cst_44 main_v216 (broadcastInDim S256 ![] bcast_S_S256 : (⟨S_, .f32⟩ : BufTy).Contents (Elt F) → (⟨S256, .f32⟩ : BufTy).Contents (Elt F)),
    StableHlo.binary main_v215 main_v216 main_v217 (Host.divf : (⟨S256, .f32⟩ : BufTy).Contents (Elt F) → (⟨S256, .f32⟩ : BufTy).Contents (Elt F) → (⟨S256, .f32⟩ : BufTy).Contents (Elt F)),
    StableHlo.unary main_v217 main_v218 (broadcastInDim S1x256 ![1] bcast_S256_S1x256_1 : (⟨S256, .f32⟩ : BufTy).Contents (Elt F) → (⟨S1x256, .f32⟩ : BufTy).Contents (Elt F)),
    StableHlo.unary main_v218 main_v219 (broadcastInDim S50000x256 ![0, 1] bcast_S1x256_S50000x256_0_1 : (⟨S1x256, .f32⟩ : BufTy).Contents (Elt F) → (⟨S50000x256, .f32⟩ : BufTy).Contents (Elt F)),
    StableHlo.binary main_v214 main_v219 main_v220 (subf : (⟨S50000x256, .f32⟩ : BufTy).Contents (Elt F) → (⟨S50000x256, .f32⟩ : BufTy).Contents (Elt F) → (⟨S50000x256, .f32⟩ : BufTy).Contents (Elt F)),
    StableHlo.binary main_v220 main_v220 main_v221 (mulf : (⟨S50000x256, .f32⟩ : BufTy).Contents (Elt F) → (⟨S50000x256, .f32⟩ : BufTy).Contents (Elt F) → (⟨S50000x256, .f32⟩ : BufTy).Contents (Elt F)),
    StableHlo.nullary main_cst_45 (constant S_ .f32 0x00000000#32),
    StableHlo.binary main_v221 main_cst_45 main_v222 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_46 (constant S_ .f32 0x47435000#32),
    StableHlo.unary main_cst_46 main_v223 (broadcastInDim S256 ![] bcast_S_S256 : (⟨S_, .f32⟩ : BufTy).Contents (Elt F) → (⟨S256, .f32⟩ : BufTy).Contents (Elt F)),
    StableHlo.binary main_v222 main_v223 main_v224 (Host.divf : (⟨S256, .f32⟩ : BufTy).Contents (Elt F) → (⟨S256, .f32⟩ : BufTy).Contents (Elt F) → (⟨S256, .f32⟩ : BufTy).Contents (Elt F)),
    StableHlo.unary main_v217 main_v225 (broadcastInDim S1x256 ![1] bcast_S256_S1x256_1 : (⟨S256, .f32⟩ : BufTy).Contents (Elt F) → (⟨S1x256, .f32⟩ : BufTy).Contents (Elt F)),
    StableHlo.unary main_v225 main_v226 (broadcastInDim S50000x256 ![0, 1] bcast_S1x256_S50000x256_0_1 : (⟨S1x256, .f32⟩ : BufTy).Contents (Elt F) → (⟨S50000x256, .f32⟩ : BufTy).Contents (Elt F)),
    StableHlo.binary main_v214 main_v226 main_v227 (subf : (⟨S50000x256, .f32⟩ : BufTy).Contents (Elt F) → (⟨S50000x256, .f32⟩ : BufTy).Contents (Elt F) → (⟨S50000x256, .f32⟩ : BufTy).Contents (Elt F)),
    StableHlo.nullary main_cst_47 (constant S_ .f32 0x3727C5AC#32),
    StableHlo.unary main_cst_47 main_v228 (broadcastInDim S256 ![] bcast_S_S256 : (⟨S_, .f32⟩ : BufTy).Contents (Elt F) → (⟨S256, .f32⟩ : BufTy).Contents (Elt F)),
    StableHlo.binary main_v224 main_v228 main_v229 (addf : (⟨S256, .f32⟩ : BufTy).Contents (Elt F) → (⟨S256, .f32⟩ : BufTy).Contents (Elt F) → (⟨S256, .f32⟩ : BufTy).Contents (Elt F)),
    StableHlo.unary main_v229 main_v230 (Host.rsqrt : (⟨S256, .f32⟩ : BufTy).Contents (Elt F) → (⟨S256, .f32⟩ : BufTy).Contents (Elt F)),
    StableHlo.unary main_v230 main_v231 (broadcastInDim S1x256 ![1] bcast_S256_S1x256_1 : (⟨S256, .f32⟩ : BufTy).Contents (Elt F) → (⟨S1x256, .f32⟩ : BufTy).Contents (Elt F)),
    StableHlo.unary main_v231 main_v232 (broadcastInDim S50000x256 ![0, 1] bcast_S1x256_S50000x256_0_1 : (⟨S1x256, .f32⟩ : BufTy).Contents (Elt F) → (⟨S50000x256, .f32⟩ : BufTy).Contents (Elt F)),
    StableHlo.binary main_v227 main_v232 main_v233 (mulf : (⟨S50000x256, .f32⟩ : BufTy).Contents (Elt F) → (⟨S50000x256, .f32⟩ : BufTy).Contents (Elt F) → (⟨S50000x256, .f32⟩ : BufTy).Contents (Elt F)),
    StableHlo.unary main_arg15 main_v234 (broadcastInDim S1x256 ![1] bcast_S256_S1x256_1 : (⟨S256, .f32⟩ : BufTy).Contents (Elt F) → (⟨S1x256, .f32⟩ : BufTy).Contents (Elt F)),
    StableHlo.unary main_v234 main_v235 (broadcastInDim S50000x256 ![0, 1] bcast_S1x256_S50000x256_0_1 : (⟨S1x256, .f32⟩ : BufTy).Contents (Elt F) → (⟨S50000x256, .f32⟩ : BufTy).Contents (Elt F)),
    StableHlo.binary main_v233 main_v235 main_v236 (mulf : (⟨S50000x256, .f32⟩ : BufTy).Contents (Elt F) → (⟨S50000x256, .f32⟩ : BufTy).Contents (Elt F) → (⟨S50000x256, .f32⟩ : BufTy).Contents (Elt F)),
    StableHlo.unary main_arg16 main_v237 (broadcastInDim S1x256 ![1] bcast_S256_S1x256_1 : (⟨S256, .f32⟩ : BufTy).Contents (Elt F) → (⟨S1x256, .f32⟩ : BufTy).Contents (Elt F)),
    StableHlo.unary main_v237 main_v238 (broadcastInDim S50000x256 ![0, 1] bcast_S1x256_S50000x256_0_1 : (⟨S1x256, .f32⟩ : BufTy).Contents (Elt F) → (⟨S50000x256, .f32⟩ : BufTy).Contents (Elt F)),
    StableHlo.binary main_v236 main_v238 main_v239 (addf : (⟨S50000x256, .f32⟩ : BufTy).Contents (Elt F) → (⟨S50000x256, .f32⟩ : BufTy).Contents (Elt F) → (⟨S50000x256, .f32⟩ : BufTy).Contents (Elt F)),
    StableHlo.binary main_v239 main_v169 main_v240 (addf : (⟨S50000x256, .f32⟩ : BufTy).Contents (Elt F) → (⟨S50000x256, .f32⟩ : BufTy).Contents (Elt F) → (⟨S50000x256, .f32⟩ : BufTy).Contents (Elt F)) ]

/-- Operation 298 of 349: the large matrix product that writes `main_v241`, alone. -/
abbrev dot3 : List (HloOp τ sig (Elt F)) :=
  [ StableHlo.binary main_v240 main_arg17 main_v241 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)) ]

/-- Operations 299 … 312 of 349 (within window `main_part4`). -/
abbrev seg7 : List (HloOp τ sig (Elt F)) :=
  [ StableHlo.unary main_arg18 main_v242 (broadcastInDim S1x128 ![1] bcast_S128_S1x128_1 : (⟨S128, .f32⟩ : BufTy).Contents (Elt F) → (⟨S1x128, .f32⟩ : BufTy).Contents (Elt F)),
    StableHlo.unary main_v242 main_v243 (broadcastInDim S50000x128 ![0, 1] bcast_S1x128_S50000x128_0_1 : (⟨S1x128, .f32⟩ : BufTy).Contents (Elt F) → (⟨S50000x128, .f32⟩ : BufTy).Contents (Elt F)),
    StableHlo.binary main_v241 main_v243 main_v244 (addf : (⟨S50000x128, .f32⟩ : BufTy).Contents (Elt F) → (⟨S50000x128, .f32⟩ : BufTy).Contents (Elt F) → (⟨S50000x128, .f32⟩ : BufTy).Contents (Elt F)),
    StableHlo.nullary main_cst_48 (constant S_ .f32 0x3C23D70A#32),
    StableHlo.TRef.nullary main_call3.cst (constant S_ .f32 0x00000000#32),
    StableHlo.TRef.unary main_call3.cst main_call3.v0 (broadcastInDim S50000x128 ![] bcast_S_S50000x128),
    StableHlo.TRef.binary (.of main_v244 : StableHlo.TRef sig ⟨S50000x128, .f32⟩) main_call3.v0 main_call3.v1 (cmpf .oge),
    StableHlo.TRef.unary (.of main_cst_48 : StableHlo.TRef sig ⟨S_, .f32⟩) main_call3.v2 id,
    StableHlo.TRef.unary main_call3.v2 main_call3.v3 (broadcastInDim S50000x128 ![] bcast_S_S50000x128),
    StableHlo.TRef.binary main_call3.v3 (.of main_v244 : StableHlo.TRef sig ⟨S50000x128, .f32⟩) main_call3.v4 mulf,
    StableHlo.TRef.ternary main_call3.v1 (.of main_v244 : StableHlo.TRef sig ⟨S50000x128, .f32⟩) main_call3.v4 main_call3.call0.v0 select,
    StableHlo.binary main_v245 main_arg19 main_v246 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    StableHlo.unary main_arg20 main_v247 (broadcastInDim S1x1 ![1] bcast_S1_S1x1_1 : (⟨S1, .f32⟩ : BufTy).Contents (Elt F) → (⟨S1x1, .f32⟩ : BufTy).Contents (Elt F)),
    StableHlo.unary main_v247 main_v248 (broadcastInDim S50000x1 ![0, 1] bcast_S1x1_S50000x1_0_1 : (⟨S1x1, .f32⟩ : BufTy).Contents (Elt F) → (⟨S50000x1, .f32⟩ : BufTy).Contents (Elt F)) ]

/-- Operations 313 … 349 of 349 (within window `main_part5`). -/
abbrev seg8 : List (HloOp τ sig (Elt F)) :=
  [ StableHlo.binary main_v246 main_v248 main_v249 (addf : (⟨S50000x1, .f32⟩ : BufTy).Contents (Elt F) → (⟨S50000x1, .f32⟩ : BufTy).Contents (Elt F) → (⟨S50000x1, .f32⟩ : BufTy).Contents (Elt F)),
    StableHlo.nullary main_cst_49 (constant S_ .f32 0xFF800000#32),
    StableHlo.binary main_v249 main_cst_49 main_v250 ((fun x v => Host.reduce FloatOps.maximumf x v reducesTo_S50000x1_S1_d0 h_S_) : (⟨S50000x1, .f32⟩ : BufTy).Contents (Elt F) → (⟨S_, .f32⟩ : BufTy).Contents (Elt F) → (⟨S1, .f32⟩ : BufTy).Contents (Elt F)),
    StableHlo.nullary main_cst_50 (constant S_ .f32 0xFF800000#32),
    StableHlo.unary main_cst_50 main_v251 (broadcastInDim S1 ![] bcast_S_S1 : (⟨S_, .f32⟩ : BufTy).Contents (Elt F) → (⟨S1, .f32⟩ : BufTy).Contents (Elt F)),
    StableHlo.binary main_v251 main_v250 main_v252 (maximumf : (⟨S1, .f32⟩ : BufTy).Contents (Elt F) → (⟨S1, .f32⟩ : BufTy).Contents (Elt F) → (⟨S1, .f32⟩ : BufTy).Contents (Elt F)),
    StableHlo.unary main_v252 main_v253 (broadcastInDim S1x1 ![1] bcast_S1_S1x1_1 : (⟨S1, .f32⟩ : BufTy).Contents (Elt F) → (⟨S1x1, .f32⟩ : BufTy).Contents (Elt F)),
    StableHlo.unary main_v253 main_v254 (broadcastInDim S50000x1 ![0, 1] bcast_S1x1_S50000x1_0_1 : (⟨S1x1, .f32⟩ : BufTy).Contents (Elt F) → (⟨S50000x1, .f32⟩ : BufTy).Contents (Elt F)),
    StableHlo.binary main_v249 main_v254 main_v255 (subf : (⟨S50000x1, .f32⟩ : BufTy).Contents (Elt F) → (⟨S50000x1, .f32⟩ : BufTy).Contents (Elt F) → (⟨S50000x1, .f32⟩ : BufTy).Contents (Elt F)),
    StableHlo.unary main_v255 main_v256 (Host.exp : (⟨S50000x1, .f32⟩ : BufTy).Contents (Elt F) → (⟨S50000x1, .f32⟩ : BufTy).Contents (Elt F)),
    StableHlo.nullary main_cst_51 (constant S_ .f32 0x00000000#32),
    StableHlo.binary main_v256 main_cst_51 main_v257 ((fun x v => Host.reduceAdd x v reducesTo_S50000x1_S1_d0 h_S_) : (⟨S50000x1, .f32⟩ : BufTy).Contents (Elt F) → (⟨S_, .f32⟩ : BufTy).Contents (Elt F) → (⟨S1, .f32⟩ : BufTy).Contents (Elt F)),
    StableHlo.unary main_v257 main_v258 (broadcastInDim S1x1 ![1] bcast_S1_S1x1_1 : (⟨S1, .f32⟩ : BufTy).Contents (Elt F) → (⟨S1x1, .f32⟩ : BufTy).Contents (Elt F)),
    StableHlo.unary main_v258 main_v259 (broadcastInDim S50000x1 ![0, 1] bcast_S1x1_S50000x1_0_1 : (⟨S1x1, .f32⟩ : BufTy).Contents (Elt F) → (⟨S50000x1, .f32⟩ : BufTy).Contents (Elt F)),
    StableHlo.binary main_v256 main_v259 main_v260 (Host.divf : (⟨S50000x1, .f32⟩ : BufTy).Contents (Elt F) → (⟨S50000x1, .f32⟩ : BufTy).Contents (Elt F) → (⟨S50000x1, .f32⟩ : BufTy).Contents (Elt F)),
    StableHlo.unary main_v260 main_v261 (broadcastInDim S50000x256 ![0, 1] bcast_S50000x1_S50000x256_0_1 : (⟨S50000x1, .f32⟩ : BufTy).Contents (Elt F) → (⟨S50000x256, .f32⟩ : BufTy).Contents (Elt F)),
    StableHlo.binary main_v240 main_v261 main_v262 (mulf : (⟨S50000x256, .f32⟩ : BufTy).Contents (Elt F) → (⟨S50000x256, .f32⟩ : BufTy).Contents (Elt F) → (⟨S50000x256, .f32⟩ : BufTy).Contents (Elt F)),
    StableHlo.nullary main_cst_52 (constant S_ .f32 0x3F800000#32),
    StableHlo.unary main_cst_52 main_v263 (broadcastInDim S50000 ![] bcast_S_S50000 : (⟨S_, .f32⟩ : BufTy).Contents (Elt F) → (⟨S50000, .f32⟩ : BufTy).Contents (Elt F)),
    StableHlo.nullary main_cst_53 (constant S_ .f32 0x00000000#32),
    StableHlo.unary main_cst_53 main_v264 (broadcastInDim S64 ![] bcast_S_S64 : (⟨S_, .f32⟩ : BufTy).Contents (Elt F) → (⟨S64, .f32⟩ : BufTy).Contents (Elt F)),
    StableHlo.unary main_arg2 main_v265 (broadcastInDim S50000x1 ![0] bcast_S50000_S50000x1_0 : (⟨S50000, .i32⟩ : BufTy).Contents (Elt F) → (⟨S50000x1, .i32⟩ : BufTy).Contents (Elt F)),
    StableHlo.ternary main_v264 main_v265 main_v263 main_v266 ((fun x i u => Host.scatterAdd scatter_S64_S50000x1_S50000_n_0_0_1 x i u) : (⟨S64, .f32⟩ : BufTy).Contents (Elt F) → (⟨S50000x1, .i32⟩ : BufTy).Contents (Elt F) → (⟨S50000, .f32⟩ : BufTy).Contents (Elt F) → (⟨S64, .f32⟩ : BufTy).Contents (Elt F)),
    StableHlo.nullary main_cst_54 (constant S_ .f32 0x00000000#32),
    StableHlo.unary main_cst_54 main_v267 (broadcastInDim S64x256 ![] bcast_S_S64x256 : (⟨S_, .f32⟩ : BufTy).Contents (Elt F) → (⟨S64x256, .f32⟩ : BufTy).Contents (Elt F)),
    StableHlo.unary main_arg2 main_v268 (broadcastInDim S50000x1 ![0] bcast_S50000_S50000x1_0 : (⟨S50000, .i32⟩ : BufTy).Contents (Elt F) → (⟨S50000x1, .i32⟩ : BufTy).Contents (Elt F)),
    StableHlo.ternary main_v267 main_v268 main_v262 main_v269 ((fun x i u => Host.scatterAdd scatter_S64x256_S50000x1_S50000x256_1_0_0_1 x i u) : (⟨S64x256, .f32⟩ : BufTy).Contents (Elt F) → (⟨S50000x1, .i32⟩ : BufTy).Contents (Elt F) → (⟨S50000x256, .f32⟩ : BufTy).Contents (Elt F) → (⟨S64x256, .f32⟩ : BufTy).Contents (Elt F)),
    StableHlo.nullary main_cst_55 (constant S_ .f32 0x3F800000#32),
    StableHlo.unary main_cst_55 main_v270 (broadcastInDim S64 ![] bcast_S_S64 : (⟨S_, .f32⟩ : BufTy).Contents (Elt F) → (⟨S64, .f32⟩ : BufTy).Contents (Elt F)),
    StableHlo.binary main_v266 main_v270 main_v271 (maximumf : (⟨S64, .f32⟩ : BufTy).Contents (Elt F) → (⟨S64, .f32⟩ : BufTy).Contents (Elt F) → (⟨S64, .f32⟩ : BufTy).Contents (Elt F)),
    StableHlo.unary main_v271 main_v272 (broadcastInDim S64x1 ![0] bcast_S64_S64x1_0 : (⟨S64, .f32⟩ : BufTy).Contents (Elt F) → (⟨S64x1, .f32⟩ : BufTy).Contents (Elt F)),
    StableHlo.unary main_v272 main_v273 (broadcastInDim S64x256 ![0, 1] bcast_S64x1_S64x256_0_1 : (⟨S64x1, .f32⟩ : BufTy).Contents (Elt F) → (⟨S64x256, .f32⟩ : BufTy).Contents (Elt F)),
    StableHlo.binary main_v269 main_v273 main_v274 (Host.divf : (⟨S64x256, .f32⟩ : BufTy).Contents (Elt F) → (⟨S64x256, .f32⟩ : BufTy).Contents (Elt F) → (⟨S64x256, .f32⟩ : BufTy).Contents (Elt F)),
    StableHlo.binary main_v274 main_arg21 main_v275 ((fun l r => Host.dotGeneral dot_S64x256_S256x2_S64x2_1_0_0_1_n_n none l r) : (⟨S64x256, .f32⟩ : BufTy).Contents (Elt F) → (⟨S256x2, .f32⟩ : BufTy).Contents (Elt F) → (⟨S64x2, .f32⟩ : BufTy).Contents (Elt F)),
    StableHlo.unary main_arg22 main_v276 (broadcastInDim S1x2 ![1] bcast_S2_S1x2_1 : (⟨S2, .f32⟩ : BufTy).Contents (Elt F) → (⟨S1x2, .f32⟩ : BufTy).Contents (Elt F)),
    StableHlo.unary main_v276 main_v277 (broadcastInDim S64x2 ![0, 1] bcast_S1x2_S64x2_0_1 : (⟨S1x2, .f32⟩ : BufTy).Contents (Elt F) → (⟨S64x2, .f32⟩ : BufTy).Contents (Elt F)),
    StableHlo.binary main_v275 main_v277 main_v278 (addf : (⟨S64x2, .f32⟩ : BufTy).Contents (Elt F) → (⟨S64x2, .f32⟩ : BufTy).Contents (Elt F) → (⟨S64x2, .f32⟩ : BufTy).Contents (Elt F)) ]

/-- @main's 349 operations, in order: the segments, nested to the right. -/
abbrev ops : List (HloOp τ sig (Elt F)) :=
  seg0 ++ (dot0 ++ (seg1 ++ (seg2 ++ (dot1 ++ (seg3 ++ (seg4 ++ (dot2 ++ (seg5 ++ (seg6 ++ (dot3 ++ (seg7 ++ (seg8))))))))))))

/-! ## @main is that line

Each printed window is the line of its segments by computation: sequencing in `Prog` computes, a call is its
function's body unfolded and a record's field is the reference it was built from. -/

set_option maxRecDepth 8192 in
theorem main_part0_eq (c : Dev nD) : main_part0 (F := F) c = seq (seg0 ++ (dot0 ++ (seg1))) := rfl
set_option maxRecDepth 8192 in
theorem main_part1_eq (c : Dev nD) : main_part1 (F := F) c = seq (seg2 ++ (dot1)) := rfl
set_option maxRecDepth 8192 in
theorem main_part2_eq (c : Dev nD) : main_part2 (F := F) c = seq (seg3) := rfl
set_option maxRecDepth 8192 in
theorem main_part3_eq (c : Dev nD) : main_part3 (F := F) c = seq (seg4 ++ (dot2 ++ (seg5))) := rfl
set_option maxRecDepth 8192 in
theorem main_part4_eq (c : Dev nD) : main_part4 (F := F) c = seq (seg6 ++ (dot3 ++ (seg7))) := rfl
set_option maxRecDepth 8192 in
theorem main_part5_eq (c : Dev nD) : main_part5 (F := F) c = seq (seg8) := rfl

/-- @main is the line of all its operations: the windows in order, sequencing re-associated. -/
theorem main_eq (c : Dev nD) : main (F := F) c = seq ops := by
  have h : main (F := F) c = (main_part0 c >>= fun _ => main_part1 c >>= fun _ => main_part2 c >>= fun _ =>
      main_part3 c >>= fun _ => main_part4 c >>= fun _ => main_part5 c) := rfl
  rw [h, main_part0_eq, main_part1_eq, main_part2_eq, main_part3_eq, main_part4_eq, main_part5_eq]
  simp only [ops, seq_append, bind_assoc]

set_option maxRecDepth 8192 in
theorem scopedRefs_eq : (Finset.univ.filter fun b : Ref sig .tc => b.isScoped) = ∅ := by decide
set_option maxRecDepth 8192 in
theorem scopedSems_eq : (Finset.univ.filter fun sm : SemLoc sig => sm.isScoped .tc) = ∅ := by decide

/-! ## The side conditions of the run, segment by segment

Each builder's operation touches TensorCore references only and determines the buffer it writes; over a literal
list these are conjunctions of the builders' own facts. -/

theorem seg0_sub : (seg0 : List (HloOp τ sig (Elt F))).Forall fun op => op.bufs ⊆ tcRefs τ sig := by
  simp only [seg0, List.Forall, nullary_bufs_sub, unary_bufs_sub, binary_bufs_sub, ternary_bufs_sub, reshape_bufs_sub, and_self]
theorem dot0_sub : (dot0 : List (HloOp τ sig (Elt F))).Forall fun op => op.bufs ⊆ tcRefs τ sig := by
  simp only [dot0, List.Forall, nullary_bufs_sub, unary_bufs_sub, binary_bufs_sub, ternary_bufs_sub, reshape_bufs_sub, and_self]
theorem seg1_sub : (seg1 : List (HloOp τ sig (Elt F))).Forall fun op => op.bufs ⊆ tcRefs τ sig := by
  simp only [seg1, List.Forall, nullary_bufs_sub, unary_bufs_sub, binary_bufs_sub, ternary_bufs_sub, reshape_bufs_sub, and_self]
theorem seg2_sub : (seg2 : List (HloOp τ sig (Elt F))).Forall fun op => op.bufs ⊆ tcRefs τ sig := by
  simp only [seg2, List.Forall, nullary_bufs_sub, unary_bufs_sub, binary_bufs_sub, ternary_bufs_sub, reshape_bufs_sub, and_self]
theorem dot1_sub : (dot1 : List (HloOp τ sig (Elt F))).Forall fun op => op.bufs ⊆ tcRefs τ sig := by
  simp only [dot1, List.Forall, nullary_bufs_sub, unary_bufs_sub, binary_bufs_sub, ternary_bufs_sub, reshape_bufs_sub, and_self]
theorem seg3_sub : (seg3 : List (HloOp τ sig (Elt F))).Forall fun op => op.bufs ⊆ tcRefs τ sig := by
  simp only [seg3, List.Forall, nullary_bufs_sub, unary_bufs_sub, binary_bufs_sub, ternary_bufs_sub, reshape_bufs_sub, and_self]
theorem seg4_sub : (seg4 : List (HloOp τ sig (Elt F))).Forall fun op => op.bufs ⊆ tcRefs τ sig := by
  simp only [seg4, List.Forall, nullary_bufs_sub, unary_bufs_sub, binary_bufs_sub, ternary_bufs_sub, reshape_bufs_sub, and_self]
theorem dot2_sub : (dot2 : List (HloOp τ sig (Elt F))).Forall fun op => op.bufs ⊆ tcRefs τ sig := by
  simp only [dot2, List.Forall, nullary_bufs_sub, unary_bufs_sub, binary_bufs_sub, ternary_bufs_sub, reshape_bufs_sub, and_self]
theorem seg5_sub : (seg5 : List (HloOp τ sig (Elt F))).Forall fun op => op.bufs ⊆ tcRefs τ sig := by
  simp only [seg5, List.Forall, nullary_bufs_sub, unary_bufs_sub, binary_bufs_sub, ternary_bufs_sub, reshape_bufs_sub, and_self]
theorem seg6_sub : (seg6 : List (HloOp τ sig (Elt F))).Forall fun op => op.bufs ⊆ tcRefs τ sig := by
  simp only [seg6, List.Forall, nullary_bufs_sub, unary_bufs_sub, binary_bufs_sub, ternary_bufs_sub, reshape_bufs_sub, and_self]
theorem dot3_sub : (dot3 : List (HloOp τ sig (Elt F))).Forall fun op => op.bufs ⊆ tcRefs τ sig := by
  simp only [dot3, List.Forall, nullary_bufs_sub, unary_bufs_sub, binary_bufs_sub, ternary_bufs_sub, reshape_bufs_sub, and_self]
theorem seg7_sub : (seg7 : List (HloOp τ sig (Elt F))).Forall fun op => op.bufs ⊆ tcRefs τ sig := by
  simp only [seg7, List.Forall, nullary_bufs_sub, unary_bufs_sub, binary_bufs_sub, ternary_bufs_sub, reshape_bufs_sub, and_self]
theorem seg8_sub : (seg8 : List (HloOp τ sig (Elt F))).Forall fun op => op.bufs ⊆ tcRefs τ sig := by
  simp only [seg8, List.Forall, nullary_bufs_sub, unary_bufs_sub, binary_bufs_sub, ternary_bufs_sub, reshape_bufs_sub, and_self]

theorem ops_sub : (ops : List (HloOp τ sig (Elt F))).Forall fun op => op.bufs ⊆ tcRefs τ sig := by
  simp only [ops, List.forall_append]
  exact ⟨seg0_sub, dot0_sub, seg1_sub, seg2_sub, dot1_sub, seg3_sub, seg4_sub, dot2_sub, seg5_sub, seg6_sub, dot3_sub, seg7_sub, seg8_sub⟩

theorem seg0_fresh : ∀ op ∈ (seg0 : List (HloOp τ sig (Elt F))), op.fresh = ∅ := by
  intro _ h; (repeat (cases h with | head => rfl | tail _ h => ?_)); exact nomatch h
theorem dot0_fresh : ∀ op ∈ (dot0 : List (HloOp τ sig (Elt F))), op.fresh = ∅ := by
  intro _ h; (repeat (cases h with | head => rfl | tail _ h => ?_)); exact nomatch h
theorem seg1_fresh : ∀ op ∈ (seg1 : List (HloOp τ sig (Elt F))), op.fresh = ∅ := by
  intro _ h; (repeat (cases h with | head => rfl | tail _ h => ?_)); exact nomatch h
theorem seg2_fresh : ∀ op ∈ (seg2 : List (HloOp τ sig (Elt F))), op.fresh = ∅ := by
  intro _ h; (repeat (cases h with | head => rfl | tail _ h => ?_)); exact nomatch h
theorem dot1_fresh : ∀ op ∈ (dot1 : List (HloOp τ sig (Elt F))), op.fresh = ∅ := by
  intro _ h; (repeat (cases h with | head => rfl | tail _ h => ?_)); exact nomatch h
theorem seg3_fresh : ∀ op ∈ (seg3 : List (HloOp τ sig (Elt F))), op.fresh = ∅ := by
  intro _ h; (repeat (cases h with | head => rfl | tail _ h => ?_)); exact nomatch h
theorem seg4_fresh : ∀ op ∈ (seg4 : List (HloOp τ sig (Elt F))), op.fresh = ∅ := by
  intro _ h; (repeat (cases h with | head => rfl | tail _ h => ?_)); exact nomatch h
theorem dot2_fresh : ∀ op ∈ (dot2 : List (HloOp τ sig (Elt F))), op.fresh = ∅ := by
  intro _ h; (repeat (cases h with | head => rfl | tail _ h => ?_)); exact nomatch h
theorem seg5_fresh : ∀ op ∈ (seg5 : List (HloOp τ sig (Elt F))), op.fresh = ∅ := by
  intro _ h; (repeat (cases h with | head => rfl | tail _ h => ?_)); exact nomatch h
theorem seg6_fresh : ∀ op ∈ (seg6 : List (HloOp τ sig (Elt F))), op.fresh = ∅ := by
  intro _ h; (repeat (cases h with | head => rfl | tail _ h => ?_)); exact nomatch h
theorem dot3_fresh : ∀ op ∈ (dot3 : List (HloOp τ sig (Elt F))), op.fresh = ∅ := by
  intro _ h; (repeat (cases h with | head => rfl | tail _ h => ?_)); exact nomatch h
theorem seg7_fresh : ∀ op ∈ (seg7 : List (HloOp τ sig (Elt F))), op.fresh = ∅ := by
  intro _ h; (repeat (cases h with | head => rfl | tail _ h => ?_)); exact nomatch h
theorem seg8_fresh : ∀ op ∈ (seg8 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with h | h | h | h | h | h | h | h | h | h | h | h | h
  exacts [seg0_fresh op h, dot0_fresh op h, seg1_fresh op h, seg2_fresh op h, dot1_fresh op h, seg3_fresh op h, seg4_fresh op h, dot2_fresh op h, seg5_fresh op h, seg6_fresh op h, dot3_fresh op h, seg7_fresh op h, seg8_fresh op h]

/-! ## The run -/

/-- On every device, for any float values, from any memory with zero counters: every weakly fair execution of @main
    terminates, and every final state has each TensorCore buffer at the fold of the operations over the launch
    contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = StableHlo.after ops (StableHlo.launchContents m d) (Proc.devRef .tc b) :=
  run_seq scopedRefs_eq scopedSems_eq defs main (fun _ => ops) main_eq (fun _ => ops_sub) m ρ (fun _ => ops_fresh)

/-! ## What the line leaves alone

Each operation writes one buffer. A reference that is not among those a segment writes keeps its contents through
the segment (`after_of_writes_sub`), hence one that no segment writes keeps them through the whole line; the
arguments are such references. -/

/-- The references `seg0` writes, in order. -/
abbrev seg0_writes : List (Ref sig .tc) :=
  [main_v0, main_v1, main_v2, main_v3, main_cst, main_v4, main_cst_0, main_v5, main_v6, main_v7, main_v8, main_v9, main_v10, main_cst_1, main_v11, main_cst_2, main_v12, main_v13, main_v14, main_v15, main_v16, main_cst_3, main_v17, main_v18, main_v19, main_v20, main_v21, main_v22, main_v23, main_v24, main_v25, main_v26, main_v27, main_v28]

/-- The references `dot0` writes, in order. -/
abbrev dot0_writes : List (Ref sig .tc) :=
  [main_v29]

/-- The references `seg1` writes, in order. -/
abbrev seg1_writes : List (Ref sig .tc) :=
  [main_cst_4, main_v30, main_cst_5, main_v31, main_v32, main_v33, main_cst_6, main_v34, main_v35, main_v36, main_c, main_v37, main_v38, main_c_7, main_v39, main_v40, main_v41, main_v42, main_v43, main_c_8, main_v44, main_v45, main_c_9, main_v46, main_v47]

/-- The references `seg2` writes, in order. -/
abbrev seg2_writes : List (Ref sig .tc) :=
  [main_v48, main_v49, main_v50, main_c_10, main_v51, main_v52, main_c_11, main_v53, main_v54, main_v55, main_v56, main_v57, main_v58, main_v59, main_v60, main_v61, main_cst_12, main_v62, main_v63, main_v64, main_v65, main_v66, main_v67, main_v68, main_v69, main_v70, main_v71, main_v72, main_call0.cst.ref, main_call0.v0.ref, main_call0.v1.ref, main_cst_13, main_v74, main_cst_14, main_v75, main_v76, main_v77, main_v78, main_v79, main_v80, main_cst_15, main_v81, main_cst_16, main_v82, main_v83, main_v84, main_v85, main_v86, main_cst_17, main_v87, main_v88, main_v89, main_v90, main_v91, main_v92, main_v93, main_v94, main_v95, main_v96, main_v97, main_v98]

/-- The references `dot1` writes, in order. -/
abbrev dot1_writes : List (Ref sig .tc) :=
  [main_v99]

/-- The references `seg3` writes, in order. -/
abbrev seg3_writes : List (Ref sig .tc) :=
  [main_cst_18, main_v100, main_cst_19, main_v101, main_v102, main_v103, main_cst_20, main_v104, main_v105, main_v106, main_c_21, main_v107, main_v108, main_c_22, main_v109, main_v110, main_v111, main_v112, main_v113, main_c_23, main_v114, main_v115, main_c_24, main_v116, main_v117, main_v118, main_v119, main_v120, main_c_25, main_v121, main_v122, main_c_26, main_v123, main_v124, main_v125, main_v126, main_v127, main_v128, main_v129, main_v130, main_v131, main_cst_27, main_v132, main_v133, main_v134, main_v135, main_v136, main_v137, main_v138, main_v139, main_v140, main_v141, main_v142, main_call1.cst.ref, main_call1.v0.ref, main_call1.v1.ref, main_cst_28, main_v144, main_cst_29, main_v145, main_v146, main_v147]

/-- The references `seg4` writes, in order. -/
abbrev seg4_writes : List (Ref sig .tc) :=
  [main_v148, main_v149, main_v150, main_cst_30, main_v151, main_cst_31, main_v152, main_v153, main_v154, main_v155, main_v156, main_cst_32, main_v157, main_v158, main_v159, main_v160, main_v161, main_v162, main_v163, main_v164, main_v165, main_v166, main_v167, main_v168, main_v169]

/-- The references `dot2` writes, in order. -/
abbrev dot2_writes : List (Ref sig .tc) :=
  [main_v170]

/-- The references `seg5` writes, in order. -/
abbrev seg5_writes : List (Ref sig .tc) :=
  [main_cst_33, main_v171, main_cst_34, main_v172, main_v173, main_v174, main_cst_35, main_v175, main_v176, main_v177, main_c_36, main_v178, main_v179, main_c_37, main_v180, main_v181, main_v182, main_v183, main_v184, main_c_38, main_v185, main_v186, main_c_39, main_v187, main_v188, main_v189, main_v190, main_v191, main_c_40, main_v192, main_v193, main_c_41, main_v194, main_v195]

/-- The references `seg6` writes, in order. -/
abbrev seg6_writes : List (Ref sig .tc) :=
  [main_v196, main_v197, main_v198, main_v199, main_v200, main_v201, main_v202, main_cst_42, main_v203, main_v204, main_v205, main_v206, main_v207, main_v208, main_v209, main_v210, main_v211, main_v212, main_v213, main_call2.cst.ref, main_call2.v0.ref, main_call2.v1.ref, main_cst_43, main_v215, main_cst_44, main_v216, main_v217, main_v218, main_v219, main_v220, main_v221, main_cst_45, main_v222, main_cst_46, main_v223, main_v224, main_v225, main_v226, main_v227, main_cst_47, main_v228, main_v229, main_v230, main_v231, main_v232, main_v233, main_v234, main_v235, main_v236, main_v237, main_v238, main_v239, main_v240]

/-- The references `dot3` writes, in order. -/
abbrev dot3_writes : List (Ref sig .tc) :=
  [main_v241]

/-- The references `seg7` writes, in order. -/
abbrev seg7_writes : List (Ref sig .tc) :=
  [main_v242, main_v243, main_v244, main_cst_48, main_call3.cst.ref, main_call3.v0.ref, main_call3.v1.ref, main_call3.v2.ref, main_call3.v3.ref, main_call3.v4.ref, main_call3.call0.v0.ref, main_v246, main_v247, main_v248]

/-- The references `seg8` writes, in order. -/
abbrev seg8_writes : List (Ref sig .tc) :=
  [main_v249, main_cst_49, main_v250, main_cst_50, main_v251, main_v252, main_v253, main_v254, main_v255, main_v256, main_cst_51, main_v257, main_v258, main_v259, main_v260, main_v261, main_v262, main_cst_52, main_v263, main_cst_53, main_v264, main_v265, main_v266, main_cst_54, main_v267, main_v268, main_v269, main_cst_55, main_v270, main_v271, main_v272, main_v273, main_v274, main_v275, main_v276, main_v277, main_v278]

/-- The empty line writes nothing. -/
theorem writes_sub_nil :
    ([] : List (HloOp τ sig (Elt F))).Forall fun o =>
      o.writes ⊆ (([] : List (Ref sig .tc)).map (Proc.devRef (τ := τ) .tc)).toFinset :=
  trivial

/-- A line whose first operation writes `y`, and whose other operations write references among `W`, writes
    references among `y :: W`. -/
theorem writes_sub_cons {op : HloOp τ sig (Elt F)} {l : List (HloOp τ sig (Elt F))} {y : Ref sig .tc}
    {W : List (Ref sig .tc)} (h : op.writes = {Proc.devRef .tc y})
    (ht : l.Forall fun o => o.writes ⊆ (W.map (Proc.devRef (τ := τ) .tc)).toFinset) :
    (op :: l).Forall fun o => o.writes ⊆ ((y :: W).map (Proc.devRef (τ := τ) .tc)).toFinset := by
  refine (List.forall_cons _ _ _).mpr ⟨?_, ht.imp fun o ho => ho.trans ?_⟩
  · rw [h, Finset.singleton_subset_iff, List.mem_toFinset]
    exact List.mem_map.mpr ⟨y, List.mem_cons_self, rfl⟩
  · intro b hb
    rw [List.mem_toFinset] at hb ⊢
    rw [List.map_cons]
    exact List.mem_cons_of_mem _ hb

theorem seg0_writes_sub : (seg0 : List (HloOp τ sig (Elt F))).Forall fun op => op.writes ⊆ (seg0_writes.map (Proc.devRef (τ := τ) .tc)).toFinset := by
  repeat (first | exact writes_sub_nil | refine writes_sub_cons rfl ?_)
theorem seg0_kept (V : Valuation τ sig (Elt F)) {r : Ref sig .tc} (hr : r ∉ seg0_writes) :
    after seg0 V (Proc.devRef .tc r) = V (Proc.devRef .tc r) := after_of_writes_sub seg0 V seg0_writes_sub hr
theorem dot0_writes_sub : (dot0 : List (HloOp τ sig (Elt F))).Forall fun op => op.writes ⊆ (dot0_writes.map (Proc.devRef (τ := τ) .tc)).toFinset := by
  repeat (first | exact writes_sub_nil | refine writes_sub_cons rfl ?_)
theorem dot0_kept (V : Valuation τ sig (Elt F)) {r : Ref sig .tc} (hr : r ∉ dot0_writes) :
    after dot0 V (Proc.devRef .tc r) = V (Proc.devRef .tc r) := after_of_writes_sub dot0 V dot0_writes_sub hr
theorem seg1_writes_sub : (seg1 : List (HloOp τ sig (Elt F))).Forall fun op => op.writes ⊆ (seg1_writes.map (Proc.devRef (τ := τ) .tc)).toFinset := by
  repeat (first | exact writes_sub_nil | refine writes_sub_cons rfl ?_)
theorem seg1_kept (V : Valuation τ sig (Elt F)) {r : Ref sig .tc} (hr : r ∉ seg1_writes) :
    after seg1 V (Proc.devRef .tc r) = V (Proc.devRef .tc r) := after_of_writes_sub seg1 V seg1_writes_sub hr
theorem seg2_writes_sub : (seg2 : List (HloOp τ sig (Elt F))).Forall fun op => op.writes ⊆ (seg2_writes.map (Proc.devRef (τ := τ) .tc)).toFinset := by
  repeat (first | exact writes_sub_nil | refine writes_sub_cons rfl ?_)
theorem seg2_kept (V : Valuation τ sig (Elt F)) {r : Ref sig .tc} (hr : r ∉ seg2_writes) :
    after seg2 V (Proc.devRef .tc r) = V (Proc.devRef .tc r) := after_of_writes_sub seg2 V seg2_writes_sub hr
theorem dot1_writes_sub : (dot1 : List (HloOp τ sig (Elt F))).Forall fun op => op.writes ⊆ (dot1_writes.map (Proc.devRef (τ := τ) .tc)).toFinset := by
  repeat (first | exact writes_sub_nil | refine writes_sub_cons rfl ?_)
theorem dot1_kept (V : Valuation τ sig (Elt F)) {r : Ref sig .tc} (hr : r ∉ dot1_writes) :
    after dot1 V (Proc.devRef .tc r) = V (Proc.devRef .tc r) := after_of_writes_sub dot1 V dot1_writes_sub hr
theorem seg3_writes_sub : (seg3 : List (HloOp τ sig (Elt F))).Forall fun op => op.writes ⊆ (seg3_writes.map (Proc.devRef (τ := τ) .tc)).toFinset := by
  repeat (first | exact writes_sub_nil | refine writes_sub_cons rfl ?_)
theorem seg3_kept (V : Valuation τ sig (Elt F)) {r : Ref sig .tc} (hr : r ∉ seg3_writes) :
    after seg3 V (Proc.devRef .tc r) = V (Proc.devRef .tc r) := after_of_writes_sub seg3 V seg3_writes_sub hr
theorem seg4_writes_sub : (seg4 : List (HloOp τ sig (Elt F))).Forall fun op => op.writes ⊆ (seg4_writes.map (Proc.devRef (τ := τ) .tc)).toFinset := by
  repeat (first | exact writes_sub_nil | refine writes_sub_cons rfl ?_)
theorem seg4_kept (V : Valuation τ sig (Elt F)) {r : Ref sig .tc} (hr : r ∉ seg4_writes) :
    after seg4 V (Proc.devRef .tc r) = V (Proc.devRef .tc r) := after_of_writes_sub seg4 V seg4_writes_sub hr
theorem dot2_writes_sub : (dot2 : List (HloOp τ sig (Elt F))).Forall fun op => op.writes ⊆ (dot2_writes.map (Proc.devRef (τ := τ) .tc)).toFinset := by
  repeat (first | exact writes_sub_nil | refine writes_sub_cons rfl ?_)
theorem dot2_kept (V : Valuation τ sig (Elt F)) {r : Ref sig .tc} (hr : r ∉ dot2_writes) :
    after dot2 V (Proc.devRef .tc r) = V (Proc.devRef .tc r) := after_of_writes_sub dot2 V dot2_writes_sub hr
theorem seg5_writes_sub : (seg5 : List (HloOp τ sig (Elt F))).Forall fun op => op.writes ⊆ (seg5_writes.map (Proc.devRef (τ := τ) .tc)).toFinset := by
  repeat (first | exact writes_sub_nil | refine writes_sub_cons rfl ?_)
theorem seg5_kept (V : Valuation τ sig (Elt F)) {r : Ref sig .tc} (hr : r ∉ seg5_writes) :
    after seg5 V (Proc.devRef .tc r) = V (Proc.devRef .tc r) := after_of_writes_sub seg5 V seg5_writes_sub hr
theorem seg6_writes_sub : (seg6 : List (HloOp τ sig (Elt F))).Forall fun op => op.writes ⊆ (seg6_writes.map (Proc.devRef (τ := τ) .tc)).toFinset := by
  repeat (first | exact writes_sub_nil | refine writes_sub_cons rfl ?_)
theorem seg6_kept (V : Valuation τ sig (Elt F)) {r : Ref sig .tc} (hr : r ∉ seg6_writes) :
    after seg6 V (Proc.devRef .tc r) = V (Proc.devRef .tc r) := after_of_writes_sub seg6 V seg6_writes_sub hr
theorem dot3_writes_sub : (dot3 : List (HloOp τ sig (Elt F))).Forall fun op => op.writes ⊆ (dot3_writes.map (Proc.devRef (τ := τ) .tc)).toFinset := by
  repeat (first | exact writes_sub_nil | refine writes_sub_cons rfl ?_)
theorem dot3_kept (V : Valuation τ sig (Elt F)) {r : Ref sig .tc} (hr : r ∉ dot3_writes) :
    after dot3 V (Proc.devRef .tc r) = V (Proc.devRef .tc r) := after_of_writes_sub dot3 V dot3_writes_sub hr
theorem seg7_writes_sub : (seg7 : List (HloOp τ sig (Elt F))).Forall fun op => op.writes ⊆ (seg7_writes.map (Proc.devRef (τ := τ) .tc)).toFinset := by
  repeat (first | exact writes_sub_nil | refine writes_sub_cons rfl ?_)
theorem seg7_kept (V : Valuation τ sig (Elt F)) {r : Ref sig .tc} (hr : r ∉ seg7_writes) :
    after seg7 V (Proc.devRef .tc r) = V (Proc.devRef .tc r) := after_of_writes_sub seg7 V seg7_writes_sub hr
theorem seg8_writes_sub : (seg8 : List (HloOp τ sig (Elt F))).Forall fun op => op.writes ⊆ (seg8_writes.map (Proc.devRef (τ := τ) .tc)).toFinset := by
  repeat (first | exact writes_sub_nil | refine writes_sub_cons rfl ?_)
theorem seg8_kept (V : Valuation τ sig (Elt F)) {r : Ref sig .tc} (hr : r ∉ seg8_writes) :
    after seg8 V (Proc.devRef .tc r) = V (Proc.devRef .tc r) := after_of_writes_sub seg8 V seg8_writes_sub hr

/-- Every reference the line writes, segment by segment. -/
abbrev writes : List (Ref sig .tc) :=
  seg0_writes ++ (dot0_writes ++ (seg1_writes ++ (seg2_writes ++ (dot1_writes ++ (seg3_writes ++ (seg4_writes ++ (dot2_writes ++ (seg5_writes ++ (seg6_writes ++ (dot3_writes ++ (seg7_writes ++ (seg8_writes))))))))))))

/-- A reference no operation writes keeps its contents through the whole line. -/
theorem kept (V : Valuation τ sig (Elt F)) {r : Ref sig .tc} (hr : r ∉ writes) :
    after ops V (Proc.devRef .tc r) = V (Proc.devRef .tc r) := by
  simp only [writes, List.mem_append, not_or] at hr
  obtain ⟨h0, h1, h2, h3, h4, h5, h6, h7, h8, h9, h10, h11, h12⟩ := hr
  simp only [ops, StableHlo.after_append]
  rw [seg8_kept _ h12, seg7_kept _ h11, dot3_kept _ h10, seg6_kept _ h9, seg5_kept _ h8, dot2_kept _ h7, seg4_kept _ h6, seg3_kept _ h5, dot1_kept _ h4, seg2_kept _ h3, seg1_kept _ h2, dot0_kept _ h1, seg0_kept _ h0]

theorem kept_main_arg0 (V : Valuation τ sig (Elt F)) :
    StableHlo.after ops V (Proc.devRef .tc main_arg0) = V (Proc.devRef .tc main_arg0) := kept V (by decide)
theorem kept_main_arg1 (V : Valuation τ sig (Elt F)) :
    StableHlo.after ops V (Proc.devRef .tc main_arg1) = V (Proc.devRef .tc main_arg1) := kept V (by decide)
theorem kept_main_arg2 (V : Valuation τ sig (Elt F)) :
    StableHlo.after ops V (Proc.devRef .tc main_arg2) = V (Proc.devRef .tc main_arg2) := kept V (by decide)
theorem kept_main_arg3 (V : Valuation τ sig (Elt F)) :
    StableHlo.after ops V (Proc.devRef .tc main_arg3) = V (Proc.devRef .tc main_arg3) := kept V (by decide)
theorem kept_main_arg4 (V : Valuation τ sig (Elt F)) :
    StableHlo.after ops V (Proc.devRef .tc main_arg4) = V (Proc.devRef .tc main_arg4) := kept V (by decide)
theorem kept_main_arg5 (V : Valuation τ sig (Elt F)) :
    StableHlo.after ops V (Proc.devRef .tc main_arg5) = V (Proc.devRef .tc main_arg5) := kept V (by decide)
theorem kept_main_arg6 (V : Valuation τ sig (Elt F)) :
    StableHlo.after ops V (Proc.devRef .tc main_arg6) = V (Proc.devRef .tc main_arg6) := kept V (by decide)
theorem kept_main_arg7 (V : Valuation τ sig (Elt F)) :
    StableHlo.after ops V (Proc.devRef .tc main_arg7) = V (Proc.devRef .tc main_arg7) := kept V (by decide)
theorem kept_main_arg8 (V : Valuation τ sig (Elt F)) :
    StableHlo.after ops V (Proc.devRef .tc main_arg8) = V (Proc.devRef .tc main_arg8) := kept V (by decide)
theorem kept_main_arg9 (V : Valuation τ sig (Elt F)) :
    StableHlo.after ops V (Proc.devRef .tc main_arg9) = V (Proc.devRef .tc main_arg9) := kept V (by decide)
theorem kept_main_arg10 (V : Valuation τ sig (Elt F)) :
    StableHlo.after ops V (Proc.devRef .tc main_arg10) = V (Proc.devRef .tc main_arg10) := kept V (by decide)
theorem kept_main_arg11 (V : Valuation τ sig (Elt F)) :
    StableHlo.after ops V (Proc.devRef .tc main_arg11) = V (Proc.devRef .tc main_arg11) := kept V (by decide)
theorem kept_main_arg12 (V : Valuation τ sig (Elt F)) :
    StableHlo.after ops V (Proc.devRef .tc main_arg12) = V (Proc.devRef .tc main_arg12) := kept V (by decide)
theorem kept_main_arg13 (V : Valuation τ sig (Elt F)) :
    StableHlo.after ops V (Proc.devRef .tc main_arg13) = V (Proc.devRef .tc main_arg13) := kept V (by decide)
theorem kept_main_arg14 (V : Valuation τ sig (Elt F)) :
    StableHlo.after ops V (Proc.devRef .tc main_arg14) = V (Proc.devRef .tc main_arg14) := kept V (by decide)
theorem kept_main_arg15 (V : Valuation τ sig (Elt F)) :
    StableHlo.after ops V (Proc.devRef .tc main_arg15) = V (Proc.devRef .tc main_arg15) := kept V (by decide)
theorem kept_main_arg16 (V : Valuation τ sig (Elt F)) :
    StableHlo.after ops V (Proc.devRef .tc main_arg16) = V (Proc.devRef .tc main_arg16) := kept V (by decide)
theorem kept_main_arg17 (V : Valuation τ sig (Elt F)) :
    StableHlo.after ops V (Proc.devRef .tc main_arg17) = V (Proc.devRef .tc main_arg17) := kept V (by decide)
theorem kept_main_arg18 (V : Valuation τ sig (Elt F)) :
    StableHlo.after ops V (Proc.devRef .tc main_arg18) = V (Proc.devRef .tc main_arg18) := kept V (by decide)
theorem kept_main_arg19 (V : Valuation τ sig (Elt F)) :
    StableHlo.after ops V (Proc.devRef .tc main_arg19) = V (Proc.devRef .tc main_arg19) := kept V (by decide)
theorem kept_main_arg20 (V : Valuation τ sig (Elt F)) :
    StableHlo.after ops V (Proc.devRef .tc main_arg20) = V (Proc.devRef .tc main_arg20) := kept V (by decide)
theorem kept_main_arg21 (V : Valuation τ sig (Elt F)) :
    StableHlo.after ops V (Proc.devRef .tc main_arg21) = V (Proc.devRef .tc main_arg21) := kept V (by decide)
theorem kept_main_arg22 (V : Valuation τ sig (Elt F)) :
    StableHlo.after ops V (Proc.devRef .tc main_arg22) = V (Proc.devRef .tc main_arg22) := kept V (by decide)

end Cert.ReferenceIdeal.RefRun

end
-- ==== Proof.Spec.lean ====
/-
  The model as pure functions of arrays of extended reals.

  A graph network on 50000 nodes and 800000 directed edges.  Node features are normalised per column over all
  nodes (`bn`: subtract the column mean, multiply by the reciprocal square root of the biased column variance plus
  a small constant, scale and shift).  A graph convolution multiplies the features by a weight matrix, then at
  every node adds up the rows of the incoming edges' source nodes, each scaled by 1/sqrt(deg src) · 1/sqrt(deg dst),
  adds the node's own row scaled by 1/deg, and a bias; deg is one plus the number of incoming edges.  After three
  such layers (the last two with a skip connection) every node gets a score from a small two-layer network, the
  scores become weights by a softmax over all nodes, the weighted features are averaged per graph of the batch and
  mapped to two outputs.

  Both programs compute exactly these functions; they differ only in where the matrix products are carried out and
  in how often the degree normalisation is recomputed.  Everything here is stated at the ideal reading of floats:
  an entry is an extended real and every operation is the exact one.
-/
import proofs.«163758_j78546361909451_1_alg».proof.Proof.Gen.KernelIdeal
import Idealize.ShloMosaic.PureOps.Ideal
import Idealize.ShloMosaic.Lib.ValueIdx

noncomputable section

namespace Cert.KernelIdeal.Spec

open Cert.KernelIdeal Cert.KernelIdeal.Facts₀ Idealize.ShloMosaic Idealize.ShloMosaic.TcCoe Idealize.ShloMosaic.ValueIdx

/-- An array of extended reals of the given shape. -/
abbrev FA (S : Shape) : Type := FVec Ideal S .f32
/-- An array of 32-bit integers of the given shape. -/
abbrev IA (S : Shape) : Type := IVec S 32

/-! ## The edge list and the degree normalisation -/

/-- Row `0` of the edge list: the source node of every edge. -/
def srcIdx (ei : IA S2x800000) : IA S800000 := fun i =>
  shapeCast S800000 (extractStridedSlice S1x800000 ![0, 0] ei slices_S2x800000_S1x800000_0_0) shapeCasts_S1x800000_S800000 i

/-- Row `1` of the edge list: the target node of every edge. -/
def dstIdx (ei : IA S2x800000) : IA S800000 := fun i =>
  shapeCast S800000 (extractStridedSlice S1x800000 ![1, 0] ei slices_S2x800000_S1x800000_1_0) shapeCasts_S1x800000_S800000 i

/-- A node index vector made ready for a lookup: a negative index counts from the end (50000 is added to it),
    and the vector is laid out as a column. -/
def wrap (ix : IA S800000) : IA S800000x1 :=
  broadcastInDim S800000x1 ![0] bcast_S800000_S800000x1_0
    (select (cmpi CmpIPredicate.slt ix (broadcastInDim S800000 ![] bcast_S_S800000 (constantI S_ 32 0#32)))
      (addi ix (broadcastInDim S800000 ![] bcast_S_S800000 (constantI S_ 32 50000#32))) ix)

/-- `1 / sqrt (1 + number of edges into the node)`, per node. -/
def dinv (dst : IA S800000) : FA S50000 :=
  Host.rsqrt
    (addf
      (Host.scatterAdd scatter_S50000_S800000x1_S800000_n_0_0_1
        (broadcastInDim S50000 ![] bcast_S_S50000 (constant (F := Ideal) S_ .f32 0x00000000#32))
        (broadcastInDim S800000x1 ![0] bcast_S800000_S800000x1_0 dst)
        (broadcastInDim S800000 ![] bcast_S_S800000 (constant (F := Ideal) S_ .f32 0x3F800000#32)))
      (broadcastInDim S50000 ![] bcast_S_S50000 (constant (F := Ideal) S_ .f32 0x3F800000#32)))

/-- The weight of an edge: `dinv` at its source times `dinv` at its target. -/
def edgeScale (src dst : IA S800000) : FA S800000 :=
  mulf (Host.gather gather_S50000_S800000x1_S800000_n_0_n_n_0_1_1 (dinv dst) (wrap src))
    (Host.gather gather_S50000_S800000x1_S800000_n_0_n_n_0_1_1 (dinv dst) (wrap dst))

/-- The weight of a node's own row: `dinv` squared. -/
def selfScale (dst : IA S800000) : FA S50000 := mulf (dinv dst) (dinv dst)

/-! ## Column normalisation -/

/-- A row vector repeated down the 50000 rows. -/
def rows (v : FA S256) : FA S50000x256 :=
  broadcastInDim S50000x256 ![0, 1] bcast_S1x256_S50000x256_0_1 (broadcastInDim S1x256 ![1] bcast_S256_S1x256_1 v)

/-- The mean of every column: the column sum divided by 50000. -/
def colMean (x : FA S50000x256) : FA S256 :=
  Host.divf (Host.reduceAdd x (constant (F := Ideal) S_ .f32 0x00000000#32) reducesTo_S50000x256_S256_d0 h_S_)
    (broadcastInDim S256 ![] bcast_S_S256 (constant (F := Ideal) S_ .f32 0x47435000#32))

/-- Column-wise normalisation over all nodes, then scale `g` and shift `b`. -/
def bn (x : FA S50000x256) (g b : FA S256) : FA S50000x256 :=
  addf
    (mulf
      (mulf (subf x (rows (colMean x)))
        (rows (Host.rsqrt (addf (colMean (mulf (subf x (rows (colMean x))) (subf x (rows (colMean x)))))
          (broadcastInDim S256 ![] bcast_S_S256 (constant (F := Ideal) S_ .f32 0x3727C5AC#32))))))
      (rows g))
    (rows b)

/-! ## One graph convolution after its matrix product -/

/-- The positive part. -/
def relu (x : FA S50000x256) : FA S50000x256 :=
  maximumf x (broadcastInDim S50000x256 ![] bcast_S_S50000x256 (constant (F := Ideal) S_ .f32 0x00000000#32))

/-- From the transformed features `h`: the scaled rows of the edges' sources summed at the edges' targets, plus the
    node's own scaled row, plus the bias. -/
def gcnPost (h : FA S50000x256) (src dst : IA S800000) (es : FA S800000) (ss : FA S50000) (b : FA S256) : FA S50000x256 :=
  addf
    (addf
      (Host.scatterAdd scatter_S50000x256_S800000x1_S800000x256_1_0_0_1
        (broadcastInDim S50000x256 ![] bcast_S_S50000x256 (constant (F := Ideal) S_ .f32 0x00000000#32))
        (broadcastInDim S800000x1 ![0] bcast_S800000_S800000x1_0 dst)
        (mulf (Host.gather gather_S50000x256_S800000x1_S800000x256_1_0_n_n_0_1_1256 h (wrap src))
          (broadcastInDim S800000x256 ![0, 1] bcast_S800000x1_S800000x256_0_1
            (broadcastInDim S800000x1 ![0] bcast_S800000_S800000x1_0 es))))
      (mulf h
        (broadcastInDim S50000x256 ![0, 1] bcast_S50000x1_S50000x256_0_1
          (broadcastInDim S50000x1 ![0] bcast_S50000_S50000x1_0 ss))))
    (rows b)

/-- A layer after its matrix product: aggregate, positive part, normalise. -/
def layer (h : FA S50000x256) (src dst : IA S800000) (es : FA S800000) (ss : FA S50000) (b g bb : FA S256) : FA S50000x256 :=
  bn (relu (gcnPost h src dst es ss b)) g bb

/-! ## The attention head, the pooling and the read-out -/

/-- A 128-vector repeated down the 50000 rows. -/
def rows128 (v : FA S128) : FA S50000x128 :=
  broadcastInDim S50000x128 ![0, 1] bcast_S1x128_S50000x128_0_1 (broadcastInDim S1x128 ![1] bcast_S128_S1x128_1 v)

/-- `x` where it is non-negative, the small slope times `x` elsewhere. -/
def leaky (x : FA S50000x128) : FA S50000x128 :=
  select (cmpf .oge x (broadcastInDim S50000x128 ![] bcast_S_S50000x128 (constant (F := Ideal) S_ .f32 0x00000000#32))) x
    (mulf (broadcastInDim S50000x128 ![] bcast_S_S50000x128 (id (constant (F := Ideal) S_ .f32 0x3C23D70A#32))) x)

/-- One number repeated down a column of 50000. -/
def col1 (v : FA S1) : FA S50000x1 :=
  broadcastInDim S50000x1 ![0, 1] bcast_S1x1_S50000x1_0_1 (broadcastInDim S1x1 ![1] bcast_S1_S1x1_1 v)

/-- The score of every node. -/
def scores (a : FA S50000x128) (Wa2 : FA S128x1) (ba2 : FA S1) : FA S50000x1 :=
  addf (Host.dotGeneral dot_S50000x128_S128x1_S50000x1_1_0_0_1_n_n none a Wa2) (col1 ba2)

/-- The largest score (never below minus infinity). -/
def smax (s : FA S50000x1) : FA S1 :=
  maximumf (broadcastInDim S1 ![] bcast_S_S1 (constant (F := Ideal) S_ .f32 0xFF800000#32))
    (Host.reduce FloatOps.maximumf s (constant (F := Ideal) S_ .f32 0xFF800000#32) reducesTo_S50000x1_S1_d0 h_S_)

/-- The exponentials of the scores after the largest is subtracted. -/
def expShift (s : FA S50000x1) : FA S50000x1 := Host.exp (subf s (col1 (smax s)))

/-- The softmax over all nodes. -/
def softmax0 (s : FA S50000x1) : FA S50000x1 :=
  Host.divf (expShift s)
    (col1 (Host.reduceAdd (expShift s) (constant (F := Ideal) S_ .f32 0x00000000#32) reducesTo_S50000x1_S1_d0 h_S_))

/-- The number of nodes of every graph, at least one. -/
def counts (batch : IA S50000) : FA S64 :=
  maximumf
    (Host.scatterAdd scatter_S64_S50000x1_S50000_n_0_0_1
      (broadcastInDim S64 ![] bcast_S_S64 (constant (F := Ideal) S_ .f32 0x00000000#32))
      (broadcastInDim S50000x1 ![0] bcast_S50000_S50000x1_0 batch)
      (broadcastInDim S50000 ![] bcast_S_S50000 (constant (F := Ideal) S_ .f32 0x3F800000#32)))
    (broadcastInDim S64 ![] bcast_S_S64 (constant (F := Ideal) S_ .f32 0x3F800000#32))

/-- The weighted features summed per graph and divided by the graph's node count. -/
def pooled (xp : FA S50000x256) (w : FA S50000x1) (batch : IA S50000) : FA S64x256 :=
  Host.divf
    (Host.scatterAdd scatter_S64x256_S50000x1_S50000x256_1_0_0_1
      (broadcastInDim S64x256 ![] bcast_S_S64x256 (constant (F := Ideal) S_ .f32 0x00000000#32))
      (broadcastInDim S50000x1 ![0] bcast_S50000_S50000x1_0 batch)
      (mulf xp (broadcastInDim S50000x256 ![0, 1] bcast_S50000x1_S50000x256_0_1 w)))
    (broadcastInDim S64x256 ![0, 1] bcast_S64x1_S64x256_0_1 (broadcastInDim S64x1 ![0] bcast_S64_S64x1_0 (counts batch)))

/-- The two outputs per graph. -/
def readout (p : FA S64x256) (Wo : FA S256x2) (bo : FA S2) : FA S64x2 :=
  addf (Host.dotGeneral dot_S64x256_S256x2_S64x2_1_0_0_1_n_n none p Wo)
    (broadcastInDim S64x2 ![0, 1] bcast_S1x2_S64x2_0_1 (broadcastInDim S1x2 ![1] bcast_S2_S1x2_1 bo))

/-- From the final features `xp` and their first projection `h1`: scores, softmax weights, pooling, read-out. -/
def head (xp : FA S50000x256) (h1 : FA S50000x128) (ba1 : FA S128) (Wa2 : FA S128x1) (ba2 : FA S1)
    (batch : IA S50000) (Wo : FA S256x2) (bo : FA S2) : FA S64x2 :=
  readout (pooled xp (softmax0 (scores (leaky (addf h1 (rows128 ba1))) Wa2 ba2)) batch) Wo bo

/-! ## The matrix products and the whole model -/

/-- Features times a square weight matrix: entry `(p, q)` is the sum over `k` of `x (p, k) · W (k, q)`. -/
def mm (x : FA S50000x256) (W : FA S256x256) : FA S50000x256 :=
  fun j => ∑ k : Fin 256, x (ix2 (j 0) k) * W (ix2 k (j 1))

/-- Features times the 256 × 128 matrix of the attention head. -/
def mm1 (x : FA S50000x256) (W : FA S256x128) : FA S50000x128 :=
  fun j => ∑ k : Fin 256, x (ix2 (j 0) k) * W (ix2 k (j 1))

/-- The features entering the first layer. -/
def x0 (x : FA S50000x256) (gi bi : FA S256) : FA S50000x256 := bn x gi bi

/-- The features after the first layer. -/
def x1 (x : FA S50000x256) (ei : IA S2x800000) (gi bi : FA S256) (W0 : FA S256x256) (b0 g0 bb0 : FA S256) : FA S50000x256 :=
  layer (mm (x0 x gi bi) W0) (srcIdx ei) (dstIdx ei) (edgeScale (srcIdx ei) (dstIdx ei)) (selfScale (dstIdx ei)) b0 g0 bb0

/-- One more layer with its skip connection. -/
def next (xp : FA S50000x256) (ei : IA S2x800000) (W : FA S256x256) (b g bb : FA S256) : FA S50000x256 :=
  addf (layer (mm xp W) (srcIdx ei) (dstIdx ei) (edgeScale (srcIdx ei) (dstIdx ei)) (selfScale (dstIdx ei)) b g bb) xp

/-- The whole model. -/
def model (x : FA S50000x256) (ei : IA S2x800000) (batch : IA S50000) (gi bi : FA S256)
    (W0 : FA S256x256) (b0 g0 bb0 : FA S256) (W1 : FA S256x256) (b1 g1 bb1 : FA S256)
    (W2 : FA S256x256) (b2 g2 bb2 : FA S256) (Wa1 : FA S256x128) (ba1 : FA S128) (Wa2 : FA S128x1) (ba2 : FA S1)
    (Wo : FA S256x2) (bo : FA S2) : FA S64x2 :=
  head (next (next (x1 x ei gi bi W0 b0 g0 bb0) ei W1 b1 g1 bb1) ei W2 b2 g2 bb2)
    (mm1 (next (next (x1 x ei gi bi W0 b0 g0 bb0) ei W1 b1 g1 bb1) ei W2 b2 g2 bb2) Wa1)
    ba1 Wa2 ba2 batch Wo bo

end Cert.KernelIdeal.Spec

end
-- ==== Proof.Assemble.lean ====
/-
  The two runs side by side.

  The idealized kernel ends with its result at the last stage of its fold over the launch memory, and the
  idealized reference with its result at the fold of its operations over its launch memory.  Once each fold, at the
  result's buffer, is known to be the model's function of the 23 argument arrays, the two results are equal whenever
  the two launch memories agree on the arguments: the same function at equal arguments.  The reference's argument
  arrays end unchanged because none of its operations writes one.
-/
import proofs.«163758_j78546361909451_1_alg».proof.Defs
import proofs.«163758_j78546361909451_1_alg».proof.Proof.Gen.Pre_finite_inputs
import proofs.«163758_j78546361909451_1_alg».proof.Proof.KernelRun
import proofs.«163758_j78546361909451_1_alg».proof.Proof.RefRun
import proofs.«163758_j78546361909451_1_alg».proof.Proof.Spec

set_option maxRecDepth 16384

noncomputable section

namespace Cert.Proof.Assemble

open Idealize.ShloMosaic Idealize.ShloMosaic.TcCoe Idealize.SL.Sem Idealize.ShloMosaic.StableHlo

/-- The reference runs, and its argument arrays end as launched. -/
theorem frame_reference : Cert.frame_ReferenceIdeal := fun m ρ _ =>
  (θ_run Cert.ReferenceIdeal.defs _ _).mono (fun r h c =>
    ⟨(h c Cert.ReferenceIdeal.main_arg0).trans (Cert.ReferenceIdeal.RefRun.kept_main_arg0 _),
      (h c Cert.ReferenceIdeal.main_arg1).trans (Cert.ReferenceIdeal.RefRun.kept_main_arg1 _),
      (h c Cert.ReferenceIdeal.main_arg2).trans (Cert.ReferenceIdeal.RefRun.kept_main_arg2 _),
      (h c Cert.ReferenceIdeal.main_arg3).trans (Cert.ReferenceIdeal.RefRun.kept_main_arg3 _),
      (h c Cert.ReferenceIdeal.main_arg4).trans (Cert.ReferenceIdeal.RefRun.kept_main_arg4 _),
      (h c Cert.ReferenceIdeal.main_arg5).trans (Cert.ReferenceIdeal.RefRun.kept_main_arg5 _),
      (h c Cert.ReferenceIdeal.main_arg6).trans (Cert.ReferenceIdeal.RefRun.kept_main_arg6 _),
      (h c Cert.ReferenceIdeal.main_arg7).trans (Cert.ReferenceIdeal.RefRun.kept_main_arg7 _),
      (h c Cert.ReferenceIdeal.main_arg8).trans (Cert.ReferenceIdeal.RefRun.kept_main_arg8 _),
      (h c Cert.ReferenceIdeal.main_arg9).trans (Cert.ReferenceIdeal.RefRun.kept_main_arg9 _),
      (h c Cert.ReferenceIdeal.main_arg10).trans (Cert.ReferenceIdeal.RefRun.kept_main_arg10 _),
      (h c Cert.ReferenceIdeal.main_arg11).trans (Cert.ReferenceIdeal.RefRun.kept_main_arg11 _),
      (h c Cert.ReferenceIdeal.main_arg12).trans (Cert.ReferenceIdeal.RefRun.kept_main_arg12 _),
      (h c Cert.ReferenceIdeal.main_arg13).trans (Cert.ReferenceIdeal.RefRun.kept_main_arg13 _),
      (h c Cert.ReferenceIdeal.main_arg14).trans (Cert.ReferenceIdeal.RefRun.kept_main_arg14 _),
      (h c Cert.ReferenceIdeal.main_arg15).trans (Cert.ReferenceIdeal.RefRun.kept_main_arg15 _),
      (h c Cert.ReferenceIdeal.main_arg16).trans (Cert.ReferenceIdeal.RefRun.kept_main_arg16 _),
      (h c Cert.ReferenceIdeal.main_arg17).trans (Cert.ReferenceIdeal.RefRun.kept_main_arg17 _),
      (h c Cert.ReferenceIdeal.main_arg18).trans (Cert.ReferenceIdeal.RefRun.kept_main_arg18 _),
      (h c Cert.ReferenceIdeal.main_arg19).trans (Cert.ReferenceIdeal.RefRun.kept_main_arg19 _),
      (h c Cert.ReferenceIdeal.main_arg20).trans (Cert.ReferenceIdeal.RefRun.kept_main_arg20 _),
      (h c Cert.ReferenceIdeal.main_arg21).trans (Cert.ReferenceIdeal.RefRun.kept_main_arg21 _),
      (h c Cert.ReferenceIdeal.main_arg22).trans (Cert.ReferenceIdeal.RefRun.kept_main_arg22 _)⟩)
    (Cert.ReferenceIdeal.RefRun.run (F := Ideal) m ρ)

/-- Equal results from memories that agree on the arguments, given that each program's fold at its result buffer is
    the model's function of the arguments. -/
theorem algebraic_of
    (hK : ∀ (m : (ℓ : Loc Cert.KernelIdeal.nD Cert.KernelIdeal.τ Cert.KernelIdeal.sig) → Buf (Elt Ideal) ℓ) (ρ : Dev Cert.KernelIdeal.nD → PrngReg) (c : Dev Cert.KernelIdeal.nD),
      Cert.KernelIdeal.Gen.W17 (F := Ideal) m ρ c (Proc.devRef Proc.tc Cert.KernelIdeal.main_v232) = Cert.KernelIdeal.Spec.model (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)))
    (hR : ∀ (V : Valuation Cert.ReferenceIdeal.τ Cert.ReferenceIdeal.sig (Elt Ideal)),
      StableHlo.after (Cert.ReferenceIdeal.RefRun.ops (F := Ideal)) V (Proc.devRef Proc.tc Cert.ReferenceIdeal.main_v278)
        = Cert.KernelIdeal.Spec.model (V (Proc.devRef Proc.tc Cert.ReferenceIdeal.main_arg0)) (V (Proc.devRef Proc.tc Cert.ReferenceIdeal.main_arg1)) (V (Proc.devRef Proc.tc Cert.ReferenceIdeal.main_arg2)) (V (Proc.devRef Proc.tc Cert.ReferenceIdeal.main_arg3)) (V (Proc.devRef Proc.tc Cert.ReferenceIdeal.main_arg4)) (V (Proc.devRef Proc.tc Cert.ReferenceIdeal.main_arg5)) (V (Proc.devRef Proc.tc Cert.ReferenceIdeal.main_arg6)) (V (Proc.devRef Proc.tc Cert.ReferenceIdeal.main_arg7)) (V (Proc.devRef Proc.tc Cert.ReferenceIdeal.main_arg8)) (V (Proc.devRef Proc.tc Cert.ReferenceIdeal.main_arg9)) (V (Proc.devRef Proc.tc Cert.ReferenceIdeal.main_arg10)) (V (Proc.devRef Proc.tc Cert.ReferenceIdeal.main_arg11)) (V (Proc.devRef Proc.tc Cert.ReferenceIdeal.main_arg12)) (V (Proc.devRef Proc.tc Cert.ReferenceIdeal.main_arg13)) (V (Proc.devRef Proc.tc Cert.ReferenceIdeal.main_arg14)) (V (Proc.devRef Proc.tc Cert.ReferenceIdeal.main_arg15)) (V (Proc.devRef Proc.tc Cert.ReferenceIdeal.main_arg16)) (V (Proc.devRef Proc.tc Cert.ReferenceIdeal.main_arg17)) (V (Proc.devRef Proc.tc Cert.ReferenceIdeal.main_arg18)) (V (Proc.devRef Proc.tc Cert.ReferenceIdeal.main_arg19)) (V (Proc.devRef Proc.tc Cert.ReferenceIdeal.main_arg20)) (V (Proc.devRef Proc.tc Cert.ReferenceIdeal.main_arg21)) (V (Proc.devRef Proc.tc Cert.ReferenceIdeal.main_arg22))) :
    Cert.algebraic_KernelIdeal_ReferenceIdeal := by
  intro m ρ m' ρ' _ hagree
  refine ⟨fun c => Cert.KernelIdeal.Gen.W17 (F := Ideal) m ρ c (Proc.devRef Proc.tc Cert.KernelIdeal.main_v232),
    Cert.KernelIdeal.KRun.run (F := Ideal) m ρ, ?_⟩
  refine (θ_run Cert.ReferenceIdeal.defs _ _).mono (fun r h c => ⟨?_,
      (h c Cert.ReferenceIdeal.main_arg0).trans (Cert.ReferenceIdeal.RefRun.kept_main_arg0 _),
      (h c Cert.ReferenceIdeal.main_arg1).trans (Cert.ReferenceIdeal.RefRun.kept_main_arg1 _),
      (h c Cert.ReferenceIdeal.main_arg2).trans (Cert.ReferenceIdeal.RefRun.kept_main_arg2 _),
      (h c Cert.ReferenceIdeal.main_arg3).trans (Cert.ReferenceIdeal.RefRun.kept_main_arg3 _),
      (h c Cert.ReferenceIdeal.main_arg4).trans (Cert.ReferenceIdeal.RefRun.kept_main_arg4 _),
      (h c Cert.ReferenceIdeal.main_arg5).trans (Cert.ReferenceIdeal.RefRun.kept_main_arg5 _),
      (h c Cert.ReferenceIdeal.main_arg6).trans (Cert.ReferenceIdeal.RefRun.kept_main_arg6 _),
      (h c Cert.ReferenceIdeal.main_arg7).trans (Cert.ReferenceIdeal.RefRun.kept_main_arg7 _),
      (h c Cert.ReferenceIdeal.main_arg8).trans (Cert.ReferenceIdeal.RefRun.kept_main_arg8 _),
      (h c Cert.ReferenceIdeal.main_arg9).trans (Cert.ReferenceIdeal.RefRun.kept_main_arg9 _),
      (h c Cert.ReferenceIdeal.main_arg10).trans (Cert.ReferenceIdeal.RefRun.kept_main_arg10 _),
      (h c Cert.ReferenceIdeal.main_arg11).trans (Cert.ReferenceIdeal.RefRun.kept_main_arg11 _),
      (h c Cert.ReferenceIdeal.main_arg12).trans (Cert.ReferenceIdeal.RefRun.kept_main_arg12 _),
      (h c Cert.ReferenceIdeal.main_arg13).trans (Cert.ReferenceIdeal.RefRun.kept_main_arg13 _),
      (h c Cert.ReferenceIdeal.main_arg14).trans (Cert.ReferenceIdeal.RefRun.kept_main_arg14 _),
      (h c Cert.ReferenceIdeal.main_arg15).trans (Cert.ReferenceIdeal.RefRun.kept_main_arg15 _),
      (h c Cert.ReferenceIdeal.main_arg16).trans (Cert.ReferenceIdeal.RefRun.kept_main_arg16 _),
      (h c Cert.ReferenceIdeal.main_arg17).trans (Cert.ReferenceIdeal.RefRun.kept_main_arg17 _),
      (h c Cert.ReferenceIdeal.main_arg18).trans (Cert.ReferenceIdeal.RefRun.kept_main_arg18 _),
      (h c Cert.ReferenceIdeal.main_arg19).trans (Cert.ReferenceIdeal.RefRun.kept_main_arg19 _),
      (h c Cert.ReferenceIdeal.main_arg20).trans (Cert.ReferenceIdeal.RefRun.kept_main_arg20 _),
      (h c Cert.ReferenceIdeal.main_arg21).trans (Cert.ReferenceIdeal.RefRun.kept_main_arg21 _),
      (h c Cert.ReferenceIdeal.main_arg22).trans (Cert.ReferenceIdeal.RefRun.kept_main_arg22 _)⟩)
    (Cert.ReferenceIdeal.RefRun.run (F := Ideal) m' ρ')
  have e0 : StableHlo.launchContents m' c (Proc.devRef Proc.tc Cert.ReferenceIdeal.main_arg0) = m ((c.tc : Thread Cert.KernelIdeal.nD Cert.KernelIdeal.τ).loc Cert.KernelIdeal.main_arg0) := (hagree c).1
  have e1 : StableHlo.launchContents m' c (Proc.devRef Proc.tc Cert.ReferenceIdeal.main_arg1) = m ((c.tc : Thread Cert.KernelIdeal.nD Cert.KernelIdeal.τ).loc Cert.KernelIdeal.main_arg1) := (hagree c).2.1
  have e2 : StableHlo.launchContents m' c (Proc.devRef Proc.tc Cert.ReferenceIdeal.main_arg2) = m ((c.tc : Thread Cert.KernelIdeal.nD Cert.KernelIdeal.τ).loc Cert.KernelIdeal.main_arg2) := (hagree c).2.2.1
  have e3 : StableHlo.launchContents m' c (Proc.devRef Proc.tc Cert.ReferenceIdeal.main_arg3) = m ((c.tc : Thread Cert.KernelIdeal.nD Cert.KernelIdeal.τ).loc Cert.KernelIdeal.main_arg3) := (hagree c).2.2.2.1
  have e4 : StableHlo.launchContents m' c (Proc.devRef Proc.tc Cert.ReferenceIdeal.main_arg4) = m ((c.tc : Thread Cert.KernelIdeal.nD Cert.KernelIdeal.τ).loc Cert.KernelIdeal.main_arg4) := (hagree c).2.2.2.2.1
  have e5 : StableHlo.launchContents m' c (Proc.devRef Proc.tc Cert.ReferenceIdeal.main_arg5) = m ((c.tc : Thread Cert.KernelIdeal.nD Cert.KernelIdeal.τ).loc Cert.KernelIdeal.main_arg5) := (hagree c).2.2.2.2.2.1
  have e6 : StableHlo.launchContents m' c (Proc.devRef Proc.tc Cert.ReferenceIdeal.main_arg6) = m ((c.tc : Thread Cert.KernelIdeal.nD Cert.KernelIdeal.τ).loc Cert.KernelIdeal.main_arg6) := (hagree c).2.2.2.2.2.2.1
  have e7 : StableHlo.launchContents m' c (Proc.devRef Proc.tc Cert.ReferenceIdeal.main_arg7) = m ((c.tc : Thread Cert.KernelIdeal.nD Cert.KernelIdeal.τ).loc Cert.KernelIdeal.main_arg7) := (hagree c).2.2.2.2.2.2.2.1
  have e8 : StableHlo.launchContents m' c (Proc.devRef Proc.tc Cert.ReferenceIdeal.main_arg8) = m ((c.tc : Thread Cert.KernelIdeal.nD Cert.KernelIdeal.τ).loc Cert.KernelIdeal.main_arg8) := (hagree c).2.2.2.2.2.2.2.2.1
  have e9 : StableHlo.launchContents m' c (Proc.devRef Proc.tc Cert.ReferenceIdeal.main_arg9) = m ((c.tc : Thread Cert.KernelIdeal.nD Cert.KernelIdeal.τ).loc Cert.KernelIdeal.main_arg9) := (hagree c).2.2.2.2.2.2.2.2.2.1
  have e10 : StableHlo.launchContents m' c (Proc.devRef Proc.tc Cert.ReferenceIdeal.main_arg10) = m ((c.tc : Thread Cert.KernelIdeal.nD Cert.KernelIdeal.τ).loc Cert.KernelIdeal.main_arg10) := (hagree c).2.2.2.2.2.2.2.2.2.2.1
  have e11 : StableHlo.launchContents m' c (Proc.devRef Proc.tc Cert.ReferenceIdeal.main_arg11) = m ((c.tc : Thread Cert.KernelIdeal.nD Cert.KernelIdeal.τ).loc Cert.KernelIdeal.main_arg11) := (hagree c).2.2.2.2.2.2.2.2.2.2.2.1
  have e12 : StableHlo.launchContents m' c (Proc.devRef Proc.tc Cert.ReferenceIdeal.main_arg12) = m ((c.tc : Thread Cert.KernelIdeal.nD Cert.KernelIdeal.τ).loc Cert.KernelIdeal.main_arg12) := (hagree c).2.2.2.2.2.2.2.2.2.2.2.2.1
  have e13 : StableHlo.launchContents m' c (Proc.devRef Proc.tc Cert.ReferenceIdeal.main_arg13) = m ((c.tc : Thread Cert.KernelIdeal.nD Cert.KernelIdeal.τ).loc Cert.KernelIdeal.main_arg13) := (hagree c).2.2.2.2.2.2.2.2.2.2.2.2.2.1
  have e14 : StableHlo.launchContents m' c (Proc.devRef Proc.tc Cert.ReferenceIdeal.main_arg14) = m ((c.tc : Thread Cert.KernelIdeal.nD Cert.KernelIdeal.τ).loc Cert.KernelIdeal.main_arg14) := (hagree c).2.2.2.2.2.2.2.2.2.2.2.2.2.2.1
  have e15 : StableHlo.launchContents m' c (Proc.devRef Proc.tc Cert.ReferenceIdeal.main_arg15) = m ((c.tc : Thread Cert.KernelIdeal.nD Cert.KernelIdeal.τ).loc Cert.KernelIdeal.main_arg15) := (hagree c).2.2.2.2.2.2.2.2.2.2.2.2.2.2.2.1
  have e16 : StableHlo.launchContents m' c (Proc.devRef Proc.tc Cert.ReferenceIdeal.main_arg16) = m ((c.tc : Thread Cert.KernelIdeal.nD Cert.KernelIdeal.τ).loc Cert.KernelIdeal.main_arg16) := (hagree c).2.2.2.2.2.2.2.2.2.2.2.2.2.2.2.2.1
  have e17 : StableHlo.launchContents m' c (Proc.devRef Proc.tc Cert.ReferenceIdeal.main_arg17) = m ((c.tc : Thread Cert.KernelIdeal.nD Cert.KernelIdeal.τ).loc Cert.KernelIdeal.main_arg17) := (hagree c).2.2.2.2.2.2.2.2.2.2.2.2.2.2.2.2.2.1
  have e18 : StableHlo.launchContents m' c (Proc.devRef Proc.tc Cert.ReferenceIdeal.main_arg18) = m ((c.tc : Thread Cert.KernelIdeal.nD Cert.KernelIdeal.τ).loc Cert.KernelIdeal.main_arg18) := (hagree c).2.2.2.2.2.2.2.2.2.2.2.2.2.2.2.2.2.2.1
  have e19 : StableHlo.launchContents m' c (Proc.devRef Proc.tc Cert.ReferenceIdeal.main_arg19) = m ((c.tc : Thread Cert.KernelIdeal.nD Cert.KernelIdeal.τ).loc Cert.KernelIdeal.main_arg19) := (hagree c).2.2.2.2.2.2.2.2.2.2.2.2.2.2.2.2.2.2.2.1
  have e20 : StableHlo.launchContents m' c (Proc.devRef Proc.tc Cert.ReferenceIdeal.main_arg20) = m ((c.tc : Thread Cert.KernelIdeal.nD Cert.KernelIdeal.τ).loc Cert.KernelIdeal.main_arg20) := (hagree c).2.2.2.2.2.2.2.2.2.2.2.2.2.2.2.2.2.2.2.2.1
  have e21 : StableHlo.launchContents m' c (Proc.devRef Proc.tc Cert.ReferenceIdeal.main_arg21) = m ((c.tc : Thread Cert.KernelIdeal.nD Cert.KernelIdeal.τ).loc Cert.KernelIdeal.main_arg21) := (hagree c).2.2.2.2.2.2.2.2.2.2.2.2.2.2.2.2.2.2.2.2.2.1
  have e22 : StableHlo.launchContents m' c (Proc.devRef Proc.tc Cert.ReferenceIdeal.main_arg22) = m ((c.tc : Thread Cert.KernelIdeal.nD Cert.KernelIdeal.τ).loc Cert.KernelIdeal.main_arg22) := (hagree c).2.2.2.2.2.2.2.2.2.2.2.2.2.2.2.2.2.2.2.2.2.2
  refine (h c Cert.ReferenceIdeal.main_v278).trans ?_
  show _ = Cert.KernelIdeal.Gen.W17 (F := Ideal) m ρ c (Proc.devRef Proc.tc Cert.KernelIdeal.main_v232)
  rw [hR, hK, e0, e1, e2, e3, e4, e5, e6, e7, e8, e9, e10, e11, e12, e13, e14, e15, e16, e17, e18, e19, e20, e21, e22]

end Cert.Proof.Assemble

end
-- ==== Proof.KStages.lean ====
/-
  What the idealized kernel's host stretches compute, stretch by stretch.

  For an arbitrary assignment `V` of contents to the buffers, the contents a stretch of host operations leaves in
  the buffer that matters later is one of the model's functions (Spec) of what `V` holds in the stretch's inputs:
  the operations of the stretch, composed in program order, are that function's definition written out.
-/
import proofs.«163758_j78546361909451_1_alg».proof.Proof.Gen.KernelIdeal.Launch
import proofs.«163758_j78546361909451_1_alg».proof.Proof.Spec
import Idealize.ShloMosaic.Lib.StableHlo.Run

set_option maxRecDepth 16384

noncomputable section

namespace Cert.KernelIdeal.KStages

open Cert.KernelIdeal Cert.KernelIdeal.Gen Cert.KernelIdeal.Spec
open Idealize.ShloMosaic Idealize.ShloMosaic.TcCoe Idealize.SL.Sem Idealize.ShloMosaic.StableHlo

variable (V : Valuation τ sig (Elt Ideal))

local notation "V⟪" b "⟫" => V (Proc.devRef Proc.tc b)

/-! ## Before the first matrix product: the edge list, the degree normalisation, the input normalisation -/

theorem pre_src : StableHlo.after (hostOps0 (F := Ideal)) V (Proc.devRef Proc.tc main_v1) = srcIdx V⟪main_arg1⟫ := by
  simp only [hostOps0]; after_results_simp; unfold srcIdx; rfl

theorem pre_dst : StableHlo.after (hostOps0 (F := Ideal)) V (Proc.devRef Proc.tc main_v3) = dstIdx V⟪main_arg1⟫ := by
  simp only [hostOps0]; after_results_simp; unfold dstIdx; rfl

set_option maxHeartbeats 400000 in
theorem pre_es : StableHlo.after (hostOps0 (F := Ideal)) V (Proc.devRef Proc.tc main_v25)
    = edgeScale (srcIdx V⟪main_arg1⟫) (dstIdx V⟪main_arg1⟫) := by
  simp only [hostOps0]; after_results_simp; unfold edgeScale dinv wrap srcIdx dstIdx; rfl

set_option maxHeartbeats 400000 in
theorem pre_ss : StableHlo.after (hostOps0 (F := Ideal)) V (Proc.devRef Proc.tc main_v26) = selfScale (dstIdx V⟪main_arg1⟫) := by
  simp only [hostOps0]; after_results_simp; unfold selfScale dinv dstIdx; rfl

theorem pre_x : StableHlo.after (hostOps0 (F := Ideal)) V (Proc.devRef Proc.tc main_v51)
    = x0 V⟪main_arg0⟫ V⟪main_arg3⟫ V⟪main_arg4⟫ := by
  simp only [hostOps0]; after_results_simp; unfold x0 bn colMean rows; with_reducible rfl

/-! ## The three layers, each after its matrix product -/

/-- The aggregation of layer 1: the scaled source rows summed at the targets, the node's own scaled row, the bias. -/
theorem conv1 : StableHlo.after (hostOps1 (F := Ideal)) V (Proc.devRef Proc.tc main_v72)
    = gcnPost V⟪main_v52⟫ V⟪main_v1⟫ V⟪main_v3⟫ V⟪main_v25⟫ V⟪main_v26⟫ V⟪main_arg6⟫ := by
  simp only [hostOps1]
  after_results_simp
  unfold gcnPost rows wrap
  with_reducible rfl

/-- The positive part of layer 1. -/
theorem relu1 : StableHlo.after (hostOps1_1 (F := Ideal)) V (Proc.devRef Proc.tc main_v73) = relu V⟪main_v72⟫ := by
  simp only [hostOps1_1, List.flatten_cons, List.flatten_nil, List.append_nil, List.cons_append, List.nil_append]
  after_results_simp
  unfold relu
  rfl

/-- The normalisation of layer 1. -/
theorem norm1 : StableHlo.after (hostOps1_2 (F := Ideal)) V (Proc.devRef Proc.tc main_v98)
    = bn V⟪main_v73⟫ V⟪main_arg7⟫ V⟪main_arg8⟫ := by
  simp only [hostOps1_2]
  after_results_simp
  unfold bn colMean rows
  with_reducible rfl

/-- The aggregation of layer 2: the scaled source rows summed at the targets, the node's own scaled row, the bias. -/
theorem conv2 : StableHlo.after (hostOps2 (F := Ideal)) V (Proc.devRef Proc.tc main_v119)
    = gcnPost V⟪main_v99⟫ V⟪main_v1⟫ V⟪main_v3⟫ V⟪main_v25⟫ V⟪main_v26⟫ V⟪main_arg10⟫ := by
  simp only [hostOps2]
  after_results_simp
  unfold gcnPost rows wrap
  with_reducible rfl

/-- The positive part of layer 2. -/
theorem relu2 : StableHlo.after (hostOps2_1 (F := Ideal)) V (Proc.devRef Proc.tc main_v120) = relu V⟪main_v119⟫ := by
  simp only [hostOps2_1, List.flatten_cons, List.flatten_nil, List.append_nil, List.cons_append, List.nil_append]
  after_results_simp
  unfold relu
  rfl

/-- The normalisation of layer 2 and its skip connection. -/
theorem norm2 : StableHlo.after (hostOps2_2 (F := Ideal)) V (Proc.devRef Proc.tc main_v146)
    = addf (bn V⟪main_v120⟫ V⟪main_arg11⟫ V⟪main_arg12⟫) V⟪main_v98⟫ := by
  simp only [hostOps2_2]
  after_results_simp
  unfold bn colMean rows
  with_reducible rfl

/-- The aggregation of layer 3: the scaled source rows summed at the targets, the node's own scaled row, the bias. -/
theorem conv3 : StableHlo.after (hostOps3 (F := Ideal)) V (Proc.devRef Proc.tc main_v167)
    = gcnPost V⟪main_v147⟫ V⟪main_v1⟫ V⟪main_v3⟫ V⟪main_v25⟫ V⟪main_v26⟫ V⟪main_arg14⟫ := by
  simp only [hostOps3]
  after_results_simp
  unfold gcnPost rows wrap
  with_reducible rfl

/-- The positive part of layer 3. -/
theorem relu3 : StableHlo.after (hostOps3_1 (F := Ideal)) V (Proc.devRef Proc.tc main_v168) = relu V⟪main_v167⟫ := by
  simp only [hostOps3_1, List.flatten_cons, List.flatten_nil, List.append_nil, List.cons_append, List.nil_append]
  after_results_simp
  unfold relu
  rfl

/-- The normalisation of layer 3 and its skip connection. -/
theorem norm3 : StableHlo.after (hostOps3_2 (F := Ideal)) V (Proc.devRef Proc.tc main_v194)
    = addf (bn V⟪main_v168⟫ V⟪main_arg15⟫ V⟪main_arg16⟫) V⟪main_v146⟫ := by
  simp only [hostOps3_2]
  after_results_simp
  unfold bn colMean rows
  with_reducible rfl

/-! ## After the last matrix product: the attention head, the pooling, the read-out -/

/-- The first projection plus its bias, through the leaky activation. -/
theorem act : StableHlo.after (hostOps4_1 (F := Ideal)) (StableHlo.after (hostOps4 (F := Ideal)) V) (Proc.devRef Proc.tc main_v199)
    = leaky (addf V⟪main_v195⟫ (rows128 V⟪main_arg18⟫)) := by
  simp only [hostOps4, hostOps4_1, List.flatten_cons, List.flatten_nil, List.append_nil, List.cons_append, List.nil_append]
  after_results_simp
  unfold leaky rows128
  rfl

/-- Scores, softmax over the nodes, pooling per graph, read-out. -/
theorem out : StableHlo.after (hostOps4_2 (F := Ideal)) V (Proc.devRef Proc.tc main_v232)
    = readout (pooled V⟪main_v194⟫ (softmax0 (scores V⟪main_v199⟫ V⟪main_arg19⟫ V⟪main_arg20⟫)) V⟪main_arg2⟫) V⟪main_arg21⟫ V⟪main_arg22⟫ := by
  simp only [hostOps4_2]
  after_results_simp
  unfold readout pooled counts softmax0 expShift smax scores col1
  with_reducible rfl

end Cert.KernelIdeal.KStages

end
-- ==== Proof.KWritesA.lean ====
/-
  Which buffers a stretch of host operations writes: every operation writes one buffer, and the buffers written by
  the stretch are listed in program order. A buffer outside the list is left alone by the stretch.
-/
import proofs.«163758_j78546361909451_1_alg».proof.Proof.Gen.KernelIdeal.Launch
import Idealize.ShloMosaic.Lib.StableHlo.Run

noncomputable section

namespace Cert.KernelIdeal.KKeep

open Cert.KernelIdeal Cert.KernelIdeal.Gen Idealize.ShloMosaic Idealize.ShloMosaic.TcCoe Idealize.SL.Sem

variable {F : FTy → Type} [FloatOps F]

/-- The buffers the operations of this stretch write, in program order. -/
abbrev hostOps0_W : List (Ref sig .tc) :=
  [main_v0, main_v1, main_v2, main_v3, main_cst, main_v4, main_cst_0, main_v5, main_v6, main_v7, main_cst_1, main_v8, main_v9, main_v10, main_c, main_v11, main_v12, main_c_2, main_v13, main_v14, main_v15, main_v16, main_v17, main_c_3, main_v18, main_v19, main_c_4, main_v20, main_v21, main_v22, main_v23, main_v24, main_v25, main_v26, main_cst_5, main_v27, main_cst_6, main_v28, main_v29, main_v30, main_v31, main_v32, main_v33, main_cst_7, main_v34, main_cst_8, main_v35, main_v36, main_v37, main_v38, main_v39, main_cst_9, main_v40, main_v41, main_v42, main_v43, main_v44, main_v45, main_v46, main_v47, main_v48, main_v49, main_v50, main_v51]
/-- Every operation of the stretch writes a buffer of the list. -/
theorem hostOps0_writes : (hostOps0 : List (HloOp τ sig (Elt F))).Forall fun op =>
    op.writes ⊆ (hostOps0_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

end Cert.KernelIdeal.KKeep

end
-- ==== Proof.KWritesB.lean ====
/-
  Which buffers a stretch of host operations writes: every operation writes one buffer, and the buffers written by
  the stretch are listed in program order. A buffer outside the list is left alone by the stretch.
-/
import proofs.«163758_j78546361909451_1_alg».proof.Proof.Gen.KernelIdeal.Launch
import Idealize.ShloMosaic.Lib.StableHlo.Run

noncomputable section

namespace Cert.KernelIdeal.KKeep

open Cert.KernelIdeal Cert.KernelIdeal.Gen Idealize.ShloMosaic Idealize.ShloMosaic.TcCoe Idealize.SL.Sem

variable {F : FTy → Type} [FloatOps F]

/-- The buffers the operations of this stretch write, in program order. -/
abbrev hostOps1_W : List (Ref sig .tc) :=
  [main_c_10, main_v53, main_v54, main_c_11, main_v55, main_v56, main_v57, main_v58, main_v59, main_v60, main_v61, main_v62, main_cst_12, main_v63, main_v64, main_v65, main_v66, main_v67, main_v68, main_v69, main_v70, main_v71, main_v72]
/-- Every operation of the stretch writes a buffer of the list. -/
theorem hostOps1_writes : (hostOps1 : List (HloOp τ sig (Elt F))).Forall fun op =>
    op.writes ⊆ (hostOps1_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- The buffers the operations of this stretch write, in program order. -/
abbrev hostOps1_1_W : List (Ref sig .tc) :=
  [main_call1_cst, main_call1_v0, main_v73]
/-- Every operation of the stretch writes a buffer of the list. -/
theorem hostOps1_1_writes : (hostOps1_1 : List (HloOp τ sig (Elt F))).Forall fun op =>
    op.writes ⊆ (hostOps1_1_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- The buffers the operations of this stretch write, in program order. -/
abbrev hostOps1_2_W : List (Ref sig .tc) :=
  [main_cst_13, main_v74, main_cst_14, main_v75, main_v76, main_v77, main_v78, main_v79, main_v80, main_cst_15, main_v81, main_cst_16, main_v82, main_v83, main_v84, main_v85, main_v86, main_cst_17, main_v87, main_v88, main_v89, main_v90, main_v91, main_v92, main_v93, main_v94, main_v95, main_v96, main_v97, main_v98]
/-- Every operation of the stretch writes a buffer of the list. -/
theorem hostOps1_2_writes : (hostOps1_2 : List (HloOp τ sig (Elt F))).Forall fun op =>
    op.writes ⊆ (hostOps1_2_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- The buffers the operations of this stretch write, in program order. -/
abbrev hostOps4_W : List (Ref sig .tc) :=
  [main_v196, main_v197, main_v198, main_cst_34]
/-- Every operation of the stretch writes a buffer of the list. -/
theorem hostOps4_writes : (hostOps4 : List (HloOp τ sig (Elt F))).Forall fun op =>
    op.writes ⊆ (hostOps4_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- The buffers the operations of this stretch write, in program order. -/
abbrev hostOps4_1_W : List (Ref sig .tc) :=
  [main_call7_cst, main_call7_v0, main_call7_v1, main_call7_v2, main_call7_v3, main_call7_v4, main_v199]
/-- Every operation of the stretch writes a buffer of the list. -/
theorem hostOps4_1_writes : (hostOps4_1 : List (HloOp τ sig (Elt F))).Forall fun op =>
    op.writes ⊆ (hostOps4_1_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

end Cert.KernelIdeal.KKeep

end
-- ==== Proof.KWritesC.lean ====
/-
  Which buffers a stretch of host operations writes: every operation writes one buffer, and the buffers written by
  the stretch are listed in program order. A buffer outside the list is left alone by the stretch.
-/
import proofs.«163758_j78546361909451_1_alg».proof.Proof.Gen.KernelIdeal.Launch
import Idealize.ShloMosaic.Lib.StableHlo.Run

noncomputable section

namespace Cert.KernelIdeal.KKeep

open Cert.KernelIdeal Cert.KernelIdeal.Gen Idealize.ShloMosaic Idealize.ShloMosaic.TcCoe Idealize.SL.Sem

variable {F : FTy → Type} [FloatOps F]

/-- The buffers the operations of this stretch write, in program order. -/
abbrev hostOps2_W : List (Ref sig .tc) :=
  [main_c_18, main_v100, main_v101, main_c_19, main_v102, main_v103, main_v104, main_v105, main_v106, main_v107, main_v108, main_v109, main_cst_20, main_v110, main_v111, main_v112, main_v113, main_v114, main_v115, main_v116, main_v117, main_v118, main_v119]
/-- Every operation of the stretch writes a buffer of the list. -/
theorem hostOps2_writes : (hostOps2 : List (HloOp τ sig (Elt F))).Forall fun op =>
    op.writes ⊆ (hostOps2_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- The buffers the operations of this stretch write, in program order. -/
abbrev hostOps2_1_W : List (Ref sig .tc) :=
  [main_call3_cst, main_call3_v0, main_v120]
/-- Every operation of the stretch writes a buffer of the list. -/
theorem hostOps2_1_writes : (hostOps2_1 : List (HloOp τ sig (Elt F))).Forall fun op =>
    op.writes ⊆ (hostOps2_1_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- The buffers the operations of this stretch write, in program order. -/
abbrev hostOps2_2_W : List (Ref sig .tc) :=
  [main_cst_21, main_v121, main_cst_22, main_v122, main_v123, main_v124, main_v125, main_v126, main_v127, main_cst_23, main_v128, main_cst_24, main_v129, main_v130, main_v131, main_v132, main_v133, main_cst_25, main_v134, main_v135, main_v136, main_v137, main_v138, main_v139, main_v140, main_v141, main_v142, main_v143, main_v144, main_v145, main_v146]
/-- Every operation of the stretch writes a buffer of the list. -/
theorem hostOps2_2_writes : (hostOps2_2 : List (HloOp τ sig (Elt F))).Forall fun op =>
    op.writes ⊆ (hostOps2_2_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- The buffers the operations of this stretch write, in program order. -/
abbrev hostOps4_2_W : List (Ref sig .tc) :=
  [main_v200, main_v201, main_v202, main_v203, main_cst_35, main_v204, main_cst_36, main_v205, main_v206, main_v207, main_v208, main_v209, main_v210, main_cst_37, main_v211, main_v212, main_v213, main_v214, main_v215, main_v216, main_cst_38, main_v217, main_cst_39, main_v218, main_v219, main_v220, main_cst_40, main_v221, main_v222, main_v223, main_cst_41, main_v224, main_v225, main_v226, main_v227, main_v228, main_v229, main_v230, main_v231, main_v232]
/-- Every operation of the stretch writes a buffer of the list. -/
theorem hostOps4_2_writes : (hostOps4_2 : List (HloOp τ sig (Elt F))).Forall fun op =>
    op.writes ⊆ (hostOps4_2_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

end Cert.KernelIdeal.KKeep

end
-- ==== Proof.KWritesD.lean ====
/-
  Which buffers a stretch of host operations writes: every operation writes one buffer, and the buffers written by
  the stretch are listed in program order. A buffer outside the list is left alone by the stretch.
-/
import proofs.«163758_j78546361909451_1_alg».proof.Proof.Gen.KernelIdeal.Launch
import Idealize.ShloMosaic.Lib.StableHlo.Run

noncomputable section

namespace Cert.KernelIdeal.KKeep

open Cert.KernelIdeal Cert.KernelIdeal.Gen Idealize.ShloMosaic Idealize.ShloMosaic.TcCoe Idealize.SL.Sem

variable {F : FTy → Type} [FloatOps F]

/-- The buffers the operations of this stretch write, in program order. -/
abbrev hostOps3_W : List (Ref sig .tc) :=
  [main_c_26, main_v148, main_v149, main_c_27, main_v150, main_v151, main_v152, main_v153, main_v154, main_v155, main_v156, main_v157, main_cst_28, main_v158, main_v159, main_v160, main_v161, main_v162, main_v163, main_v164, main_v165, main_v166, main_v167]
/-- Every operation of the stretch writes a buffer of the list. -/
theorem hostOps3_writes : (hostOps3 : List (HloOp τ sig (Elt F))).Forall fun op =>
    op.writes ⊆ (hostOps3_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- The buffers the operations of this stretch write, in program order. -/
abbrev hostOps3_1_W : List (Ref sig .tc) :=
  [main_call5_cst, main_call5_v0, main_v168]
/-- Every operation of the stretch writes a buffer of the list. -/
theorem hostOps3_1_writes : (hostOps3_1 : List (HloOp τ sig (Elt F))).Forall fun op =>
    op.writes ⊆ (hostOps3_1_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

/-- The buffers the operations of this stretch write, in program order. -/
abbrev hostOps3_2_W : List (Ref sig .tc) :=
  [main_cst_29, main_v169, main_cst_30, main_v170, main_v171, main_v172, main_v173, main_v174, main_v175, main_cst_31, main_v176, main_cst_32, main_v177, main_v178, main_v179, main_v180, main_v181, main_cst_33, main_v182, main_v183, main_v184, main_v185, main_v186, main_v187, main_v188, main_v189, main_v190, main_v191, main_v192, main_v193, main_v194]
/-- Every operation of the stretch writes a buffer of the list. -/
theorem hostOps3_2_writes : (hostOps3_2 : List (HloOp τ sig (Elt F))).Forall fun op =>
    op.writes ⊆ (hostOps3_2_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)

end Cert.KernelIdeal.KKeep

end
-- ==== Proof.KKeep.lean ====
/-
  Values carried unchanged through the program. Between two matrix-product regions the program runs stretches of host
  operations; a stretch leaves alone every buffer outside the list of buffers it writes, and a region changes only its
  own output array. Chaining these one-step facts carries a value computed early — the edge list's two rows, the
  degree scalings, a layer's output kept for the skip connection, an argument — to the place where it is read.
-/
import proofs.«163758_j78546361909451_1_alg».proof.Proof.Gen.KernelIdeal.Frame
import proofs.«163758_j78546361909451_1_alg».proof.Proof.KWritesA
import proofs.«163758_j78546361909451_1_alg».proof.Proof.KWritesB
import proofs.«163758_j78546361909451_1_alg».proof.Proof.KWritesC
import proofs.«163758_j78546361909451_1_alg».proof.Proof.KWritesD

noncomputable section

namespace Cert.KernelIdeal.KKeep

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-! ## One step: a buffer the step does not write holds what it held before -/

/-- At launch a buffer holds the launch memory's contents. -/
theorem W0_at (c : Dev nD) (r : Ref sig .tc) : W0 m ρ c (Proc.devRef .tc r) = m ((c : Thread nD τ).loc r) := rfl
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W2_of (c : Dev nD) (r : Ref sig .tc) (h : ∀ w, Pipeline.arrRef spec0 w ≠ r) :
    W2 m ρ c (Proc.devRef .tc r) = W1 m ρ c (Proc.devRef .tc r) :=
  W2_of_ne m ρ c r h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W4_of (c : Dev nD) (r : Ref sig .tc) (h : r ∉ hostOps1_1_W) :
    W4 m ρ c (Proc.devRef .tc r) = W3 m ρ c (Proc.devRef .tc r) :=
  StableHlo.after_of_writes_sub hostOps1_1 _ hostOps1_1_writes h
theorem W5_of (c : Dev nD) (r : Ref sig .tc) (h : r ∉ hostOps1_2_W) :
    W5 m ρ c (Proc.devRef .tc r) = W4 m ρ c (Proc.devRef .tc r) :=
  StableHlo.after_of_writes_sub hostOps1_2 _ hostOps1_2_writes h
theorem W6_of (c : Dev nD) (r : Ref sig .tc) (h : ∀ w, Pipeline.arrRef spec1 w ≠ r) :
    W6 m ρ c (Proc.devRef .tc r) = W5 m ρ c (Proc.devRef .tc r) :=
  W6_of_ne m ρ c r h
theorem W7_of (c : Dev nD) (r : Ref sig .tc) (h : r ∉ hostOps2_W) :
    W7 m ρ c (Proc.devRef .tc r) = W6 m ρ c (Proc.devRef .tc r) :=
  StableHlo.after_of_writes_sub hostOps2 _ hostOps2_writes h
theorem W8_of (c : Dev nD) (r : Ref sig .tc) (h : r ∉ hostOps2_1_W) :
    W8 m ρ c (Proc.devRef .tc r) = W7 m ρ c (Proc.devRef .tc r) :=
  StableHlo.after_of_writes_sub hostOps2_1 _ hostOps2_1_writes h
theorem W9_of (c : Dev nD) (r : Ref sig .tc) (h : r ∉ hostOps2_2_W) :
    W9 m ρ c (Proc.devRef .tc r) = W8 m ρ c (Proc.devRef .tc r) :=
  StableHlo.after_of_writes_sub hostOps2_2 _ hostOps2_2_writes h
theorem W10_of (c : Dev nD) (r : Ref sig .tc) (h : ∀ w, Pipeline.arrRef spec2 w ≠ r) :
    W10 m ρ c (Proc.devRef .tc r) = W9 m ρ c (Proc.devRef .tc r) :=
  W10_of_ne m ρ c r h
theorem W11_of (c : Dev nD) (r : Ref sig .tc) (h : r ∉ hostOps3_W) :
    W11 m ρ c (Proc.devRef .tc r) = W10 m ρ c (Proc.devRef .tc r) :=
  StableHlo.after_of_writes_sub hostOps3 _ hostOps3_writes h
theorem W12_of (c : Dev nD) (r : Ref sig .tc) (h : r ∉ hostOps3_1_W) :
    W12 m ρ c (Proc.devRef .tc r) = W11 m ρ c (Proc.devRef .tc r) :=
  StableHlo.after_of_writes_sub hostOps3_1 _ hostOps3_1_writes h
theorem W13_of (c : Dev nD) (r : Ref sig .tc) (h : r ∉ hostOps3_2_W) :
    W13 m ρ c (Proc.devRef .tc r) = W12 m ρ c (Proc.devRef .tc r) :=
  StableHlo.after_of_writes_sub hostOps3_2 _ hostOps3_2_writes h
theorem W14_of (c : Dev nD) (r : Ref sig .tc) (h : ∀ w, Pipeline.arrRef spec3 w ≠ r) :
    W14 m ρ c (Proc.devRef .tc r) = W13 m ρ c (Proc.devRef .tc r) :=
  W14_of_ne m ρ c r h
theorem W15_of (c : Dev nD) (r : Ref sig .tc) (h : r ∉ hostOps4_W) :
    W15 m ρ c (Proc.devRef .tc r) = W14 m ρ c (Proc.devRef .tc r) :=
  StableHlo.after_of_writes_sub hostOps4 _ hostOps4_writes h
theorem W16_of (c : Dev nD) (r : Ref sig .tc) (h : r ∉ hostOps4_1_W) :
    W16 m ρ c (Proc.devRef .tc r) = W15 m ρ c (Proc.devRef .tc r) :=
  StableHlo.after_of_writes_sub hostOps4_1 _ hostOps4_1_writes h
theorem W17_of (c : Dev nD) (r : Ref sig .tc) (h : r ∉ hostOps4_2_W) :
    W17 m ρ c (Proc.devRef .tc r) = W16 m ρ c (Proc.devRef .tc r) :=
  StableHlo.after_of_writes_sub hostOps4_2 _ hostOps4_2_writes h

/-- A region leaves its left input array as it found it: the pipeline stages it and never writes it back. -/
theorem W6_in0 (c : Dev nD) : W6 m ρ c (Proc.devRef .tc main_v98) = W5 m ρ c (Proc.devRef .tc main_v98) :=
  (W6_arr m ρ c 0).trans (((dat1 (V5 m ρ) c).arrAt_in 0 rfl _).trans (A_eq1 (V5 m ρ) c 0))
theorem W10_in0 (c : Dev nD) : W10 m ρ c (Proc.devRef .tc main_v146) = W9 m ρ c (Proc.devRef .tc main_v146) :=
  (W10_arr m ρ c 0).trans (((dat2 (V9 m ρ) c).arrAt_in 0 rfl _).trans (A_eq2 (V9 m ρ) c 0))
theorem W14_in0 (c : Dev nD) : W14 m ρ c (Proc.devRef .tc main_v194) = W13 m ρ c (Proc.devRef .tc main_v194) :=
  (W14_arr m ρ c 0).trans (((dat3 (V13 m ρ) c).arrAt_in 0 rfl _).trans (A_eq3 (V13 m ρ) c 0))

/-! ## Chains: a value read at a later level is the value written at an earlier one -/
theorem keep_v1_2 (c : Dev nD) : W2 m ρ c (Proc.devRef .tc main_v1) = W1 m ρ c (Proc.devRef .tc main_v1) :=
  (W2_of m ρ c main_v1 (by decide))
theorem keep_v1_6 (c : Dev nD) : W6 m ρ c (Proc.devRef .tc main_v1) = W1 m ρ c (Proc.devRef .tc main_v1) :=
  (W6_of m ρ c main_v1 (by decide)).trans <|
    (W5_of m ρ c main_v1 (by decide)).trans <|
    (W4_of m ρ c main_v1 (by decide)).trans <|
    (W3_of m ρ c main_v1 (by decide)).trans <|
    (keep_v1_2 m ρ c)
theorem keep_v1_10 (c : Dev nD) : W10 m ρ c (Proc.devRef .tc main_v1) = W1 m ρ c (Proc.devRef .tc main_v1) :=
  (W10_of m ρ c main_v1 (by decide)).trans <|
    (W9_of m ρ c main_v1 (by decide)).trans <|
    (W8_of m ρ c main_v1 (by decide)).trans <|
    (W7_of m ρ c main_v1 (by decide)).trans <|
    (keep_v1_6 m ρ c)
theorem keep_v3_2 (c : Dev nD) : W2 m ρ c (Proc.devRef .tc main_v3) = W1 m ρ c (Proc.devRef .tc main_v3) :=
  (W2_of m ρ c main_v3 (by decide))
theorem keep_v3_6 (c : Dev nD) : W6 m ρ c (Proc.devRef .tc main_v3) = W1 m ρ c (Proc.devRef .tc main_v3) :=
  (W6_of m ρ c main_v3 (by decide)).trans <|
    (W5_of m ρ c main_v3 (by decide)).trans <|
    (W4_of m ρ c main_v3 (by decide)).trans <|
    (W3_of m ρ c main_v3 (by decide)).trans <|
    (keep_v3_2 m ρ c)
theorem keep_v3_10 (c : Dev nD) : W10 m ρ c (Proc.devRef .tc main_v3) = W1 m ρ c (Proc.devRef .tc main_v3) :=
  (W10_of m ρ c main_v3 (by decide)).trans <|
    (W9_of m ρ c main_v3 (by decide)).trans <|
    (W8_of m ρ c main_v3 (by decide)).trans <|
    (W7_of m ρ c main_v3 (by decide)).trans <|
    (keep_v3_6 m ρ c)
theorem keep_v25_2 (c : Dev nD) : W2 m ρ c (Proc.devRef .tc main_v25) = W1 m ρ c (Proc.devRef .tc main_v25) :=
  (W2_of m ρ c main_v25 (by decide))
theorem keep_v25_6 (c : Dev nD) : W6 m ρ c (Proc.devRef .tc main_v25) = W1 m ρ c (Proc.devRef .tc main_v25) :=
  (W6_of m ρ c main_v25 (by decide)).trans <|
    (W5_of m ρ c main_v25 (by decide)).trans <|
    (W4_of m ρ c main_v25 (by decide)).trans <|
    (W3_of m ρ c main_v25 (by decide)).trans <|
    (keep_v25_2 m ρ c)
theorem keep_v25_10 (c : Dev nD) : W10 m ρ c (Proc.devRef .tc main_v25) = W1 m ρ c (Proc.devRef .tc main_v25) :=
  (W10_of m ρ c main_v25 (by decide)).trans <|
    (W9_of m ρ c main_v25 (by decide)).trans <|
    (W8_of m ρ c main_v25 (by decide)).trans <|
    (W7_of m ρ c main_v25 (by decide)).trans <|
    (keep_v25_6 m ρ c)
theorem keep_v26_2 (c : Dev nD) : W2 m ρ c (Proc.devRef .tc main_v26) = W1 m ρ c (Proc.devRef .tc main_v26) :=
  (W2_of m ρ c main_v26 (by decide))
theorem keep_v26_6 (c : Dev nD) : W6 m ρ c (Proc.devRef .tc main_v26) = W1 m ρ c (Proc.devRef .tc main_v26) :=
  (W6_of m ρ c main_v26 (by decide)).trans <|
    (W5_of m ρ c main_v26 (by decide)).trans <|
    (W4_of m ρ c main_v26 (by decide)).trans <|
    (W3_of m ρ c main_v26 (by decide)).trans <|
    (keep_v26_2 m ρ c)
theorem keep_v26_10 (c : Dev nD) : W10 m ρ c (Proc.devRef .tc main_v26) = W1 m ρ c (Proc.devRef .tc main_v26) :=
  (W10_of m ρ c main_v26 (by decide)).trans <|
    (W9_of m ρ c main_v26 (by decide)).trans <|
    (W8_of m ρ c main_v26 (by decide)).trans <|
    (W7_of m ρ c main_v26 (by decide)).trans <|
    (keep_v26_6 m ρ c)
theorem keep_arg5_1 (c : Dev nD) : W1 m ρ c (Proc.devRef .tc main_arg5) = m ((c : Thread nD τ).loc main_arg5) :=
  (W1_of m ρ c main_arg5 (by decide)).trans <|
    (W0_at m ρ c main_arg5)
theorem keep_arg6_2 (c : Dev nD) : W2 m ρ c (Proc.devRef .tc main_arg6) = m ((c : Thread nD τ).loc main_arg6) :=
  (W2_of m ρ c main_arg6 (by decide)).trans <|
    (W1_of m ρ c main_arg6 (by decide)).trans <|
    (W0_at m ρ c main_arg6)
theorem keep_arg7_4 (c : Dev nD) : W4 m ρ c (Proc.devRef .tc main_arg7) = m ((c : Thread nD τ).loc main_arg7) :=
  (W4_of m ρ c main_arg7 (by decide)).trans <|
    (W3_of m ρ c main_arg7 (by decide)).trans <|
    (W2_of m ρ c main_arg7 (by decide)).trans <|
    (W1_of m ρ c main_arg7 (by decide)).trans <|
    (W0_at m ρ c main_arg7)
theorem keep_arg8_4 (c : Dev nD) : W4 m ρ c (Proc.devRef .tc main_arg8) = m ((c : Thread nD τ).loc main_arg8) :=
  (W4_of m ρ c main_arg8 (by decide)).trans <|
    (W3_of m ρ c main_arg8 (by decide)).trans <|
    (W2_of m ρ c main_arg8 (by decide)).trans <|
    (W1_of m ρ c main_arg8 (by decide)).trans <|
    (W0_at m ρ c main_arg8)
theorem keep_v98_8 (c : Dev nD) : W8 m ρ c (Proc.devRef .tc main_v98) = W5 m ρ c (Proc.devRef .tc main_v98) :=
  (W8_of m ρ c main_v98 (by decide)).trans <|
    (W7_of m ρ c main_v98 (by decide)).trans <|
    (W6_in0 m ρ c)
theorem keep_arg9_5 (c : Dev nD) : W5 m ρ c (Proc.devRef .tc main_arg9) = m ((c : Thread nD τ).loc main_arg9) :=
  (W5_of m ρ c main_arg9 (by decide)).trans <|
    (W4_of m ρ c main_arg9 (by decide)).trans <|
    (W3_of m ρ c main_arg9 (by decide)).trans <|
    (W2_of m ρ c main_arg9 (by decide)).trans <|
    (W1_of m ρ c main_arg9 (by decide)).trans <|
    (W0_at m ρ c main_arg9)
theorem keep_arg10_6 (c : Dev nD) : W6 m ρ c (Proc.devRef .tc main_arg10) = m ((c : Thread nD τ).loc main_arg10) :=
  (W6_of m ρ c main_arg10 (by decide)).trans <|
    (W5_of m ρ c main_arg10 (by decide)).trans <|
    (W4_of m ρ c main_arg10 (by decide)).trans <|
    (W3_of m ρ c main_arg10 (by decide)).trans <|
    (W2_of m ρ c main_arg10 (by decide)).trans <|
    (W1_of m ρ c main_arg10 (by decide)).trans <|
    (W0_at m ρ c main_arg10)
theorem keep_arg11_8 (c : Dev nD) : W8 m ρ c (Proc.devRef .tc main_arg11) = m ((c : Thread nD τ).loc main_arg11) :=
  (W8_of m ρ c main_arg11 (by decide)).trans <|
    (W7_of m ρ c main_arg11 (by decide)).trans <|
    (W6_of m ρ c main_arg11 (by decide)).trans <|
    (W5_of m ρ c main_arg11 (by decide)).trans <|
    (W4_of m ρ c main_arg11 (by decide)).trans <|
    (W3_of m ρ c main_arg11 (by decide)).trans <|
    (W2_of m ρ c main_arg11 (by decide)).trans <|
    (W1_of m ρ c main_arg11 (by decide)).trans <|
    (W0_at m ρ c main_arg11)
theorem keep_arg12_8 (c : Dev nD) : W8 m ρ c (Proc.devRef .tc main_arg12) = m ((c : Thread nD τ).loc main_arg12) :=
  (W8_of m ρ c main_arg12 (by decide)).trans <|
    (W7_of m ρ c main_arg12 (by decide)).trans <|
    (W6_of m ρ c main_arg12 (by decide)).trans <|
    (W5_of m ρ c main_arg12 (by decide)).trans <|
    (W4_of m ρ c main_arg12 (by decide)).trans <|
    (W3_of m ρ c main_arg12 (by decide)).trans <|
    (W2_of m ρ c main_arg12 (by decide)).trans <|
    (W1_of m ρ c main_arg12 (by decide)).trans <|
    (W0_at m ρ c main_arg12)
theorem keep_arg13_9 (c : Dev nD) : W9 m ρ c (Proc.devRef .tc main_arg13) = m ((c : Thread nD τ).loc main_arg13) :=
  (W9_of m ρ c main_arg13 (by decide)).trans <|
    (W8_of m ρ c main_arg13 (by decide)).trans <|
    (W7_of m ρ c main_arg13 (by decide)).trans <|
    (W6_of m ρ c main_arg13 (by decide)).trans <|
    (W5_of m ρ c main_arg13 (by decide)).trans <|
    (W4_of m ρ c main_arg13 (by decide)).trans <|
    (W3_of m ρ c main_arg13 (by decide)).trans <|
    (W2_of m ρ c main_arg13 (by decide)).trans <|
    (W1_of m ρ c main_arg13 (by decide)).trans <|
    (W0_at m ρ c main_arg13)
theorem keep_v146_12 (c : Dev nD) : W12 m ρ c (Proc.devRef .tc main_v146) = W9 m ρ c (Proc.devRef .tc main_v146) :=
  (W12_of m ρ c main_v146 (by decide)).trans <|
    (W11_of m ρ c main_v146 (by decide)).trans <|
    (W10_in0 m ρ c)
theorem keep_arg14_10 (c : Dev nD) : W10 m ρ c (Proc.devRef .tc main_arg14) = m ((c : Thread nD τ).loc main_arg14) :=
  (W10_of m ρ c main_arg14 (by decide)).trans <|
    (W9_of m ρ c main_arg14 (by decide)).trans <|
    (W8_of m ρ c main_arg14 (by decide)).trans <|
    (W7_of m ρ c main_arg14 (by decide)).trans <|
    (W6_of m ρ c main_arg14 (by decide)).trans <|
    (W5_of m ρ c main_arg14 (by decide)).trans <|
    (W4_of m ρ c main_arg14 (by decide)).trans <|
    (W3_of m ρ c main_arg14 (by decide)).trans <|
    (W2_of m ρ c main_arg14 (by decide)).trans <|
    (W1_of m ρ c main_arg14 (by decide)).trans <|
    (W0_at m ρ c main_arg14)
theorem keep_arg15_12 (c : Dev nD) : W12 m ρ c (Proc.devRef .tc main_arg15) = m ((c : Thread nD τ).loc main_arg15) :=
  (W12_of m ρ c main_arg15 (by decide)).trans <|
    (W11_of m ρ c main_arg15 (by decide)).trans <|
    (W10_of m ρ c main_arg15 (by decide)).trans <|
    (W9_of m ρ c main_arg15 (by decide)).trans <|
    (W8_of m ρ c main_arg15 (by decide)).trans <|
    (W7_of m ρ c main_arg15 (by decide)).trans <|
    (W6_of m ρ c main_arg15 (by decide)).trans <|
    (W5_of m ρ c main_arg15 (by decide)).trans <|
    (W4_of m ρ c main_arg15 (by decide)).trans <|
    (W3_of m ρ c main_arg15 (by decide)).trans <|
    (W2_of m ρ c main_arg15 (by decide)).trans <|
    (W1_of m ρ c main_arg15 (by decide)).trans <|
    (W0_at m ρ c main_arg15)
theorem keep_arg16_12 (c : Dev nD) : W12 m ρ c (Proc.devRef .tc main_arg16) = m ((c : Thread nD τ).loc main_arg16) :=
  (W12_of m ρ c main_arg16 (by decide)).trans <|
    (W11_of m ρ c main_arg16 (by decide)).trans <|
    (W10_of m ρ c main_arg16 (by decide)).trans <|
    (W9_of m ρ c main_arg16 (by decide)).trans <|
    (W8_of m ρ c main_arg16 (by decide)).trans <|
    (W7_of m ρ c main_arg16 (by decide)).trans <|
    (W6_of m ρ c main_arg16 (by decide)).trans <|
    (W5_of m ρ c main_arg16 (by decide)).trans <|
    (W4_of m ρ c main_arg16 (by decide)).trans <|
    (W3_of m ρ c main_arg16 (by decide)).trans <|
    (W2_of m ρ c main_arg16 (by decide)).trans <|
    (W1_of m ρ c main_arg16 (by decide)).trans <|
    (W0_at m ρ c main_arg16)
theorem keep_arg17_13 (c : Dev nD) : W13 m ρ c (Proc.devRef .tc main_arg17) = m ((c : Thread nD τ).loc main_arg17) :=
  (W13_of m ρ c main_arg17 (by decide)).trans <|
    (W12_of m ρ c main_arg17 (by decide)).trans <|
    (W11_of m ρ c main_arg17 (by decide)).trans <|
    (W10_of m ρ c main_arg17 (by decide)).trans <|
    (W9_of m ρ c main_arg17 (by decide)).trans <|
    (W8_of m ρ c main_arg17 (by decide)).trans <|
    (W7_of m ρ c main_arg17 (by decide)).trans <|
    (W6_of m ρ c main_arg17 (by decide)).trans <|
    (W5_of m ρ c main_arg17 (by decide)).trans <|
    (W4_of m ρ c main_arg17 (by decide)).trans <|
    (W3_of m ρ c main_arg17 (by decide)).trans <|
    (W2_of m ρ c main_arg17 (by decide)).trans <|
    (W1_of m ρ c main_arg17 (by decide)).trans <|
    (W0_at m ρ c main_arg17)
theorem keep_v194_16 (c : Dev nD) : W16 m ρ c (Proc.devRef .tc main_v194) = W13 m ρ c (Proc.devRef .tc main_v194) :=
  (W16_of m ρ c main_v194 (by decide)).trans <|
    (W15_of m ρ c main_v194 (by decide)).trans <|
    (W14_in0 m ρ c)
theorem keep_arg18_14 (c : Dev nD) : W14 m ρ c (Proc.devRef .tc main_arg18) = m ((c : Thread nD τ).loc main_arg18) :=
  (W14_of m ρ c main_arg18 (by decide)).trans <|
    (W13_of m ρ c main_arg18 (by decide)).trans <|
    (W12_of m ρ c main_arg18 (by decide)).trans <|
    (W11_of m ρ c main_arg18 (by decide)).trans <|
    (W10_of m ρ c main_arg18 (by decide)).trans <|
    (W9_of m ρ c main_arg18 (by decide)).trans <|
    (W8_of m ρ c main_arg18 (by decide)).trans <|
    (W7_of m ρ c main_arg18 (by decide)).trans <|
    (W6_of m ρ c main_arg18 (by decide)).trans <|
    (W5_of m ρ c main_arg18 (by decide)).trans <|
    (W4_of m ρ c main_arg18 (by decide)).trans <|
    (W3_of m ρ c main_arg18 (by decide)).trans <|
    (W2_of m ρ c main_arg18 (by decide)).trans <|
    (W1_of m ρ c main_arg18 (by decide)).trans <|
    (W0_at m ρ c main_arg18)
theorem keep_arg19_16 (c : Dev nD) : W16 m ρ c (Proc.devRef .tc main_arg19) = m ((c : Thread nD τ).loc main_arg19) :=
  (W16_of m ρ c main_arg19 (by decide)).trans <|
    (W15_of m ρ c main_arg19 (by decide)).trans <|
    (W14_of m ρ c main_arg19 (by decide)).trans <|
    (W13_of m ρ c main_arg19 (by decide)).trans <|
    (W12_of m ρ c main_arg19 (by decide)).trans <|
    (W11_of m ρ c main_arg19 (by decide)).trans <|
    (W10_of m ρ c main_arg19 (by decide)).trans <|
    (W9_of m ρ c main_arg19 (by decide)).trans <|
    (W8_of m ρ c main_arg19 (by decide)).trans <|
    (W7_of m ρ c main_arg19 (by decide)).trans <|
    (W6_of m ρ c main_arg19 (by decide)).trans <|
    (W5_of m ρ c main_arg19 (by decide)).trans <|
    (W4_of m ρ c main_arg19 (by decide)).trans <|
    (W3_of m ρ c main_arg19 (by decide)).trans <|
    (W2_of m ρ c main_arg19 (by decide)).trans <|
    (W1_of m ρ c main_arg19 (by decide)).trans <|
    (W0_at m ρ c main_arg19)
theorem keep_arg20_16 (c : Dev nD) : W16 m ρ c (Proc.devRef .tc main_arg20) = m ((c : Thread nD τ).loc main_arg20) :=
  (W16_of m ρ c main_arg20 (by decide)).trans <|
    (W15_of m ρ c main_arg20 (by decide)).trans <|
    (W14_of m ρ c main_arg20 (by decide)).trans <|
    (W13_of m ρ c main_arg20 (by decide)).trans <|
    (W12_of m ρ c main_arg20 (by decide)).trans <|
    (W11_of m ρ c main_arg20 (by decide)).trans <|
    (W10_of m ρ c main_arg20 (by decide)).trans <|
    (W9_of m ρ c main_arg20 (by decide)).trans <|
    (W8_of m ρ c main_arg20 (by decide)).trans <|
    (W7_of m ρ c main_arg20 (by decide)).trans <|
    (W6_of m ρ c main_arg20 (by decide)).trans <|
    (W5_of m ρ c main_arg20 (by decide)).trans <|
    (W4_of m ρ c main_arg20 (by decide)).trans <|
    (W3_of m ρ c main_arg20 (by decide)).trans <|
    (W2_of m ρ c main_arg20 (by decide)).trans <|
    (W1_of m ρ c main_arg20 (by decide)).trans <|
    (W0_at m ρ c main_arg20)
theorem keep_arg2_16 (c : Dev nD) : W16 m ρ c (Proc.devRef .tc main_arg2) = m ((c : Thread nD τ).loc main_arg2) :=
  (W16_of m ρ c main_arg2 (by decide)).trans <|
    (W15_of m ρ c main_arg2 (by decide)).trans <|
    (W14_of m ρ c main_arg2 (by decide)).trans <|
    (W13_of m ρ c main_arg2 (by decide)).trans <|
    (W12_of m ρ c main_arg2 (by decide)).trans <|
    (W11_of m ρ c main_arg2 (by decide)).trans <|
    (W10_of m ρ c main_arg2 (by decide)).trans <|
    (W9_of m ρ c main_arg2 (by decide)).trans <|
    (W8_of m ρ c main_arg2 (by decide)).trans <|
    (W7_of m ρ c main_arg2 (by decide)).trans <|
    (W6_of m ρ c main_arg2 (by decide)).trans <|
    (W5_of m ρ c main_arg2 (by decide)).trans <|
    (W4_of m ρ c main_arg2 (by decide)).trans <|
    (W3_of m ρ c main_arg2 (by decide)).trans <|
    (W2_of m ρ c main_arg2 (by decide)).trans <|
    (W1_of m ρ c main_arg2 (by decide)).trans <|
    (W0_at m ρ c main_arg2)
theorem keep_arg21_16 (c : Dev nD) : W16 m ρ c (Proc.devRef .tc main_arg21) = m ((c : Thread nD τ).loc main_arg21) :=
  (W16_of m ρ c main_arg21 (by decide)).trans <|
    (W15_of m ρ c main_arg21 (by decide)).trans <|
    (W14_of m ρ c main_arg21 (by decide)).trans <|
    (W13_of m ρ c main_arg21 (by decide)).trans <|
    (W12_of m ρ c main_arg21 (by decide)).trans <|
    (W11_of m ρ c main_arg21 (by decide)).trans <|
    (W10_of m ρ c main_arg21 (by decide)).trans <|
    (W9_of m ρ c main_arg21 (by decide)).trans <|
    (W8_of m ρ c main_arg21 (by decide)).trans <|
    (W7_of m ρ c main_arg21 (by decide)).trans <|
    (W6_of m ρ c main_arg21 (by decide)).trans <|
    (W5_of m ρ c main_arg21 (by decide)).trans <|
    (W4_of m ρ c main_arg21 (by decide)).trans <|
    (W3_of m ρ c main_arg21 (by decide)).trans <|
    (W2_of m ρ c main_arg21 (by decide)).trans <|
    (W1_of m ρ c main_arg21 (by decide)).trans <|
    (W0_at m ρ c main_arg21)
theorem keep_arg22_16 (c : Dev nD) : W16 m ρ c (Proc.devRef .tc main_arg22) = m ((c : Thread nD τ).loc main_arg22) :=
  (W16_of m ρ c main_arg22 (by decide)).trans <|
    (W15_of m ρ c main_arg22 (by decide)).trans <|
    (W14_of m ρ c main_arg22 (by decide)).trans <|
    (W13_of m ρ c main_arg22 (by decide)).trans <|
    (W12_of m ρ c main_arg22 (by decide)).trans <|
    (W11_of m ρ c main_arg22 (by decide)).trans <|
    (W10_of m ρ c main_arg22 (by decide)).trans <|
    (W9_of m ρ c main_arg22 (by decide)).trans <|
    (W8_of m ρ c main_arg22 (by decide)).trans <|
    (W7_of m ρ c main_arg22 (by decide)).trans <|
    (W6_of m ρ c main_arg22 (by decide)).trans <|
    (W5_of m ρ c main_arg22 (by decide)).trans <|
    (W4_of m ρ c main_arg22 (by decide)).trans <|
    (W3_of m ρ c main_arg22 (by decide)).trans <|
    (W2_of m ρ c main_arg22 (by decide)).trans <|
    (W1_of m ρ c main_arg22 (by decide)).trans <|
    (W0_at m ρ c main_arg22)
theorem keep_arg0_0 (c : Dev nD) : W0 m ρ c (Proc.devRef .tc main_arg0) = m ((c : Thread nD τ).loc main_arg0) :=
  (W0_at m ρ c main_arg0)
theorem keep_arg1_0 (c : Dev nD) : W0 m ρ c (Proc.devRef .tc main_arg1) = m ((c : Thread nD τ).loc main_arg1) :=
  (W0_at m ρ c main_arg1)
theorem keep_arg3_0 (c : Dev nD) : W0 m ρ c (Proc.devRef .tc main_arg3) = m ((c : Thread nD τ).loc main_arg3) :=
  (W0_at m ρ c main_arg3)
theorem keep_arg4_0 (c : Dev nD) : W0 m ρ c (Proc.devRef .tc main_arg4) = m ((c : Thread nD τ).loc main_arg4) :=
  (W0_at m ρ c main_arg4)

end Cert.KernelIdeal.KKeep

end
-- ==== Proof.LibMatmul.lean ====
/-
  A rank-2 matrix product read at an index, at the exact extended reals: when the dimension numbers contract the
  left operand's column axis with the right operand's row axis and keep the other two axes in order, the product
  accumulated into zeros is, at row `p` and column `q`, the sum over `k` of `lhs (p, k) · rhs (k, q)` — a sum over
  the contracted extent itself, not over the contraction's own index type.
-/
import Idealize.ShloMosaic.PureOps.Ideal.Laws
import Idealize.ShloMosaic.Lib.ValueIdx

noncomputable section

namespace Cert.LibMatmul

open Idealize.ShloMosaic Idealize.ShloMosaic.ValueIdx

/-- A product `[a, K] × [K, b] → [a, b]` into a zero accumulator, at an output index `j`: the four coordinate facts
    say which operand entries the dimension numbers pair at the contraction index (the left one at `(j 0, k)`, the
    right one at `(k, j 1)`); the contraction has one axis, of extent `K`, and the sum is re-indexed along it. -/
theorem matmul_zero_ix2 {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.matmul d prec lhs rhs (constant ⟨2, ![a, b]⟩ .f32 0x00000000#32) j
      = ∑ k : Fin K, lhs (ix2 (j 0) k) * rhs (ix2 k (j 1)) := by
  rw [Ideal.matmul_constant_zero_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibMatmul

end
-- ==== Proof.MatmulPayload.lean ====
/-
  The matmul kernel's stored value read at an entry, at the exact extended reals: each of the four kernels stores, over
  its whole output block, the product of its row block x ([10000, 256]) with the whole weight matrix W ([256, N])
  accumulated into zeros; the casts to the narrower float type are the identity on exact values. So the stored block at
  row p and column q is the sum over k of x (p, k) · W (k, q).
-/
import proofs.«163758_j78546361909451_1_alg».proof.Proof.Gen.KernelIdeal.Skeleton
import proofs.«163758_j78546361909451_1_alg».proof.Proof.LibMatmul
import Idealize.ShloMosaic.Lib.Pipeline.Value

noncomputable section

namespace Cert.KernelIdeal.RegionValue

open Idealize.ShloMosaic Idealize.ShloMosaic.ValueIdx
open Cert.KernelIdeal Cert.KernelIdeal.Gen

/-! ## The dimension numbers' operand indices: left (row, k), right (k, column) -/

theorem contr256_rank : dot_S10000x256_S256x256_S10000x256_1_0_0_1_n_n.contr.rank = 1 := rfl
theorem contr256_size : dot_S10000x256_S256x256_S10000x256_1_0_0_1_n_n.contr.size ⟨0, by decide⟩ = 256 := rfl

theorem lhs256_0 (i : S10000x256.Idx) (q : dot_S10000x256_S256x256_S10000x256_1_0_0_1_n_n.contr.Idx) :
    (dot_S10000x256_S256x256_S10000x256_1_0_0_1_n_n.lhsIdx i q 0).val = (i 0).val := by
  unfold DotDims.lhsIdx
  rw [dif_neg (show ¬(0 : Fin S10000x256.rank) ∈ dot_S10000x256_S256x256_S10000x256_1_0_0_1_n_n.lhsBatch by decide),
    dif_pos (show (0 : Fin S10000x256.rank) ∈ dot_S10000x256_S256x256_S10000x256_1_0_0_1_n_n.lhsNonContracting by decide)]
  rfl
theorem lhs256_1 (i : S10000x256.Idx) (q : dot_S10000x256_S256x256_S10000x256_1_0_0_1_n_n.contr.Idx) :
    (dot_S10000x256_S256x256_S10000x256_1_0_0_1_n_n.lhsIdx i q 1).val = (q ⟨0, by decide⟩).val :=
  dot_S10000x256_S256x256_S10000x256_1_0_0_1_n_n.lhsIdx_val_of_single rfl i q
theorem rhs256_0 (i : S10000x256.Idx) (q : dot_S10000x256_S256x256_S10000x256_1_0_0_1_n_n.contr.Idx) :
    (dot_S10000x256_S256x256_S10000x256_1_0_0_1_n_n.rhsIdx i q 0).val = (q ⟨0, by decide⟩).val :=
  dot_S10000x256_S256x256_S10000x256_1_0_0_1_n_n.rhsIdx_val_of_single rfl i q
theorem rhs256_1 (i : S10000x256.Idx) (q : dot_S10000x256_S256x256_S10000x256_1_0_0_1_n_n.contr.Idx) :
    (dot_S10000x256_S256x256_S10000x256_1_0_0_1_n_n.rhsIdx i q 1).val = (i 1).val := by
  unfold DotDims.rhsIdx
  rw [dif_neg (show ¬(1 : Fin S256x256.rank) ∈ dot_S10000x256_S256x256_S10000x256_1_0_0_1_n_n.rhsBatch by decide),
    dif_pos (show (1 : Fin S256x256.rank) ∈ dot_S10000x256_S256x256_S10000x256_1_0_0_1_n_n.rhsNonContracting by decide)]
  rfl

/-- The product of a [10000, 256] block with a [256, 256] matrix into zeros, at (p, q). -/
theorem matmul256_apply (x : FVec Ideal S10000x256 .bf16) (w : FVec Ideal S256x256 .bf16) (p : Fin 10000) (q : Fin 256) :
    FloatOps.matmul dot_S10000x256_S256x256_S10000x256_1_0_0_1_n_n none x w (constant S10000x256 .f32 0x00000000#32) (ix2 p q)
      = ∑ k : Fin 256, x (ix2 p k) * w (ix2 k q) :=
  Cert.LibMatmul.matmul_zero_ix2 (a := 10000) (K := 256) (b := 256) dot_S10000x256_S256x256_S10000x256_1_0_0_1_n_n none
    contr256_rank contr256_size lhs256_0 lhs256_1 rhs256_0 rhs256_1 x w (ix2 p q)

/-- Region 0's stored block at (p, q), from its two loaded blocks. -/
theorem pay0_apply (x0 : Vec Ideal S10000x256 .f32) (x1 : Vec Ideal S256x256 .f32) (p : Fin 10000) (q : Fin 256) :
    k0_pay1 (F := Ideal) x0 x1 (ix2 p q) = ∑ k : Fin 256, x0 (ix2 p k) * x1 (ix2 k q) := by
  unfold k0_pay1
  rw [shapeCast_self]
  exact matmul256_apply (truncf .bf16 x0 bitsLt_bf16_f32) (truncf .bf16 x1 bitsLt_bf16_f32) p q

/-- Region 1's stored block at (p, q), from its two loaded blocks. -/
theorem pay1_apply (x0 : Vec Ideal S10000x256 .f32) (x1 : Vec Ideal S256x256 .f32) (p : Fin 10000) (q : Fin 256) :
    k1_pay1 (F := Ideal) x0 x1 (ix2 p q) = ∑ k : Fin 256, x0 (ix2 p k) * x1 (ix2 k q) := by
  unfold k1_pay1
  rw [shapeCast_self]
  exact matmul256_apply (truncf .bf16 x0 bitsLt_bf16_f32) (truncf .bf16 x1 bitsLt_bf16_f32) p q

/-- Region 2's stored block at (p, q), from its two loaded blocks. -/
theorem pay2_apply (x0 : Vec Ideal S10000x256 .f32) (x1 : Vec Ideal S256x256 .f32) (p : Fin 10000) (q : Fin 256) :
    k2_pay1 (F := Ideal) x0 x1 (ix2 p q) = ∑ k : Fin 256, x0 (ix2 p k) * x1 (ix2 k q) := by
  unfold k2_pay1
  rw [shapeCast_self]
  exact matmul256_apply (truncf .bf16 x0 bitsLt_bf16_f32) (truncf .bf16 x1 bitsLt_bf16_f32) p q

/-! ## The same for the [256, 128] weight matrix of the last region -/

theorem contr128_rank : dot_S10000x256_S256x128_S10000x128_1_0_0_1_n_n.contr.rank = 1 := rfl
theorem contr128_size : dot_S10000x256_S256x128_S10000x128_1_0_0_1_n_n.contr.size ⟨0, by decide⟩ = 256 := rfl

theorem lhs128_0 (i : S10000x128.Idx) (q : dot_S10000x256_S256x128_S10000x128_1_0_0_1_n_n.contr.Idx) :
    (dot_S10000x256_S256x128_S10000x128_1_0_0_1_n_n.lhsIdx i q 0).val = (i 0).val := by
  unfold DotDims.lhsIdx
  rw [dif_neg (show ¬(0 : Fin S10000x256.rank) ∈ dot_S10000x256_S256x128_S10000x128_1_0_0_1_n_n.lhsBatch by decide),
    dif_pos (show (0 : Fin S10000x256.rank) ∈ dot_S10000x256_S256x128_S10000x128_1_0_0_1_n_n.lhsNonContracting by decide)]
  rfl
theorem lhs128_1 (i : S10000x128.Idx) (q : dot_S10000x256_S256x128_S10000x128_1_0_0_1_n_n.contr.Idx) :
    (dot_S10000x256_S256x128_S10000x128_1_0_0_1_n_n.lhsIdx i q 1).val = (q ⟨0, by decide⟩).val :=
  dot_S10000x256_S256x128_S10000x128_1_0_0_1_n_n.lhsIdx_val_of_single rfl i q
theorem rhs128_0 (i : S10000x128.Idx) (q : dot_S10000x256_S256x128_S10000x128_1_0_0_1_n_n.contr.Idx) :
    (dot_S10000x256_S256x128_S10000x128_1_0_0_1_n_n.rhsIdx i q 0).val = (q ⟨0, by decide⟩).val :=
  dot_S10000x256_S256x128_S10000x128_1_0_0_1_n_n.rhsIdx_val_of_single rfl i q
theorem rhs128_1 (i : S10000x128.Idx) (q : dot_S10000x256_S256x128_S10000x128_1_0_0_1_n_n.contr.Idx) :
    (dot_S10000x256_S256x128_S10000x128_1_0_0_1_n_n.rhsIdx i q 1).val = (i 1).val := by
  unfold DotDims.rhsIdx
  rw [dif_neg (show ¬(1 : Fin S256x128.rank) ∈ dot_S10000x256_S256x128_S10000x128_1_0_0_1_n_n.rhsBatch by decide),
    dif_pos (show (1 : Fin S256x128.rank) ∈ dot_S10000x256_S256x128_S10000x128_1_0_0_1_n_n.rhsNonContracting by decide)]
  rfl

/-- The product of a [10000, 256] block with a [256, 128] matrix into zeros, at (p, q). -/
theorem matmul128_apply (x : FVec Ideal S10000x256 .bf16) (w : FVec Ideal S256x128 .bf16) (p : Fin 10000) (q : Fin 128) :
    FloatOps.matmul dot_S10000x256_S256x128_S10000x128_1_0_0_1_n_n none x w (constant S10000x128 .f32 0x00000000#32) (ix2 p q)
      = ∑ k : Fin 256, x (ix2 p k) * w (ix2 k q) :=
  Cert.LibMatmul.matmul_zero_ix2 (a := 10000) (K := 256) (b := 128) dot_S10000x256_S256x128_S10000x128_1_0_0_1_n_n none
    contr128_rank contr128_size lhs128_0 lhs128_1 rhs128_0 rhs128_1 x w (ix2 p q)

/-- Region 3's stored block at (p, q), from its two loaded blocks. -/
theorem pay3_apply (x0 : Vec Ideal S10000x256 .f32) (x1 : Vec Ideal S256x128 .f32) (p : Fin 10000) (q : Fin 128) :
    k3_pay1 (F := Ideal) x0 x1 (ix2 p q) = ∑ k : Fin 256, x0 (ix2 p k) * x1 (ix2 k q) := by
  unfold k3_pay1
  rw [shapeCast_self]
  exact matmul128_apply (truncf .bf16 x0 bitsLt_bf16_f32) (truncf .bf16 x1 bitsLt_bf16_f32) p q

end Cert.KernelIdeal.RegionValue

end
-- ==== Proof.RegionValue0.lean ====
/-
  What matmul region 0 leaves in its output array, read at an entry, at the exact extended reals. The region runs
  the matmul kernel over 5 grid points; point t loads rows 10000·t … 10000·t + 9999 of the left array x ([50000, 256]) and
  the whole weight matrix W ([256, 256]), and writes back rows 10000·t … 10000·t + 9999 of the output ([50000, 256]): the
  product of the row block with W. The row blocks of the 5 points tile the output, so after the region its entry
  (p, q) is the sum over k of x (p, k) · W (k, q), with x and W the arrays' contents when the region is entered.
-/
import proofs.«163758_j78546361909451_1_alg».proof.Proof.Gen.KernelIdeal.Frame
import proofs.«163758_j78546361909451_1_alg».proof.Proof.MatmulPayload
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros0 : (![0, 0] : Fin 2 → Nat) = fun _ => 0 := funext fun a => by fin_cases a <;> rfl

/-- The left array as the region finds it, on its literal index type. -/
abbrev lhs0 (c : Dev nD) : S50000x256.Idx → EReal := V c (Pipeline.arrRef spec0 0)
/-- The weight matrix as the region finds it, on its literal index type. -/
abbrev rhs0 (c : Dev nD) : S256x256.Idx → EReal := V c (Pipeline.arrRef spec0 1)

/-- The product of a [50000, 256] array with a [256, 256] matrix, entry by entry. -/
def prod0 (A : S50000x256.Idx → EReal) (W : S256x256.Idx → EReal) : S50000x256.Idx → EReal :=
  fun i => ∑ k : Fin 256, A (ix2 (i 0 : Fin 50000) k) * W (ix2 k (i 1 : Fin 256))

theorem prod0_apply (A : S50000x256.Idx → EReal) (W : S256x256.Idx → EReal) (p : Fin 50000) (q : Fin 256) :
    prod0 A W (ix2 p q) = ∑ k : Fin 256, A (ix2 p k) * W (ix2 k q) := rfl

/-- The stored block at (p, q) is the product's entry at array index i, when row p of the loaded left block is row
    (i 0) of the left array and column q of the loaded matrix is column (i 1) of the weight matrix. -/
theorem pay0_eq_prod (A : S50000x256.Idx → EReal) (W : S256x256.Idx → EReal)
    (x0 : Vec Ideal S10000x256 .f32) (x1 : Vec Ideal S256x256 .f32) (p : Fin 10000) (q : Fin 256) (i : S50000x256.Idx)
    (h0 : ∀ k : Fin 256, x0 (ix2 p k) = A (ix2 (i 0 : Fin 50000) k))
    (h1 : ∀ k : Fin 256, x1 (ix2 k q) = W (ix2 k (i 1 : Fin 256))) :
    k0_pay1 (F := Ideal) x0 x1 (ix2 p q) = prod0 A W i := by
  rw [pay0_apply]
  unfold prod0
  exact Finset.sum_congr rfl fun k _ => by rw [h0 k, h1 k]

/-- The body's one store covers the output block: what it leaves there is the stored value. -/
theorem out0_eq_pay (x0 : Vec Ideal S10000x256 .f32) (x1 : Vec Ideal S256x256 .f32) :
    out0_2 (F := Ideal) x0 x1 = k0_pay1 (F := Ideal) x0 x1 := by
  unfold out0_2
  rw [View.canon_unit_zero zeros0]
  simp only [View.ld_unit_zero (S := S10000x256) zeros0, View.ld_unit_zero (S := S256x256) zeros0]

/-- The printed index maps, decided over the grid: point t's left block and output block are row block t, the
    weight matrix is block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point t's left block at (p, k) is the left array at row 10000·t + p. -/
theorem iblk0_0_apply (c : Dev nD) (t : Fin cfg0.N) (p : Fin 10000) (k : Fin 256) (i0 : Fin 50000)
    (h : i0.val = t.val * 10000 + p.val) :
    (iblk0 V c 0 t : Vec Ideal S10000x256 .f32) (ix2 p k) = lhs0 V c (ix2 i0 k) := by
  obtain ⟨e0, e1, -, -, -, -⟩ := idx_facts0 t
  unfold iblk0
  rw [View.read_apply]
  refine congrArg (lhs0 V c) ?_
  funext a; apply Fin.ext
  match a with
  | ⟨0, _⟩ => show win0_0.index t (0 : Fin 2) * 10000 + 1 * p.val = i0.val; omega
  | ⟨1, _⟩ => show win0_0.index t (1 : Fin 2) * 256 + 1 * k.val = k.val; omega

/-- Point t's weight block is the whole weight matrix. -/
theorem iblk0_1_apply (c : Dev nD) (t : Fin cfg0.N) (k : Fin 256) (q : Fin 256) :
    (iblk0 V c 1 t : Vec Ideal S256x256 .f32) (ix2 k q) = rhs0 V c (ix2 k q) := by
  obtain ⟨-, -, e2, e3, -, -⟩ := idx_facts0 t
  unfold iblk0
  rw [View.read_apply]
  refine congrArg (rhs0 V c) ?_
  funext a; apply Fin.ext
  match a with
  | ⟨0, _⟩ => show win0_1.index t (0 : Fin 2) * 256 + 1 * k.val = k.val; omega
  | ⟨1, _⟩ => show win0_1.index t (1 : Fin 2) * 256 + 1 * q.val = q.val; omega

/-- What point t writes back is block t of the product of the arrays as the region finds them. -/
theorem flushed0_eq (c : Dev nD) (t : Fin cfg0.N) :
    (dat0 (F := Ideal) V c).flushed 2 t
      = ((cfg0.win 2).blk t).view.read (Elt Ideal) (prod0 (lhs0 V c) (rhs0 V c)) := by
  show (cfg0.win 2).cut (grid0.coords t) ((dat0 V c).after 2 t) = _
  rw [after0_2, out0_eq_pay]
  obtain ⟨-, -, -, -, e4, e5⟩ := idx_facts0 t
  funext j
  obtain ⟨p, q, rfl⟩ : ∃ (p : Fin 10000) (q : Fin 256), j = ix2 p q := ⟨j 0, j 1, eq_ix2 j⟩
  show k0_pay1 (F := Ideal) (iblk0 V c 0 t) (iblk0 V c 1 t) (ix2 p q)
    = prod0 (lhs0 V c) (rhs0 V c) (((cfg0.win 2).blk t).view.emb (ix2 p q))
  refine pay0_eq_prod (lhs0 V c) (rhs0 V c) (iblk0 V c 0 t) (iblk0 V c 1 t)
    p q (((cfg0.win 2).blk t).view.emb (ix2 p q)) (fun k => ?_) (fun k => ?_)
  · refine iblk0_0_apply V c t p k _ ?_
    show win0_2.index t (0 : Fin 2) * 10000 + 1 * p.val = t.val * 10000 + p.val
    omega
  · refine (iblk0_1_apply V c t k q).trans (congrArg (rhs0 V c) ?_)
    funext a; apply Fin.ext
    match a with
    | ⟨0, _⟩ => rfl
    | ⟨1, _⟩ => show q.val = win0_2.index t (1 : Fin 2) * 256 + 1 * q.val; omega

/-- An index of the output array is in point t's block iff each coordinate is in the block's range on its axis. -/
theorem mem_blk0 (t : Fin cfg0.N) (i : S50000x256.Idx) :
    i ∈ ((cfg0.win 2).blk t).view.set ↔ ∀ a : Fin 2, win0_2.index t a * S10000x256.size a ≤ (i a).val
      ∧ (i a).val < win0_2.index t a * S10000x256.size a + S10000x256.size a := by
  show i ∈ ((View.whole main_v52).slice (win0_2.rect t)).set ↔ _
  rw [View.set_slice_whole, Rect.mem_set_unit]
  exact Iff.rfl

/-- Every row block of the output is some point's. -/
theorem idx_onto0 : ∀ b : Fin 5, ∃ t : Fin cfg0.N, win0_2.index t = ![b.val, 0] :=
  (by decide +kernel : ∀ b : Fin 5, ∃ t : Fin grid0.N, win0_2.index t = ![b.val, 0])

/-- The blocks tile the output: row r is in the block of point r / 10000. -/
theorem cover0 (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := idx_onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 256 ≤ (i 1).val ∧ (i 1).val < win0_2.index t (1 : Fin 2) * 256 + 256; omega

/-- The output array after the region is the product of the two input arrays as the region finds them. -/
theorem region0_array (c : Dev nD) :
    (dat0 (F := Ideal) V c).arrAt 2 cfg0.N = prod0 (lhs0 V c) (rhs0 V c) :=
  (dat0 (F := Ideal) V c).arrAt_eq_of_cover 2 (prod0 (lhs0 V c) (rhs0 V c))
    (fun t _ => flushed0_eq V c t) cover0

/-- The output array after the region, at entry (p, q): the sum over k of x (p, k) · W (k, q). -/
theorem region0_entry (c : Dev nD) (p : Fin 50000) (q : Fin 256) :
    (dat0 (F := Ideal) V c).arrAt 2 cfg0.N (ix2 p q)
      = ∑ k : Fin 256, lhs0 V c (ix2 p k) * rhs0 V c (ix2 k q) := by
  rw [region0_array]
  rfl

end Cert.KernelIdeal.RegionValue

end
-- ==== Proof.RegionValue1.lean ====
/-
  What matmul region 1 leaves in its output array, read at an entry, at the exact extended reals. The region runs
  the matmul kernel over 5 grid points; point t loads rows 10000·t … 10000·t + 9999 of the left array x ([50000, 256]) and
  the whole weight matrix W ([256, 256]), and writes back rows 10000·t … 10000·t + 9999 of the output ([50000, 256]): the
  product of the row block with W. The row blocks of the 5 points tile the output, so after the region its entry
  (p, q) is the sum over k of x (p, k) · W (k, q), with x and W the arrays' contents when the region is entered.
-/
import proofs.«163758_j78546361909451_1_alg».proof.Proof.Gen.KernelIdeal.Frame
import proofs.«163758_j78546361909451_1_alg».proof.Proof.MatmulPayload
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros1 : (![0, 0] : Fin 2 → Nat) = fun _ => 0 := funext fun a => by fin_cases a <;> rfl

/-- The left array as the region finds it, on its literal index type. -/
abbrev lhs1 (c : Dev nD) : S50000x256.Idx → EReal := V c (Pipeline.arrRef spec1 0)
/-- The weight matrix as the region finds it, on its literal index type. -/
abbrev rhs1 (c : Dev nD) : S256x256.Idx → EReal := V c (Pipeline.arrRef spec1 1)

/-- The product of a [50000, 256] array with a [256, 256] matrix, entry by entry. -/
def prod1 (A : S50000x256.Idx → EReal) (W : S256x256.Idx → EReal) : S50000x256.Idx → EReal :=
  fun i => ∑ k : Fin 256, A (ix2 (i 0 : Fin 50000) k) * W (ix2 k (i 1 : Fin 256))

theorem prod1_apply (A : S50000x256.Idx → EReal) (W : S256x256.Idx → EReal) (p : Fin 50000) (q : Fin 256) :
    prod1 A W (ix2 p q) = ∑ k : Fin 256, A (ix2 p k) * W (ix2 k q) := rfl

/-- The stored block at (p, q) is the product's entry at array index i, when row p of the loaded left block is row
    (i 0) of the left array and column q of the loaded matrix is column (i 1) of the weight matrix. -/
theorem pay1_eq_prod (A : S50000x256.Idx → EReal) (W : S256x256.Idx → EReal)
    (x0 : Vec Ideal S10000x256 .f32) (x1 : Vec Ideal S256x256 .f32) (p : Fin 10000) (q : Fin 256) (i : S50000x256.Idx)
    (h0 : ∀ k : Fin 256, x0 (ix2 p k) = A (ix2 (i 0 : Fin 50000) k))
    (h1 : ∀ k : Fin 256, x1 (ix2 k q) = W (ix2 k (i 1 : Fin 256))) :
    k1_pay1 (F := Ideal) x0 x1 (ix2 p q) = prod1 A W i := by
  rw [pay1_apply]
  unfold prod1
  exact Finset.sum_congr rfl fun k _ => by rw [h0 k, h1 k]

/-- The body's one store covers the output block: what it leaves there is the stored value. -/
theorem out1_eq_pay (x0 : Vec Ideal S10000x256 .f32) (x1 : Vec Ideal S256x256 .f32) :
    out1_2 (F := Ideal) x0 x1 = k1_pay1 (F := Ideal) x0 x1 := by
  unfold out1_2
  rw [View.canon_unit_zero zeros1]
  simp only [View.ld_unit_zero (S := S10000x256) zeros1, View.ld_unit_zero (S := S256x256) zeros1]

/-- The printed index maps, decided over the grid: point t's left block and output block are row block t, the
    weight matrix is block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Point t's left block at (p, k) is the left array at row 10000·t + p. -/
theorem iblk1_0_apply (c : Dev nD) (t : Fin cfg1.N) (p : Fin 10000) (k : Fin 256) (i0 : Fin 50000)
    (h : i0.val = t.val * 10000 + p.val) :
    (iblk1 V c 0 t : Vec Ideal S10000x256 .f32) (ix2 p k) = lhs1 V c (ix2 i0 k) := by
  obtain ⟨e0, e1, -, -, -, -⟩ := idx_facts1 t
  unfold iblk1
  rw [View.read_apply]
  refine congrArg (lhs1 V c) ?_
  funext a; apply Fin.ext
  match a with
  | ⟨0, _⟩ => show win1_0.index t (0 : Fin 2) * 10000 + 1 * p.val = i0.val; omega
  | ⟨1, _⟩ => show win1_0.index t (1 : Fin 2) * 256 + 1 * k.val = k.val; omega

/-- Point t's weight block is the whole weight matrix. -/
theorem iblk1_1_apply (c : Dev nD) (t : Fin cfg1.N) (k : Fin 256) (q : Fin 256) :
    (iblk1 V c 1 t : Vec Ideal S256x256 .f32) (ix2 k q) = rhs1 V c (ix2 k q) := by
  obtain ⟨-, -, e2, e3, -, -⟩ := idx_facts1 t
  unfold iblk1
  rw [View.read_apply]
  refine congrArg (rhs1 V c) ?_
  funext a; apply Fin.ext
  match a with
  | ⟨0, _⟩ => show win1_1.index t (0 : Fin 2) * 256 + 1 * k.val = k.val; omega
  | ⟨1, _⟩ => show win1_1.index t (1 : Fin 2) * 256 + 1 * q.val = q.val; omega

/-- What point t writes back is block t of the product of the arrays as the region finds them. -/
theorem flushed1_eq (c : Dev nD) (t : Fin cfg1.N) :
    (dat1 (F := Ideal) V c).flushed 2 t
      = ((cfg1.win 2).blk t).view.read (Elt Ideal) (prod1 (lhs1 V c) (rhs1 V c)) := by
  show (cfg1.win 2).cut (grid1.coords t) ((dat1 V c).after 2 t) = _
  rw [after1_2, out1_eq_pay]
  obtain ⟨-, -, -, -, e4, e5⟩ := idx_facts1 t
  funext j
  obtain ⟨p, q, rfl⟩ : ∃ (p : Fin 10000) (q : Fin 256), j = ix2 p q := ⟨j 0, j 1, eq_ix2 j⟩
  show k1_pay1 (F := Ideal) (iblk1 V c 0 t) (iblk1 V c 1 t) (ix2 p q)
    = prod1 (lhs1 V c) (rhs1 V c) (((cfg1.win 2).blk t).view.emb (ix2 p q))
  refine pay1_eq_prod (lhs1 V c) (rhs1 V c) (iblk1 V c 0 t) (iblk1 V c 1 t)
    p q (((cfg1.win 2).blk t).view.emb (ix2 p q)) (fun k => ?_) (fun k => ?_)
  · refine iblk1_0_apply V c t p k _ ?_
    show win1_2.index t (0 : Fin 2) * 10000 + 1 * p.val = t.val * 10000 + p.val
    omega
  · refine (iblk1_1_apply V c t k q).trans (congrArg (rhs1 V c) ?_)
    funext a; apply Fin.ext
    match a with
    | ⟨0, _⟩ => rfl
    | ⟨1, _⟩ => show q.val = win1_2.index t (1 : Fin 2) * 256 + 1 * q.val; omega

/-- An index of the output array is in point t's block iff each coordinate is in the block's range on its axis. -/
theorem mem_blk1 (t : Fin cfg1.N) (i : S50000x256.Idx) :
    i ∈ ((cfg1.win 2).blk t).view.set ↔ ∀ a : Fin 2, win1_2.index t a * S10000x256.size a ≤ (i a).val
      ∧ (i a).val < win1_2.index t a * S10000x256.size a + S10000x256.size a := by
  show i ∈ ((View.whole main_v99).slice (win1_2.rect t)).set ↔ _
  rw [View.set_slice_whole, Rect.mem_set_unit]
  exact Iff.rfl

/-- Every row block of the output is some point's. -/
theorem idx_onto1 : ∀ b : Fin 5, ∃ t : Fin cfg1.N, win1_2.index t = ![b.val, 0] :=
  (by decide +kernel : ∀ b : Fin 5, ∃ t : Fin grid1.N, win1_2.index t = ![b.val, 0])

/-- The blocks tile the output: row r is in the block of point r / 10000. -/
theorem cover1 (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ := idx_onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 256 ≤ (i 1).val ∧ (i 1).val < win1_2.index t (1 : Fin 2) * 256 + 256; omega

/-- The output array after the region is the product of the two input arrays as the region finds them. -/
theorem region1_array (c : Dev nD) :
    (dat1 (F := Ideal) V c).arrAt 2 cfg1.N = prod1 (lhs1 V c) (rhs1 V c) :=
  (dat1 (F := Ideal) V c).arrAt_eq_of_cover 2 (prod1 (lhs1 V c) (rhs1 V c))
    (fun t _ => flushed1_eq V c t) cover1

/-- The output array after the region, at entry (p, q): the sum over k of x (p, k) · W (k, q). -/
theorem region1_entry (c : Dev nD) (p : Fin 50000) (q : Fin 256) :
    (dat1 (F := Ideal) V c).arrAt 2 cfg1.N (ix2 p q)
      = ∑ k : Fin 256, lhs1 V c (ix2 p k) * rhs1 V c (ix2 k q) := by
  rw [region1_array]
  rfl

end Cert.KernelIdeal.RegionValue

end
-- ==== Proof.RegionValue2.lean ====
/-
  What matmul region 2 leaves in its output array, read at an entry, at the exact extended reals. The region runs
  the matmul kernel over 5 grid points; point t loads rows 10000·t … 10000·t + 9999 of the left array x ([50000, 256]) and
  the whole weight matrix W ([256, 256]), and writes back rows 10000·t … 10000·t + 9999 of the output ([50000, 256]): the
  product of the row block with W. The row blocks of the 5 points tile the output, so after the region its entry
  (p, q) is the sum over k of x (p, k) · W (k, q), with x and W the arrays' contents when the region is entered.
-/
import proofs.«163758_j78546361909451_1_alg».proof.Proof.Gen.KernelIdeal.Frame
import proofs.«163758_j78546361909451_1_alg».proof.Proof.MatmulPayload
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl

/-- The left array as the region finds it, on its literal index type. -/
abbrev lhs2 (c : Dev nD) : S50000x256.Idx → EReal := V c (Pipeline.arrRef spec2 0)
/-- The weight matrix as the region finds it, on its literal index type. -/
abbrev rhs2 (c : Dev nD) : S256x256.Idx → EReal := V c (Pipeline.arrRef spec2 1)

/-- The product of a [50000, 256] array with a [256, 256] matrix, entry by entry. -/
def prod2 (A : S50000x256.Idx → EReal) (W : S256x256.Idx → EReal) : S50000x256.Idx → EReal :=
  fun i => ∑ k : Fin 256, A (ix2 (i 0 : Fin 50000) k) * W (ix2 k (i 1 : Fin 256))

theorem prod2_apply (A : S50000x256.Idx → EReal) (W : S256x256.Idx → EReal) (p : Fin 50000) (q : Fin 256) :
    prod2 A W (ix2 p q) = ∑ k : Fin 256, A (ix2 p k) * W (ix2 k q) := rfl

/-- The stored block at (p, q) is the product's entry at array index i, when row p of the loaded left block is row
    (i 0) of the left array and column q of the loaded matrix is column (i 1) of the weight matrix. -/
theorem pay2_eq_prod (A : S50000x256.Idx → EReal) (W : S256x256.Idx → EReal)
    (x0 : Vec Ideal S10000x256 .f32) (x1 : Vec Ideal S256x256 .f32) (p : Fin 10000) (q : Fin 256) (i : S50000x256.Idx)
    (h0 : ∀ k : Fin 256, x0 (ix2 p k) = A (ix2 (i 0 : Fin 50000) k))
    (h1 : ∀ k : Fin 256, x1 (ix2 k q) = W (ix2 k (i 1 : Fin 256))) :
    k2_pay1 (F := Ideal) x0 x1 (ix2 p q) = prod2 A W i := by
  rw [pay2_apply]
  unfold prod2
  exact Finset.sum_congr rfl fun k _ => by rw [h0 k, h1 k]

/-- The body's one store covers the output block: what it leaves there is the stored value. -/
theorem out2_eq_pay (x0 : Vec Ideal S10000x256 .f32) (x1 : Vec Ideal S256x256 .f32) :
    out2_2 (F := Ideal) x0 x1 = k2_pay1 (F := Ideal) x0 x1 := by
  unfold out2_2
  rw [View.canon_unit_zero zeros2]
  simp only [View.ld_unit_zero (S := S10000x256) zeros2, View.ld_unit_zero (S := S256x256) zeros2]

/-- The printed index maps, decided over the grid: point t's left block and output block are row block t, the
    weight matrix is block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Point t's left block at (p, k) is the left array at row 10000·t + p. -/
theorem iblk2_0_apply (c : Dev nD) (t : Fin cfg2.N) (p : Fin 10000) (k : Fin 256) (i0 : Fin 50000)
    (h : i0.val = t.val * 10000 + p.val) :
    (iblk2 V c 0 t : Vec Ideal S10000x256 .f32) (ix2 p k) = lhs2 V c (ix2 i0 k) := by
  obtain ⟨e0, e1, -, -, -, -⟩ := idx_facts2 t
  unfold iblk2
  rw [View.read_apply]
  refine congrArg (lhs2 V c) ?_
  funext a; apply Fin.ext
  match a with
  | ⟨0, _⟩ => show win2_0.index t (0 : Fin 2) * 10000 + 1 * p.val = i0.val; omega
  | ⟨1, _⟩ => show win2_0.index t (1 : Fin 2) * 256 + 1 * k.val = k.val; omega

/-- Point t's weight block is the whole weight matrix. -/
theorem iblk2_1_apply (c : Dev nD) (t : Fin cfg2.N) (k : Fin 256) (q : Fin 256) :
    (iblk2 V c 1 t : Vec Ideal S256x256 .f32) (ix2 k q) = rhs2 V c (ix2 k q) := by
  obtain ⟨-, -, e2, e3, -, -⟩ := idx_facts2 t
  unfold iblk2
  rw [View.read_apply]
  refine congrArg (rhs2 V c) ?_
  funext a; apply Fin.ext
  match a with
  | ⟨0, _⟩ => show win2_1.index t (0 : Fin 2) * 256 + 1 * k.val = k.val; omega
  | ⟨1, _⟩ => show win2_1.index t (1 : Fin 2) * 256 + 1 * q.val = q.val; omega

/-- What point t writes back is block t of the product of the arrays as the region finds them. -/
theorem flushed2_eq (c : Dev nD) (t : Fin cfg2.N) :
    (dat2 (F := Ideal) V c).flushed 2 t
      = ((cfg2.win 2).blk t).view.read (Elt Ideal) (prod2 (lhs2 V c) (rhs2 V c)) := by
  show (cfg2.win 2).cut (grid2.coords t) ((dat2 V c).after 2 t) = _
  rw [after2_2, out2_eq_pay]
  obtain ⟨-, -, -, -, e4, e5⟩ := idx_facts2 t
  funext j
  obtain ⟨p, q, rfl⟩ : ∃ (p : Fin 10000) (q : Fin 256), j = ix2 p q := ⟨j 0, j 1, eq_ix2 j⟩
  show k2_pay1 (F := Ideal) (iblk2 V c 0 t) (iblk2 V c 1 t) (ix2 p q)
    = prod2 (lhs2 V c) (rhs2 V c) (((cfg2.win 2).blk t).view.emb (ix2 p q))
  refine pay2_eq_prod (lhs2 V c) (rhs2 V c) (iblk2 V c 0 t) (iblk2 V c 1 t)
    p q (((cfg2.win 2).blk t).view.emb (ix2 p q)) (fun k => ?_) (fun k => ?_)
  · refine iblk2_0_apply V c t p k _ ?_
    show win2_2.index t (0 : Fin 2) * 10000 + 1 * p.val = t.val * 10000 + p.val
    omega
  · refine (iblk2_1_apply V c t k q).trans (congrArg (rhs2 V c) ?_)
    funext a; apply Fin.ext
    match a with
    | ⟨0, _⟩ => rfl
    | ⟨1, _⟩ => show q.val = win2_2.index t (1 : Fin 2) * 256 + 1 * q.val; omega

/-- An index of the output array is in point t's block iff each coordinate is in the block's range on its axis. -/
theorem mem_blk2 (t : Fin cfg2.N) (i : S50000x256.Idx) :
    i ∈ ((cfg2.win 2).blk t).view.set ↔ ∀ a : Fin 2, win2_2.index t a * S10000x256.size a ≤ (i a).val
      ∧ (i a).val < win2_2.index t a * S10000x256.size a + S10000x256.size a := by
  show i ∈ ((View.whole main_v147).slice (win2_2.rect t)).set ↔ _
  rw [View.set_slice_whole, Rect.mem_set_unit]
  exact Iff.rfl

/-- Every row block of the output is some point's. -/
theorem idx_onto2 : ∀ b : Fin 5, ∃ t : Fin cfg2.N, win2_2.index t = ![b.val, 0] :=
  (by decide +kernel : ∀ b : Fin 5, ∃ t : Fin grid2.N, win2_2.index t = ![b.val, 0])

/-- The blocks tile the output: row r is in the block of point r / 10000. -/
theorem cover2 (i : S50000x256.Idx) :
    ∃ t : Fin cfg2.N, (cfg2.win 2).flush t = true ∧ i ∈ ((cfg2.win 2).blk t).view.set := by
  have hi0 : (i 0).val < 50000 := (i 0).isLt
  have hi1 : (i 1).val < 256 := (i 1).isLt
  obtain ⟨t, ht⟩ := idx_onto2 ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 256 ≤ (i 1).val ∧ (i 1).val < win2_2.index t (1 : Fin 2) * 256 + 256; omega

/-- The output array after the region is the product of the two input arrays as the region finds them. -/
theorem region2_array (c : Dev nD) :
    (dat2 (F := Ideal) V c).arrAt 2 cfg2.N = prod2 (lhs2 V c) (rhs2 V c) :=
  (dat2 (F := Ideal) V c).arrAt_eq_of_cover 2 (prod2 (lhs2 V c) (rhs2 V c))
    (fun t _ => flushed2_eq V c t) cover2

/-- The output array after the region, at entry (p, q): the sum over k of x (p, k) · W (k, q). -/
theorem region2_entry (c : Dev nD) (p : Fin 50000) (q : Fin 256) :
    (dat2 (F := Ideal) V c).arrAt 2 cfg2.N (ix2 p q)
      = ∑ k : Fin 256, lhs2 V c (ix2 p k) * rhs2 V c (ix2 k q) := by
  rw [region2_array]
  rfl

end Cert.KernelIdeal.RegionValue

end
-- ==== Proof.RegionValue3.lean ====
/-
  What matmul region 3 leaves in its output array, read at an entry, at the exact extended reals. The region runs
  the matmul kernel over 5 grid points; point t loads rows 10000·t … 10000·t + 9999 of the left array x ([50000, 256]) and
  the whole weight matrix W ([256, 128]), and writes back rows 10000·t … 10000·t + 9999 of the output ([50000, 128]): the
  product of the row block with W. The row blocks of the 5 points tile the output, so after the region its entry
  (p, q) is the sum over k of x (p, k) · W (k, q), with x and W the arrays' contents when the region is entered.
-/
import proofs.«163758_j78546361909451_1_alg».proof.Proof.Gen.KernelIdeal.Frame
import proofs.«163758_j78546361909451_1_alg».proof.Proof.MatmulPayload
import Idealize.ShloMosaic.Lib.Pipeline.Value

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeros3 : (![0, 0] : Fin 2 → Nat) = fun _ => 0 := funext fun a => by fin_cases a <;> rfl

/-- The left array as the region finds it, on its literal index type. -/
abbrev lhs3 (c : Dev nD) : S50000x256.Idx → EReal := V c (Pipeline.arrRef spec3 0)
/-- The weight matrix as the region finds it, on its literal index type. -/
abbrev rhs3 (c : Dev nD) : S256x128.Idx → EReal := V c (Pipeline.arrRef spec3 1)

/-- The product of a [50000, 256] array with a [256, 128] matrix, entry by entry. -/
def prod3 (A : S50000x256.Idx → EReal) (W : S256x128.Idx → EReal) : S50000x128.Idx → EReal :=
  fun i => ∑ k : Fin 256, A (ix2 (i 0 : Fin 50000) k) * W (ix2 k (i 1 : Fin 128))

theorem prod3_apply (A : S50000x256.Idx → EReal) (W : S256x128.Idx → EReal) (p : Fin 50000) (q : Fin 128) :
    prod3 A W (ix2 p q) = ∑ k : Fin 256, A (ix2 p k) * W (ix2 k q) := rfl

/-- The stored block at (p, q) is the product's entry at array index i, when row p of the loaded left block is row
    (i 0) of the left array and column q of the loaded matrix is column (i 1) of the weight matrix. -/
theorem pay3_eq_prod (A : S50000x256.Idx → EReal) (W : S256x128.Idx → EReal)
    (x0 : Vec Ideal S10000x256 .f32) (x1 : Vec Ideal S256x128 .f32) (p : Fin 10000) (q : Fin 128) (i : S50000x128.Idx)
    (h0 : ∀ k : Fin 256, x0 (ix2 p k) = A (ix2 (i 0 : Fin 50000) k))
    (h1 : ∀ k : Fin 256, x1 (ix2 k q) = W (ix2 k (i 1 : Fin 128))) :
    k3_pay1 (F := Ideal) x0 x1 (ix2 p q) = prod3 A W i := by
  rw [pay3_apply]
  unfold prod3
  exact Finset.sum_congr rfl fun k _ => by rw [h0 k, h1 k]

/-- The body's one store covers the output block: what it leaves there is the stored value. -/
theorem out3_eq_pay (x0 : Vec Ideal S10000x256 .f32) (x1 : Vec Ideal S256x128 .f32) :
    out3_2 (F := Ideal) x0 x1 = k3_pay1 (F := Ideal) x0 x1 := by
  unfold out3_2
  rw [View.canon_unit_zero zeros3]
  simp only [View.ld_unit_zero (S := S10000x256) zeros3, View.ld_unit_zero (S := S256x128) zeros3]

/-- The printed index maps, decided over the grid: point t's left block and output block are row block t, the
    weight matrix is block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Point t's left block at (p, k) is the left array at row 10000·t + p. -/
theorem iblk3_0_apply (c : Dev nD) (t : Fin cfg3.N) (p : Fin 10000) (k : Fin 256) (i0 : Fin 50000)
    (h : i0.val = t.val * 10000 + p.val) :
    (iblk3 V c 0 t : Vec Ideal S10000x256 .f32) (ix2 p k) = lhs3 V c (ix2 i0 k) := by
  obtain ⟨e0, e1, -, -, -, -⟩ := idx_facts3 t
  unfold iblk3
  rw [View.read_apply]
  refine congrArg (lhs3 V c) ?_
  funext a; apply Fin.ext
  match a with
  | ⟨0, _⟩ => show win3_0.index t (0 : Fin 2) * 10000 + 1 * p.val = i0.val; omega
  | ⟨1, _⟩ => show win3_0.index t (1 : Fin 2) * 256 + 1 * k.val = k.val; omega

/-- Point t's weight block is the whole weight matrix. -/
theorem iblk3_1_apply (c : Dev nD) (t : Fin cfg3.N) (k : Fin 256) (q : Fin 128) :
    (iblk3 V c 1 t : Vec Ideal S256x128 .f32) (ix2 k q) = rhs3 V c (ix2 k q) := by
  obtain ⟨-, -, e2, e3, -, -⟩ := idx_facts3 t
  unfold iblk3
  rw [View.read_apply]
  refine congrArg (rhs3 V c) ?_
  funext a; apply Fin.ext
  match a with
  | ⟨0, _⟩ => show win3_1.index t (0 : Fin 2) * 256 + 1 * k.val = k.val; omega
  | ⟨1, _⟩ => show win3_1.index t (1 : Fin 2) * 128 + 1 * q.val = q.val; omega

/-- What point t writes back is block t of the product of the arrays as the region finds them. -/
theorem flushed3_eq (c : Dev nD) (t : Fin cfg3.N) :
    (dat3 (F := Ideal) V c).flushed 2 t
      = ((cfg3.win 2).blk t).view.read (Elt Ideal) (prod3 (lhs3 V c) (rhs3 V c)) := by
  show (cfg3.win 2).cut (grid3.coords t) ((dat3 V c).after 2 t) = _
  rw [after3_2, out3_eq_pay]
  obtain ⟨-, -, -, -, e4, e5⟩ := idx_facts3 t
  funext j
  obtain ⟨p, q, rfl⟩ : ∃ (p : Fin 10000) (q : Fin 128), j = ix2 p q := ⟨j 0, j 1, eq_ix2 j⟩
  show k3_pay1 (F := Ideal) (iblk3 V c 0 t) (iblk3 V c 1 t) (ix2 p q)
    = prod3 (lhs3 V c) (rhs3 V c) (((cfg3.win 2).blk t).view.emb (ix2 p q))
  refine pay3_eq_prod (lhs3 V c) (rhs3 V c) (iblk3 V c 0 t) (iblk3 V c 1 t)
    p q (((cfg3.win 2).blk t).view.emb (ix2 p q)) (fun k => ?_) (fun k => ?_)
  · refine iblk3_0_apply V c t p k _ ?_
    show win3_2.index t (0 : Fin 2) * 10000 + 1 * p.val = t.val * 10000 + p.val
    omega
  · refine (iblk3_1_apply V c t k q).trans (congrArg (rhs3 V c) ?_)
    funext a; apply Fin.ext
    match a with
    | ⟨0, _⟩ => rfl
    | ⟨1, _⟩ => show q.val = win3_2.index t (1 : Fin 2) * 128 + 1 * q.val; omega

/-- An index of the output array is in point t's block iff each coordinate is in the block's range on its axis. -/
theorem mem_blk3 (t : Fin cfg3.N) (i : S50000x128.Idx) :
    i ∈ ((cfg3.win 2).blk t).view.set ↔ ∀ a : Fin 2, win3_2.index t a * S10000x128.size a ≤ (i a).val
      ∧ (i a).val < win3_2.index t a * S10000x128.size a + S10000x128.size a := by
  show i ∈ ((View.whole main_v195).slice (win3_2.rect t)).set ↔ _
  rw [View.set_slice_whole, Rect.mem_set_unit]
  exact Iff.rfl

/-- Every row block of the output is some point's. -/
theorem idx_onto3 : ∀ b : Fin 5, ∃ t : Fin cfg3.N, win3_2.index t = ![b.val, 0] :=
  (by decide +kernel : ∀ b : Fin 5, ∃ t : Fin grid3.N, win3_2.index t = ![b.val, 0])

/-- The blocks tile the output: row r is in the block of point r / 10000. -/
theorem cover3 (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := idx_onto3 ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 128 ≤ (i 1).val ∧ (i 1).val < win3_2.index t (1 : Fin 2) * 128 + 128; omega

/-- The output array after the region is the product of the two input arrays as the region finds them. -/
theorem region3_array (c : Dev nD) :
    (dat3 (F := Ideal) V c).arrAt 2 cfg3.N = prod3 (lhs3 V c) (rhs3 V c) :=
  (dat3 (F := Ideal) V c).arrAt_eq_of_cover 2 (prod3 (lhs3 V c) (rhs3 V c))
    (fun t _ => flushed3_eq V c t) cover3

/-- The output array after the region, at entry (p, q): the sum over k of x (p, k) · W (k, q). -/
theorem region3_entry (c : Dev nD) (p : Fin 50000) (q : Fin 128) :
    (dat3 (F := Ideal) V c).arrAt 2 cfg3.N (ix2 p q)
      = ∑ k : Fin 256, lhs3 V c (ix2 p k) * rhs3 V c (ix2 k q) := by
  rw [region3_array]
  rfl

end Cert.KernelIdeal.RegionValue

end
-- ==== Proof.RegionValue.lean ====
/-
  The four matmul regions' output arrays read at an entry (one module per region), gathered.
-/
import proofs.«163758_j78546361909451_1_alg».proof.Proof.RegionValue0
import proofs.«163758_j78546361909451_1_alg».proof.Proof.RegionValue1
import proofs.«163758_j78546361909451_1_alg».proof.Proof.RegionValue2
import proofs.«163758_j78546361909451_1_alg».proof.Proof.RegionValue3
-- ==== Proof.KValue.lean ====
/-
  The idealized kernel's result is the model's. The program alternates stretches of host operations with four
  matrix-product regions. Level by level: the first stretch computes the edge list's rows, the degree scalings and
  the normalised input; each region leaves in its output array the product of its two input arrays; each stretch
  after a region computes the model's next stage from the product, from the values the first stretch computed
  (carried unchanged to where they are read) and from the arguments. Composing the levels gives the model applied to
  the arguments as launched.
-/
import proofs.«163758_j78546361909451_1_alg».proof.Proof.Gen.KernelIdeal.Frame
import proofs.«163758_j78546361909451_1_alg».proof.Proof.Spec
import proofs.«163758_j78546361909451_1_alg».proof.Proof.KStages
import proofs.«163758_j78546361909451_1_alg».proof.Proof.KKeep
import proofs.«163758_j78546361909451_1_alg».proof.Proof.RegionValue

noncomputable section

namespace Cert.KernelIdeal.KValue

open Cert.KernelIdeal Cert.KernelIdeal.Gen Cert.KernelIdeal.Spec Cert.KernelIdeal.KKeep Cert.KernelIdeal.RegionValue
open Idealize.ShloMosaic Idealize.ShloMosaic.TcCoe Idealize.SL.Sem

variable (m : (ℓ : Loc nD τ sig) → Buf (Elt Ideal) ℓ) (ρ : Dev nD → PrngReg) (c : Dev nD)

/-! ## The model's features after each layer, from the arguments as launched -/

/-- The features after the first layer. -/
def X1 : FA S50000x256 := x1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
/-- The features after the second layer. -/
def X2 : FA S50000x256 := next (X1 m c) (m ((c : Thread nD τ).loc main_arg1)) (m ((c : Thread nD τ).loc main_arg9)) (m ((c : Thread nD τ).loc main_arg10)) (m ((c : Thread nD τ).loc main_arg11)) (m ((c : Thread nD τ).loc main_arg12))
/-- The features after the third layer. -/
def X3 : FA S50000x256 := next (X2 m c) (m ((c : Thread nD τ).loc main_arg1)) (m ((c : Thread nD τ).loc main_arg13)) (m ((c : Thread nD τ).loc main_arg14)) (m ((c : Thread nD τ).loc main_arg15)) (m ((c : Thread nD τ).loc main_arg16))

/-- A region's product of its two input arrays is the model's matrix product. -/
theorem prod0_eq_mm (A : FA S50000x256) (W : FA S256x256) : prod0 A W = mm A W := rfl
theorem prod1_eq_mm (A : FA S50000x256) (W : FA S256x256) : prod1 A W = mm A W := rfl
theorem prod2_eq_mm (A : FA S50000x256) (W : FA S256x256) : prod2 A W = mm A W := rfl
theorem prod3_eq_mm1 (A : FA S50000x256) (W : FA S256x128) : prod3 A W = mm1 A W := rfl

/-! ## Before the first region -/

theorem w1_v1 : W1 m ρ c (Proc.devRef .tc main_v1) = srcIdx (m ((c : Thread nD τ).loc main_arg1)) := KStages.pre_src (W0 m ρ c)
theorem w1_v3 : W1 m ρ c (Proc.devRef .tc main_v3) = dstIdx (m ((c : Thread nD τ).loc main_arg1)) := KStages.pre_dst (W0 m ρ c)
theorem w1_v25 : W1 m ρ c (Proc.devRef .tc main_v25) = edgeScale (srcIdx (m ((c : Thread nD τ).loc main_arg1))) (dstIdx (m ((c : Thread nD τ).loc main_arg1))) := KStages.pre_es (W0 m ρ c)
theorem w1_v26 : W1 m ρ c (Proc.devRef .tc main_v26) = selfScale (dstIdx (m ((c : Thread nD τ).loc main_arg1))) := KStages.pre_ss (W0 m ρ c)
theorem w1_v51 : W1 m ρ c (Proc.devRef .tc main_v51) = x0 (m ((c : Thread nD τ).loc main_arg0)) (m ((c : Thread nD τ).loc main_arg3)) (m ((c : Thread nD τ).loc main_arg4)) := KStages.pre_x (W0 m ρ c)

/-! ## The first region and the first layer -/

theorem w2_v52 : W2 m ρ c (Proc.devRef .tc main_v52) = mm (x0 (m ((c : Thread nD τ).loc main_arg0)) (m ((c : Thread nD τ).loc main_arg3)) (m ((c : Thread nD τ).loc main_arg4))) (m ((c : Thread nD τ).loc main_arg5)) := by
  refine (W2_arr m ρ c 2).trans ?_
  rw [region0_array (V1 m ρ) c]
  show prod0 (W1 m ρ c (Proc.devRef .tc main_v51)) (W1 m ρ c (Proc.devRef .tc main_arg5)) = _
  rw [w1_v51, keep_arg5_1]
  exact prod0_eq_mm _ _

theorem w2_v1 : W2 m ρ c (Proc.devRef .tc main_v1) = srcIdx (m ((c : Thread nD τ).loc main_arg1)) := (keep_v1_2 m ρ c).trans (w1_v1 m ρ c)
theorem w2_v3 : W2 m ρ c (Proc.devRef .tc main_v3) = dstIdx (m ((c : Thread nD τ).loc main_arg1)) := (keep_v3_2 m ρ c).trans (w1_v3 m ρ c)
theorem w2_v25 : W2 m ρ c (Proc.devRef .tc main_v25) = edgeScale (srcIdx (m ((c : Thread nD τ).loc main_arg1))) (dstIdx (m ((c : Thread nD τ).loc main_arg1))) := (keep_v25_2 m ρ c).trans (w1_v25 m ρ c)
theorem w2_v26 : W2 m ρ c (Proc.devRef .tc main_v26) = selfScale (dstIdx (m ((c : Thread nD τ).loc main_arg1))) := (keep_v26_2 m ρ c).trans (w1_v26 m ρ c)

theorem w3_v72 : W3 m ρ c (Proc.devRef .tc main_v72) = gcnPost (mm (x0 (m ((c : Thread nD τ).loc main_arg0)) (m ((c : Thread nD τ).loc main_arg3)) (m ((c : Thread nD τ).loc main_arg4))) (m ((c : Thread nD τ).loc main_arg5))) (srcIdx (m ((c : Thread nD τ).loc main_arg1))) (dstIdx (m ((c : Thread nD τ).loc main_arg1))) (edgeScale (srcIdx (m ((c : Thread nD τ).loc main_arg1))) (dstIdx (m ((c : Thread nD τ).loc main_arg1)))) (selfScale (dstIdx (m ((c : Thread nD τ).loc main_arg1)))) (m ((c : Thread nD τ).loc main_arg6)) := by
  refine (KStages.conv1 (W2 m ρ c)).trans ?_
  rw [w2_v52, w2_v1, w2_v3, w2_v25, w2_v26, keep_arg6_2]

theorem w4_v73 : W4 m ρ c (Proc.devRef .tc main_v73) = relu (gcnPost (mm (x0 (m ((c : Thread nD τ).loc main_arg0)) (m ((c : Thread nD τ).loc main_arg3)) (m ((c : Thread nD τ).loc main_arg4))) (m ((c : Thread nD τ).loc main_arg5))) (srcIdx (m ((c : Thread nD τ).loc main_arg1))) (dstIdx (m ((c : Thread nD τ).loc main_arg1))) (edgeScale (srcIdx (m ((c : Thread nD τ).loc main_arg1))) (dstIdx (m ((c : Thread nD τ).loc main_arg1)))) (selfScale (dstIdx (m ((c : Thread nD τ).loc main_arg1)))) (m ((c : Thread nD τ).loc main_arg6))) := by
  refine (KStages.relu1 (W3 m ρ c)).trans ?_
  rw [w3_v72]

theorem w5_v98 : W5 m ρ c (Proc.devRef .tc main_v98) = X1 m c := by
  refine (KStages.norm1 (W4 m ρ c)).trans ?_
  rw [w4_v73, keep_arg7_4, keep_arg8_4]
  unfold X1 x1 layer
  rfl

/-! ## The second region and the second layer -/

theorem w6_v99 : W6 m ρ c (Proc.devRef .tc main_v99) = mm (X1 m c) (m ((c : Thread nD τ).loc main_arg9)) := by
  refine (W6_arr m ρ c 2).trans ?_
  rw [region1_array (V5 m ρ) c]
  show prod1 (W5 m ρ c (Proc.devRef .tc main_v98)) (W5 m ρ c (Proc.devRef .tc main_arg9)) = _
  rw [w5_v98, keep_arg9_5]
  exact prod1_eq_mm _ _

theorem w6_v1 : W6 m ρ c (Proc.devRef .tc main_v1) = srcIdx (m ((c : Thread nD τ).loc main_arg1)) := (keep_v1_6 m ρ c).trans (w1_v1 m ρ c)
theorem w6_v3 : W6 m ρ c (Proc.devRef .tc main_v3) = dstIdx (m ((c : Thread nD τ).loc main_arg1)) := (keep_v3_6 m ρ c).trans (w1_v3 m ρ c)
theorem w6_v25 : W6 m ρ c (Proc.devRef .tc main_v25) = edgeScale (srcIdx (m ((c : Thread nD τ).loc main_arg1))) (dstIdx (m ((c : Thread nD τ).loc main_arg1))) := (keep_v25_6 m ρ c).trans (w1_v25 m ρ c)
theorem w6_v26 : W6 m ρ c (Proc.devRef .tc main_v26) = selfScale (dstIdx (m ((c : Thread nD τ).loc main_arg1))) := (keep_v26_6 m ρ c).trans (w1_v26 m ρ c)

theorem w7_v119 : W7 m ρ c (Proc.devRef .tc main_v119) = gcnPost (mm (X1 m c) (m ((c : Thread nD τ).loc main_arg9))) (srcIdx (m ((c : Thread nD τ).loc main_arg1))) (dstIdx (m ((c : Thread nD τ).loc main_arg1))) (edgeScale (srcIdx (m ((c : Thread nD τ).loc main_arg1))) (dstIdx (m ((c : Thread nD τ).loc main_arg1)))) (selfScale (dstIdx (m ((c : Thread nD τ).loc main_arg1)))) (m ((c : Thread nD τ).loc main_arg10)) := by
  refine (KStages.conv2 (W6 m ρ c)).trans ?_
  rw [w6_v99, w6_v1, w6_v3, w6_v25, w6_v26, keep_arg10_6]

theorem w8_v120 : W8 m ρ c (Proc.devRef .tc main_v120) = relu (gcnPost (mm (X1 m c) (m ((c : Thread nD τ).loc main_arg9))) (srcIdx (m ((c : Thread nD τ).loc main_arg1))) (dstIdx (m ((c : Thread nD τ).loc main_arg1))) (edgeScale (srcIdx (m ((c : Thread nD τ).loc main_arg1))) (dstIdx (m ((c : Thread nD τ).loc main_arg1)))) (selfScale (dstIdx (m ((c : Thread nD τ).loc main_arg1)))) (m ((c : Thread nD τ).loc main_arg10))) := by
  refine (KStages.relu2 (W7 m ρ c)).trans ?_
  rw [w7_v119]

theorem w9_v146 : W9 m ρ c (Proc.devRef .tc main_v146) = X2 m c := by
  refine (KStages.norm2 (W8 m ρ c)).trans ?_
  rw [w8_v120, keep_arg11_8, keep_arg12_8, keep_v98_8, w5_v98]
  unfold X2 next layer
  rfl

/-! ## The third region and the third layer -/

theorem w10_v147 : W10 m ρ c (Proc.devRef .tc main_v147) = mm (X2 m c) (m ((c : Thread nD τ).loc main_arg13)) := by
  refine (W10_arr m ρ c 2).trans ?_
  rw [region2_array (V9 m ρ) c]
  show prod2 (W9 m ρ c (Proc.devRef .tc main_v146)) (W9 m ρ c (Proc.devRef .tc main_arg13)) = _
  rw [w9_v146, keep_arg13_9]
  exact prod2_eq_mm _ _

theorem w10_v1 : W10 m ρ c (Proc.devRef .tc main_v1) = srcIdx (m ((c : Thread nD τ).loc main_arg1)) := (keep_v1_10 m ρ c).trans (w1_v1 m ρ c)
theorem w10_v3 : W10 m ρ c (Proc.devRef .tc main_v3) = dstIdx (m ((c : Thread nD τ).loc main_arg1)) := (keep_v3_10 m ρ c).trans (w1_v3 m ρ c)
theorem w10_v25 : W10 m ρ c (Proc.devRef .tc main_v25) = edgeScale (srcIdx (m ((c : Thread nD τ).loc main_arg1))) (dstIdx (m ((c : Thread nD τ).loc main_arg1))) := (keep_v25_10 m ρ c).trans (w1_v25 m ρ c)
theorem w10_v26 : W10 m ρ c (Proc.devRef .tc main_v26) = selfScale (dstIdx (m ((c : Thread nD τ).loc main_arg1))) := (keep_v26_10 m ρ c).trans (w1_v26 m ρ c)

theorem w11_v167 : W11 m ρ c (Proc.devRef .tc main_v167) = gcnPost (mm (X2 m c) (m ((c : Thread nD τ).loc main_arg13))) (srcIdx (m ((c : Thread nD τ).loc main_arg1))) (dstIdx (m ((c : Thread nD τ).loc main_arg1))) (edgeScale (srcIdx (m ((c : Thread nD τ).loc main_arg1))) (dstIdx (m ((c : Thread nD τ).loc main_arg1)))) (selfScale (dstIdx (m ((c : Thread nD τ).loc main_arg1)))) (m ((c : Thread nD τ).loc main_arg14)) := by
  refine (KStages.conv3 (W10 m ρ c)).trans ?_
  rw [w10_v147, w10_v1, w10_v3, w10_v25, w10_v26, keep_arg14_10]

theorem w12_v168 : W12 m ρ c (Proc.devRef .tc main_v168) = relu (gcnPost (mm (X2 m c) (m ((c : Thread nD τ).loc main_arg13))) (srcIdx (m ((c : Thread nD τ).loc main_arg1))) (dstIdx (m ((c : Thread nD τ).loc main_arg1))) (edgeScale (srcIdx (m ((c : Thread nD τ).loc main_arg1))) (dstIdx (m ((c : Thread nD τ).loc main_arg1)))) (selfScale (dstIdx (m ((c : Thread nD τ).loc main_arg1)))) (m ((c : Thread nD τ).loc main_arg14))) := by
  refine (KStages.relu3 (W11 m ρ c)).trans ?_
  rw [w11_v167]

theorem w13_v194 : W13 m ρ c (Proc.devRef .tc main_v194) = X3 m c := by
  refine (KStages.norm3 (W12 m ρ c)).trans ?_
  rw [w12_v168, keep_arg15_12, keep_arg16_12, keep_v146_12, w9_v146]
  unfold X3 next layer
  rfl

/-! ## The last region, the attention head, the pooling and the read-out -/

theorem w14_v195 : W14 m ρ c (Proc.devRef .tc main_v195) = mm1 (X3 m c) (m ((c : Thread nD τ).loc main_arg17)) := by
  refine (W14_arr m ρ c 2).trans ?_
  rw [region3_array (V13 m ρ) c]
  show prod3 (W13 m ρ c (Proc.devRef .tc main_v194)) (W13 m ρ c (Proc.devRef .tc main_arg17)) = _
  rw [w13_v194, keep_arg17_13]
  exact prod3_eq_mm1 _ _

theorem w16_v199 : W16 m ρ c (Proc.devRef .tc main_v199) = leaky (addf (mm1 (X3 m c) (m ((c : Thread nD τ).loc main_arg17))) (rows128 (m ((c : Thread nD τ).loc main_arg18)))) := by
  refine (KStages.act (W14 m ρ c)).trans ?_
  rw [w14_v195, keep_arg18_14]

theorem w16_v194 : W16 m ρ c (Proc.devRef .tc main_v194) = X3 m c := (keep_v194_16 m ρ c).trans (w13_v194 m ρ c)

/-- The idealized kernel's result buffer after the whole program is the model of the arguments as launched. -/
theorem kernel_value : W17 (F := Ideal) m ρ c (Proc.devRef .tc main_v232)
    = Spec.model (m ((c : Thread nD τ).loc main_arg0))
        (m ((c : Thread nD τ).loc main_arg1))
        (m ((c : Thread nD τ).loc main_arg2))
        (m ((c : Thread nD τ).loc main_arg3))
        (m ((c : Thread nD τ).loc main_arg4))
        (m ((c : Thread nD τ).loc main_arg5))
        (m ((c : Thread nD τ).loc main_arg6))
        (m ((c : Thread nD τ).loc main_arg7))
        (m ((c : Thread nD τ).loc main_arg8))
        (m ((c : Thread nD τ).loc main_arg9))
        (m ((c : Thread nD τ).loc main_arg10))
        (m ((c : Thread nD τ).loc main_arg11))
        (m ((c : Thread nD τ).loc main_arg12))
        (m ((c : Thread nD τ).loc main_arg13))
        (m ((c : Thread nD τ).loc main_arg14))
        (m ((c : Thread nD τ).loc main_arg15))
        (m ((c : Thread nD τ).loc main_arg16))
        (m ((c : Thread nD τ).loc main_arg17))
        (m ((c : Thread nD τ).loc main_arg18))
        (m ((c : Thread nD τ).loc main_arg19))
        (m ((c : Thread nD τ).loc main_arg20))
        (m ((c : Thread nD τ).loc main_arg21))
        (m ((c : Thread nD τ).loc main_arg22)) := by
  refine (KStages.out (W16 m ρ c)).trans ?_
  rw [w16_v194, w16_v199, keep_arg19_16, keep_arg20_16, keep_arg2_16, keep_arg21_16, keep_arg22_16]
  unfold model head X3 X2 X1
  rfl

end Cert.KernelIdeal.KValue

end
-- ==== Proof.RPieces.lean ====
/- The reference's line of operations cut once more, at the seams between the stages of the model: within the
   segments that hold more than one stage, each stage's operations as a list of its own — a layer's aggregation,
   its positive part, its column normalisation; the activation of the attention head — with the segment the
   concatenation of its stages, and what each stage leaves alone. -/
import proofs.«163758_j78546361909451_1_alg».proof.Proof.RefRun

set_option Elab.async false

noncomputable section

namespace Cert.ReferenceIdeal.RPieces

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- Layer 1's aggregation, second half (to the bias add that writes `main_v72`). -/
abbrev agg1b : List (HloOp τ sig (Elt F)) :=
  [ StableHlo.ternary main_v45 main_v47 main_v1 main_v48 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v48 main_v49 (broadcastInDim S800000x1 ![0] bcast_S800000_S800000x1_0 : (⟨S800000, .i32⟩ : BufTy).Contents (Elt F) → (⟨S800000x1, .i32⟩ : BufTy).Contents (Elt F)),
    StableHlo.binary main_v36 main_v49 main_v50 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_10 (constantI S_ 32 0#32),
    StableHlo.unary main_c_10 main_v51 (broadcastInDim S800000 ![] bcast_S_S800000 : (⟨S_, .i32⟩ : BufTy).Contents (Elt F) → (⟨S800000, .i32⟩ : BufTy).Contents (Elt F)),
    StableHlo.binary main_v3 main_v51 main_v52 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 50000#32),
    StableHlo.unary main_c_11 main_v53 (broadcastInDim S800000 ![] bcast_S_S800000 : (⟨S_, .i32⟩ : BufTy).Contents (Elt F) → (⟨S800000, .i32⟩ : BufTy).Contents (Elt F)),
    StableHlo.binary main_v3 main_v53 main_v54 (addi : (⟨S800000, .i32⟩ : BufTy).Contents (Elt F) → (⟨S800000, .i32⟩ : BufTy).Contents (Elt F) → (⟨S800000, .i32⟩ : BufTy).Contents (Elt F)),
    StableHlo.ternary main_v52 main_v54 main_v3 main_v55 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v55 main_v56 (broadcastInDim S800000x1 ![0] bcast_S800000_S800000x1_0 : (⟨S800000, .i32⟩ : BufTy).Contents (Elt F) → (⟨S800000x1, .i32⟩ : BufTy).Contents (Elt F)),
    StableHlo.binary main_v36 main_v56 main_v57 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v50 main_v57 main_v58 (mulf : (⟨S800000, .f32⟩ : BufTy).Contents (Elt F) → (⟨S800000, .f32⟩ : BufTy).Contents (Elt F) → (⟨S800000, .f32⟩ : BufTy).Contents (Elt F)),
    StableHlo.unary main_v58 main_v59 (broadcastInDim S800000x1 ![0] bcast_S800000_S800000x1_0 : (⟨S800000, .f32⟩ : BufTy).Contents (Elt F) → (⟨S800000x1, .f32⟩ : BufTy).Contents (Elt F)),
    StableHlo.unary main_v59 main_v60 (broadcastInDim S800000x256 ![0, 1] bcast_S800000x1_S800000x256_0_1 : (⟨S800000x1, .f32⟩ : BufTy).Contents (Elt F) → (⟨S800000x256, .f32⟩ : BufTy).Contents (Elt F)),
    StableHlo.binary main_v43 main_v60 main_v61 (mulf : (⟨S800000x256, .f32⟩ : BufTy).Contents (Elt F) → (⟨S800000x256, .f32⟩ : BufTy).Contents (Elt F) → (⟨S800000x256, .f32⟩ : BufTy).Contents (Elt F)),
    StableHlo.nullary main_cst_12 (constant S_ .f32 0x00000000#32),
    StableHlo.unary main_cst_12 main_v62 (broadcastInDim S50000x256 ![] bcast_S_S50000x256 : (⟨S_, .f32⟩ : BufTy).Contents (Elt F) → (⟨S50000x256, .f32⟩ : BufTy).Contents (Elt F)),
    StableHlo.unary main_v3 main_v63 (broadcastInDim S800000x1 ![0] bcast_S800000_S800000x1_0 : (⟨S800000, .i32⟩ : BufTy).Contents (Elt F) → (⟨S800000x1, .i32⟩ : BufTy).Contents (Elt F)),
    StableHlo.ternary main_v62 main_v63 main_v61 main_v64 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v36 main_v36 main_v65 (mulf : (⟨S50000, .f32⟩ : BufTy).Contents (Elt F) → (⟨S50000, .f32⟩ : BufTy).Contents (Elt F) → (⟨S50000, .f32⟩ : BufTy).Contents (Elt F)),
    StableHlo.unary main_v65 main_v66 (broadcastInDim S50000x1 ![0] bcast_S50000_S50000x1_0 : (⟨S50000, .f32⟩ : BufTy).Contents (Elt F) → (⟨S50000x1, .f32⟩ : BufTy).Contents (Elt F)),
    StableHlo.unary main_v66 main_v67 (broadcastInDim S50000x256 ![0, 1] bcast_S50000x1_S50000x256_0_1 : (⟨S50000x1, .f32⟩ : BufTy).Contents (Elt F) → (⟨S50000x256, .f32⟩ : BufTy).Contents (Elt F)),
    StableHlo.binary main_v29 main_v67 main_v68 (mulf : (⟨S50000x256, .f32⟩ : BufTy).Contents (Elt F) → (⟨S50000x256, .f32⟩ : BufTy).Contents (Elt F) → (⟨S50000x256, .f32⟩ : BufTy).Contents (Elt F)),
    StableHlo.binary main_v64 main_v68 main_v69 (addf : (⟨S50000x256, .f32⟩ : BufTy).Contents (Elt F) → (⟨S50000x256, .f32⟩ : BufTy).Contents (Elt F) → (⟨S50000x256, .f32⟩ : BufTy).Contents (Elt F)),
    StableHlo.unary main_arg6 main_v70 (broadcastInDim S1x256 ![1] bcast_S256_S1x256_1 : (⟨S256, .f32⟩ : BufTy).Contents (Elt F) → (⟨S1x256, .f32⟩ : BufTy).Contents (Elt F)),
    StableHlo.unary main_v70 main_v71 (broadcastInDim S50000x256 ![0, 1] bcast_S1x256_S50000x256_0_1 : (⟨S1x256, .f32⟩ : BufTy).Contents (Elt F) → (⟨S50000x256, .f32⟩ : BufTy).Contents (Elt F)),
    StableHlo.binary main_v69 main_v71 main_v72 (addf : (⟨S50000x256, .f32⟩ : BufTy).Contents (Elt F) → (⟨S50000x256, .f32⟩ : BufTy).Contents (Elt F) → (⟨S50000x256, .f32⟩ : BufTy).Contents (Elt F)) ]

/-- Layer 1's positive part: the three operations of the first @relu call (writes `main_v73`). -/
abbrev relu1 : List (HloOp τ sig (Elt F)) :=
  [ StableHlo.TRef.nullary main_call0.cst (constant S_ .f32 0x00000000#32),
    StableHlo.TRef.unary main_call0.cst main_call0.v0 (broadcastInDim S50000x256 ![] bcast_S_S50000x256),
    StableHlo.TRef.binary (.of main_v72 : StableHlo.TRef sig ⟨S50000x256, .f32⟩) main_call0.v0 main_call0.v1 maximumf ]

/-- Layer 1's column normalisation (writes `main_v98`). -/
abbrev norm1 : List (HloOp τ sig (Elt F)) :=
  [ StableHlo.nullary main_cst_13 (constant S_ .f32 0x00000000#32),
    StableHlo.binary main_v73 main_cst_13 main_v74 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_14 (constant S_ .f32 0x47435000#32),
    StableHlo.unary main_cst_14 main_v75 (broadcastInDim S256 ![] bcast_S_S256 : (⟨S_, .f32⟩ : BufTy).Contents (Elt F) → (⟨S256, .f32⟩ : BufTy).Contents (Elt F)),
    StableHlo.binary main_v74 main_v75 main_v76 (Host.divf : (⟨S256, .f32⟩ : BufTy).Contents (Elt F) → (⟨S256, .f32⟩ : BufTy).Contents (Elt F) → (⟨S256, .f32⟩ : BufTy).Contents (Elt F)),
    StableHlo.unary main_v76 main_v77 (broadcastInDim S1x256 ![1] bcast_S256_S1x256_1 : (⟨S256, .f32⟩ : BufTy).Contents (Elt F) → (⟨S1x256, .f32⟩ : BufTy).Contents (Elt F)),
    StableHlo.unary main_v77 main_v78 (broadcastInDim S50000x256 ![0, 1] bcast_S1x256_S50000x256_0_1 : (⟨S1x256, .f32⟩ : BufTy).Contents (Elt F) → (⟨S50000x256, .f32⟩ : BufTy).Contents (Elt F)),
    StableHlo.binary main_v73 main_v78 main_v79 (subf : (⟨S50000x256, .f32⟩ : BufTy).Contents (Elt F) → (⟨S50000x256, .f32⟩ : BufTy).Contents (Elt F) → (⟨S50000x256, .f32⟩ : BufTy).Contents (Elt F)),
    StableHlo.binary main_v79 main_v79 main_v80 (mulf : (⟨S50000x256, .f32⟩ : BufTy).Contents (Elt F) → (⟨S50000x256, .f32⟩ : BufTy).Contents (Elt F) → (⟨S50000x256, .f32⟩ : BufTy).Contents (Elt F)),
    StableHlo.nullary main_cst_15 (constant S_ .f32 0x00000000#32),
    StableHlo.binary main_v80 main_cst_15 main_v81 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_16 (constant S_ .f32 0x47435000#32),
    StableHlo.unary main_cst_16 main_v82 (broadcastInDim S256 ![] bcast_S_S256 : (⟨S_, .f32⟩ : BufTy).Contents (Elt F) → (⟨S256, .f32⟩ : BufTy).Contents (Elt F)),
    StableHlo.binary main_v81 main_v82 main_v83 (Host.divf : (⟨S256, .f32⟩ : BufTy).Contents (Elt F) → (⟨S256, .f32⟩ : BufTy).Contents (Elt F) → (⟨S256, .f32⟩ : BufTy).Contents (Elt F)),
    StableHlo.unary main_v76 main_v84 (broadcastInDim S1x256 ![1] bcast_S256_S1x256_1 : (⟨S256, .f32⟩ : BufTy).Contents (Elt F) → (⟨S1x256, .f32⟩ : BufTy).Contents (Elt F)),
    StableHlo.unary main_v84 main_v85 (broadcastInDim S50000x256 ![0, 1] bcast_S1x256_S50000x256_0_1 : (⟨S1x256, .f32⟩ : BufTy).Contents (Elt F) → (⟨S50000x256, .f32⟩ : BufTy).Contents (Elt F)),
    StableHlo.binary main_v73 main_v85 main_v86 (subf : (⟨S50000x256, .f32⟩ : BufTy).Contents (Elt F) → (⟨S50000x256, .f32⟩ : BufTy).Contents (Elt F) → (⟨S50000x256, .f32⟩ : BufTy).Contents (Elt F)),
    StableHlo.nullary main_cst_17 (constant S_ .f32 0x3727C5AC#32),
    StableHlo.unary main_cst_17 main_v87 (broadcastInDim S256 ![] bcast_S_S256 : (⟨S_, .f32⟩ : BufTy).Contents (Elt F) → (⟨S256, .f32⟩ : BufTy).Contents (Elt F)),
    StableHlo.binary main_v83 main_v87 main_v88 (addf : (⟨S256, .f32⟩ : BufTy).Contents (Elt F) → (⟨S256, .f32⟩ : BufTy).Contents (Elt F) → (⟨S256, .f32⟩ : BufTy).Contents (Elt F)),
    StableHlo.unary main_v88 main_v89 (Host.rsqrt : (⟨S256, .f32⟩ : BufTy).Contents (Elt F) → (⟨S256, .f32⟩ : BufTy).Contents (Elt F)),
    StableHlo.unary main_v89 main_v90 (broadcastInDim S1x256 ![1] bcast_S256_S1x256_1 : (⟨S256, .f32⟩ : BufTy).Contents (Elt F) → (⟨S1x256, .f32⟩ : BufTy).Contents (Elt F)),
    StableHlo.unary main_v90 main_v91 (broadcastInDim S50000x256 ![0, 1] bcast_S1x256_S50000x256_0_1 : (⟨S1x256, .f32⟩ : BufTy).Contents (Elt F) → (⟨S50000x256, .f32⟩ : BufTy).Contents (Elt F)),
    StableHlo.binary main_v86 main_v91 main_v92 (mulf : (⟨S50000x256, .f32⟩ : BufTy).Contents (Elt F) → (⟨S50000x256, .f32⟩ : BufTy).Contents (Elt F) → (⟨S50000x256, .f32⟩ : BufTy).Contents (Elt F)),
    StableHlo.unary main_arg7 main_v93 (broadcastInDim S1x256 ![1] bcast_S256_S1x256_1 : (⟨S256, .f32⟩ : BufTy).Contents (Elt F) → (⟨S1x256, .f32⟩ : BufTy).Contents (Elt F)),
    StableHlo.unary main_v93 main_v94 (broadcastInDim S50000x256 ![0, 1] bcast_S1x256_S50000x256_0_1 : (⟨S1x256, .f32⟩ : BufTy).Contents (Elt F) → (⟨S50000x256, .f32⟩ : BufTy).Contents (Elt F)),
    StableHlo.binary main_v92 main_v94 main_v95 (mulf : (⟨S50000x256, .f32⟩ : BufTy).Contents (Elt F) → (⟨S50000x256, .f32⟩ : BufTy).Contents (Elt F) → (⟨S50000x256, .f32⟩ : BufTy).Contents (Elt F)),
    StableHlo.unary main_arg8 main_v96 (broadcastInDim S1x256 ![1] bcast_S256_S1x256_1 : (⟨S256, .f32⟩ : BufTy).Contents (Elt F) → (⟨S1x256, .f32⟩ : BufTy).Contents (Elt F)),
    StableHlo.unary main_v96 main_v97 (broadcastInDim S50000x256 ![0, 1] bcast_S1x256_S50000x256_0_1 : (⟨S1x256, .f32⟩ : BufTy).Contents (Elt F) → (⟨S50000x256, .f32⟩ : BufTy).Contents (Elt F)),
    StableHlo.binary main_v95 main_v97 main_v98 (addf : (⟨S50000x256, .f32⟩ : BufTy).Contents (Elt F) → (⟨S50000x256, .f32⟩ : BufTy).Contents (Elt F) → (⟨S50000x256, .f32⟩ : BufTy).Contents (Elt F)) ]

/-- Layer 2's aggregation with its degree normalisation (writes `main_v142`). -/
abbrev agg2 : List (HloOp τ sig (Elt F)) :=
  [ StableHlo.nullary main_cst_18 (constant S_ .f32 0x3F800000#32),
    StableHlo.unary main_cst_18 main_v100 (broadcastInDim S800000 ![] bcast_S_S800000 : (⟨S_, .f32⟩ : BufTy).Contents (Elt F) → (⟨S800000, .f32⟩ : BufTy).Contents (Elt F)),
    StableHlo.nullary main_cst_19 (constant S_ .f32 0x00000000#32),
    StableHlo.unary main_cst_19 main_v101 (broadcastInDim S50000 ![] bcast_S_S50000 : (⟨S_, .f32⟩ : BufTy).Contents (Elt F) → (⟨S50000, .f32⟩ : BufTy).Contents (Elt F)),
    StableHlo.unary main_v3 main_v102 (broadcastInDim S800000x1 ![0] bcast_S800000_S800000x1_0 : (⟨S800000, .i32⟩ : BufTy).Contents (Elt F) → (⟨S800000x1, .i32⟩ : BufTy).Contents (Elt F)),
    StableHlo.ternary main_v101 main_v102 main_v100 main_v103 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_20 (constant S_ .f32 0x3F800000#32),
    StableHlo.unary main_cst_20 main_v104 (broadcastInDim S50000 ![] bcast_S_S50000 : (⟨S_, .f32⟩ : BufTy).Contents (Elt F) → (⟨S50000, .f32⟩ : BufTy).Contents (Elt F)),
    StableHlo.binary main_v103 main_v104 main_v105 (addf : (⟨S50000, .f32⟩ : BufTy).Contents (Elt F) → (⟨S50000, .f32⟩ : BufTy).Contents (Elt F) → (⟨S50000, .f32⟩ : BufTy).Contents (Elt F)),
    StableHlo.unary main_v105 main_v106 (Host.rsqrt : (⟨S50000, .f32⟩ : BufTy).Contents (Elt F) → (⟨S50000, .f32⟩ : BufTy).Contents (Elt F)),
    StableHlo.nullary main_c_21 (constantI S_ 32 0#32),
    StableHlo.unary main_c_21 main_v107 (broadcastInDim S800000 ![] bcast_S_S800000 : (⟨S_, .i32⟩ : BufTy).Contents (Elt F) → (⟨S800000, .i32⟩ : BufTy).Contents (Elt F)),
    StableHlo.binary main_v1 main_v107 main_v108 (cmpi .slt : (⟨S800000, .i32⟩ : BufTy).Contents (Elt F) → (⟨S800000, .i32⟩ : BufTy).Contents (Elt F) → (⟨S800000, .i1⟩ : BufTy).Contents (Elt F)),
    StableHlo.nullary main_c_22 (constantI S_ 32 50000#32),
    StableHlo.unary main_c_22 main_v109 (broadcastInDim S800000 ![] bcast_S_S800000 : (⟨S_, .i32⟩ : BufTy).Contents (Elt F) → (⟨S800000, .i32⟩ : BufTy).Contents (Elt F)),
    StableHlo.binary main_v1 main_v109 main_v110 (addi : (⟨S800000, .i32⟩ : BufTy).Contents (Elt F) → (⟨S800000, .i32⟩ : BufTy).Contents (Elt F) → (⟨S800000, .i32⟩ : BufTy).Contents (Elt F)),
    StableHlo.ternary main_v108 main_v110 main_v1 main_v111 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v111 main_v112 (broadcastInDim S800000x1 ![0] bcast_S800000_S800000x1_0 : (⟨S800000, .i32⟩ : BufTy).Contents (Elt F) → (⟨S800000x1, .i32⟩ : BufTy).Contents (Elt F)),
    StableHlo.binary main_v99 main_v112 main_v113 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    StableHlo.nullary main_c_23 (constantI S_ 32 0#32),
    StableHlo.unary main_c_23 main_v114 (broadcastInDim S800000 ![] bcast_S_S800000 : (⟨S_, .i32⟩ : BufTy).Contents (Elt F) → (⟨S800000, .i32⟩ : BufTy).Contents (Elt F)),
    StableHlo.binary main_v1 main_v114 main_v115 (cmpi .slt : (⟨S800000, .i32⟩ : BufTy).Contents (Elt F) → (⟨S800000, .i32⟩ : BufTy).Contents (Elt F) → (⟨S800000, .i1⟩ : BufTy).Contents (Elt F)),
    StableHlo.nullary main_c_24 (constantI S_ 32 50000#32),
    StableHlo.unary main_c_24 main_v116 (broadcastInDim S800000 ![] bcast_S_S800000 : (⟨S_, .i32⟩ : BufTy).Contents (Elt F) → (⟨S800000, .i32⟩ : BufTy).Contents (Elt F)),
    StableHlo.binary main_v1 main_v116 main_v117 (addi : (⟨S800000, .i32⟩ : BufTy).Contents (Elt F) → (⟨S800000, .i32⟩ : BufTy).Contents (Elt F) → (⟨S800000, .i32⟩ : BufTy).Contents (Elt F)),
    StableHlo.ternary main_v115 main_v117 main_v1 main_v118 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v118 main_v119 (broadcastInDim S800000x1 ![0] bcast_S800000_S800000x1_0 : (⟨S800000, .i32⟩ : BufTy).Contents (Elt F) → (⟨S800000x1, .i32⟩ : BufTy).Contents (Elt F)),
    StableHlo.binary main_v106 main_v119 main_v120 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.nullary main_c_25 (constantI S_ 32 0#32),
    StableHlo.unary main_c_25 main_v121 (broadcastInDim S800000 ![] bcast_S_S800000 : (⟨S_, .i32⟩ : BufTy).Contents (Elt F) → (⟨S800000, .i32⟩ : BufTy).Contents (Elt F)),
    StableHlo.binary main_v3 main_v121 main_v122 (cmpi .slt : (⟨S800000, .i32⟩ : BufTy).Contents (Elt F) → (⟨S800000, .i32⟩ : BufTy).Contents (Elt F) → (⟨S800000, .i1⟩ : BufTy).Contents (Elt F)),
    StableHlo.nullary main_c_26 (constantI S_ 32 50000#32),
    StableHlo.unary main_c_26 main_v123 (broadcastInDim S800000 ![] bcast_S_S800000 : (⟨S_, .i32⟩ : BufTy).Contents (Elt F) → (⟨S800000, .i32⟩ : BufTy).Contents (Elt F)),
    StableHlo.binary main_v3 main_v123 main_v124 (addi : (⟨S800000, .i32⟩ : BufTy).Contents (Elt F) → (⟨S800000, .i32⟩ : BufTy).Contents (Elt F) → (⟨S800000, .i32⟩ : BufTy).Contents (Elt F)),
    StableHlo.ternary main_v122 main_v124 main_v3 main_v125 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v125 main_v126 (broadcastInDim S800000x1 ![0] bcast_S800000_S800000x1_0 : (⟨S800000, .i32⟩ : BufTy).Contents (Elt F) → (⟨S800000x1, .i32⟩ : BufTy).Contents (Elt F)),
    StableHlo.binary main_v106 main_v126 main_v127 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v120 main_v127 main_v128 (mulf : (⟨S800000, .f32⟩ : BufTy).Contents (Elt F) → (⟨S800000, .f32⟩ : BufTy).Contents (Elt F) → (⟨S800000, .f32⟩ : BufTy).Contents (Elt F)),
    StableHlo.unary main_v128 main_v129 (broadcastInDim S800000x1 ![0] bcast_S800000_S800000x1_0 : (⟨S800000, .f32⟩ : BufTy).Contents (Elt F) → (⟨S800000x1, .f32⟩ : BufTy).Contents (Elt F)),
    StableHlo.unary main_v129 main_v130 (broadcastInDim S800000x256 ![0, 1] bcast_S800000x1_S800000x256_0_1 : (⟨S800000x1, .f32⟩ : BufTy).Contents (Elt F) → (⟨S800000x256, .f32⟩ : BufTy).Contents (Elt F)),
    StableHlo.binary main_v113 main_v130 main_v131 (mulf : (⟨S800000x256, .f32⟩ : BufTy).Contents (Elt F) → (⟨S800000x256, .f32⟩ : BufTy).Contents (Elt F) → (⟨S800000x256, .f32⟩ : BufTy).Contents (Elt F)),
    StableHlo.nullary main_cst_27 (constant S_ .f32 0x00000000#32),
    StableHlo.unary main_cst_27 main_v132 (broadcastInDim S50000x256 ![] bcast_S_S50000x256 : (⟨S_, .f32⟩ : BufTy).Contents (Elt F) → (⟨S50000x256, .f32⟩ : BufTy).Contents (Elt F)),
    StableHlo.unary main_v3 main_v133 (broadcastInDim S800000x1 ![0] bcast_S800000_S800000x1_0 : (⟨S800000, .i32⟩ : BufTy).Contents (Elt F) → (⟨S800000x1, .i32⟩ : BufTy).Contents (Elt F)),
    StableHlo.ternary main_v132 main_v133 main_v131 main_v134 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v106 main_v106 main_v135 (mulf : (⟨S50000, .f32⟩ : BufTy).Contents (Elt F) → (⟨S50000, .f32⟩ : BufTy).Contents (Elt F) → (⟨S50000, .f32⟩ : BufTy).Contents (Elt F)),
    StableHlo.unary main_v135 main_v136 (broadcastInDim S50000x1 ![0] bcast_S50000_S50000x1_0 : (⟨S50000, .f32⟩ : BufTy).Contents (Elt F) → (⟨S50000x1, .f32⟩ : BufTy).Contents (Elt F)),
    StableHlo.unary main_v136 main_v137 (broadcastInDim S50000x256 ![0, 1] bcast_S50000x1_S50000x256_0_1 : (⟨S50000x1, .f32⟩ : BufTy).Contents (Elt F) → (⟨S50000x256, .f32⟩ : BufTy).Contents (Elt F)),
    StableHlo.binary main_v99 main_v137 main_v138 (mulf : (⟨S50000x256, .f32⟩ : BufTy).Contents (Elt F) → (⟨S50000x256, .f32⟩ : BufTy).Contents (Elt F) → (⟨S50000x256, .f32⟩ : BufTy).Contents (Elt F)),
    StableHlo.binary main_v134 main_v138 main_v139 (addf : (⟨S50000x256, .f32⟩ : BufTy).Contents (Elt F) → (⟨S50000x256, .f32⟩ : BufTy).Contents (Elt F) → (⟨S50000x256, .f32⟩ : BufTy).Contents (Elt F)),
    StableHlo.unary main_arg10 main_v140 (broadcastInDim S1x256 ![1] bcast_S256_S1x256_1 : (⟨S256, .f32⟩ : BufTy).Contents (Elt F) → (⟨S1x256, .f32⟩ : BufTy).Contents (Elt F)),
    StableHlo.unary main_v140 main_v141 (broadcastInDim S50000x256 ![0, 1] bcast_S1x256_S50000x256_0_1 : (⟨S1x256, .f32⟩ : BufTy).Contents (Elt F) → (⟨S50000x256, .f32⟩ : BufTy).Contents (Elt F)),
    StableHlo.binary main_v139 main_v141 main_v142 (addf : (⟨S50000x256, .f32⟩ : BufTy).Contents (Elt F) → (⟨S50000x256, .f32⟩ : BufTy).Contents (Elt F) → (⟨S50000x256, .f32⟩ : BufTy).Contents (Elt F)) ]

/-- Layer 2's positive part: the second @relu call (writes `main_v143`). -/
abbrev relu2 : List (HloOp τ sig (Elt F)) :=
  [ StableHlo.TRef.nullary main_call1.cst (constant S_ .f32 0x00000000#32),
    StableHlo.TRef.unary main_call1.cst main_call1.v0 (broadcastInDim S50000x256 ![] bcast_S_S50000x256),
    StableHlo.TRef.binary (.of main_v142 : StableHlo.TRef sig ⟨S50000x256, .f32⟩) main_call1.v0 main_call1.v1 maximumf ]

/-- Layer 2's column normalisation, the part before the window's end. -/
abbrev norm2a : List (HloOp τ sig (Elt F)) :=
  [ StableHlo.nullary main_cst_28 (constant S_ .f32 0x00000000#32),
    StableHlo.binary main_v143 main_cst_28 main_v144 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_29 (constant S_ .f32 0x47435000#32),
    StableHlo.unary main_cst_29 main_v145 (broadcastInDim S256 ![] bcast_S_S256 : (⟨S_, .f32⟩ : BufTy).Contents (Elt F) → (⟨S256, .f32⟩ : BufTy).Contents (Elt F)),
    StableHlo.binary main_v144 main_v145 main_v146 (Host.divf : (⟨S256, .f32⟩ : BufTy).Contents (Elt F) → (⟨S256, .f32⟩ : BufTy).Contents (Elt F) → (⟨S256, .f32⟩ : BufTy).Contents (Elt F)),
    StableHlo.unary main_v146 main_v147 (broadcastInDim S1x256 ![1] bcast_S256_S1x256_1 : (⟨S256, .f32⟩ : BufTy).Contents (Elt F) → (⟨S1x256, .f32⟩ : BufTy).Contents (Elt F)) ]

/-- Layer 3's aggregation, second half (writes `main_v213`). -/
abbrev agg3b : List (HloOp τ sig (Elt F)) :=
  [ StableHlo.ternary main_v193 main_v195 main_v3 main_v196 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v196 main_v197 (broadcastInDim S800000x1 ![0] bcast_S800000_S800000x1_0 : (⟨S800000, .i32⟩ : BufTy).Contents (Elt F) → (⟨S800000x1, .i32⟩ : BufTy).Contents (Elt F)),
    StableHlo.binary main_v177 main_v197 main_v198 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    StableHlo.binary main_v191 main_v198 main_v199 (mulf : (⟨S800000, .f32⟩ : BufTy).Contents (Elt F) → (⟨S800000, .f32⟩ : BufTy).Contents (Elt F) → (⟨S800000, .f32⟩ : BufTy).Contents (Elt F)),
    StableHlo.unary main_v199 main_v200 (broadcastInDim S800000x1 ![0] bcast_S800000_S800000x1_0 : (⟨S800000, .f32⟩ : BufTy).Contents (Elt F) → (⟨S800000x1, .f32⟩ : BufTy).Contents (Elt F)),
    StableHlo.unary main_v200 main_v201 (broadcastInDim S800000x256 ![0, 1] bcast_S800000x1_S800000x256_0_1 : (⟨S800000x1, .f32⟩ : BufTy).Contents (Elt F) → (⟨S800000x256, .f32⟩ : BufTy).Contents (Elt F)),
    StableHlo.binary main_v184 main_v201 main_v202 (mulf : (⟨S800000x256, .f32⟩ : BufTy).Contents (Elt F) → (⟨S800000x256, .f32⟩ : BufTy).Contents (Elt F) → (⟨S800000x256, .f32⟩ : BufTy).Contents (Elt F)),
    StableHlo.nullary main_cst_42 (constant S_ .f32 0x00000000#32),
    StableHlo.unary main_cst_42 main_v203 (broadcastInDim S50000x256 ![] bcast_S_S50000x256 : (⟨S_, .f32⟩ : BufTy).Contents (Elt F) → (⟨S50000x256, .f32⟩ : BufTy).Contents (Elt F)),
    StableHlo.unary main_v3 main_v204 (broadcastInDim S800000x1 ![0] bcast_S800000_S800000x1_0 : (⟨S800000, .i32⟩ : BufTy).Contents (Elt F) → (⟨S800000x1, .i32⟩ : BufTy).Contents (Elt F)),
    StableHlo.ternary main_v203 main_v204 main_v202 main_v205 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    StableHlo.binary main_v177 main_v177 main_v206 (mulf : (⟨S50000, .f32⟩ : BufTy).Contents (Elt F) → (⟨S50000, .f32⟩ : BufTy).Contents (Elt F) → (⟨S50000, .f32⟩ : BufTy).Contents (Elt F)),
    StableHlo.unary main_v206 main_v207 (broadcastInDim S50000x1 ![0] bcast_S50000_S50000x1_0 : (⟨S50000, .f32⟩ : BufTy).Contents (Elt F) → (⟨S50000x1, .f32⟩ : BufTy).Contents (Elt F)),
    StableHlo.unary main_v207 main_v208 (broadcastInDim S50000x256 ![0, 1] bcast_S50000x1_S50000x256_0_1 : (⟨S50000x1, .f32⟩ : BufTy).Contents (Elt F) → (⟨S50000x256, .f32⟩ : BufTy).Contents (Elt F)),
    StableHlo.binary main_v170 main_v208 main_v209 (mulf : (⟨S50000x256, .f32⟩ : BufTy).Contents (Elt F) → (⟨S50000x256, .f32⟩ : BufTy).Contents (Elt F) → (⟨S50000x256, .f32⟩ : BufTy).Contents (Elt F)),
    StableHlo.binary main_v205 main_v209 main_v210 (addf : (⟨S50000x256, .f32⟩ : BufTy).Contents (Elt F) → (⟨S50000x256, .f32⟩ : BufTy).Contents (Elt F) → (⟨S50000x256, .f32⟩ : BufTy).Contents (Elt F)),
    StableHlo.unary main_arg14 main_v211 (broadcastInDim S1x256 ![1] bcast_S256_S1x256_1 : (⟨S256, .f32⟩ : BufTy).Contents (Elt F) → (⟨S1x256, .f32⟩ : BufTy).Contents (Elt F)),
    StableHlo.unary main_v211 main_v212 (broadcastInDim S50000x256 ![0, 1] bcast_S1x256_S50000x256_0_1 : (⟨S1x256, .f32⟩ : BufTy).Contents (Elt F) → (⟨S50000x256, .f32⟩ : BufTy).Contents (Elt F)),
    StableHlo.binary main_v210 main_v212 main_v213 (addf : (⟨S50000x256, .f32⟩ : BufTy).Contents (Elt F) → (⟨S50000x256, .f32⟩ : BufTy).Contents (Elt F) → (⟨S50000x256, .f32⟩ : BufTy).Contents (Elt F)) ]

/-- Layer 3's positive part: the third @relu call (writes `main_v214`). -/
abbrev relu3 : List (HloOp τ sig (Elt F)) :=
  [ StableHlo.TRef.nullary main_call2.cst (constant S_ .f32 0x00000000#32),
    StableHlo.TRef.unary main_call2.cst main_call2.v0 (broadcastInDim S50000x256 ![] bcast_S_S50000x256),
    StableHlo.TRef.binary (.of main_v213 : StableHlo.TRef sig ⟨S50000x256, .f32⟩) main_call2.v0 main_call2.v1 maximumf ]

/-- Layer 3's column normalisation and skip connection (writes `main_v240`). -/
abbrev norm3 : List (HloOp τ sig (Elt F)) :=
  [ StableHlo.nullary main_cst_43 (constant S_ .f32 0x00000000#32),
    StableHlo.binary main_v214 main_cst_43 main_v215 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_44 (constant S_ .f32 0x47435000#32),
    StableHlo.unary main_cst_44 main_v216 (broadcastInDim S256 ![] bcast_S_S256 : (⟨S_, .f32⟩ : BufTy).Contents (Elt F) → (⟨S256, .f32⟩ : BufTy).Contents (Elt F)),
    StableHlo.binary main_v215 main_v216 main_v217 (Host.divf : (⟨S256, .f32⟩ : BufTy).Contents (Elt F) → (⟨S256, .f32⟩ : BufTy).Contents (Elt F) → (⟨S256, .f32⟩ : BufTy).Contents (Elt F)),
    StableHlo.unary main_v217 main_v218 (broadcastInDim S1x256 ![1] bcast_S256_S1x256_1 : (⟨S256, .f32⟩ : BufTy).Contents (Elt F) → (⟨S1x256, .f32⟩ : BufTy).Contents (Elt F)),
    StableHlo.unary main_v218 main_v219 (broadcastInDim S50000x256 ![0, 1] bcast_S1x256_S50000x256_0_1 : (⟨S1x256, .f32⟩ : BufTy).Contents (Elt F) → (⟨S50000x256, .f32⟩ : BufTy).Contents (Elt F)),
    StableHlo.binary main_v214 main_v219 main_v220 (subf : (⟨S50000x256, .f32⟩ : BufTy).Contents (Elt F) → (⟨S50000x256, .f32⟩ : BufTy).Contents (Elt F) → (⟨S50000x256, .f32⟩ : BufTy).Contents (Elt F)),
    StableHlo.binary main_v220 main_v220 main_v221 (mulf : (⟨S50000x256, .f32⟩ : BufTy).Contents (Elt F) → (⟨S50000x256, .f32⟩ : BufTy).Contents (Elt F) → (⟨S50000x256, .f32⟩ : BufTy).Contents (Elt F)),
    StableHlo.nullary main_cst_45 (constant S_ .f32 0x00000000#32),
    StableHlo.binary main_v221 main_cst_45 main_v222 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    StableHlo.nullary main_cst_46 (constant S_ .f32 0x47435000#32),
    StableHlo.unary main_cst_46 main_v223 (broadcastInDim S256 ![] bcast_S_S256 : (⟨S_, .f32⟩ : BufTy).Contents (Elt F) → (⟨S256, .f32⟩ : BufTy).Contents (Elt F)),
    StableHlo.binary main_v222 main_v223 main_v224 (Host.divf : (⟨S256, .f32⟩ : BufTy).Contents (Elt F) → (⟨S256, .f32⟩ : BufTy).Contents (Elt F) → (⟨S256, .f32⟩ : BufTy).Contents (Elt F)),
    StableHlo.unary main_v217 main_v225 (broadcastInDim S1x256 ![1] bcast_S256_S1x256_1 : (⟨S256, .f32⟩ : BufTy).Contents (Elt F) → (⟨S1x256, .f32⟩ : BufTy).Contents (Elt F)),
    StableHlo.unary main_v225 main_v226 (broadcastInDim S50000x256 ![0, 1] bcast_S1x256_S50000x256_0_1 : (⟨S1x256, .f32⟩ : BufTy).Contents (Elt F) → (⟨S50000x256, .f32⟩ : BufTy).Contents (Elt F)),
    StableHlo.binary main_v214 main_v226 main_v227 (subf : (⟨S50000x256, .f32⟩ : BufTy).Contents (Elt F) → (⟨S50000x256, .f32⟩ : BufTy).Contents (Elt F) → (⟨S50000x256, .f32⟩ : BufTy).Contents (Elt F)),
    StableHlo.nullary main_cst_47 (constant S_ .f32 0x3727C5AC#32),
    StableHlo.unary main_cst_47 main_v228 (broadcastInDim S256 ![] bcast_S_S256 : (⟨S_, .f32⟩ : BufTy).Contents (Elt F) → (⟨S256, .f32⟩ : BufTy).Contents (Elt F)),
    StableHlo.binary main_v224 main_v228 main_v229 (addf : (⟨S256, .f32⟩ : BufTy).Contents (Elt F) → (⟨S256, .f32⟩ : BufTy).Contents (Elt F) → (⟨S256, .f32⟩ : BufTy).Contents (Elt F)),
    StableHlo.unary main_v229 main_v230 (Host.rsqrt : (⟨S256, .f32⟩ : BufTy).Contents (Elt F) → (⟨S256, .f32⟩ : BufTy).Contents (Elt F)),
    StableHlo.unary main_v230 main_v231 (broadcastInDim S1x256 ![1] bcast_S256_S1x256_1 : (⟨S256, .f32⟩ : BufTy).Contents (Elt F) → (⟨S1x256, .f32⟩ : BufTy).Contents (Elt F)),
    StableHlo.unary main_v231 main_v232 (broadcastInDim S50000x256 ![0, 1] bcast_S1x256_S50000x256_0_1 : (⟨S1x256, .f32⟩ : BufTy).Contents (Elt F) → (⟨S50000x256, .f32⟩ : BufTy).Contents (Elt F)),
    StableHlo.binary main_v227 main_v232 main_v233 (mulf : (⟨S50000x256, .f32⟩ : BufTy).Contents (Elt F) → (⟨S50000x256, .f32⟩ : BufTy).Contents (Elt F) → (⟨S50000x256, .f32⟩ : BufTy).Contents (Elt F)),
    StableHlo.unary main_arg15 main_v234 (broadcastInDim S1x256 ![1] bcast_S256_S1x256_1 : (⟨S256, .f32⟩ : BufTy).Contents (Elt F) → (⟨S1x256, .f32⟩ : BufTy).Contents (Elt F)),
    StableHlo.unary main_v234 main_v235 (broadcastInDim S50000x256 ![0, 1] bcast_S1x256_S50000x256_0_1 : (⟨S1x256, .f32⟩ : BufTy).Contents (Elt F) → (⟨S50000x256, .f32⟩ : BufTy).Contents (Elt F)),
    StableHlo.binary main_v233 main_v235 main_v236 (mulf : (⟨S50000x256, .f32⟩ : BufTy).Contents (Elt F) → (⟨S50000x256, .f32⟩ : BufTy).Contents (Elt F) → (⟨S50000x256, .f32⟩ : BufTy).Contents (Elt F)),
    StableHlo.unary main_arg16 main_v237 (broadcastInDim S1x256 ![1] bcast_S256_S1x256_1 : (⟨S256, .f32⟩ : BufTy).Contents (Elt F) → (⟨S1x256, .f32⟩ : BufTy).Contents (Elt F)),
    StableHlo.unary main_v237 main_v238 (broadcastInDim S50000x256 ![0, 1] bcast_S1x256_S50000x256_0_1 : (⟨S1x256, .f32⟩ : BufTy).Contents (Elt F) → (⟨S50000x256, .f32⟩ : BufTy).Contents (Elt F)),
    StableHlo.binary main_v236 main_v238 main_v239 (addf : (⟨S50000x256, .f32⟩ : BufTy).Contents (Elt F) → (⟨S50000x256, .f32⟩ : BufTy).Contents (Elt F) → (⟨S50000x256, .f32⟩ : BufTy).Contents (Elt F)),
    StableHlo.binary main_v239 main_v169 main_v240 (addf : (⟨S50000x256, .f32⟩ : BufTy).Contents (Elt F) → (⟨S50000x256, .f32⟩ : BufTy).Contents (Elt F) → (⟨S50000x256, .f32⟩ : BufTy).Contents (Elt F)) ]

/-- The first projection's bias add and the @leaky_relu call with its nested select (writes `main_v245`). -/
abbrev act : List (HloOp τ sig (Elt F)) :=
  [ StableHlo.unary main_arg18 main_v242 (broadcastInDim S1x128 ![1] bcast_S128_S1x128_1 : (⟨S128, .f32⟩ : BufTy).Contents (Elt F) → (⟨S1x128, .f32⟩ : BufTy).Contents (Elt F)),
    StableHlo.unary main_v242 main_v243 (broadcastInDim S50000x128 ![0, 1] bcast_S1x128_S50000x128_0_1 : (⟨S1x128, .f32⟩ : BufTy).Contents (Elt F) → (⟨S50000x128, .f32⟩ : BufTy).Contents (Elt F)),
    StableHlo.binary main_v241 main_v243 main_v244 (addf : (⟨S50000x128, .f32⟩ : BufTy).Contents (Elt F) → (⟨S50000x128, .f32⟩ : BufTy).Contents (Elt F) → (⟨S50000x128, .f32⟩ : BufTy).Contents (Elt F)),
    StableHlo.nullary main_cst_48 (constant S_ .f32 0x3C23D70A#32),
    StableHlo.TRef.nullary main_call3.cst (constant S_ .f32 0x00000000#32),
    StableHlo.TRef.unary main_call3.cst main_call3.v0 (broadcastInDim S50000x128 ![] bcast_S_S50000x128),
    StableHlo.TRef.binary (.of main_v244 : StableHlo.TRef sig ⟨S50000x128, .f32⟩) main_call3.v0 main_call3.v1 (cmpf .oge),
    StableHlo.TRef.unary (.of main_cst_48 : StableHlo.TRef sig ⟨S_, .f32⟩) main_call3.v2 id,
    StableHlo.TRef.unary main_call3.v2 main_call3.v3 (broadcastInDim S50000x128 ![] bcast_S_S50000x128),
    StableHlo.TRef.binary main_call3.v3 (.of main_v244 : StableHlo.TRef sig ⟨S50000x128, .f32⟩) main_call3.v4 mulf,
    StableHlo.TRef.ternary main_call3.v1 (.of main_v244 : StableHlo.TRef sig ⟨S50000x128, .f32⟩) main_call3.v4 main_call3.call0.v0 select ]

/-- The score product and the start of its bias broadcast, to the window's end. -/
abbrev score0 : List (HloOp τ sig (Elt F)) :=
  [ StableHlo.binary main_v245 main_arg19 main_v246 ((fun l r => Host.dotGeneral dot_S50000x128_S128x1_S50000x1_1_0_0_1_n_n none l r) : (⟨S50000x128, .f32⟩ : BufTy).Contents (Elt F) → (⟨S128x1, .f32⟩ : BufTy).Contents (Elt F) → (⟨S50000x1, .f32⟩ : BufTy).Contents (Elt F)),
    StableHlo.unary main_arg20 main_v247 (broadcastInDim S1x1 ![1] bcast_S1_S1x1_1 : (⟨S1, .f32⟩ : BufTy).Contents (Elt F) → (⟨S1x1, .f32⟩ : BufTy).Contents (Elt F)),
    StableHlo.unary main_v247 main_v248 (broadcastInDim S50000x1 ![0, 1] bcast_S1x1_S50000x1_0_1 : (⟨S1x1, .f32⟩ : BufTy).Contents (Elt F) → (⟨S50000x1, .f32⟩ : BufTy).Contents (Elt F)) ]

/-! ## The segments are their stages in a row (by computation: the same operations, listed again) -/

theorem seg2_eq : (seg2 : List (HloOp τ sig (Elt F))) = agg1b ++ (relu1 ++ (norm1)) := rfl
theorem seg3_eq : (seg3 : List (HloOp τ sig (Elt F))) = agg2 ++ (relu2 ++ (norm2a)) := rfl
theorem seg6_eq : (seg6 : List (HloOp τ sig (Elt F))) = agg3b ++ (relu3 ++ (norm3)) := rfl
theorem seg7_eq : (seg7 : List (HloOp τ sig (Elt F))) = act ++ (score0) := rfl

/-! ## What each stage leaves alone -/

/-- The references `agg1b` writes, in order. -/
abbrev agg1b_writes : List (Ref sig .tc) :=
  [main_v48, main_v49, main_v50, main_c_10, main_v51, main_v52, main_c_11, main_v53, main_v54, main_v55, main_v56, main_v57, main_v58, main_v59, main_v60, main_v61, main_cst_12, main_v62, main_v63, main_v64, main_v65, main_v66, main_v67, main_v68, main_v69, main_v70, main_v71, main_v72]

/-- The references `relu1` writes, in order. -/
abbrev relu1_writes : List (Ref sig .tc) :=
  [main_call0.cst.ref, main_call0.v0.ref, main_call0.v1.ref]

/-- The references `norm1` writes, in order. -/
abbrev norm1_writes : List (Ref sig .tc) :=
  [main_cst_13, main_v74, main_cst_14, main_v75, main_v76, main_v77, main_v78, main_v79, main_v80, main_cst_15, main_v81, main_cst_16, main_v82, main_v83, main_v84, main_v85, main_v86, main_cst_17, main_v87, main_v88, main_v89, main_v90, main_v91, main_v92, main_v93, main_v94, main_v95, main_v96, main_v97, main_v98]

/-- The references `agg2` writes, in order. -/
abbrev agg2_writes : List (Ref sig .tc) :=
  [main_cst_18, main_v100, main_cst_19, main_v101, main_v102, main_v103, main_cst_20, main_v104, main_v105, main_v106, main_c_21, main_v107, main_v108, main_c_22, main_v109, main_v110, main_v111, main_v112, main_v113, main_c_23, main_v114, main_v115, main_c_24, main_v116, main_v117, main_v118, main_v119, main_v120, main_c_25, main_v121, main_v122, main_c_26, main_v123, main_v124, main_v125, main_v126, main_v127, main_v128, main_v129, main_v130, main_v131, main_cst_27, main_v132, main_v133, main_v134, main_v135, main_v136, main_v137, main_v138, main_v139, main_v140, main_v141, main_v142]

/-- The references `relu2` writes, in order. -/
abbrev relu2_writes : List (Ref sig .tc) :=
  [main_call1.cst.ref, main_call1.v0.ref, main_call1.v1.ref]

/-- The references `norm2a` writes, in order. -/
abbrev norm2a_writes : List (Ref sig .tc) :=
  [main_cst_28, main_v144, main_cst_29, main_v145, main_v146, main_v147]

/-- The references `agg3b` writes, in order. -/
abbrev agg3b_writes : List (Ref sig .tc) :=
  [main_v196, main_v197, main_v198, main_v199, main_v200, main_v201, main_v202, main_cst_42, main_v203, main_v204, main_v205, main_v206, main_v207, main_v208, main_v209, main_v210, main_v211, main_v212, main_v213]

/-- The references `relu3` writes, in order. -/
abbrev relu3_writes : List (Ref sig .tc) :=
  [main_call2.cst.ref, main_call2.v0.ref, main_call2.v1.ref]

/-- The references `norm3` writes, in order. -/
abbrev norm3_writes : List (Ref sig .tc) :=
  [main_cst_43, main_v215, main_cst_44, main_v216, main_v217, main_v218, main_v219, main_v220, main_v221, main_cst_45, main_v222, main_cst_46, main_v223, main_v224, main_v225, main_v226, main_v227, main_cst_47, main_v228, main_v229, main_v230, main_v231, main_v232, main_v233, main_v234, main_v235, main_v236, main_v237, main_v238, main_v239, main_v240]

/-- The references `act` writes, in order. -/
abbrev act_writes : List (Ref sig .tc) :=
  [main_v242, main_v243, main_v244, main_cst_48, main_call3.cst.ref, main_call3.v0.ref, main_call3.v1.ref, main_call3.v2.ref, main_call3.v3.ref, main_call3.v4.ref, main_call3.call0.v0.ref]

/-- The references `score0` writes, in order. -/
abbrev score0_writes : List (Ref sig .tc) :=
  [main_v246, main_v247, main_v248]

theorem agg1b_writes_sub : (agg1b : List (HloOp τ sig (Elt F))).Forall fun op => op.writes ⊆ (agg1b_writes.map (Proc.devRef (τ := τ) .tc)).toFinset := by
  repeat (first | exact writes_sub_nil | refine writes_sub_cons rfl ?_)
theorem agg1b_kept (V : Valuation τ sig (Elt F)) {r : Ref sig .tc} (hr : r ∉ agg1b_writes) :
    after agg1b V (Proc.devRef .tc r) = V (Proc.devRef .tc r) := after_of_writes_sub agg1b V agg1b_writes_sub hr
theorem relu1_writes_sub : (relu1 : List (HloOp τ sig (Elt F))).Forall fun op => op.writes ⊆ (relu1_writes.map (Proc.devRef (τ := τ) .tc)).toFinset := by
  repeat (first | exact writes_sub_nil | refine writes_sub_cons rfl ?_)
theorem relu1_kept (V : Valuation τ sig (Elt F)) {r : Ref sig .tc} (hr : r ∉ relu1_writes) :
    after relu1 V (Proc.devRef .tc r) = V (Proc.devRef .tc r) := after_of_writes_sub relu1 V relu1_writes_sub hr
theorem norm1_writes_sub : (norm1 : List (HloOp τ sig (Elt F))).Forall fun op => op.writes ⊆ (norm1_writes.map (Proc.devRef (τ := τ) .tc)).toFinset := by
  repeat (first | exact writes_sub_nil | refine writes_sub_cons rfl ?_)
theorem norm1_kept (V : Valuation τ sig (Elt F)) {r : Ref sig .tc} (hr : r ∉ norm1_writes) :
    after norm1 V (Proc.devRef .tc r) = V (Proc.devRef .tc r) := after_of_writes_sub norm1 V norm1_writes_sub hr
theorem agg2_writes_sub : (agg2 : List (HloOp τ sig (Elt F))).Forall fun op => op.writes ⊆ (agg2_writes.map (Proc.devRef (τ := τ) .tc)).toFinset := by
  repeat (first | exact writes_sub_nil | refine writes_sub_cons rfl ?_)
theorem agg2_kept (V : Valuation τ sig (Elt F)) {r : Ref sig .tc} (hr : r ∉ agg2_writes) :
    after agg2 V (Proc.devRef .tc r) = V (Proc.devRef .tc r) := after_of_writes_sub agg2 V agg2_writes_sub hr
theorem relu2_writes_sub : (relu2 : List (HloOp τ sig (Elt F))).Forall fun op => op.writes ⊆ (relu2_writes.map (Proc.devRef (τ := τ) .tc)).toFinset := by
  repeat (first | exact writes_sub_nil | refine writes_sub_cons rfl ?_)
theorem relu2_kept (V : Valuation τ sig (Elt F)) {r : Ref sig .tc} (hr : r ∉ relu2_writes) :
    after relu2 V (Proc.devRef .tc r) = V (Proc.devRef .tc r) := after_of_writes_sub relu2 V relu2_writes_sub hr
theorem norm2a_writes_sub : (norm2a : List (HloOp τ sig (Elt F))).Forall fun op => op.writes ⊆ (norm2a_writes.map (Proc.devRef (τ := τ) .tc)).toFinset := by
  repeat (first | exact writes_sub_nil | refine writes_sub_cons rfl ?_)
theorem norm2a_kept (V : Valuation τ sig (Elt F)) {r : Ref sig .tc} (hr : r ∉ norm2a_writes) :
    after norm2a V (Proc.devRef .tc r) = V (Proc.devRef .tc r) := after_of_writes_sub norm2a V norm2a_writes_sub hr
theorem agg3b_writes_sub : (agg3b : List (HloOp τ sig (Elt F))).Forall fun op => op.writes ⊆ (agg3b_writes.map (Proc.devRef (τ := τ) .tc)).toFinset := by
  repeat (first | exact writes_sub_nil | refine writes_sub_cons rfl ?_)
theorem agg3b_kept (V : Valuation τ sig (Elt F)) {r : Ref sig .tc} (hr : r ∉ agg3b_writes) :
    after agg3b V (Proc.devRef .tc r) = V (Proc.devRef .tc r) := after_of_writes_sub agg3b V agg3b_writes_sub hr
theorem relu3_writes_sub : (relu3 : List (HloOp τ sig (Elt F))).Forall fun op => op.writes ⊆ (relu3_writes.map (Proc.devRef (τ := τ) .tc)).toFinset := by
  repeat (first | exact writes_sub_nil | refine writes_sub_cons rfl ?_)
theorem relu3_kept (V : Valuation τ sig (Elt F)) {r : Ref sig .tc} (hr : r ∉ relu3_writes) :
    after relu3 V (Proc.devRef .tc r) = V (Proc.devRef .tc r) := after_of_writes_sub relu3 V relu3_writes_sub hr
theorem norm3_writes_sub : (norm3 : List (HloOp τ sig (Elt F))).Forall fun op => op.writes ⊆ (norm3_writes.map (Proc.devRef (τ := τ) .tc)).toFinset := by
  repeat (first | exact writes_sub_nil | refine writes_sub_cons rfl ?_)
theorem norm3_kept (V : Valuation τ sig (Elt F)) {r : Ref sig .tc} (hr : r ∉ norm3_writes) :
    after norm3 V (Proc.devRef .tc r) = V (Proc.devRef .tc r) := after_of_writes_sub norm3 V norm3_writes_sub hr
theorem act_writes_sub : (act : List (HloOp τ sig (Elt F))).Forall fun op => op.writes ⊆ (act_writes.map (Proc.devRef (τ := τ) .tc)).toFinset := by
  repeat (first | exact writes_sub_nil | refine writes_sub_cons rfl ?_)
theorem act_kept (V : Valuation τ sig (Elt F)) {r : Ref sig .tc} (hr : r ∉ act_writes) :
    after act V (Proc.devRef .tc r) = V (Proc.devRef .tc r) := after_of_writes_sub act V act_writes_sub hr
theorem score0_writes_sub : (score0 : List (HloOp τ sig (Elt F))).Forall fun op => op.writes ⊆ (score0_writes.map (Proc.devRef (τ := τ) .tc)).toFinset := by
  repeat (first | exact writes_sub_nil | refine writes_sub_cons rfl ?_)
theorem score0_kept (V : Valuation τ sig (Elt F)) {r : Ref sig .tc} (hr : r ∉ score0_writes) :
    after score0 V (Proc.devRef .tc r) = V (Proc.devRef .tc r) := after_of_writes_sub score0 V score0_writes_sub hr

end Cert.ReferenceIdeal.RPieces

end
-- ==== Proof.LibDotGeneral.lean ====
/-
  The host's rank-2 `dot_general` read at an index, at the exact extended reals: when the dimension numbers contract the
  left operand's column axis with the right operand's row axis and keep the other two axes in order, the product is, at
  row `p` and column `q`, the sum over `k` of `lhs (p, k) · rhs (k, q)`, whatever the schedule key — a sum over the
  contracted extent itself, not over the contraction's own index type.
-/
import Idealize.ShloMosaic.PureOps.Ideal.Laws
import Idealize.ShloMosaic.Lib.ValueIdx

noncomputable section

namespace Cert.LibDotGeneral

open Idealize.ShloMosaic Idealize.ShloMosaic.ValueIdx

/-- A product `[a, K] × [K, b] → [a, b]` on the host, at an output index `j`: the four coordinate facts say which operand
    entries the dimension numbers pair at the contraction index; the contraction has one axis, of extent `K`, and the sum
    is re-indexed along it. -/
theorem dotGeneral_ix2 {a K b : Nat} {φ₁ φ₂ : FTy}
    (d : DotDims ⟨2, ![a, K]⟩ ⟨2, ![K, b]⟩ ⟨2, ![a, b]⟩) (prec : Option ContractPrecision) (sched : HostSchedule)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.dotGeneral d prec sched lhs rhs j = ∑ k : Fin K, lhs (ix2 (j 0) k) * rhs (ix2 k (j 1)) := by
  rw [Ideal.dotGeneral_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibDotGeneral

end
-- ==== Proof.RefDot.lean ====
/-
  The reference's four large matrix products read at an entry, at the exact extended reals: the host's dot_general
  of a [50000, 256] array with a [256, N] matrix (N = 256 or 128), contracting the left operand's column axis with
  the right operand's row axis, is at (p, q) the sum over k of l (p, k) · r (k, q).
-/
import proofs.«163758_j78546361909451_1_alg».proof.Proof.Gen.ReferenceIdeal
import proofs.«163758_j78546361909451_1_alg».proof.Proof.LibDotGeneral
import Idealize.ShloMosaic.PureOps.Ideal.Laws
import Idealize.ShloMosaic.Lib.ValueIdx

noncomputable section

namespace Cert.ReferenceIdeal.RefDot

open Idealize.ShloMosaic Idealize.ShloMosaic.ValueIdx
open Cert.ReferenceIdeal

/-! ## [50000, 256] × [256, 256] -/

theorem contr256_rank : dot_S50000x256_S256x256_S50000x256_1_0_0_1_n_n.contr.rank = 1 := rfl
theorem contr256_size : dot_S50000x256_S256x256_S50000x256_1_0_0_1_n_n.contr.size ⟨0, by decide⟩ = 256 := rfl

theorem lhs256_0 (i : S50000x256.Idx) (q : dot_S50000x256_S256x256_S50000x256_1_0_0_1_n_n.contr.Idx) : (dot_S50000x256_S256x256_S50000x256_1_0_0_1_n_n.lhsIdx i q 0).val = (i 0).val := by
  unfold DotDims.lhsIdx
  rw [dif_neg (show ¬(0 : Fin S50000x256.rank) ∈ dot_S50000x256_S256x256_S50000x256_1_0_0_1_n_n.lhsBatch by decide),
    dif_pos (show (0 : Fin S50000x256.rank) ∈ dot_S50000x256_S256x256_S50000x256_1_0_0_1_n_n.lhsNonContracting by decide)]
  rfl
theorem lhs256_1 (i : S50000x256.Idx) (q : dot_S50000x256_S256x256_S50000x256_1_0_0_1_n_n.contr.Idx) : (dot_S50000x256_S256x256_S50000x256_1_0_0_1_n_n.lhsIdx i q 1).val = (q ⟨0, by decide⟩).val :=
  dot_S50000x256_S256x256_S50000x256_1_0_0_1_n_n.lhsIdx_val_of_single rfl i q
theorem rhs256_0 (i : S50000x256.Idx) (q : dot_S50000x256_S256x256_S50000x256_1_0_0_1_n_n.contr.Idx) : (dot_S50000x256_S256x256_S50000x256_1_0_0_1_n_n.rhsIdx i q 0).val = (q ⟨0, by decide⟩).val :=
  dot_S50000x256_S256x256_S50000x256_1_0_0_1_n_n.rhsIdx_val_of_single rfl i q
theorem rhs256_1 (i : S50000x256.Idx) (q : dot_S50000x256_S256x256_S50000x256_1_0_0_1_n_n.contr.Idx) : (dot_S50000x256_S256x256_S50000x256_1_0_0_1_n_n.rhsIdx i q 1).val = (i 1).val := by
  unfold DotDims.rhsIdx
  rw [dif_neg (show ¬(1 : Fin S256x256.rank) ∈ dot_S50000x256_S256x256_S50000x256_1_0_0_1_n_n.rhsBatch by decide),
    dif_pos (show (1 : Fin S256x256.rank) ∈ dot_S50000x256_S256x256_S50000x256_1_0_0_1_n_n.rhsNonContracting by decide)]
  rfl

/-- The host's product of a [50000, 256] array with a [256, 256] matrix, at entry (p, q): the sum over k of
    l (p, k) · r (k, q). -/
theorem dot256_apply (l : FVec Ideal S50000x256 .f32) (r : FVec Ideal S256x256 .f32) (p : Fin 50000) (q : Fin 256) :
    Host.dotGeneral (F := Ideal) dot_S50000x256_S256x256_S50000x256_1_0_0_1_n_n none l r (ix2 p q) = ∑ k : Fin 256, l (ix2 p k) * r (ix2 k q) :=
  Cert.LibDotGeneral.dotGeneral_ix2 (a := 50000) (K := 256) (b := 256) dot_S50000x256_S256x256_S50000x256_1_0_0_1_n_n none _
    contr256_rank contr256_size lhs256_0 lhs256_1 rhs256_0 rhs256_1 l r (ix2 p q)

/-! ## [50000, 256] × [256, 128] -/

theorem contr128_rank : dot_S50000x256_S256x128_S50000x128_1_0_0_1_n_n.contr.rank = 1 := rfl
theorem contr128_size : dot_S50000x256_S256x128_S50000x128_1_0_0_1_n_n.contr.size ⟨0, by decide⟩ = 256 := rfl

theorem lhs128_0 (i : S50000x128.Idx) (q : dot_S50000x256_S256x128_S50000x128_1_0_0_1_n_n.contr.Idx) : (dot_S50000x256_S256x128_S50000x128_1_0_0_1_n_n.lhsIdx i q 0).val = (i 0).val := by
  unfold DotDims.lhsIdx
  rw [dif_neg (show ¬(0 : Fin S50000x256.rank) ∈ dot_S50000x256_S256x128_S50000x128_1_0_0_1_n_n.lhsBatch by decide),
    dif_pos (show (0 : Fin S50000x256.rank) ∈ dot_S50000x256_S256x128_S50000x128_1_0_0_1_n_n.lhsNonContracting by decide)]
  rfl
theorem lhs128_1 (i : S50000x128.Idx) (q : dot_S50000x256_S256x128_S50000x128_1_0_0_1_n_n.contr.Idx) : (dot_S50000x256_S256x128_S50000x128_1_0_0_1_n_n.lhsIdx i q 1).val = (q ⟨0, by decide⟩).val :=
  dot_S50000x256_S256x128_S50000x128_1_0_0_1_n_n.lhsIdx_val_of_single rfl i q
theorem rhs128_0 (i : S50000x128.Idx) (q : dot_S50000x256_S256x128_S50000x128_1_0_0_1_n_n.contr.Idx) : (dot_S50000x256_S256x128_S50000x128_1_0_0_1_n_n.rhsIdx i q 0).val = (q ⟨0, by decide⟩).val :=
  dot_S50000x256_S256x128_S50000x128_1_0_0_1_n_n.rhsIdx_val_of_single rfl i q
theorem rhs128_1 (i : S50000x128.Idx) (q : dot_S50000x256_S256x128_S50000x128_1_0_0_1_n_n.contr.Idx) : (dot_S50000x256_S256x128_S50000x128_1_0_0_1_n_n.rhsIdx i q 1).val = (i 1).val := by
  unfold DotDims.rhsIdx
  rw [dif_neg (show ¬(1 : Fin S256x128.rank) ∈ dot_S50000x256_S256x128_S50000x128_1_0_0_1_n_n.rhsBatch by decide),
    dif_pos (show (1 : Fin S256x128.rank) ∈ dot_S50000x256_S256x128_S50000x128_1_0_0_1_n_n.rhsNonContracting by decide)]
  rfl

/-- The host's product of a [50000, 256] array with a [256, 128] matrix, at entry (p, q): the sum over k of
    l (p, k) · r (k, q). -/
theorem dot128_apply (l : FVec Ideal S50000x256 .f32) (r : FVec Ideal S256x128 .f32) (p : Fin 50000) (q : Fin 128) :
    Host.dotGeneral (F := Ideal) dot_S50000x256_S256x128_S50000x128_1_0_0_1_n_n none l r (ix2 p q) = ∑ k : Fin 256, l (ix2 p k) * r (ix2 k q) :=
  Cert.LibDotGeneral.dotGeneral_ix2 (a := 50000) (K := 256) (b := 128) dot_S50000x256_S256x128_S50000x128_1_0_0_1_n_n none _
    contr128_rank contr128_size lhs128_0 lhs128_1 rhs128_0 rhs128_1 l r (ix2 p q)

end Cert.ReferenceIdeal.RefDot

end
-- ==== Proof.RStages.lean ====
/-
  What the reference's stages compute, stage by stage.

  For an arbitrary assignment `V` of contents to the buffers, the contents a stage of the reference's operations
  leaves in the buffer that matters later is one of the model's functions (Spec) of what `V` holds in the stage's
  inputs: the stage's operations, composed in program order, are that function's definition written out. The
  reference recomputes the degree normalisation inside every layer, so a layer's aggregation stage yields the
  model's aggregation at the edge and node weights of the edge list it reads. A large matrix product is the model's
  product entry by entry: the contraction written as the sum over the shared axis.
-/
import proofs.«163758_j78546361909451_1_alg».proof.Proof.RPieces
import proofs.«163758_j78546361909451_1_alg».proof.Proof.Spec
import proofs.«163758_j78546361909451_1_alg».proof.Proof.RefDot
import Idealize.ShloMosaic.Lib.StableHlo.Run

set_option maxRecDepth 16384

noncomputable section

namespace Cert.ReferenceIdeal.RStages

open Cert.ReferenceIdeal Cert.ReferenceIdeal.Gen Cert.ReferenceIdeal.RefRun Cert.ReferenceIdeal.RPieces Cert.KernelIdeal.Spec
open Idealize.ShloMosaic Idealize.ShloMosaic.TcCoe Idealize.SL.Sem Idealize.ShloMosaic.StableHlo

/-! ## The index-map records are the model's

The records that say which axes a gather, a scatter or a contraction runs over are stated once per program; the
reference's and the model's are the same literals. -/

theorem rec0 : Cert.ReferenceIdeal.scatter_S50000_S800000x1_S800000_n_0_0_1 = Cert.KernelIdeal.scatter_S50000_S800000x1_S800000_n_0_0_1 := rfl
theorem rec1 : Cert.ReferenceIdeal.gather_S50000_S800000x1_S800000_n_0_n_n_0_1_1 = Cert.KernelIdeal.gather_S50000_S800000x1_S800000_n_0_n_n_0_1_1 := rfl
theorem rec2 : Cert.ReferenceIdeal.gather_S50000x256_S800000x1_S800000x256_1_0_n_n_0_1_1256 = Cert.KernelIdeal.gather_S50000x256_S800000x1_S800000x256_1_0_n_n_0_1_1256 := rfl
theorem rec3 : Cert.ReferenceIdeal.scatter_S50000x256_S800000x1_S800000x256_1_0_0_1 = Cert.KernelIdeal.scatter_S50000x256_S800000x1_S800000x256_1_0_0_1 := rfl
theorem rec4 : Cert.ReferenceIdeal.dot_S50000x128_S128x1_S50000x1_1_0_0_1_n_n = Cert.KernelIdeal.dot_S50000x128_S128x1_S50000x1_1_0_0_1_n_n := rfl
theorem rec5 : Cert.ReferenceIdeal.scatter_S64_S50000x1_S50000_n_0_0_1 = Cert.KernelIdeal.scatter_S64_S50000x1_S50000_n_0_0_1 := rfl
theorem rec6 : Cert.ReferenceIdeal.scatter_S64x256_S50000x1_S50000x256_1_0_0_1 = Cert.KernelIdeal.scatter_S64x256_S50000x1_S50000x256_1_0_0_1 := rfl
theorem rec7 : Cert.ReferenceIdeal.dot_S64x256_S256x2_S64x2_1_0_0_1_n_n = Cert.KernelIdeal.dot_S64x256_S256x2_S64x2_1_0_0_1_n_n := rfl

variable (V : Valuation τ sig (Elt Ideal))

local notation "V⟪" b "⟫" => V (Proc.devRef Proc.tc b)

/-! ## Before the first matrix product: the edge list and the input normalisation -/

theorem pre_src : StableHlo.after (seg0 (F := Ideal)) V (Proc.devRef Proc.tc main_v1) = srcIdx V⟪main_arg1⟫ := by
  simp only [seg0]; after_results_simp; unfold srcIdx; rfl

theorem pre_dst : StableHlo.after (seg0 (F := Ideal)) V (Proc.devRef Proc.tc main_v3) = dstIdx V⟪main_arg1⟫ := by
  simp only [seg0]; after_results_simp; unfold dstIdx; rfl

set_option maxHeartbeats 400000 in
theorem pre_x : StableHlo.after (seg0 (F := Ideal)) V (Proc.devRef Proc.tc main_v28) = x0 V⟪main_arg0⟫ V⟪main_arg3⟫ V⟪main_arg4⟫ := by
  simp only [seg0]; after_results_simp; unfold x0 bn colMean rows; with_reducible rfl

/-! ## The four large matrix products -/

set_option maxHeartbeats 400000 in
theorem dot0_val : StableHlo.after (dot0 (F := Ideal)) V (Proc.devRef Proc.tc main_v29) = mm V⟪main_v28⟫ V⟪main_arg5⟫ := by
  simp only [dot0]
  after_results_simp
  funext j
  exact (congrArg (Host.dotGeneral (F := Ideal) dot_S50000x256_S256x256_S50000x256_1_0_0_1_n_n none V⟪main_v28⟫ V⟪main_arg5⟫) (ValueIdx.eq_ix2 j)).trans
    (RefDot.dot256_apply _ _ (j 0) (j 1))

set_option maxHeartbeats 400000 in
theorem dot1_val : StableHlo.after (dot1 (F := Ideal)) V (Proc.devRef Proc.tc main_v99) = mm V⟪main_v98⟫ V⟪main_arg9⟫ := by
  simp only [dot1]
  after_results_simp
  funext j
  exact (congrArg (Host.dotGeneral (F := Ideal) dot_S50000x256_S256x256_S50000x256_1_0_0_1_n_n none V⟪main_v98⟫ V⟪main_arg9⟫) (ValueIdx.eq_ix2 j)).trans
    (RefDot.dot256_apply _ _ (j 0) (j 1))

set_option maxHeartbeats 400000 in
theorem dot2_val : StableHlo.after (dot2 (F := Ideal)) V (Proc.devRef Proc.tc main_v170) = mm V⟪main_v169⟫ V⟪main_arg13⟫ := by
  simp only [dot2]
  after_results_simp
  funext j
  exact (congrArg (Host.dotGeneral (F := Ideal) dot_S50000x256_S256x256_S50000x256_1_0_0_1_n_n none V⟪main_v169⟫ V⟪main_arg13⟫) (ValueIdx.eq_ix2 j)).trans
    (RefDot.dot256_apply _ _ (j 0) (j 1))

set_option maxHeartbeats 400000 in
theorem dot3_val : StableHlo.after (dot3 (F := Ideal)) V (Proc.devRef Proc.tc main_v241) = mm1 V⟪main_v240⟫ V⟪main_arg17⟫ := by
  simp only [dot3]
  after_results_simp
  funext j
  exact (congrArg (Host.dotGeneral (F := Ideal) dot_S50000x256_S256x128_S50000x128_1_0_0_1_n_n none V⟪main_v240⟫ V⟪main_arg17⟫) (ValueIdx.eq_ix2 j)).trans
    (RefDot.dot128_apply _ _ (j 0) (j 1))

/-! ## The three layers, each after its matrix product -/

set_option maxHeartbeats 400000 in
/-- The aggregation of layer 1, with the edge and node weights recomputed from the edge list. -/
theorem agg1_val : StableHlo.after (agg1b (F := Ideal)) (StableHlo.after (seg1 (F := Ideal)) V) (Proc.devRef Proc.tc main_v72)
    = gcnPost V⟪main_v29⟫ V⟪main_v1⟫ V⟪main_v3⟫ (edgeScale V⟪main_v1⟫ V⟪main_v3⟫) (selfScale V⟪main_v3⟫) V⟪main_arg6⟫ := by
  simp only [seg1, agg1b]
  after_results_simp
  simp only [rec0, rec1, rec2, rec3, rec4, rec5, rec6, rec7]
  unfold gcnPost edgeScale selfScale dinv wrap rows
  with_reducible rfl

/-- The positive part of layer 1. -/
theorem relu1_val : StableHlo.after (relu1 (F := Ideal)) V (Proc.devRef Proc.tc main_v73) = relu V⟪main_v72⟫ := by
  simp only [relu1]
  after_results_simp
  unfold relu
  rfl

set_option maxHeartbeats 400000 in
/-- The normalisation of layer 1. -/
theorem norm1_val : StableHlo.after (norm1 (F := Ideal)) V (Proc.devRef Proc.tc main_v98) = bn V⟪main_v73⟫ V⟪main_arg7⟫ V⟪main_arg8⟫ := by
  simp only [norm1]
  after_results_simp
  unfold bn colMean rows
  with_reducible rfl

set_option maxHeartbeats 400000 in
/-- The aggregation of layer 2. -/
theorem agg2_val : StableHlo.after (agg2 (F := Ideal)) V (Proc.devRef Proc.tc main_v142)
    = gcnPost V⟪main_v99⟫ V⟪main_v1⟫ V⟪main_v3⟫ (edgeScale V⟪main_v1⟫ V⟪main_v3⟫) (selfScale V⟪main_v3⟫) V⟪main_arg10⟫ := by
  simp only [agg2]
  after_results_simp
  simp only [rec0, rec1, rec2, rec3, rec4, rec5, rec6, rec7]
  unfold gcnPost edgeScale selfScale dinv wrap rows
  with_reducible rfl

/-- The positive part of layer 2. -/
theorem relu2_val : StableHlo.after (relu2 (F := Ideal)) V (Proc.devRef Proc.tc main_v143) = relu V⟪main_v142⟫ := by
  simp only [relu2]
  after_results_simp
  unfold relu
  rfl

set_option maxHeartbeats 400000 in
/-- The normalisation of layer 2 and its skip connection. -/
theorem norm2_val : StableHlo.after (seg4 (F := Ideal)) (StableHlo.after (norm2a (F := Ideal)) V) (Proc.devRef Proc.tc main_v169)
    = addf (bn V⟪main_v143⟫ V⟪main_arg11⟫ V⟪main_arg12⟫) V⟪main_v98⟫ := by
  simp only [norm2a, seg4]
  after_results_simp
  unfold bn colMean rows
  with_reducible rfl

set_option maxHeartbeats 400000 in
/-- The aggregation of layer 3. -/
theorem agg3_val : StableHlo.after (agg3b (F := Ideal)) (StableHlo.after (seg5 (F := Ideal)) V) (Proc.devRef Proc.tc main_v213)
    = gcnPost V⟪main_v170⟫ V⟪main_v1⟫ V⟪main_v3⟫ (edgeScale V⟪main_v1⟫ V⟪main_v3⟫) (selfScale V⟪main_v3⟫) V⟪main_arg14⟫ := by
  simp only [seg5, agg3b]
  after_results_simp
  simp only [rec0, rec1, rec2, rec3, rec4, rec5, rec6, rec7]
  unfold gcnPost edgeScale selfScale dinv wrap rows
  with_reducible rfl

/-- The positive part of layer 3. -/
theorem relu3_val : StableHlo.after (relu3 (F := Ideal)) V (Proc.devRef Proc.tc main_v214) = relu V⟪main_v213⟫ := by
  simp only [relu3]
  after_results_simp
  unfold relu
  rfl

set_option maxHeartbeats 400000 in
/-- The normalisation of layer 3 and its skip connection. -/
theorem norm3_val : StableHlo.after (norm3 (F := Ideal)) V (Proc.devRef Proc.tc main_v240)
    = addf (bn V⟪main_v214⟫ V⟪main_arg15⟫ V⟪main_arg16⟫) V⟪main_v169⟫ := by
  simp only [norm3]
  after_results_simp
  unfold bn colMean rows
  with_reducible rfl

/-! ## After the last matrix product: the attention head, the pooling, the read-out -/

set_option maxHeartbeats 400000 in
/-- The first projection plus its bias, through the leaky activation. -/
theorem act_val : StableHlo.after (act (F := Ideal)) V (Proc.devRef Proc.tc main_v245) = leaky (addf V⟪main_v241⟫ (rows128 V⟪main_arg18⟫)) := by
  simp only [act]
  after_results_simp
  unfold leaky rows128
  rfl

set_option maxHeartbeats 400000 in
/-- Scores, softmax over the nodes, pooling per graph, read-out. -/
theorem out_val : StableHlo.after (seg8 (F := Ideal)) (StableHlo.after (score0 (F := Ideal)) V) (Proc.devRef Proc.tc main_v278)
    = readout (pooled V⟪main_v240⟫ (softmax0 (scores V⟪main_v245⟫ V⟪main_arg19⟫ V⟪main_arg20⟫)) V⟪main_arg2⟫) V⟪main_arg21⟫ V⟪main_arg22⟫ := by
  simp only [score0, seg8]
  after_results_simp
  simp only [rec0, rec1, rec2, rec3, rec4, rec5, rec6, rec7]
  unfold readout pooled counts softmax0 expShift smax scores col1
  with_reducible rfl

end Cert.ReferenceIdeal.RStages

end
-- ==== Proof.RValue.lean ====
/-
  The reference's value is the model's.

  The stages' values (RStages) chained through the whole line of operations: a stage reads what earlier stages
  left, and what it does not write it leaves alone, so a layer — product, aggregation, positive part, normalisation —
  is the model's layer of what the buffers held before it, and the line's last buffer is the model of the arguments.
-/
import proofs.«163758_j78546361909451_1_alg».proof.Proof.RStages

set_option maxRecDepth 16384

noncomputable section

namespace Cert.ReferenceIdeal.RValue

open Cert.ReferenceIdeal Cert.ReferenceIdeal.Gen Cert.ReferenceIdeal.RefRun Cert.ReferenceIdeal.RPieces Cert.ReferenceIdeal.RStages Cert.KernelIdeal.Spec
open Idealize.ShloMosaic Idealize.ShloMosaic.TcCoe Idealize.SL.Sem Idealize.ShloMosaic.StableHlo

/-! ## What a stage leaves alone, for rewriting

The same facts as `‹stage›_kept`, with the buffer left unindexed so that a rewriting pass finds them at any buffer. -/

theorem keep_seg0 (W : Valuation τ sig (Elt Ideal)) {r : Ref sig .tc} (hr : r ∉ seg0_writes) :
    StableHlo.after (seg0 (F := Ideal)) W (no_index (Proc.devRef Proc.tc r)) = W (Proc.devRef Proc.tc r) := seg0_kept W hr
theorem keep_dot0 (W : Valuation τ sig (Elt Ideal)) {r : Ref sig .tc} (hr : r ∉ dot0_writes) :
    StableHlo.after (dot0 (F := Ideal)) W (no_index (Proc.devRef Proc.tc r)) = W (Proc.devRef Proc.tc r) := dot0_kept W hr
theorem keep_seg1 (W : Valuation τ sig (Elt Ideal)) {r : Ref sig .tc} (hr : r ∉ seg1_writes) :
    StableHlo.after (seg1 (F := Ideal)) W (no_index (Proc.devRef Proc.tc r)) = W (Proc.devRef Proc.tc r) := seg1_kept W hr
theorem keep_seg2 (W : Valuation τ sig (Elt Ideal)) {r : Ref sig .tc} (hr : r ∉ seg2_writes) :
    StableHlo.after (seg2 (F := Ideal)) W (no_index (Proc.devRef Proc.tc r)) = W (Proc.devRef Proc.tc r) := seg2_kept W hr
theorem keep_dot1 (W : Valuation τ sig (Elt Ideal)) {r : Ref sig .tc} (hr : r ∉ dot1_writes) :
    StableHlo.after (dot1 (F := Ideal)) W (no_index (Proc.devRef Proc.tc r)) = W (Proc.devRef Proc.tc r) := dot1_kept W hr
theorem keep_seg3 (W : Valuation τ sig (Elt Ideal)) {r : Ref sig .tc} (hr : r ∉ seg3_writes) :
    StableHlo.after (seg3 (F := Ideal)) W (no_index (Proc.devRef Proc.tc r)) = W (Proc.devRef Proc.tc r) := seg3_kept W hr
theorem keep_seg4 (W : Valuation τ sig (Elt Ideal)) {r : Ref sig .tc} (hr : r ∉ seg4_writes) :
    StableHlo.after (seg4 (F := Ideal)) W (no_index (Proc.devRef Proc.tc r)) = W (Proc.devRef Proc.tc r) := seg4_kept W hr
theorem keep_dot2 (W : Valuation τ sig (Elt Ideal)) {r : Ref sig .tc} (hr : r ∉ dot2_writes) :
    StableHlo.after (dot2 (F := Ideal)) W (no_index (Proc.devRef Proc.tc r)) = W (Proc.devRef Proc.tc r) := dot2_kept W hr
theorem keep_seg5 (W : Valuation τ sig (Elt Ideal)) {r : Ref sig .tc} (hr : r ∉ seg5_writes) :
    StableHlo.after (seg5 (F := Ideal)) W (no_index (Proc.devRef Proc.tc r)) = W (Proc.devRef Proc.tc r) := seg5_kept W hr
theorem keep_seg6 (W : Valuation τ sig (Elt Ideal)) {r : Ref sig .tc} (hr : r ∉ seg6_writes) :
    StableHlo.after (seg6 (F := Ideal)) W (no_index (Proc.devRef Proc.tc r)) = W (Proc.devRef Proc.tc r) := seg6_kept W hr
theorem keep_dot3 (W : Valuation τ sig (Elt Ideal)) {r : Ref sig .tc} (hr : r ∉ dot3_writes) :
    StableHlo.after (dot3 (F := Ideal)) W (no_index (Proc.devRef Proc.tc r)) = W (Proc.devRef Proc.tc r) := dot3_kept W hr
theorem keep_seg7 (W : Valuation τ sig (Elt Ideal)) {r : Ref sig .tc} (hr : r ∉ seg7_writes) :
    StableHlo.after (seg7 (F := Ideal)) W (no_index (Proc.devRef Proc.tc r)) = W (Proc.devRef Proc.tc r) := seg7_kept W hr
theorem keep_seg8 (W : Valuation τ sig (Elt Ideal)) {r : Ref sig .tc} (hr : r ∉ seg8_writes) :
    StableHlo.after (seg8 (F := Ideal)) W (no_index (Proc.devRef Proc.tc r)) = W (Proc.devRef Proc.tc r) := seg8_kept W hr
theorem keep_agg1b (W : Valuation τ sig (Elt Ideal)) {r : Ref sig .tc} (hr : r ∉ agg1b_writes) :
    StableHlo.after (agg1b (F := Ideal)) W (no_index (Proc.devRef Proc.tc r)) = W (Proc.devRef Proc.tc r) := agg1b_kept W hr
theorem keep_relu1 (W : Valuation τ sig (Elt Ideal)) {r : Ref sig .tc} (hr : r ∉ relu1_writes) :
    StableHlo.after (relu1 (F := Ideal)) W (no_index (Proc.devRef Proc.tc r)) = W (Proc.devRef Proc.tc r) := relu1_kept W hr
theorem keep_norm1 (W : Valuation τ sig (Elt Ideal)) {r : Ref sig .tc} (hr : r ∉ norm1_writes) :
    StableHlo.after (norm1 (F := Ideal)) W (no_index (Proc.devRef Proc.tc r)) = W (Proc.devRef Proc.tc r) := norm1_kept W hr
theorem keep_agg2 (W : Valuation τ sig (Elt Ideal)) {r : Ref sig .tc} (hr : r ∉ agg2_writes) :
    StableHlo.after (agg2 (F := Ideal)) W (no_index (Proc.devRef Proc.tc r)) = W (Proc.devRef Proc.tc r) := agg2_kept W hr
theorem keep_relu2 (W : Valuation τ sig (Elt Ideal)) {r : Ref sig .tc} (hr : r ∉ relu2_writes) :
    StableHlo.after (relu2 (F := Ideal)) W (no_index (Proc.devRef Proc.tc r)) = W (Proc.devRef Proc.tc r) := relu2_kept W hr
theorem keep_norm2a (W : Valuation τ sig (Elt Ideal)) {r : Ref sig .tc} (hr : r ∉ norm2a_writes) :
    StableHlo.after (norm2a (F := Ideal)) W (no_index (Proc.devRef Proc.tc r)) = W (Proc.devRef Proc.tc r) := norm2a_kept W hr
theorem keep_agg3b (W : Valuation τ sig (Elt Ideal)) {r : Ref sig .tc} (hr : r ∉ agg3b_writes) :
    StableHlo.after (agg3b (F := Ideal)) W (no_index (Proc.devRef Proc.tc r)) = W (Proc.devRef Proc.tc r) := agg3b_kept W hr
theorem keep_relu3 (W : Valuation τ sig (Elt Ideal)) {r : Ref sig .tc} (hr : r ∉ relu3_writes) :
    StableHlo.after (relu3 (F := Ideal)) W (no_index (Proc.devRef Proc.tc r)) = W (Proc.devRef Proc.tc r) := relu3_kept W hr
theorem keep_norm3 (W : Valuation τ sig (Elt Ideal)) {r : Ref sig .tc} (hr : r ∉ norm3_writes) :
    StableHlo.after (norm3 (F := Ideal)) W (no_index (Proc.devRef Proc.tc r)) = W (Proc.devRef Proc.tc r) := norm3_kept W hr
theorem keep_act (W : Valuation τ sig (Elt Ideal)) {r : Ref sig .tc} (hr : r ∉ act_writes) :
    StableHlo.after (act (F := Ideal)) W (no_index (Proc.devRef Proc.tc r)) = W (Proc.devRef Proc.tc r) := act_kept W hr
theorem keep_score0 (W : Valuation τ sig (Elt Ideal)) {r : Ref sig .tc} (hr : r ∉ score0_writes) :
    StableHlo.after (score0 (F := Ideal)) W (no_index (Proc.devRef Proc.tc r)) = W (Proc.devRef Proc.tc r) := score0_kept W hr

/-! ## The stages' values, for rewriting (the buffer left unindexed likewise) -/

theorem s_pre_src (W : Valuation τ sig (Elt Ideal)) :
    StableHlo.after (seg0 (F := Ideal)) W (no_index (Proc.devRef Proc.tc main_v1))
      = srcIdx (W (Proc.devRef Proc.tc main_arg1)) := pre_src W
theorem s_pre_dst (W : Valuation τ sig (Elt Ideal)) :
    StableHlo.after (seg0 (F := Ideal)) W (no_index (Proc.devRef Proc.tc main_v3))
      = dstIdx (W (Proc.devRef Proc.tc main_arg1)) := pre_dst W
theorem s_pre_x (W : Valuation τ sig (Elt Ideal)) :
    StableHlo.after (seg0 (F := Ideal)) W (no_index (Proc.devRef Proc.tc main_v28))
      = x0 (W (Proc.devRef Proc.tc main_arg0)) (W (Proc.devRef Proc.tc main_arg3)) (W (Proc.devRef Proc.tc main_arg4)) := pre_x W
theorem s_dot0_val (W : Valuation τ sig (Elt Ideal)) :
    StableHlo.after (dot0 (F := Ideal)) W (no_index (Proc.devRef Proc.tc main_v29))
      = mm (W (Proc.devRef Proc.tc main_v28)) (W (Proc.devRef Proc.tc main_arg5)) := dot0_val W
theorem s_dot1_val (W : Valuation τ sig (Elt Ideal)) :
    StableHlo.after (dot1 (F := Ideal)) W (no_index (Proc.devRef Proc.tc main_v99))
      = mm (W (Proc.devRef Proc.tc main_v98)) (W (Proc.devRef Proc.tc main_arg9)) := dot1_val W
theorem s_dot2_val (W : Valuation τ sig (Elt Ideal)) :
    StableHlo.after (dot2 (F := Ideal)) W (no_index (Proc.devRef Proc.tc main_v170))
      = mm (W (Proc.devRef Proc.tc main_v169)) (W (Proc.devRef Proc.tc main_arg13)) := dot2_val W
theorem s_dot3_val (W : Valuation τ sig (Elt Ideal)) :
    StableHlo.after (dot3 (F := Ideal)) W (no_index (Proc.devRef Proc.tc main_v241))
      = mm1 (W (Proc.devRef Proc.tc main_v240)) (W (Proc.devRef Proc.tc main_arg17)) := dot3_val W
theorem s_agg1_val (W : Valuation τ sig (Elt Ideal)) :
    StableHlo.after (agg1b (F := Ideal)) (StableHlo.after (seg1 (F := Ideal)) W) (no_index (Proc.devRef Proc.tc main_v72))
      = gcnPost (W (Proc.devRef Proc.tc main_v29)) (W (Proc.devRef Proc.tc main_v1)) (W (Proc.devRef Proc.tc main_v3)) (edgeScale (W (Proc.devRef Proc.tc main_v1)) (W (Proc.devRef Proc.tc main_v3))) (selfScale (W (Proc.devRef Proc.tc main_v3))) (W (Proc.devRef Proc.tc main_arg6)) := agg1_val W
theorem s_relu1_val (W : Valuation τ sig (Elt Ideal)) :
    StableHlo.after (relu1 (F := Ideal)) W (no_index (Proc.devRef Proc.tc main_v73))
      = relu (W (Proc.devRef Proc.tc main_v72)) := relu1_val W
theorem s_norm1_val (W : Valuation τ sig (Elt Ideal)) :
    StableHlo.after (norm1 (F := Ideal)) W (no_index (Proc.devRef Proc.tc main_v98))
      = bn (W (Proc.devRef Proc.tc main_v73)) (W (Proc.devRef Proc.tc main_arg7)) (W (Proc.devRef Proc.tc main_arg8)) := norm1_val W
theorem s_agg2_val (W : Valuation τ sig (Elt Ideal)) :
    StableHlo.after (agg2 (F := Ideal)) W (no_index (Proc.devRef Proc.tc main_v142))
      = gcnPost (W (Proc.devRef Proc.tc main_v99)) (W (Proc.devRef Proc.tc main_v1)) (W (Proc.devRef Proc.tc main_v3)) (edgeScale (W (Proc.devRef Proc.tc main_v1)) (W (Proc.devRef Proc.tc main_v3))) (selfScale (W (Proc.devRef Proc.tc main_v3))) (W (Proc.devRef Proc.tc main_arg10)) := agg2_val W
theorem s_relu2_val (W : Valuation τ sig (Elt Ideal)) :
    StableHlo.after (relu2 (F := Ideal)) W (no_index (Proc.devRef Proc.tc main_v143))
      = relu (W (Proc.devRef Proc.tc main_v142)) := relu2_val W
theorem s_norm2_val (W : Valuation τ sig (Elt Ideal)) :
    StableHlo.after (seg4 (F := Ideal)) (StableHlo.after (norm2a (F := Ideal)) W) (no_index (Proc.devRef Proc.tc main_v169))
      = addf (bn (W (Proc.devRef Proc.tc main_v143)) (W (Proc.devRef Proc.tc main_arg11)) (W (Proc.devRef Proc.tc main_arg12))) (W (Proc.devRef Proc.tc main_v98)) := norm2_val W
theorem s_agg3_val (W : Valuation τ sig (Elt Ideal)) :
    StableHlo.after (agg3b (F := Ideal)) (StableHlo.after (seg5 (F := Ideal)) W) (no_index (Proc.devRef Proc.tc main_v213))
      = gcnPost (W (Proc.devRef Proc.tc main_v170)) (W (Proc.devRef Proc.tc main_v1)) (W (Proc.devRef Proc.tc main_v3)) (edgeScale (W (Proc.devRef Proc.tc main_v1)) (W (Proc.devRef Proc.tc main_v3))) (selfScale (W (Proc.devRef Proc.tc main_v3))) (W (Proc.devRef Proc.tc main_arg14)) := agg3_val W
theorem s_relu3_val (W : Valuation τ sig (Elt Ideal)) :
    StableHlo.after (relu3 (F := Ideal)) W (no_index (Proc.devRef Proc.tc main_v214))
      = relu (W (Proc.devRef Proc.tc main_v213)) := relu3_val W
theorem s_norm3_val (W : Valuation τ sig (Elt Ideal)) :
    StableHlo.after (norm3 (F := Ideal)) W (no_index (Proc.devRef Proc.tc main_v240))
      = addf (bn (W (Proc.devRef Proc.tc main_v214)) (W (Proc.devRef Proc.tc main_arg15)) (W (Proc.devRef Proc.tc main_arg16))) (W (Proc.devRef Proc.tc main_v169)) := norm3_val W
theorem s_act_val (W : Valuation τ sig (Elt Ideal)) :
    StableHlo.after (act (F := Ideal)) W (no_index (Proc.devRef Proc.tc main_v245))
      = leaky (addf (W (Proc.devRef Proc.tc main_v241)) (rows128 (W (Proc.devRef Proc.tc main_arg18)))) := act_val W
theorem s_out_val (W : Valuation τ sig (Elt Ideal)) :
    StableHlo.after (seg8 (F := Ideal)) (StableHlo.after (score0 (F := Ideal)) W) (no_index (Proc.devRef Proc.tc main_v278))
      = readout (pooled (W (Proc.devRef Proc.tc main_v240)) (softmax0 (scores (W (Proc.devRef Proc.tc main_v245)) (W (Proc.devRef Proc.tc main_arg19)) (W (Proc.devRef Proc.tc main_arg20)))) (W (Proc.devRef Proc.tc main_arg2))) (W (Proc.devRef Proc.tc main_arg21)) (W (Proc.devRef Proc.tc main_arg22)) := out_val W

variable (V : Valuation τ sig (Elt Ideal))

local notation "V⟪" b "⟫" => V (Proc.devRef Proc.tc b)

/-! ## The layers -/

set_option maxHeartbeats 400000 in
/-- After the first layer: the model's first layer of the arguments. -/
theorem layer1_val :
    StableHlo.after (seg2 (F := Ideal)) (StableHlo.after (seg1 (F := Ideal)) (StableHlo.after (dot0 (F := Ideal)) (StableHlo.after (seg0 (F := Ideal)) V))) (Proc.devRef Proc.tc main_v98)
      = x1 V⟪main_arg0⟫ V⟪main_arg1⟫ V⟪main_arg3⟫ V⟪main_arg4⟫ V⟪main_arg5⟫ V⟪main_arg6⟫ V⟪main_arg7⟫ V⟪main_arg8⟫ := by
  rw [seg2_eq]
  simp only [StableHlo.after_append]
  simp (disch := decide) only [s_norm1_val, s_relu1_val, s_agg1_val, s_dot0_val, s_pre_x, s_pre_src, s_pre_dst,
    keep_relu1, keep_agg1b, keep_seg1, keep_dot0, keep_seg0]
  rfl

set_option maxHeartbeats 400000 in
/-- A second layer with its skip connection, of what the buffers held before it. -/
theorem layer2_val (W : Valuation τ sig (Elt Ideal)) :
    StableHlo.after (seg4 (F := Ideal)) (StableHlo.after (seg3 (F := Ideal)) (StableHlo.after (dot1 (F := Ideal)) W)) (Proc.devRef Proc.tc main_v169)
      = addf (layer (mm (W (Proc.devRef Proc.tc main_v98)) (W (Proc.devRef Proc.tc main_arg9)))
          (W (Proc.devRef Proc.tc main_v1)) (W (Proc.devRef Proc.tc main_v3))
          (edgeScale (W (Proc.devRef Proc.tc main_v1)) (W (Proc.devRef Proc.tc main_v3))) (selfScale (W (Proc.devRef Proc.tc main_v3)))
          (W (Proc.devRef Proc.tc main_arg10)) (W (Proc.devRef Proc.tc main_arg11)) (W (Proc.devRef Proc.tc main_arg12)))
        (W (Proc.devRef Proc.tc main_v98)) := by
  rw [seg3_eq]
  simp only [StableHlo.after_append]
  simp (disch := decide) only [s_norm2_val, s_relu2_val, s_agg2_val, s_dot1_val, keep_relu2, keep_agg2, keep_dot1]
  rfl

set_option maxHeartbeats 400000 in
/-- The third layer with its skip connection, of what the buffers held before it. -/
theorem layer3_val (W : Valuation τ sig (Elt Ideal)) :
    StableHlo.after (seg6 (F := Ideal)) (StableHlo.after (seg5 (F := Ideal)) (StableHlo.after (dot2 (F := Ideal)) W)) (Proc.devRef Proc.tc main_v240)
      = addf (layer (mm (W (Proc.devRef Proc.tc main_v169)) (W (Proc.devRef Proc.tc main_arg13)))
          (W (Proc.devRef Proc.tc main_v1)) (W (Proc.devRef Proc.tc main_v3))
          (edgeScale (W (Proc.devRef Proc.tc main_v1)) (W (Proc.devRef Proc.tc main_v3))) (selfScale (W (Proc.devRef Proc.tc main_v3)))
          (W (Proc.devRef Proc.tc main_arg14)) (W (Proc.devRef Proc.tc main_arg15)) (W (Proc.devRef Proc.tc main_arg16)))
        (W (Proc.devRef Proc.tc main_v169)) := by
  rw [seg6_eq]
  simp only [StableHlo.after_append]
  simp (disch := decide) only [s_norm3_val, s_relu3_val, s_agg3_val, s_dot2_val, keep_relu3, keep_agg3b, keep_seg5, keep_dot2]
  rfl

set_option maxHeartbeats 400000 in
/-- The attention head, the pooling and the read-out, of what the buffers held before the last product. -/
theorem head_val (W : Valuation τ sig (Elt Ideal)) :
    StableHlo.after (seg8 (F := Ideal)) (StableHlo.after (seg7 (F := Ideal)) (StableHlo.after (dot3 (F := Ideal)) W)) (Proc.devRef Proc.tc main_v278)
      = head (W (Proc.devRef Proc.tc main_v240)) (mm1 (W (Proc.devRef Proc.tc main_v240)) (W (Proc.devRef Proc.tc main_arg17)))
          (W (Proc.devRef Proc.tc main_arg18)) (W (Proc.devRef Proc.tc main_arg19)) (W (Proc.devRef Proc.tc main_arg20))
          (W (Proc.devRef Proc.tc main_arg2)) (W (Proc.devRef Proc.tc main_arg21)) (W (Proc.devRef Proc.tc main_arg22)) := by
  rw [seg7_eq]
  simp only [StableHlo.after_append]
  simp (disch := decide) only [s_out_val, s_act_val, s_dot3_val, keep_act, keep_dot3]
  rfl

/-! ## The layers' values, for rewriting -/

theorem s_layer1_val :
    StableHlo.after (seg2 (F := Ideal)) (StableHlo.after (seg1 (F := Ideal)) (StableHlo.after (dot0 (F := Ideal)) (StableHlo.after (seg0 (F := Ideal)) V))) (no_index (Proc.devRef Proc.tc main_v98))
      = x1 V⟪main_arg0⟫ V⟪main_arg1⟫ V⟪main_arg3⟫ V⟪main_arg4⟫ V⟪main_arg5⟫ V⟪main_arg6⟫ V⟪main_arg7⟫ V⟪main_arg8⟫ := layer1_val V

theorem s_layer2_val (W : Valuation τ sig (Elt Ideal)) :
    StableHlo.after (seg4 (F := Ideal)) (StableHlo.after (seg3 (F := Ideal)) (StableHlo.after (dot1 (F := Ideal)) W)) (no_index (Proc.devRef Proc.tc main_v169))
      = addf (layer (mm (W (Proc.devRef Proc.tc main_v98)) (W (Proc.devRef Proc.tc main_arg9)))
          (W (Proc.devRef Proc.tc main_v1)) (W (Proc.devRef Proc.tc main_v3))
          (edgeScale (W (Proc.devRef Proc.tc main_v1)) (W (Proc.devRef Proc.tc main_v3))) (selfScale (W (Proc.devRef Proc.tc main_v3)))
          (W (Proc.devRef Proc.tc main_arg10)) (W (Proc.devRef Proc.tc main_arg11)) (W (Proc.devRef Proc.tc main_arg12)))
        (W (Proc.devRef Proc.tc main_v98)) := layer2_val W

theorem s_layer3_val (W : Valuation τ sig (Elt Ideal)) :
    StableHlo.after (seg6 (F := Ideal)) (StableHlo.after (seg5 (F := Ideal)) (StableHlo.after (dot2 (F := Ideal)) W)) (no_index (Proc.devRef Proc.tc main_v240))
      = addf (layer (mm (W (Proc.devRef Proc.tc main_v169)) (W (Proc.devRef Proc.tc main_arg13)))
          (W (Proc.devRef Proc.tc main_v1)) (W (Proc.devRef Proc.tc main_v3))
          (edgeScale (W (Proc.devRef Proc.tc main_v1)) (W (Proc.devRef Proc.tc main_v3))) (selfScale (W (Proc.devRef Proc.tc main_v3)))
          (W (Proc.devRef Proc.tc main_arg14)) (W (Proc.devRef Proc.tc main_arg15)) (W (Proc.devRef Proc.tc main_arg16)))
        (W (Proc.devRef Proc.tc main_v169)) := layer3_val W

theorem s_head_val (W : Valuation τ sig (Elt Ideal)) :
    StableHlo.after (seg8 (F := Ideal)) (StableHlo.after (seg7 (F := Ideal)) (StableHlo.after (dot3 (F := Ideal)) W)) (no_index (Proc.devRef Proc.tc main_v278))
      = head (W (Proc.devRef Proc.tc main_v240)) (mm1 (W (Proc.devRef Proc.tc main_v240)) (W (Proc.devRef Proc.tc main_arg17)))
          (W (Proc.devRef Proc.tc main_arg18)) (W (Proc.devRef Proc.tc main_arg19)) (W (Proc.devRef Proc.tc main_arg20))
          (W (Proc.devRef Proc.tc main_arg2)) (W (Proc.devRef Proc.tc main_arg21)) (W (Proc.devRef Proc.tc main_arg22)) := head_val W

/-! ## The whole line -/

set_option maxHeartbeats 400000 in
/-- The reference's result buffer after all its operations is the model of the arguments' contents. -/
theorem ref_value :
    StableHlo.after (RefRun.ops (F := Ideal)) V (Proc.devRef Proc.tc main_v278)
      = model V⟪main_arg0⟫ V⟪main_arg1⟫ V⟪main_arg2⟫ V⟪main_arg3⟫ V⟪main_arg4⟫ V⟪main_arg5⟫ V⟪main_arg6⟫ V⟪main_arg7⟫ V⟪main_arg8⟫ V⟪main_arg9⟫ V⟪main_arg10⟫ V⟪main_arg11⟫ V⟪main_arg12⟫ V⟪main_arg13⟫ V⟪main_arg14⟫ V⟪main_arg15⟫ V⟪main_arg16⟫ V⟪main_arg17⟫ V⟪main_arg18⟫ V⟪main_arg19⟫ V⟪main_arg20⟫ V⟪main_arg21⟫ V⟪main_arg22⟫ := by
  simp only [RefRun.ops, StableHlo.after_append]
  simp (disch := decide) only [s_head_val, s_layer3_val, s_layer2_val, s_layer1_val, s_pre_src, s_pre_dst,
    keep_seg8, keep_seg7, keep_dot3, keep_seg6, keep_seg5, keep_dot2, keep_seg4, keep_seg3, keep_dot1,
    keep_seg2, keep_seg1, keep_dot0, keep_seg0]
  unfold model next
  rfl

end Cert.ReferenceIdeal.RValue

end
-- ==== Proof.lean ====
/-
  The certificate of a graph network whose four large matrix products run as tiled matmul kernels.

  The model: 50000 nodes with 256 features, 800000 directed edges, 64 graphs.  The features are normalised per
  column over all nodes; three graph-convolution layers follow — features times a 256 × 256 weight matrix, then at
  every node the rows of its incoming edges' sources, each scaled by 1/sqrt(deg src) · 1/sqrt(deg dst), summed
  together with the node's own row scaled by 1/deg and a bias, then the positive part and another column
  normalisation, the last two layers with a skip connection —; then an attention head: a 256 × 128 projection, a
  leaky activation, a score per node, a softmax over all nodes, the weighted features averaged per graph, and a
  256 × 2 read-out.

  The kernel program carries out the four large products in a matmul kernel over five row blocks of 10000 nodes
  (the operands cut to a shorter float format first, which changes nothing at the ideal reading) and computes the
  degree normalisation once; the reference program uses whole-array products and recomputes the degree
  normalisation in every layer.  At the ideal reading — entries are extended reals, every operation exact — both
  results are ONE function of the 23 argument arrays (Spec.lean's `model`):

    * a block of a product is the product of the block: entry (p, q) of every matmul region's output array and of
      the host's product is the sum over k of x (p, k) · W (k, q), the five row blocks tiling the 50000 rows;
    * every stretch of host operations between the regions is, composed in program order, one of the model's
      functions of the stretch's inputs; no operation writes a buffer a later stretch still reads, nor an argument;
    * the degree normalisation computed once or three times is the same function of the edge list.

  No law of the extended reals beyond these identities of functions is used, so the finiteness of the inputs is
  never opened.  The kernel is its own idealization (the ideal pass rewrote nothing), so the preservation claim is
  trivial.
-/
import proofs.«163758_j78546361909451_1_alg».proof.Defs
import proofs.«163758_j78546361909451_1_alg».proof.Proof.Gen.Kernel
import proofs.«163758_j78546361909451_1_alg».proof.Proof.Gen.Kernel.Frame
import proofs.«163758_j78546361909451_1_alg».proof.Proof.Gen.KernelIdeal
import proofs.«163758_j78546361909451_1_alg».proof.Proof.Gen.KernelIdeal.Frame
import proofs.«163758_j78546361909451_1_alg».proof.Proof.Gen.ReferenceIdeal
import proofs.«163758_j78546361909451_1_alg».proof.Proof.Gen.Pre_finite_inputs
import proofs.«163758_j78546361909451_1_alg».proof.Proof.Assemble
import proofs.«163758_j78546361909451_1_alg».proof.Proof.KValue
import proofs.«163758_j78546361909451_1_alg».proof.Proof.RValue

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The ideal pass rewrote nothing. -/
theorem preserves : Cert.preserves_Kernel_KernelIdeal := trivial

/-- Both idealized programs end with the model's function of the arguments. -/
theorem algebraic : Cert.algebraic_KernelIdeal_ReferenceIdeal :=
  Assemble.algebraic_of Cert.KernelIdeal.KValue.kernel_value Cert.ReferenceIdeal.RValue.ref_value

theorem claim : Cert.Claim :=
  ⟨Cert.Kernel.Gen.facts, Cert.KernelIdeal.Gen.facts, Cert.ReferenceIdeal.Gen.facts, Cert.Pre_finite_inputs.Gen.facts,
    frame_kernel, frame_kernelIdeal, Assemble.frame_reference, preserves, algebraic⟩

end Cert.Proof

end
